-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v301)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v301) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x16 : Shape := ⟨2, ![20000, 16]⟩
abbrev S2x320000 : Shape := ⟨2, ![2, 320000]⟩
abbrev S320000x5 : Shape := ⟨2, ![320000, 5]⟩
abbrev S17x64 : Shape := ⟨2, ![17, 64]⟩
abbrev S64 : Shape := ⟨1, ![64]⟩
abbrev S64x64 : Shape := ⟨2, ![64, 64]⟩
abbrev S2x133x64 : Shape := ⟨3, ![2, 133, 64]⟩
abbrev S2x64 : Shape := ⟨2, ![2, 64]⟩
abbrev S2x64x64 : Shape := ⟨3, ![2, 64, 64]⟩
abbrev S133x64 : Shape := ⟨2, ![133, 64]⟩
abbrev S64x6 : Shape := ⟨2, ![64, 6]⟩
abbrev S6 : Shape := ⟨1, ![6]⟩
abbrev S3x4x64x64 : Shape := ⟨4, ![3, 4, 64, 64]⟩
abbrev S3x64 : Shape := ⟨2, ![3, 64]⟩
abbrev S_ : Shape := ⟨0, ![]⟩

class Facts : Prop where
  bcast_S_S20000x16 : S_.BroadcastsInDim S20000x16 (![] : Fin 0 → Fin S20000x16.rank)
  reducesTo_S20000x16_S_d0_1 : S20000x16.ReducesTo [0, 1] S_
  h_S_ : 0 < S_.numel
  bcast_S_S320000x5 : S_.BroadcastsInDim S320000x5 (![] : Fin 0 → Fin S320000x5.rank)
  reducesTo_S320000x5_S_d0_1 : S320000x5.ReducesTo [0, 1] S_
  bcast_S_S17x64 : S_.BroadcastsInDim S17x64 (![] : Fin 0 → Fin S17x64.rank)
  reducesTo_S17x64_S_d0_1 : S17x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x133x64 : S_.BroadcastsInDim S2x133x64 (![] : Fin 0 → Fin S2x133x64.rank)
  reducesTo_S2x133x64_S_d0_1_2 : S2x133x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S133x64 : S_.BroadcastsInDim S133x64 (![] : Fin 0 → Fin S133x64.rank)
  reducesTo_S133x64_S_d0_1 : S133x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_
  bcast_S_S3x4x64x64 : S_.BroadcastsInDim S3x4x64x64 (![] : Fin 0 → Fin S3x4x64x64.rank)
  reducesTo_S3x4x64x64_S_d0_1_2_3 : S3x4x64x64.ReducesTo [0, 1, 2, 3] S_
  bcast_S_S3x64 : S_.BroadcastsInDim S3x64 (![] : Fin 0 → Fin S3x64.rank)
  reducesTo_S3x64_S_d0_1 : S3x64.ReducesTo [0, 1] S_

variable [Facts]

def fn_part4 {F : FTy → Type} [FloatOps F] (main_arg15 : FVec F S3x4x64x64 .f32) (main_arg16 : FVec F S3x64 .f32) (main_v63 : IVec S_ 1) (main_v67 : IVec S_ 1) : IVec S_ 1 :=
  let main_v68 : IVec S_ 1 := andi main_v63 main_v67
  let main_v69 : FVec F S3x4x64x64 .f32 := Host.absf main_arg15
  let main_cst_26 : FVec F S_ .f32 := constant S_ .f32 0x7F800000#32
  let main_v70 : FVec F S3x4x64x64 .f32 := broadcastInDim S3x4x64x64 ![] bcast_S_S3x4x64x64 main_cst_26
  let main_v71 : IVec S3x4x64x64 1 := cmpf .olt main_v69 main_v70
  let main_c_27 : IVec S_ 1 := constantI S_ 1 1#1
  let main_v72 : IVec S_ 1 := (fun x v => Host.reduce IntOp.andi x v reducesTo_S3x4x64x64_S_d0_1_2_3 h_S_) main_v71 main_c_27
  let main_v73 : IVec S_ 1 := andi main_v68 main_v72
  let main_v74 : FVec F S3x64 .f32 := Host.absf main_arg16
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  main_v78

def fn_part3 {F : FTy → Type} [FloatOps F] (main_arg12 : FVec F S64 .f32) (main_arg13 : FVec F S64x6 .f32) (main_arg14 : FVec F S6 .f32) (main_arg15 : FVec F S3x4x64x64 .f32) (main_arg16 : FVec F S3x64 .f32) (main_v48 : IVec S_ 1) (main_v49 : FVec F S133x64 .f32) (main_v50 : FVec F S133x64 .f32) : IVec S_ 1 :=
  let main_v51 : IVec S133x64 1 := cmpf .olt main_v49 main_v50
  let main_c_19 : IVec S_ 1 := constantI S_ 1 1#1
  let main_v52 : IVec S_ 1 := (fun x v => Host.reduce IntOp.andi x v reducesTo_S133x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x6 .f32 := Host.absf main_arg13
  let main_cst_22 : FVec F S_ .f32 := constant S_ .f32 0x7F800000#32
  let main_v60 : FVec F S64x6 .f32 := broadcastInDim S64x6 ![] bcast_S_S64x6 main_cst_22
  let main_v61 : IVec S64x6 1 := cmpf .olt main_v59 main_v60
  let main_c_23 : IVec S_ 1 := constantI S_ 1 1#1
  let main_v62 : IVec S_ 1 := (fun x v => Host.reduce IntOp.andi x v reducesTo_S64x6_S_d0_1 h_S_) main_v61 main_c_23
  let main_v63 : IVec S_ 1 := andi main_v58 main_v62
  let main_v64 : FVec F S6 .f32 := Host.absf main_arg14
  let main_cst_24 : FVec F S_ .f32 := constant S_ .f32 0x7F800000#32
  let main_v65 : FVec F S6 .f32 := broadcastInDim S6 ![] bcast_S_S6 main_cst_24
  let main_v66 : IVec S6 1 := cmpf .olt main_v64 main_v65
  let main_c_25 : IVec S_ 1 := constantI S_ 1 1#1
  let main_v67 : IVec S_ 1 := (fun x v => Host.reduce IntOp.andi x v reducesTo_S6_S_d0 h_S_) main_v66 main_c_25
  fn_part4 (F := F) main_arg15 main_arg16 main_v63 main_v67

def fn_part2 {F : FTy → Type} [FloatOps F] (main_arg8 : FVec F S2x64 .f32) (main_arg9 : FVec F S2x64x64 .f32) (main_arg10 : FVec F S2x64 .f32) (main_arg11 : FVec F S133x64 .f32) (main_arg12 : FVec F S64 .f32) (main_arg13 : FVec F S64x6 .f32) (main_arg14 : FVec F S6 .f32) (main_arg15 : FVec F S3x4x64x64 .f32) (main_arg16 : FVec F S3x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg9
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S133x64 .f32 := Host.absf main_arg11
  let main_cst_18 : FVec F S_ .f32 := constant S_ .f32 0x7F800000#32
  let main_v50 : FVec F S133x64 .f32 := broadcastInDim S133x64 ![] bcast_S_S133x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64 .f32) (main_arg7 : FVec F S2x133x64 .f32) (main_arg8 : FVec F S2x64 .f32) (main_arg9 : FVec F S2x64x64 .f32) (main_arg10 : FVec F S2x64 .f32) (main_arg11 : FVec F S133x64 .f32) (main_arg12 : FVec F S64 .f32) (main_arg13 : FVec F S64x6 .f32) (main_arg14 : FVec F S6 .f32) (main_arg15 : FVec F S3x4x64x64 .f32) (main_arg16 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x133x64 .f32 := Host.absf main_arg7
  let main_cst_10 : FVec F S_ .f32 := constant S_ .f32 0x7F800000#32
  let main_v30 : FVec F S2x133x64 .f32 := broadcastInDim S2x133x64 ![] bcast_S_S2x133x64 main_cst_10
  let main_v31 : IVec S2x133x64 1 := cmpf .olt main_v29 main_v30
  let main_c_11 : IVec S_ 1 := constantI S_ 1 1#1
  let main_v32 : IVec S_ 1 := (fun x v => Host.reduce IntOp.andi x v reducesTo_S2x133x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S20000x16 .f32) (main_arg1 : IVec S2x320000 32) (main_arg2 : FVec F S320000x5 .f32) (main_arg3 : FVec F S17x64 .f32) (main_arg4 : FVec F S64 .f32) (main_arg5 : FVec F S64x64 .f32) (main_arg6 : FVec F S64 .f32) (main_arg7 : FVec F S2x133x64 .f32) (main_arg8 : FVec F S2x64 .f32) (main_arg9 : FVec F S2x64x64 .f32) (main_arg10 : FVec F S2x64 .f32) (main_arg11 : FVec F S133x64 .f32) (main_arg12 : FVec F S64 .f32) (main_arg13 : FVec F S64x6 .f32) (main_arg14 : FVec F S6 .f32) (main_arg15 : FVec F S3x4x64x64 .f32) (main_arg16 : FVec F S3x64 .f32) : IVec S_ 1 :=
  let main_v0 : FVec F S20000x16 .f32 := Host.absf main_arg0
  let main_cst : FVec F S_ .f32 := constant S_ .f32 0x7F800000#32
  let main_v1 : FVec F S20000x16 .f32 := broadcastInDim S20000x16 ![] bcast_S_S20000x16 main_cst
  let main_v2 : IVec S20000x16 1 := cmpf .olt main_v0 main_v1
  let main_c : IVec S_ 1 := constantI S_ 1 1#1
  let main_v3 : IVec S_ 1 := (fun x v => Host.reduce IntOp.andi x v reducesTo_S20000x16_S_d0_1 h_S_) main_v2 main_c
  let main_v4 : FVec F S320000x5 .f32 := Host.absf main_arg2
  let main_cst_0 : FVec F S_ .f32 := constant S_ .f32 0x7F800000#32
  let main_v5 : FVec F S320000x5 .f32 := broadcastInDim S320000x5 ![] bcast_S_S320000x5 main_cst_0
  let main_v6 : IVec S320000x5 1 := cmpf .olt main_v4 main_v5
  let main_c_1 : IVec S_ 1 := constantI S_ 1 1#1
  let main_v7 : IVec S_ 1 := (fun x v => Host.reduce IntOp.andi x v reducesTo_S320000x5_S_d0_1 h_S_) main_v6 main_c_1
  let main_v8 : IVec S_ 1 := andi main_v3 main_v7
  let main_v9 : FVec F S17x64 .f32 := Host.absf main_arg3
  let main_cst_2 : FVec F S_ .f32 := constant S_ .f32 0x7F800000#32
  let main_v10 : FVec F S17x64 .f32 := broadcastInDim S17x64 ![] bcast_S_S17x64 main_cst_2
  let main_v11 : IVec S17x64 1 := cmpf .olt main_v9 main_v10
  let main_c_3 : IVec S_ 1 := constantI S_ 1 1#1
  let main_v12 : IVec S_ 1 := (fun x v => Host.reduce IntOp.andi x v reducesTo_S17x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S20000x16 : Shape := ⟨2, ![20000, 16]⟩
abbrev S2x320000 : Shape := ⟨2, ![2, 320000]⟩
abbrev S320000x5 : Shape := ⟨2, ![320000, 5]⟩
abbrev S17x64 : Shape := ⟨2, ![17, 64]⟩
abbrev S64 : Shape := ⟨1, ![64]⟩
abbrev S64x64 : Shape := ⟨2, ![64, 64]⟩
abbrev S2x133x64 : Shape := ⟨3, ![2, 133, 64]⟩
abbrev S2x64 : Shape := ⟨2, ![2, 64]⟩
abbrev S2x64x64 : Shape := ⟨3, ![2, 64, 64]⟩
abbrev S133x64 : Shape := ⟨2, ![133, 64]⟩
abbrev S64x6 : Shape := ⟨2, ![64, 6]⟩
abbrev S6 : Shape := ⟨1, ![6]⟩
abbrev S3x4x64x64 : Shape := ⟨4, ![3, 4, 64, 64]⟩
abbrev S3x64 : Shape := ⟨2, ![3, 64]⟩
abbrev S20000x6 : Shape := ⟨2, ![20000, 6]⟩
abbrev S1x320000 : Shape := ⟨2, ![1, 320000]⟩
abbrev S320000 : Shape := ⟨1, ![320000]⟩
abbrev S640000 : Shape := ⟨1, ![640000]⟩
abbrev S640000x5 : Shape := ⟨2, ![640000, 5]⟩
abbrev S_ : Shape := ⟨0, ![]⟩
abbrev S20000 : Shape := ⟨1, ![20000]⟩
abbrev S640000x1 : Shape := ⟨2, ![640000, 1]⟩
abbrev S6x64 : Shape := ⟨2, ![6, 64]⟩
abbrev S5x64 : Shape := ⟨2, ![5, 64]⟩
abbrev S640000x6 : Shape := ⟨2, ![640000, 6]⟩
abbrev S1x64 : Shape := ⟨2, ![1, 64]⟩
abbrev S640000x64 : Shape := ⟨2, ![640000, 64]⟩
abbrev S3200x6 : Shape := ⟨2, ![3200, 6]⟩
abbrev S3200x5 : Shape := ⟨2, ![3200, 5]⟩
abbrev S3200x64 : Shape := ⟨2, ![3200, 64]⟩
abbrev S20000x64 : Shape := ⟨2, ![20000, 64]⟩
abbrev S1x4x64x64 : Shape := ⟨4, ![1, 4, 64, 64]⟩
abbrev S4x64x64 : Shape := ⟨3, ![4, 64, 64]⟩
abbrev S20000x1 : Shape := ⟨2, ![20000, 1]⟩
abbrev S20000x256 : Shape := ⟨2, ![20000, 256]⟩
abbrev S256x64 : Shape := ⟨2, ![256, 64]⟩
abbrev S2000x256 : Shape := ⟨2, ![2000, 256]⟩
abbrev S2000x64 : Shape := ⟨2, ![2000, 64]⟩
abbrev S1x133x64 : Shape := ⟨3, ![1, 133, 64]⟩
abbrev S1x64x64 : Shape := ⟨3, ![1, 64, 64]⟩
abbrev S1x6 : Shape := ⟨2, ![1, 6]⟩

abbrev nBuf : Space → Nat
  | .hbm => 382
  | .vmem => 74
  | .smem => 0
  | _ => 0

abbrev hbmTy0_0 (i : Nat) : BufTy := match i % 128 with
  | 0 => ⟨S20000x16, .f32⟩
  | 1 => ⟨S2x320000, .i32⟩
  | 2 => ⟨S320000x5, .f32⟩
  | 3 => ⟨S17x64, .f32⟩
  | 4 => ⟨S64, .f32⟩
  | 5 => ⟨S64x64, .f32⟩
  | 6 => ⟨S64, .f32⟩
  | 7 => ⟨S2x133x64, .f32⟩
  | 8 => ⟨S2x64, .f32⟩
  | 9 => ⟨S2x64x64, .f32⟩
  | 10 => ⟨S2x64, .f32⟩
  | 11 => ⟨S133x64, .f32⟩
  | 12 => ⟨S64, .f32⟩
  | 13 => ⟨S64x6, .f32⟩
  | 14 => ⟨S6, .f32⟩
  | 15 => ⟨S3x4x64x64, .f32⟩
  | 16 => ⟨S3x64, .f32⟩
  | 17 => ⟨S20000x6, .f32⟩
  | 18 => ⟨S1x320000, .i32⟩
  | 19 => ⟨S320000, .i32⟩
  | 20 => ⟨S1x320000, .i32⟩
  | 21 => ⟨S320000, .i32⟩
  | 22 => ⟨S640000, .i32⟩
  | 23 => ⟨S1x320000, .i32⟩
  | 24 => ⟨S320000, .i32⟩
  | 25 => ⟨S1x320000, .i32⟩
  | 26 => ⟨S320000, .i32⟩
  | 27 => ⟨S640000, .i32⟩
  | 28 => ⟨S640000x5, .f32⟩
  | 29 => ⟨S_, .f32⟩
  | 30 => ⟨S640000, .f32⟩
  | 31 => ⟨S_, .f32⟩
  | 32 => ⟨S20000, .f32⟩
  | 33 => ⟨S640000x1, .i32⟩
  | 34 => ⟨S20000, .f32⟩
  | 35 => ⟨S_, .f32⟩
  | 36 => ⟨S20000, .f32⟩
  | 37 => ⟨S20000, .i1⟩
  | 38 => ⟨S_, .f32⟩
  | 39 => ⟨S20000, .f32⟩
  | 40 => ⟨S20000, .i1⟩
  | 41 => ⟨S_, .f32⟩
  | 42 => ⟨S_, .f32⟩
  | 43 => ⟨S20000, .f32⟩
  | 44 => ⟨S20000, .f32⟩
  | 45 => ⟨S20000, .f32⟩
  | 46 => ⟨S_, .f32⟩
  | 47 => ⟨S_, .f32⟩
  | 48 => ⟨S20000, .f32⟩
  | 49 => ⟨S20000, .f32⟩
  | 50 => ⟨S6x64, .f32⟩
  | 51 => ⟨S6x64, .f32⟩
  | 52 => ⟨S5x64, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x6, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x6, .f32⟩
  | 71 => ⟨S1x64, .f32⟩
  | 72 => ⟨S1x64, .f32⟩
  | 73 => ⟨S640000x64, .f32⟩
  | 74 => ⟨S_, .f32⟩
  | 75 => ⟨S20000x64, .f32⟩
  | 76 => ⟨S640000x1, .i32⟩
  | 77 => ⟨S20000x64, .f32⟩
  | 78 => ⟨S_, .f32⟩
  | 79 => ⟨S20000x64, .f32⟩
  | 80 => ⟨S20000x64, .f32⟩
  | 81 => ⟨S1x4x64x64, .f32⟩
  | 82 => ⟨S4x64x64, .f32⟩
  | 83 => ⟨S1x64, .f32⟩
  | 84 => ⟨S64, .f32⟩
  | 85 => ⟨S20000x1, .f32⟩
  | 86 => ⟨S20000x64, .f32⟩
  | 87 => ⟨S20000x64, .f32⟩
  | 88 => ⟨S20000x1, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x64, .f32⟩
  | 98 => ⟨S_, .f32⟩
  | 99 => ⟨S20000x64, .f32⟩
  | 100 => ⟨S640000x1, .i32⟩
  | 101 => ⟨S20000x64, .f32⟩
  | 102 => ⟨S20000x64, .f32⟩
  | 103 => ⟨S20000x64, .f32⟩
  | 104 => ⟨S20000x1, .f32⟩
  | 105 => ⟨S20000x64, .f32⟩
  | 106 => ⟨S20000x64, .f32⟩
  | 107 => ⟨S20000x1, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x64, .f32⟩
  | 117 => ⟨S_, .f32⟩
  | 118 => ⟨S20000x64, .f32⟩
  | 119 => ⟨S640000x1, .i32⟩
  | 120 => ⟨S20000x64, .f32⟩
  | 121 => ⟨S20000x64, .f32⟩
  | 122 => ⟨S20000x64, .f32⟩
  | 123 => ⟨S20000x1, .f32⟩
  | 124 => ⟨S20000x64, .f32⟩
  | 125 => ⟨S20000x64, .f32⟩
  | 126 => ⟨S20000x1, .f32⟩
  | 127 => ⟨S_, .i32⟩
  | _ => ⟨S20000x16, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x64, .f32⟩
  | 8 => ⟨S_, .f32⟩
  | 9 => ⟨S20000x64, .f32⟩
  | 10 => ⟨S640000x1, .i32⟩
  | 11 => ⟨S20000x64, .f32⟩
  | 12 => ⟨S20000x64, .f32⟩
  | 13 => ⟨S20000x64, .f32⟩
  | 14 => ⟨S20000x256, .f32⟩
  | 15 => ⟨S256x64, .f32⟩
  | 16 => ⟨S1x64, .f32⟩
  | 17 => ⟨S20000x64, .f32⟩
  | 18 => ⟨S1x133x64, .f32⟩
  | 19 => ⟨S133x64, .f32⟩
  | 20 => ⟨S1x64, .f32⟩
  | 21 => ⟨S64, .f32⟩
  | 22 => ⟨S1x64x64, .f32⟩
  | 23 => ⟨S64x64, .f32⟩
  | 24 => ⟨S1x64, .f32⟩
  | 25 => ⟨S64, .f32⟩
  | 26 => ⟨S64x64, .f32⟩
  | 27 => ⟨S64x64, .f32⟩
  | 28 => ⟨S5x64, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x64, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x64, .f32⟩
  | 47 => ⟨S1x64, .f32⟩
  | 48 => ⟨S1x64, .f32⟩
  | 49 => ⟨S640000x64, .f32⟩
  | 50 => ⟨S_, .f32⟩
  | 51 => ⟨S20000x64, .f32⟩
  | 52 => ⟨S640000x1, .i32⟩
  | 53 => ⟨S20000x64, .f32⟩
  | 54 => ⟨S_, .f32⟩
  | 55 => ⟨S20000x64, .f32⟩
  | 56 => ⟨S20000x64, .f32⟩
  | 57 => ⟨S1x4x64x64, .f32⟩
  | 58 => ⟨S4x64x64, .f32⟩
  | 59 => ⟨S1x64, .f32⟩
  | 60 => ⟨S64, .f32⟩
  | 61 => ⟨S20000x1, .f32⟩
  | 62 => ⟨S20000x64, .f32⟩
  | 63 => ⟨S20000x64, .f32⟩
  | 64 => ⟨S20000x1, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x64, .f32⟩
  | 74 => ⟨S_, .f32⟩
  | 75 => ⟨S20000x64, .f32⟩
  | 76 => ⟨S640000x1, .i32⟩
  | 77 => ⟨S20000x64, .f32⟩
  | 78 => ⟨S20000x64, .f32⟩
  | 79 => ⟨S20000x64, .f32⟩
  | 80 => ⟨S20000x1, .f32⟩
  | 81 => ⟨S20000x64, .f32⟩
  | 82 => ⟨S20000x64, .f32⟩
  | 83 => ⟨S20000x1, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x64, .f32⟩
  | 93 => ⟨S_, .f32⟩
  | 94 => ⟨S20000x64, .f32⟩
  | 95 => ⟨S640000x1, .i32⟩
  | 96 => ⟨S20000x64, .f32⟩
  | 97 => ⟨S20000x64, .f32⟩
  | 98 => ⟨S20000x64, .f32⟩
  | 99 => ⟨S20000x1, .f32⟩
  | 100 => ⟨S20000x64, .f32⟩
  | 101 => ⟨S20000x64, .f32⟩
  | 102 => ⟨S20000x1, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x64, .f32⟩
  | 112 => ⟨S_, .f32⟩
  | 113 => ⟨S20000x64, .f32⟩
  | 114 => ⟨S640000x1, .i32⟩
  | 115 => ⟨S20000x64, .f32⟩
  | 116 => ⟨S20000x64, .f32⟩
  | 117 => ⟨S20000x64, .f32⟩
  | 118 => ⟨S20000x256, .f32⟩
  | 119 => ⟨S256x64, .f32⟩
  | 120 => ⟨S1x64, .f32⟩
  | 121 => ⟨S20000x64, .f32⟩
  | 122 => ⟨S1x133x64, .f32⟩
  | 123 => ⟨S133x64, .f32⟩
  | 124 => ⟨S1x64, .f32⟩
  | 125 => ⟨S64, .f32⟩
  | 126 => ⟨S1x64x64, .f32⟩
  | 127 => ⟨S64x64, .f32⟩
  | _ => ⟨S20000x16, .f32⟩

abbrev hbmTy0_2 (i : Nat) : BufTy := match i % 128 with
  | 0 => ⟨S1x64, .f32⟩
  | 1 => ⟨S64, .f32⟩
  | 2 => ⟨S64x64, .f32⟩
  | 3 => ⟨S64x64, .f32⟩
  | 4 => ⟨S5x64, .f32⟩
  | 5 => ⟨S_, .i32⟩
  | 6 => ⟨S640000, .i32⟩
  | 7 => ⟨S640000, .i1⟩
  | 8 => ⟨S_, .i32⟩
  | 9 => ⟨S640000, .i32⟩
  | 10 => ⟨S640000, .i32⟩
  | 11 => ⟨S640000, .i32⟩
  | 12 => ⟨S640000x1, .i32⟩
  | 13 => ⟨S640000x64, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x64, .f32⟩
  | 23 => ⟨S1x64, .f32⟩
  | 24 => ⟨S1x64, .f32⟩
  | 25 => ⟨S640000x64, .f32⟩
  | 26 => ⟨S_, .f32⟩
  | 27 => ⟨S20000x64, .f32⟩
  | 28 => ⟨S640000x1, .i32⟩
  | 29 => ⟨S20000x64, .f32⟩
  | 30 => ⟨S_, .f32⟩
  | 31 => ⟨S20000x64, .f32⟩
  | 32 => ⟨S20000x64, .f32⟩
  | 33 => ⟨S1x4x64x64, .f32⟩
  | 34 => ⟨S4x64x64, .f32⟩
  | 35 => ⟨S1x64, .f32⟩
  | 36 => ⟨S64, .f32⟩
  | 37 => ⟨S20000x1, .f32⟩
  | 38 => ⟨S20000x64, .f32⟩
  | 39 => ⟨S20000x64, .f32⟩
  | 40 => ⟨S20000x1, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x64, .f32⟩
  | 50 => ⟨S_, .f32⟩
  | 51 => ⟨S20000x64, .f32⟩
  | 52 => ⟨S640000x1, .i32⟩
  | 53 => ⟨S20000x64, .f32⟩
  | 54 => ⟨S20000x64, .f32⟩
  | 55 => ⟨S20000x64, .f32⟩
  | 56 => ⟨S20000x1, .f32⟩
  | 57 => ⟨S20000x64, .f32⟩
  | 58 => ⟨S20000x64, .f32⟩
  | 59 => ⟨S20000x1, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x64, .f32⟩
  | 69 => ⟨S_, .f32⟩
  | 70 => ⟨S20000x64, .f32⟩
  | 71 => ⟨S640000x1, .i32⟩
  | 72 => ⟨S20000x64, .f32⟩
  | 73 => ⟨S20000x64, .f32⟩
  | 74 => ⟨S20000x64, .f32⟩
  | 75 => ⟨S20000x1, .f32⟩
  | 76 => ⟨S20000x64, .f32⟩
  | 77 => ⟨S20000x64, .f32⟩
  | 78 => ⟨S20000x1, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x64, .f32⟩
  | 88 => ⟨S_, .f32⟩
  | 89 => ⟨S20000x64, .f32⟩
  | 90 => ⟨S640000x1, .i32⟩
  | 91 => ⟨S20000x64, .f32⟩
  | 92 => ⟨S20000x64, .f32⟩
  | 93 => ⟨S20000x64, .f32⟩
  | 94 => ⟨S20000x256, .f32⟩
  | 95 => ⟨S256x64, .f32⟩
  | 96 => ⟨S1x64, .f32⟩
  | 97 => ⟨S20000x64, .f32⟩
  | 98 => ⟨S64x64, .f32⟩
  | 99 => ⟨S64x64, .f32⟩
  | 100 => ⟨S5x64, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x64, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x64, .f32⟩
  | 119 => ⟨S1x64, .f32⟩
  | 120 => ⟨S1x6, .f32⟩
  | 121 => ⟨S640000x6, .f32⟩
  | 122 => ⟨S_, .f32⟩
  | 123 => ⟨S20000x6, .f32⟩
  | 124 => ⟨S640000x1, .i32⟩
  | 125 => ⟨S20000x6, .f32⟩
  | _ => ⟨S20000x16, .f32⟩

abbrev hbmTy (i : Nat) : BufTy := match i / 128 with
  | 0 => hbmTy0_0 i
  | 1 => hbmTy0_1 i
  | 2 => hbmTy0_2 i
  | _ => ⟨S20000x16, .f32⟩

abbrev bufTy : (tb : Table) → Fin (tcTables nBuf tb) → BufTy
  | .hbm, ⟨i, _⟩ => hbmTy i
  | .local _ .vmem, ⟨0, _⟩ => ⟨S3200x6, .f32⟩
  | .local _ .vmem, ⟨1, _⟩ => ⟨S3200x6, .f32⟩
  | .local _ .vmem, ⟨2, _⟩ => ⟨S3200x6, .f32⟩
  | .local _ .vmem, ⟨3, _⟩ => ⟨S3200x6, .f32⟩
  | .local _ .vmem, ⟨4, _⟩ => ⟨S3200x5, .f32⟩
  | .local _ .vmem, ⟨5, _⟩ => ⟨S3200x5, .f32⟩
  | .local _ .vmem, ⟨6, _⟩ => ⟨S6x64, .f32⟩
  | .local _ .vmem, ⟨7, _⟩ => ⟨S6x64, .f32⟩
  | .local _ .vmem, ⟨8, _⟩ => ⟨S5x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S3200x64, .f32⟩
  | .local _ .vmem, ⟨13, _⟩ => ⟨S3200x64, .f32⟩
  | .local _ .vmem, ⟨14, _⟩ => ⟨S2000x256, .f32⟩
  | .local _ .vmem, ⟨15, _⟩ => ⟨S2000x256, .f32⟩
  | .local _ .vmem, ⟨16, _⟩ => ⟨S256x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S3200x64, .f32⟩
  | .local _ .vmem, ⟨21, _⟩ => ⟨S3200x64, .f32⟩
  | .local _ .vmem, ⟨22, _⟩ => ⟨S3200x64, .f32⟩
  | .local _ .vmem, ⟨23, _⟩ => ⟨S3200x64, .f32⟩
  | .local _ .vmem, ⟨24, _⟩ => ⟨S3200x5, .f32⟩
  | .local _ .vmem, ⟨25, _⟩ => ⟨S3200x5, .f32⟩
  | .local _ .vmem, ⟨26, _⟩ => ⟨S64x64, .f32⟩
  | .local _ .vmem, ⟨27, _⟩ => ⟨S64x64, .f32⟩
  | .local _ .vmem, ⟨28, _⟩ => ⟨S5x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S3200x64, .f32⟩
  | .local _ .vmem, ⟨33, _⟩ => ⟨S3200x64, .f32⟩
  | .local _ .vmem, ⟨34, _⟩ => ⟨S2000x256, .f32⟩
  | .local _ .vmem, ⟨35, _⟩ => ⟨S2000x256, .f32⟩
  | .local _ .vmem, ⟨36, _⟩ => ⟨S256x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S3200x64, .f32⟩
  | .local _ .vmem, ⟨41, _⟩ => ⟨S3200x64, .f32⟩
  | .local _ .vmem, ⟨42, _⟩ => ⟨S3200x64, .f32⟩
  | .local _ .vmem, ⟨43, _⟩ => ⟨S3200x64, .f32⟩
  | .local _ .vmem, ⟨44, _⟩ => ⟨S3200x5, .f32⟩
  | .local _ .vmem, ⟨45, _⟩ => ⟨S3200x5, .f32⟩
  | .local _ .vmem, ⟨46, _⟩ => ⟨S64x64, .f32⟩
  | .local _ .vmem, ⟨47, _⟩ => ⟨S64x64, .f32⟩
  | .local _ .vmem, ⟨48, _⟩ => ⟨S5x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S3200x64, .f32⟩
  | .local _ .vmem, ⟨53, _⟩ => ⟨S3200x64, .f32⟩
  | .local _ .vmem, ⟨54, _⟩ => ⟨S2000x256, .f32⟩
  | .local _ .vmem, ⟨55, _⟩ => ⟨S2000x256, .f32⟩
  | .local _ .vmem, ⟨56, _⟩ => ⟨S256x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S3200x64, .f32⟩
  | .local _ .vmem, ⟨61, _⟩ => ⟨S3200x64, .f32⟩
  | .local _ .vmem, ⟨62, _⟩ => ⟨S3200x64, .f32⟩
  | .local _ .vmem, ⟨63, _⟩ => ⟨S3200x64, .f32⟩
  | .local _ .vmem, ⟨64, _⟩ => ⟨S3200x5, .f32⟩
  | .local _ .vmem, ⟨65, _⟩ => ⟨S3200x5, .f32⟩
  | .local _ .vmem, ⟨66, _⟩ => ⟨S64x64, .f32⟩
  | .local _ .vmem, ⟨67, _⟩ => ⟨S64x64, .f32⟩
  | .local _ .vmem, ⟨68, _⟩ => ⟨S5x64, .f32⟩
  | .local _ .vmem, ⟨69, _⟩ => ⟨S1x64, .f32⟩
  | .local _ .vmem, ⟨70, _⟩ => ⟨S64x6, .f32⟩
  | .local _ .vmem, ⟨71, _⟩ => ⟨S1x6, .f32⟩
  | .local _ .vmem, ⟨72, _⟩ => ⟨S3200x6, .f32⟩
  | .local _ .vmem, ⟨73, _⟩ => ⟨S3200x6, .f32⟩
  | _, _ => ⟨S20000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call2_cst : Ref sig .tc := ⟨.hbm, 78, rfl⟩
abbrev main_call2_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_9 : Ref sig .tc := ⟨.hbm, 89, rfl⟩
abbrev main_v55 : Ref sig .tc := ⟨.hbm, 90, rfl⟩
abbrev main_v56 : Ref sig .tc := ⟨.hbm, 91, rfl⟩
abbrev main_c_10 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_12 : Ref sig .tc := ⟨.hbm, 108, rfl⟩
abbrev main_v71 : Ref sig .tc := ⟨.hbm, 109, rfl⟩
abbrev main_v72 : Ref sig .tc := ⟨.hbm, 110, rfl⟩
abbrev main_c_13 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_15 : Ref sig .tc := ⟨.hbm, 127, rfl⟩
abbrev main_v87 : Ref sig .tc := ⟨.hbm, 128, rfl⟩
abbrev main_v88 : Ref sig .tc := ⟨.hbm, 129, rfl⟩
abbrev main_c_16 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_17 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_18 : Ref sig .tc := ⟨.hbm, 157, rfl⟩
abbrev main_v114 : Ref sig .tc := ⟨.hbm, 158, rfl⟩
abbrev main_v115 : Ref sig .tc := ⟨.hbm, 159, rfl⟩
abbrev main_c_19 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_20 : Ref sig .tc := ⟨.hbm, 166, rfl⟩
abbrev main_v121 : Ref sig .tc := ⟨.hbm, 167, rfl⟩
abbrev main_v122 : Ref sig .tc := ⟨.hbm, 168, rfl⟩
abbrev main_c_21 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_22 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_call3_cst : Ref sig .tc := ⟨.hbm, 182, rfl⟩
abbrev main_call3_v0 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_23 : Ref sig .tc := ⟨.hbm, 193, rfl⟩
abbrev main_v143 : Ref sig .tc := ⟨.hbm, 194, rfl⟩
abbrev main_v144 : Ref sig .tc := ⟨.hbm, 195, rfl⟩
abbrev main_c_24 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_25 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_26 : Ref sig .tc := ⟨.hbm, 212, rfl⟩
abbrev main_v159 : Ref sig .tc := ⟨.hbm, 213, rfl⟩
abbrev main_v160 : Ref sig .tc := ⟨.hbm, 214, rfl⟩
abbrev main_c_27 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_28 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_c_29 : Ref sig .tc := ⟨.hbm, 231, rfl⟩
abbrev main_v175 : Ref sig .tc := ⟨.hbm, 232, rfl⟩
abbrev main_v176 : Ref sig .tc := ⟨.hbm, 233, rfl⟩
abbrev main_c_30 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_31 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_c_32 : Ref sig .tc := ⟨.hbm, 261, rfl⟩
abbrev main_v202 : Ref sig .tc := ⟨.hbm, 262, rfl⟩
abbrev main_v203 : Ref sig .tc := ⟨.hbm, 263, rfl⟩
abbrev main_c_33 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_c_34 : Ref sig .tc := ⟨.hbm, 270, rfl⟩
abbrev main_v209 : Ref sig .tc := ⟨.hbm, 271, rfl⟩
abbrev main_v210 : Ref sig .tc := ⟨.hbm, 272, rfl⟩
abbrev main_c_35 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_cst_36 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_call4_cst : Ref sig .tc := ⟨.hbm, 286, rfl⟩
abbrev main_call4_v0 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_c_37 : Ref sig .tc := ⟨.hbm, 297, rfl⟩
abbrev main_v231 : Ref sig .tc := ⟨.hbm, 298, rfl⟩
abbrev main_v232 : Ref sig .tc := ⟨.hbm, 299, rfl⟩
abbrev main_c_38 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_cst_39 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_c_40 : Ref sig .tc := ⟨.hbm, 316, rfl⟩
abbrev main_v247 : Ref sig .tc := ⟨.hbm, 317, rfl⟩
abbrev main_v248 : Ref sig .tc := ⟨.hbm, 318, rfl⟩
abbrev main_c_41 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_cst_42 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_c_43 : Ref sig .tc := ⟨.hbm, 335, rfl⟩
abbrev main_v263 : Ref sig .tc := ⟨.hbm, 336, rfl⟩
abbrev main_v264 : Ref sig .tc := ⟨.hbm, 337, rfl⟩
abbrev main_c_44 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_cst_45 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_c_46 : Ref sig .tc := ⟨.hbm, 357, rfl⟩
abbrev main_v282 : Ref sig .tc := ⟨.hbm, 358, rfl⟩
abbrev main_v283 : Ref sig .tc := ⟨.hbm, 359, rfl⟩
abbrev main_c_47 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_c_48 : Ref sig .tc := ⟨.hbm, 366, rfl⟩
abbrev main_v289 : Ref sig .tc := ⟨.hbm, 367, rfl⟩
abbrev main_v290 : Ref sig .tc := ⟨.hbm, 368, rfl⟩
abbrev main_c_49 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_cst_50 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg8_0 : Ref sig .tc := ⟨.vmem, 51, rfl⟩
abbrev cc4_stg9_0 : Ref sig .tc := ⟨.vmem, 52, rfl⟩
abbrev cc4_stg9_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg9_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem9_0 : DmaSem sig := 52
abbrev cc4_sem9_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem3_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem9_1 : DmaSem sig := 73

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S3200x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3200x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3200x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3200x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S5x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S3200x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S3200x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3200x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S3200x5 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S5x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x6 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x6 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S3200x6 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

class Facts₀ : Prop where
  slices_S20000x16_S20000x6_0_4 : S20000x16.Slices ![0, 4] S20000x6
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S320000_S640000_d0 : Shape.Concatenates [S320000, S320000] S640000 0
  concatenates_S320000x5_S320000x5_S640000x5_d0 : Shape.Concatenates [S320000x5, S320000x5] S640000x5 0
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  slices_S17x64_S6x64_0_0 : S17x64.Slices ![0, 0] S6x64
  slices_S17x64_S6x64_6_0 : S17x64.Slices ![6, 0] S6x64
  slices_S17x64_S5x64_12_0 : S17x64.Slices ![12, 0] S5x64
  shapeCasts_S64_S1x64 : S64.ShapeCasts S1x64
  inb_S3200x6_S3200x6_0_0 : ∀ a, (![0, 0] : Fin 2 → Nat) a + S3200x6.size a ≤ S3200x6.size a
  h_S3200x6 : 0 < S3200x6.numel
  shapeCasts_S3200x6_S3200x6 : S3200x6.ShapeCasts S3200x6
  bitsLt_bf16_f32 : FTy.bits .bf16 < FTy.bits .f32
  inb_S3200x5_S3200x5_0_0 : ∀ a, (![0, 0] : Fin 2 → Nat) a + S3200x5.size a ≤ S3200x5.size a
  h_S3200x5 : 0 < S3200x5.numel
  shapeCasts_S3200x5_S3200x5 : S3200x5.ShapeCasts S3200x5
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x64_S64x64_0_0 : ∀ a, (![0, 0] : Fin 2 → Nat) a + S64x64.size a ≤ S64x64.size a
  h_S64x64 : 0 < S64x64.numel
  inb_S3200x64_S3200x64_0_0 : ∀ a, (![0, 0] : Fin 2 → Nat) a + S3200x64.size a ≤ S3200x64.size a
  h_S3200x64 : 0 < S3200x64.numel
  bcast_S_S20000x64 : S_.BroadcastsInDim S20000x64 (![] : Fin 0 → Fin S20000x64.rank)
  slices_S3x4x64x64_S1x4x64x64_0_0_0_0 : S3x4x64x64.Slices ![0, 0, 0, 0] S1x4x64x64
  shapeCasts_S1x4x64x64_S4x64x64 : S1x4x64x64.ShapeCasts S4x64x64
  slices_S3x64_S1x64_0_0 : S3x64.Slices ![0, 0] S1x64
  shapeCasts_S1x64_S64 : S1x64.ShapeCasts S64
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  concatenates_S20000x64_S20000x64_S20000x64_S20000x64_S20000x256_d1 : Shape.Concatenates [S20000x64, S20000x64, S20000x64, S20000x64] S20000x256 1
  shapeCasts_S4x64x64_S256x64 : S4x64x64.ShapeCasts S256x64
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x133x64_S1x133x64_0_0_0 : S2x133x64.Slices ![0, 0, 0] S1x133x64
  shapeCasts_S1x133x64_S133x64 : S1x133x64.ShapeCasts S133x64
  slices_S2x64_S1x64_0_0 : S2x64.Slices ![0, 0] S1x64
  slices_S2x64x64_S1x64x64_0_0_0 : S2x64x64.Slices ![0, 0, 0] S1x64x64
  shapeCasts_S1x64x64_S64x64 : S1x64x64.ShapeCasts S64x64
  slices_S133x64_S64x64_0_0 : S133x64.Slices ![0, 0] S64x64
  slices_S133x64_S64x64_64_0 : S133x64.Slices ![64, 0] S64x64
  slices_S133x64_S5x64_128_0 : S133x64.Slices ![128, 0] S5x64
  shapeCasts_S3200x64_S3200x64 : S3200x64.ShapeCasts S3200x64
  shapeCasts_S64x64_S64x64 : S64x64.ShapeCasts S64x64
  slices_S3x4x64x64_S1x4x64x64_1_0_0_0 : S3x4x64x64.Slices ![1, 0, 0, 0] S1x4x64x64
  slices_S3x64_S1x64_1_0 : S3x64.Slices ![1, 0] S1x64
  slices_S2x133x64_S1x133x64_1_0_0 : S2x133x64.Slices ![1, 0, 0] S1x133x64
  slices_S2x64_S1x64_1_0 : S2x64.Slices ![1, 0] S1x64
  slices_S2x64x64_S1x64x64_1_0_0 : S2x64x64.Slices ![1, 0, 0] S1x64x64
  slices_S3x4x64x64_S1x4x64x64_2_0_0_0 : S3x4x64x64.Slices ![2, 0, 0, 0] S1x4x64x64
  slices_S3x64_S1x64_2_0 : S3x64.Slices ![2, 0] S1x64
  shapeCasts_S6_S1x6 : S6.ShapeCasts S1x6
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S3200x6 : S1x6.Broadcasts S3200x6
  bcast_S_S20000x6 : S_.BroadcastsInDim S20000x6 (![] : Fin 0 → Fin S20000x6.rank)
  scatter_S20000_S640000x1_S640000_n_0_0_1_wf : ScatterDims.WF S20000 S640000x1 S640000 [] [0] [0] 1
  gather_S20000x6_S640000x1_S640000x6_1_0_n_n_0_1_16_wf : GatherDims.WF S20000x6 S640000x1 S640000x6 [1] [0] [] [0] [] 1 ![1, 6]
  dot_S3200x6_S6x64_S3200x64_1_0_0_1_n_n_wf : DotDims.WF S3200x6 S6x64 S3200x64 [1] [0] [0] [1] [] []
  dot_S3200x5_S5x64_S3200x64_1_0_0_1_n_n_wf : DotDims.WF S3200x5 S5x64 S3200x64 [1] [0] [0] [1] [] []
  dot_S3200x64_S64x64_S3200x64_1_0_0_1_n_n_wf : DotDims.WF S3200x64 S64x64 S3200x64 [1] [0] [0] [1] [] []
  scatter_S20000x64_S640000x1_S640000x64_1_0_0_1_wf : ScatterDims.WF S20000x64 S640000x1 S640000x64 [1] [0] [0] 1
  gather_S20000x64_S640000x1_S640000x64_1_0_n_n_0_1_164_wf : GatherDims.WF S20000x64 S640000x1 S640000x64 [1] [0] [] [0] [] 1 ![1, 64]
  dot_S2000x256_S256x64_S2000x64_1_0_0_1_n_n_wf : DotDims.WF S2000x256 S256x64 S2000x64 [1] [0] [0] [1] [] []
  dot_S3200x64_S64x6_S3200x6_1_0_0_1_n_n_wf : DotDims.WF S3200x64 S64x6 S3200x6 [1] [0] [0] [1] [] []
  scatter_S20000x6_S640000x1_S640000x6_1_0_0_1_wf : ScatterDims.WF S20000x6 S640000x1 S640000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x6.size a ≤ S640000x6.size a
  hwx0_0 : ∀ i : grid0.Coords, EltTy.bits .f32 = 32 ∨ (Rect.block (s := S640000x6) S3200x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x6.size a ≤ S640000x6.size a
  hwx0_1 : ∀ i : grid0.Coords, EltTy.bits .f32 = 32 ∨ (Rect.block (s := S640000x6) S3200x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x5.size a ≤ S640000x5.size a
  hwx0_2 : ∀ i : grid0.Coords, EltTy.bits .f32 = 32 ∨ (Rect.block (s := S640000x5) S3200x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x64.size a ≤ S6x64.size a
  hwx0_3 : ∀ i : grid0.Coords, EltTy.bits .f32 = 32 ∨ (Rect.block (s := S6x64) S6x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64.size a ≤ S6x64.size a
  hwx0_4 : ∀ i : grid0.Coords, EltTy.bits .f32 = 32 ∨ (Rect.block (s := S6x64) S6x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64.size a ≤ S5x64.size a
  hwx0_5 : ∀ i : grid0.Coords, EltTy.bits .f32 = 32 ∨ (Rect.block (s := S5x64) S5x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x64.size a ≤ S640000x64.size a
  hwx0_9 : ∀ i : grid0.Coords, EltTy.bits .f32 = 32 ∨ (Rect.block (s := S640000x64) S3200x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S20000x64.size a
  hwx1_3 : ∀ i : grid1.Coords, EltTy.bits .f32 = 32 ∨ (Rect.block (s := S20000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x64.size a ≤ S640000x64.size a
  hwx2_0 : ∀ i : grid2.Coords, EltTy.bits .f32 = 32 ∨ (Rect.block (s := S640000x64) S3200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S640000x64.size a
  hwx2_1 : ∀ i : grid2.Coords, EltTy.bits .f32 = 32 ∨ (Rect.block (s := S640000x64) S3200x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x5.size a ≤ S640000x5.size a
  hwx2_2 : ∀ i : grid2.Coords, EltTy.bits .f32 = 32 ∨ (Rect.block (s := S640000x5) S3200x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x64.size a ≤ S5x64.size a
  hwx2_5 : ∀ i : grid2.Coords, EltTy.bits .f32 = 32 ∨ (Rect.block (s := S5x64) S5x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S3200x64.size a ≤ S640000x64.size a
  hwx2_9 : ∀ i : grid2.Coords, EltTy.bits .f32 = 32 ∨ (Rect.block (s := S640000x64) S3200x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S20000x64.size a
  hwx3_3 : ∀ i : grid3.Coords, EltTy.bits .f32 = 32 ∨ (Rect.block (s := S20000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3200x64.size a ≤ S640000x64.size a
  hwx4_0 : ∀ i : grid4.Coords, EltTy.bits .f32 = 32 ∨ (Rect.block (s := S640000x64) S3200x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3200x64.size a ≤ S640000x64.size a
  hwx4_1 : ∀ i : grid4.Coords, EltTy.bits .f32 = 32 ∨ (Rect.block (s := S640000x64) S3200x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3200x5.size a ≤ S640000x5.size a
  hwx4_2 : ∀ i : grid4.Coords, EltTy.bits .f32 = 32 ∨ (Rect.block (s := S640000x5) S3200x5.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S5x64.size a ≤ S5x64.size a
  hwx4_5 : ∀ i : grid4.Coords, EltTy.bits .f32 = 32 ∨ (Rect.block (s := S5x64) S5x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S3200x64.size a ≤ S640000x64.size a
  hwx4_9 : ∀ i : grid4.Coords, EltTy.bits .f32 = 32 ∨ (Rect.block (s := S640000x64) S3200x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x64.size a ≤ S256x64.size a
  hwx5_1 : ∀ i : grid5.Coords, EltTy.bits .f32 = 32 ∨ (Rect.block (s := S256x64) S256x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S20000x64.size a
  hwx5_3 : ∀ i : grid5.Coords, EltTy.bits .f32 = 32 ∨ (Rect.block (s := S20000x64) S2000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3200x64.size a ≤ S640000x64.size a
  hwx6_0 : ∀ i : grid6.Coords, EltTy.bits .f32 = 32 ∨ (Rect.block (s := S640000x64) S3200x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3200x64.size a ≤ S640000x64.size a
  hwx6_1 : ∀ i : grid6.Coords, EltTy.bits .f32 = 32 ∨ (Rect.block (s := S640000x64) S3200x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S3200x5.size a ≤ S640000x5.size a
  hwx6_2 : ∀ i : grid6.Coords, EltTy.bits .f32 = 32 ∨ (Rect.block (s := S640000x5) S3200x5.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S5x64.size a ≤ S5x64.size a
  hwx6_5 : ∀ i : grid6.Coords, EltTy.bits .f32 = 32 ∨ (Rect.block (s := S5x64) S5x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x6.size a ≤ S64x6.size a
  hwx6_7 : ∀ i : grid6.Coords, EltTy.bits .f32 = 32 ∨ (Rect.block (s := S64x6) S64x6.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x6.size a ≤ S1x6.size a
  hwx6_8 : ∀ i : grid6.Coords, EltTy.bits .f32 = 32 ∨ (Rect.block (s := S1x6) S1x6.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S3200x6.size a ≤ S640000x6.size a
  hwx6_9 : ∀ i : grid6.Coords, EltTy.bits .f32 = 32 ∨ (Rect.block (s := S640000x6) S3200x6.size (cc6_transform_9 i) (hinb6_9 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x6_S640000x1_S640000x6_1_0_n_n_0_1_16 : GatherDims S20000x6 S640000x1 S640000x6 where
  offsetDims := [1]
  collapsedSliceDims := [0]
  operandBatchingDims := []
  startIndicesBatchingDims := []
  startIndexMap := [0]
  indexVectorDim := 1
  sliceSizes := ![1, 6]
  wf := gather_S20000x6_S640000x1_S640000x6_1_0_n_n_0_1_16_wf
def dot_S3200x6_S6x64_S3200x64_1_0_0_1_n_n : DotDims S3200x6 S6x64 S3200x64 where
  lhsContracting := [1]
  rhsContracting := [0]
  lhsNonContracting := [0]
  rhsNonContracting := [1]
  lhsBatch := []
  rhsBatch := []
  wf := dot_S3200x6_S6x64_S3200x64_1_0_0_1_n_n_wf
def dot_S3200x5_S5x64_S3200x64_1_0_0_1_n_n : DotDims S3200x5 S5x64 S3200x64 where
  lhsContracting := [1]
  rhsContracting := [0]
  lhsNonContracting := [0]
  rhsNonContracting := [1]
  lhsBatch := []
  rhsBatch := []
  wf := dot_S3200x5_S5x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S3200x64_S64x6_S3200x6_1_0_0_1_n_n : DotDims S3200x64 S64x6 S3200x6 where
  lhsContracting := [1]
  rhsContracting := [0]
  lhsNonContracting := [0]
  rhsNonContracting := [1]
  lhsBatch := []
  rhsBatch := []
  wf := dot_S3200x64_S64x6_S3200x6_1_0_0_1_n_n_wf
def scatter_S20000x6_S640000x1_S640000x6_1_0_0_1 : ScatterDims S20000x6 S640000x1 S640000x6 where
  updateWindowDims := [1]
  insertedWindowDims := [0]
  scatterDimsToOperandDims := [0]
  indexVectorDim := 1
  wf := scatter_S20000x6_S640000x1_S640000x6_1_0_0_1_wf

abbrev win0_0 : Pipeline.Window sig grid0 :=
  Pipeline.Window.ofSpec (Memref.whole main_v32) S3200x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S3200x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3200x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S6x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S6x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S3200x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v99) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v100) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v101) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v102) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v120) S3200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v127) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S3200x5.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v111) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v112) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S5x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v128) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v108) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v129) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v130) S3200x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v187) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v188) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v189) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v190) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v208) S3200x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v215) S3200x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S3200x5.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v199) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v200) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v201) S5x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v216) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v196) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v217) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v218) S3200x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v275) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v276) S256x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v277) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v278) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v288) S3200x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v295) S3200x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S3200x5.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v279) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v280) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v281) S5x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v296) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg13) S64x6.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v297) S1x6.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v298) S3200x6.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S20000x16 : Shape := ⟨2, ![20000, 16]⟩
abbrev S2x320000 : Shape := ⟨2, ![2, 320000]⟩
abbrev S320000x5 : Shape := ⟨2, ![320000, 5]⟩
abbrev S17x64 : Shape := ⟨2, ![17, 64]⟩
abbrev S64 : Shape := ⟨1, ![64]⟩
abbrev S64x64 : Shape := ⟨2, ![64, 64]⟩
abbrev S2x133x64 : Shape := ⟨3, ![2, 133, 64]⟩
abbrev S2x64 : Shape := ⟨2, ![2, 64]⟩
abbrev S2x64x64 : Shape := ⟨3, ![2, 64, 64]⟩
abbrev S133x64 : Shape := ⟨2, ![133, 64]⟩
abbrev S64x6 : Shape := ⟨2, ![64, 6]⟩
abbrev S6 : Shape := ⟨1, ![6]⟩
abbrev S3x4x64x64 : Shape := ⟨4, ![3, 4, 64, 64]⟩
abbrev S3x64 : Shape := ⟨2, ![3, 64]⟩
abbrev S20000x6 : Shape := ⟨2, ![20000, 6]⟩
abbrev S1x320000 : Shape := ⟨2, ![1, 320000]⟩
abbrev S320000 : Shape := ⟨1, ![320000]⟩
abbrev S640000 : Shape := ⟨1, ![640000]⟩
abbrev S640000x5 : Shape := ⟨2, ![640000, 5]⟩
abbrev S_ : Shape := ⟨0, ![]⟩
abbrev S20000 : Shape := ⟨1, ![20000]⟩
abbrev S640000x1 : Shape := ⟨2, ![640000, 1]⟩
abbrev S640000x6 : Shape := ⟨2, ![640000, 6]⟩
abbrev S640000x17 : Shape := ⟨2, ![640000, 17]⟩
abbrev S640000x64 : Shape := ⟨2, ![640000, 64]⟩
abbrev S1x64 : Shape := ⟨2, ![1, 64]⟩
abbrev S20000x64 : Shape := ⟨2, ![20000, 64]⟩
abbrev S1x4x64x64 : Shape := ⟨4, ![1, 4, 64, 64]⟩
abbrev S4x64x64 : Shape := ⟨3, ![4, 64, 64]⟩
abbrev S1x64x64 : Shape := ⟨3, ![1, 64, 64]⟩
abbrev S1x133x64 : Shape := ⟨3, ![1, 133, 64]⟩
abbrev S640000x133 : Shape := ⟨2, ![640000, 133]⟩
abbrev S1x6 : Shape := ⟨2, ![1, 6]⟩

abbrev nBuf : Space → Nat
  | .hbm => 449
  | .vmem => 0
  | .smem => 0
  | _ => 0

abbrev hbmTy0_0 (i : Nat) : BufTy := match i % 128 with
  | 0 => ⟨S20000x16, .f32⟩
  | 1 => ⟨S2x320000, .i32⟩
  | 2 => ⟨S320000x5, .f32⟩
  | 3 => ⟨S17x64, .f32⟩
  | 4 => ⟨S64, .f32⟩
  | 5 => ⟨S64x64, .f32⟩
  | 6 => ⟨S64, .f32⟩
  | 7 => ⟨S2x133x64, .f32⟩
  | 8 => ⟨S2x64, .f32⟩
  | 9 => ⟨S2x64x64, .f32⟩
  | 10 => ⟨S2x64, .f32⟩
  | 11 => ⟨S133x64, .f32⟩
  | 12 => ⟨S64, .f32⟩
  | 13 => ⟨S64x6, .f32⟩
  | 14 => ⟨S6, .f32⟩
  | 15 => ⟨S3x4x64x64, .f32⟩
  | 16 => ⟨S3x64, .f32⟩
  | 17 => ⟨S20000x6, .f32⟩
  | 18 => ⟨S1x320000, .i32⟩
  | 19 => ⟨S320000, .i32⟩
  | 20 => ⟨S1x320000, .i32⟩
  | 21 => ⟨S320000, .i32⟩
  | 22 => ⟨S640000, .i32⟩
  | 23 => ⟨S1x320000, .i32⟩
  | 24 => ⟨S320000, .i32⟩
  | 25 => ⟨S1x320000, .i32⟩
  | 26 => ⟨S320000, .i32⟩
  | 27 => ⟨S640000, .i32⟩
  | 28 => ⟨S640000x5, .f32⟩
  | 29 => ⟨S_, .f32⟩
  | 30 => ⟨S640000, .f32⟩
  | 31 => ⟨S_, .f32⟩
  | 32 => ⟨S20000, .f32⟩
  | 33 => ⟨S640000x1, .i32⟩
  | 34 => ⟨S20000, .f32⟩
  | 35 => ⟨S_, .f32⟩
  | 36 => ⟨S20000, .f32⟩
  | 37 => ⟨S20000, .i1⟩
  | 38 => ⟨S_, .f32⟩
  | 39 => ⟨S20000, .f32⟩
  | 40 => ⟨S20000, .i1⟩
  | 41 => ⟨S_, .f32⟩
  | 42 => ⟨S_, .f32⟩
  | 43 => ⟨S20000, .f32⟩
  | 44 => ⟨S20000, .f32⟩
  | 45 => ⟨S20000, .f32⟩
  | 46 => ⟨S_, .f32⟩
  | 47 => ⟨S_, .f32⟩
  | 48 => ⟨S20000, .f32⟩
  | 49 => ⟨S20000, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000, .f32⟩
  | 68 => ⟨S640000, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000x6, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x6, .f32⟩
  | 87 => ⟨S640000x17, .f32⟩
  | 88 => ⟨S640000x64, .f32⟩
  | 89 => ⟨S1x64, .f32⟩
  | 90 => ⟨S640000x64, .f32⟩
  | 91 => ⟨S640000x64, .f32⟩
  | 92 => ⟨S_, .f32⟩
  | 93 => ⟨S640000x64, .f32⟩
  | 94 => ⟨S640000x64, .f32⟩
  | 95 => ⟨S640000x64, .f32⟩
  | 96 => ⟨S1x64, .f32⟩
  | 97 => ⟨S640000x64, .f32⟩
  | 98 => ⟨S640000x64, .f32⟩
  | 99 => ⟨S_, .f32⟩
  | 100 => ⟨S20000x64, .f32⟩
  | 101 => ⟨S640000x1, .i32⟩
  | 102 => ⟨S20000x64, .f32⟩
  | 103 => ⟨S_, .f32⟩
  | 104 => ⟨S20000x64, .f32⟩
  | 105 => ⟨S20000x64, .f32⟩
  | 106 => ⟨S1x4x64x64, .f32⟩
  | 107 => ⟨S4x64x64, .f32⟩
  | 108 => ⟨S1x64, .f32⟩
  | 109 => ⟨S64, .f32⟩
  | 110 => ⟨S1x64x64, .f32⟩
  | 111 => ⟨S64x64, .f32⟩
  | 112 => ⟨S20000x64, .f32⟩
  | 113 => ⟨S640000x1, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x64, .f32⟩
  | 123 => ⟨S640000x64, .f32⟩
  | 124 => ⟨S640000x64, .f32⟩
  | 125 => ⟨S_, .f32⟩
  | 126 => ⟨S20000x64, .f32⟩
  | 127 => ⟨S640000x1, .i32⟩
  | _ => ⟨S20000x16, .f32⟩

abbrev hbmTy0_1 (i : Nat) : BufTy := match i % 128 with
  | 0 => ⟨S20000x64, .f32⟩
  | 1 => ⟨S1x64x64, .f32⟩
  | 2 => ⟨S64x64, .f32⟩
  | 3 => ⟨S20000x64, .f32⟩
  | 4 => ⟨S20000x64, .f32⟩
  | 5 => ⟨S640000x1, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x64, .f32⟩
  | 15 => ⟨S640000x64, .f32⟩
  | 16 => ⟨S640000x64, .f32⟩
  | 17 => ⟨S_, .f32⟩
  | 18 => ⟨S20000x64, .f32⟩
  | 19 => ⟨S640000x1, .i32⟩
  | 20 => ⟨S20000x64, .f32⟩
  | 21 => ⟨S1x64x64, .f32⟩
  | 22 => ⟨S64x64, .f32⟩
  | 23 => ⟨S20000x64, .f32⟩
  | 24 => ⟨S20000x64, .f32⟩
  | 25 => ⟨S640000x1, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x64, .f32⟩
  | 35 => ⟨S640000x64, .f32⟩
  | 36 => ⟨S640000x64, .f32⟩
  | 37 => ⟨S_, .f32⟩
  | 38 => ⟨S20000x64, .f32⟩
  | 39 => ⟨S640000x1, .i32⟩
  | 40 => ⟨S20000x64, .f32⟩
  | 41 => ⟨S1x64x64, .f32⟩
  | 42 => ⟨S64x64, .f32⟩
  | 43 => ⟨S20000x64, .f32⟩
  | 44 => ⟨S20000x64, .f32⟩
  | 45 => ⟨S1x64, .f32⟩
  | 46 => ⟨S20000x64, .f32⟩
  | 47 => ⟨S20000x64, .f32⟩
  | 48 => ⟨S_, .f32⟩
  | 49 => ⟨S20000x64, .f32⟩
  | 50 => ⟨S20000x64, .f32⟩
  | 51 => ⟨S1x133x64, .f32⟩
  | 52 => ⟨S133x64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000x64, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x64, .f32⟩
  | 77 => ⟨S640000x133, .f32⟩
  | 78 => ⟨S640000x64, .f32⟩
  | 79 => ⟨S1x64, .f32⟩
  | 80 => ⟨S640000x64, .f32⟩
  | 81 => ⟨S640000x64, .f32⟩
  | 82 => ⟨S_, .f32⟩
  | 83 => ⟨S640000x64, .f32⟩
  | 84 => ⟨S640000x64, .f32⟩
  | 85 => ⟨S640000x64, .f32⟩
  | 86 => ⟨S1x64, .f32⟩
  | 87 => ⟨S640000x64, .f32⟩
  | 88 => ⟨S640000x64, .f32⟩
  | 89 => ⟨S_, .f32⟩
  | 90 => ⟨S20000x64, .f32⟩
  | 91 => ⟨S640000x1, .i32⟩
  | 92 => ⟨S20000x64, .f32⟩
  | 93 => ⟨S_, .f32⟩
  | 94 => ⟨S20000x64, .f32⟩
  | 95 => ⟨S20000x64, .f32⟩
  | 96 => ⟨S1x4x64x64, .f32⟩
  | 97 => ⟨S4x64x64, .f32⟩
  | 98 => ⟨S1x64, .f32⟩
  | 99 => ⟨S64, .f32⟩
  | 100 => ⟨S1x64x64, .f32⟩
  | 101 => ⟨S64x64, .f32⟩
  | 102 => ⟨S20000x64, .f32⟩
  | 103 => ⟨S640000x1, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x64, .f32⟩
  | 113 => ⟨S640000x64, .f32⟩
  | 114 => ⟨S640000x64, .f32⟩
  | 115 => ⟨S_, .f32⟩
  | 116 => ⟨S20000x64, .f32⟩
  | 117 => ⟨S640000x1, .i32⟩
  | 118 => ⟨S20000x64, .f32⟩
  | 119 => ⟨S1x64x64, .f32⟩
  | 120 => ⟨S64x64, .f32⟩
  | 121 => ⟨S20000x64, .f32⟩
  | 122 => ⟨S20000x64, .f32⟩
  | 123 => ⟨S640000x1, .f32⟩
  | 124 => ⟨S_, .i32⟩
  | 125 => ⟨S640000, .i32⟩
  | 126 => ⟨S640000, .i1⟩
  | 127 => ⟨S_, .i32⟩
  | _ => ⟨S20000x16, .f32⟩

abbrev hbmTy0_2 (i : Nat) : BufTy := match i % 128 with
  | 0 => ⟨S640000, .i32⟩
  | 1 => ⟨S640000, .i32⟩
  | 2 => ⟨S640000, .i32⟩
  | 3 => ⟨S640000x1, .i32⟩
  | 4 => ⟨S640000x64, .f32⟩
  | 5 => ⟨S640000x64, .f32⟩
  | 6 => ⟨S640000x64, .f32⟩
  | 7 => ⟨S_, .f32⟩
  | 8 => ⟨S20000x64, .f32⟩
  | 9 => ⟨S640000x1, .i32⟩
  | 10 => ⟨S20000x64, .f32⟩
  | 11 => ⟨S1x64x64, .f32⟩
  | 12 => ⟨S64x64, .f32⟩
  | 13 => ⟨S20000x64, .f32⟩
  | 14 => ⟨S20000x64, .f32⟩
  | 15 => ⟨S640000x1, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x64, .f32⟩
  | 25 => ⟨S640000x64, .f32⟩
  | 26 => ⟨S640000x64, .f32⟩
  | 27 => ⟨S_, .f32⟩
  | 28 => ⟨S20000x64, .f32⟩
  | 29 => ⟨S640000x1, .i32⟩
  | 30 => ⟨S20000x64, .f32⟩
  | 31 => ⟨S1x64x64, .f32⟩
  | 32 => ⟨S64x64, .f32⟩
  | 33 => ⟨S20000x64, .f32⟩
  | 34 => ⟨S20000x64, .f32⟩
  | 35 => ⟨S1x64, .f32⟩
  | 36 => ⟨S20000x64, .f32⟩
  | 37 => ⟨S20000x64, .f32⟩
  | 38 => ⟨S_, .f32⟩
  | 39 => ⟨S20000x64, .f32⟩
  | 40 => ⟨S20000x64, .f32⟩
  | 41 => ⟨S1x133x64, .f32⟩
  | 42 => ⟨S133x64, .f32⟩
  | 43 => ⟨S1x64, .f32⟩
  | 44 => ⟨S64, .f32⟩
  | 45 => ⟨S1x64x64, .f32⟩
  | 46 => ⟨S64x64, .f32⟩
  | 47 => ⟨S1x64, .f32⟩
  | 48 => ⟨S64, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x64, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x64, .f32⟩
  | 67 => ⟨S640000x133, .f32⟩
  | 68 => ⟨S640000x64, .f32⟩
  | 69 => ⟨S1x64, .f32⟩
  | 70 => ⟨S640000x64, .f32⟩
  | 71 => ⟨S640000x64, .f32⟩
  | 72 => ⟨S_, .f32⟩
  | 73 => ⟨S640000x64, .f32⟩
  | 74 => ⟨S640000x64, .f32⟩
  | 75 => ⟨S640000x64, .f32⟩
  | 76 => ⟨S1x64, .f32⟩
  | 77 => ⟨S640000x64, .f32⟩
  | 78 => ⟨S640000x64, .f32⟩
  | 79 => ⟨S_, .f32⟩
  | 80 => ⟨S20000x64, .f32⟩
  | 81 => ⟨S640000x1, .i32⟩
  | 82 => ⟨S20000x64, .f32⟩
  | 83 => ⟨S_, .f32⟩
  | 84 => ⟨S20000x64, .f32⟩
  | 85 => ⟨S20000x64, .f32⟩
  | 86 => ⟨S1x4x64x64, .f32⟩
  | 87 => ⟨S4x64x64, .f32⟩
  | 88 => ⟨S1x64, .f32⟩
  | 89 => ⟨S64, .f32⟩
  | 90 => ⟨S1x64x64, .f32⟩
  | 91 => ⟨S64x64, .f32⟩
  | 92 => ⟨S20000x64, .f32⟩
  | 93 => ⟨S640000x1, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x64, .f32⟩
  | 103 => ⟨S640000x64, .f32⟩
  | 104 => ⟨S640000x64, .f32⟩
  | 105 => ⟨S_, .f32⟩
  | 106 => ⟨S20000x64, .f32⟩
  | 107 => ⟨S640000x1, .i32⟩
  | 108 => ⟨S20000x64, .f32⟩
  | 109 => ⟨S1x64x64, .f32⟩
  | 110 => ⟨S64x64, .f32⟩
  | 111 => ⟨S20000x64, .f32⟩
  | 112 => ⟨S20000x64, .f32⟩
  | 113 => ⟨S640000x1, .f32⟩
  | 114 => ⟨S_, .i32⟩
  | 115 => ⟨S640000, .i32⟩
  | 116 => ⟨S640000, .i1⟩
  | 117 => ⟨S_, .i32⟩
  | 118 => ⟨S640000, .i32⟩
  | 119 => ⟨S640000, .i32⟩
  | 120 => ⟨S640000, .i32⟩
  | 121 => ⟨S640000x1, .i32⟩
  | 122 => ⟨S640000x64, .f32⟩
  | 123 => ⟨S640000x64, .f32⟩
  | 124 => ⟨S640000x64, .f32⟩
  | 125 => ⟨S_, .f32⟩
  | 126 => ⟨S20000x64, .f32⟩
  | 127 => ⟨S640000x1, .i32⟩
  | _ => ⟨S20000x16, .f32⟩

abbrev hbmTy0_3 (i : Nat) : BufTy := match i % 128 with
  | 0 => ⟨S20000x64, .f32⟩
  | 1 => ⟨S1x64x64, .f32⟩
  | 2 => ⟨S64x64, .f32⟩
  | 3 => ⟨S20000x64, .f32⟩
  | 4 => ⟨S20000x64, .f32⟩
  | 5 => ⟨S640000x1, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x64, .f32⟩
  | 15 => ⟨S640000x64, .f32⟩
  | 16 => ⟨S640000x64, .f32⟩
  | 17 => ⟨S_, .f32⟩
  | 18 => ⟨S20000x64, .f32⟩
  | 19 => ⟨S640000x1, .i32⟩
  | 20 => ⟨S20000x64, .f32⟩
  | 21 => ⟨S1x64x64, .f32⟩
  | 22 => ⟨S64x64, .f32⟩
  | 23 => ⟨S20000x64, .f32⟩
  | 24 => ⟨S20000x64, .f32⟩
  | 25 => ⟨S1x64, .f32⟩
  | 26 => ⟨S20000x64, .f32⟩
  | 27 => ⟨S20000x64, .f32⟩
  | 28 => ⟨S_, .f32⟩
  | 29 => ⟨S20000x64, .f32⟩
  | 30 => ⟨S20000x64, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x64, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000x64, .f32⟩
  | 49 => ⟨S640000x133, .f32⟩
  | 50 => ⟨S640000x64, .f32⟩
  | 51 => ⟨S1x64, .f32⟩
  | 52 => ⟨S640000x64, .f32⟩
  | 53 => ⟨S640000x64, .f32⟩
  | 54 => ⟨S_, .f32⟩
  | 55 => ⟨S640000x64, .f32⟩
  | 56 => ⟨S640000x64, .f32⟩
  | 57 => ⟨S640000x6, .f32⟩
  | 58 => ⟨S1x6, .f32⟩
  | 59 => ⟨S640000x6, .f32⟩
  | 60 => ⟨S640000x6, .f32⟩
  | 61 => ⟨S_, .f32⟩
  | 62 => ⟨S20000x6, .f32⟩
  | 63 => ⟨S640000x1, .i32⟩
  | 64 => ⟨S20000x6, .f32⟩
  | _ => ⟨S20000x16, .f32⟩

abbrev hbmTy (i : Nat) : BufTy := match i / 128 with
  | 0 => hbmTy0_0 i
  | 1 => hbmTy0_1 i
  | 2 => hbmTy0_2 i
  | 3 => hbmTy0_3 i
  | _ => ⟨S20000x16, .f32⟩

abbrev bufTy : (tb : Table) → Fin (tcTables nBuf tb) → BufTy
  | .hbm, ⟨i, _⟩ => hbmTy i
  | _, _ => ⟨S20000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call2_cst : Ref sig .tc := ⟨.hbm, 92, rfl⟩
abbrev main_call2_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call3_cst : Ref sig .tc := ⟨.hbm, 103, rfl⟩
abbrev main_call3_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_13 : Ref sig .tc := ⟨.hbm, 114, rfl⟩
abbrev main_v74 : Ref sig .tc := ⟨.hbm, 115, rfl⟩
abbrev main_v75 : Ref sig .tc := ⟨.hbm, 116, rfl⟩
abbrev main_c_14 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_c_16 : Ref sig .tc := ⟨.hbm, 134, rfl⟩
abbrev main_v91 : Ref sig .tc := ⟨.hbm, 135, rfl⟩
abbrev main_v92 : Ref sig .tc := ⟨.hbm, 136, rfl⟩
abbrev main_c_17 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_18 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_19 : Ref sig .tc := ⟨.hbm, 154, rfl⟩
abbrev main_v108 : Ref sig .tc := ⟨.hbm, 155, rfl⟩
abbrev main_v109 : Ref sig .tc := ⟨.hbm, 156, rfl⟩
abbrev main_c_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_21 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_call4_cst : Ref sig .tc := ⟨.hbm, 176, rfl⟩
abbrev main_call4_v0 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_22 : Ref sig .tc := ⟨.hbm, 187, rfl⟩
abbrev main_v136 : Ref sig .tc := ⟨.hbm, 188, rfl⟩
abbrev main_v137 : Ref sig .tc := ⟨.hbm, 189, rfl⟩
abbrev main_c_23 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c_24 : Ref sig .tc := ⟨.hbm, 196, rfl⟩
abbrev main_v143 : Ref sig .tc := ⟨.hbm, 197, rfl⟩
abbrev main_v144 : Ref sig .tc := ⟨.hbm, 198, rfl⟩
abbrev main_c_25 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_call5_cst : Ref sig .tc := ⟨.hbm, 210, rfl⟩
abbrev main_call5_v0 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_26 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_call6_cst : Ref sig .tc := ⟨.hbm, 221, rfl⟩
abbrev main_call6_v0 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_27 : Ref sig .tc := ⟨.hbm, 232, rfl⟩
abbrev main_v172 : Ref sig .tc := ⟨.hbm, 233, rfl⟩
abbrev main_v173 : Ref sig .tc := ⟨.hbm, 234, rfl⟩
abbrev main_c_28 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_cst_29 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_c_30 : Ref sig .tc := ⟨.hbm, 252, rfl⟩
abbrev main_v189 : Ref sig .tc := ⟨.hbm, 253, rfl⟩
abbrev main_v190 : Ref sig .tc := ⟨.hbm, 254, rfl⟩
abbrev main_c_31 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_cst_32 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_c_33 : Ref sig .tc := ⟨.hbm, 272, rfl⟩
abbrev main_v206 : Ref sig .tc := ⟨.hbm, 273, rfl⟩
abbrev main_v207 : Ref sig .tc := ⟨.hbm, 274, rfl⟩
abbrev main_c_34 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_35 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_call7_cst : Ref sig .tc := ⟨.hbm, 294, rfl⟩
abbrev main_call7_v0 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_c_36 : Ref sig .tc := ⟨.hbm, 305, rfl⟩
abbrev main_v234 : Ref sig .tc := ⟨.hbm, 306, rfl⟩
abbrev main_v235 : Ref sig .tc := ⟨.hbm, 307, rfl⟩
abbrev main_c_37 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_c_38 : Ref sig .tc := ⟨.hbm, 314, rfl⟩
abbrev main_v241 : Ref sig .tc := ⟨.hbm, 315, rfl⟩
abbrev main_v242 : Ref sig .tc := ⟨.hbm, 316, rfl⟩
abbrev main_c_39 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_call8_cst : Ref sig .tc := ⟨.hbm, 328, rfl⟩
abbrev main_call8_v0 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_cst_40 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_call9_cst : Ref sig .tc := ⟨.hbm, 339, rfl⟩
abbrev main_call9_v0 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_c_41 : Ref sig .tc := ⟨.hbm, 350, rfl⟩
abbrev main_v270 : Ref sig .tc := ⟨.hbm, 351, rfl⟩
abbrev main_v271 : Ref sig .tc := ⟨.hbm, 352, rfl⟩
abbrev main_c_42 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_cst_43 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_c_44 : Ref sig .tc := ⟨.hbm, 370, rfl⟩
abbrev main_v287 : Ref sig .tc := ⟨.hbm, 371, rfl⟩
abbrev main_v288 : Ref sig .tc := ⟨.hbm, 372, rfl⟩
abbrev main_c_45 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_cst_46 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_c_47 : Ref sig .tc := ⟨.hbm, 390, rfl⟩
abbrev main_v304 : Ref sig .tc := ⟨.hbm, 391, rfl⟩
abbrev main_v305 : Ref sig .tc := ⟨.hbm, 392, rfl⟩
abbrev main_c_48 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_cst_49 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_call10_cst : Ref sig .tc := ⟨.hbm, 412, rfl⟩
abbrev main_call10_v0 : Ref sig .tc := ⟨.hbm, 413, rfl⟩
abbrev main_v323 : Ref sig .tc := ⟨.hbm, 414, rfl⟩
abbrev main_c_50 : Ref sig .tc := ⟨.hbm, 415, rfl⟩
abbrev main_v324 : Ref sig .tc := ⟨.hbm, 416, rfl⟩
abbrev main_v325 : Ref sig .tc := ⟨.hbm, 417, rfl⟩
abbrev main_c_51 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_c_52 : Ref sig .tc := ⟨.hbm, 424, rfl⟩
abbrev main_v331 : Ref sig .tc := ⟨.hbm, 425, rfl⟩
abbrev main_v332 : Ref sig .tc := ⟨.hbm, 426, rfl⟩
abbrev main_c_53 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_v336 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_call11_cst : Ref sig .tc := ⟨.hbm, 438, rfl⟩
abbrev main_call11_v0 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_cst_54 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩

abbrev nD : Nat := 1
abbrev τ : Topo := Topo.v7x

variable {F : FTy → Type} [FloatOps F]

class Facts₀ : Prop where
  slices_S20000x16_S20000x6_0_4 : S20000x16.Slices ![0, 4] S20000x6
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S320000_S640000_d0 : Shape.Concatenates [S320000, S320000] S640000 0
  concatenates_S320000x5_S320000x5_S640000x5_d0 : Shape.Concatenates [S320000x5, S320000x5] S640000x5 0
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  concatenates_S640000x6_S640000x6_S640000x5_S640000x17_d1 : Shape.Concatenates [S640000x6, S640000x6, S640000x5] S640000x17 1
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  bcast_S_S20000x64 : S_.BroadcastsInDim S20000x64 (![] : Fin 0 → Fin S20000x64.rank)
  slices_S3x4x64x64_S1x4x64x64_0_0_0_0 : S3x4x64x64.Slices ![0, 0, 0, 0] S1x4x64x64
  shapeCasts_S1x4x64x64_S4x64x64 : S1x4x64x64.ShapeCasts S4x64x64
  slices_S3x64_S1x64_0_0 : S3x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S640000x1_S640000x64_0_1 : S640000x1.BroadcastsInDim S640000x64 (![0, 1] : Fin 2 → Fin S640000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S1x64_S20000x64_0_1 : S1x64.BroadcastsInDim S20000x64 (![0, 1] : Fin 2 → Fin S20000x64.rank)
  slices_S2x133x64_S1x133x64_0_0_0 : S2x133x64.Slices ![0, 0, 0] S1x133x64
  shapeCasts_S1x133x64_S133x64 : S1x133x64.ShapeCasts S133x64
  slices_S2x64_S1x64_0_0 : S2x64.Slices ![0, 0] S1x64
  slices_S2x64x64_S1x64x64_0_0_0 : S2x64x64.Slices ![0, 0, 0] S1x64x64
  concatenates_S640000x64_S640000x64_S640000x5_S640000x133_d1 : Shape.Concatenates [S640000x64, S640000x64, S640000x5] S640000x133 1
  slices_S3x4x64x64_S1x4x64x64_1_0_0_0 : S3x4x64x64.Slices ![1, 0, 0, 0] S1x4x64x64
  slices_S3x64_S1x64_1_0 : S3x64.Slices ![1, 0] S1x64
  slices_S2x133x64_S1x133x64_1_0_0 : S2x133x64.Slices ![1, 0, 0] S1x133x64
  slices_S2x64_S1x64_1_0 : S2x64.Slices ![1, 0] S1x64
  slices_S2x64x64_S1x64x64_1_0_0 : S2x64x64.Slices ![1, 0, 0] S1x64x64
  slices_S3x4x64x64_S1x4x64x64_2_0_0_0 : S3x4x64x64.Slices ![2, 0, 0, 0] S1x4x64x64
  slices_S3x64_S1x64_2_0 : S3x64.Slices ![2, 0] S1x64
  bcast_S6_S1x6_1 : S6.BroadcastsInDim S1x6 (![1] : Fin 1 → Fin S1x6.rank)
  bcast_S1x6_S640000x6_0_1 : S1x6.BroadcastsInDim S640000x6 (![0, 1] : Fin 2 → Fin S640000x6.rank)
  bcast_S_S20000x6 : S_.BroadcastsInDim S20000x6 (![] : Fin 0 → Fin S20000x6.rank)
  scatter_S20000_S640000x1_S640000_n_0_0_1_wf : ScatterDims.WF S20000 S640000x1 S640000 [] [0] [0] 1
  gather_S20000_S640000x1_S640000_n_0_n_n_0_1_1_wf : GatherDims.WF S20000 S640000x1 S640000 [] [0] [] [0] [] 1 ![1]
  gather_S20000x6_S640000x1_S640000x6_1_0_n_n_0_1_16_wf : GatherDims.WF S20000x6 S640000x1 S640000x6 [1] [0] [] [0] [] 1 ![1, 6]
  dot_S640000x17_S17x64_S640000x64_1_0_0_1_n_n_wf : DotDims.WF S640000x17 S17x64 S640000x64 [1] [0] [0] [1] [] []
  dot_S640000x64_S64x64_S640000x64_1_0_0_1_n_n_wf : DotDims.WF S640000x64 S64x64 S640000x64 [1] [0] [0] [1] [] []
  scatter_S20000x64_S640000x1_S640000x64_1_0_0_1_wf : ScatterDims.WF S20000x64 S640000x1 S640000x64 [1] [0] [0] 1
  dot_S20000x64_S64x64_S20000x64_1_0_0_1_n_n_wf : DotDims.WF S20000x64 S64x64 S20000x64 [1] [0] [0] [1] [] []
  gather_S20000x64_S640000x1_S640000x64_1_0_n_n_0_1_164_wf : GatherDims.WF S20000x64 S640000x1 S640000x64 [1] [0] [] [0] [] 1 ![1, 64]
  dot_S640000x133_S133x64_S640000x64_1_0_0_1_n_n_wf : DotDims.WF S640000x133 S133x64 S640000x64 [1] [0] [0] [1] [] []
  dot_S640000x64_S64x6_S640000x6_1_0_0_1_n_n_wf : DotDims.WF S640000x64 S64x6 S640000x6 [1] [0] [0] [1] [] []
  scatter_S20000x6_S640000x1_S640000x6_1_0_0_1_wf : ScatterDims.WF S20000x6 S640000x1 S640000x6 [1] [0] [0] 1

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def gather_S20000x6_S640000x1_S640000x6_1_0_n_n_0_1_16 : GatherDims S20000x6 S640000x1 S640000x6 where
  offsetDims := [1]
  collapsedSliceDims := [0]
  operandBatchingDims := []
  startIndicesBatchingDims := []
  startIndexMap := [0]
  indexVectorDim := 1
  sliceSizes := ![1, 6]
  wf := gather_S20000x6_S640000x1_S640000x6_1_0_n_n_0_1_16_wf
def dot_S640000x17_S17x64_S640000x64_1_0_0_1_n_n : DotDims S640000x17 S17x64 S640000x64 where
  lhsContracting := [1]
  rhsContracting := [0]
  lhsNonContracting := [0]
  rhsNonContracting := [1]
  lhsBatch := []
  rhsBatch := []
  wf := dot_S640000x17_S17x64_S640000x64_1_0_0_1_n_n_wf
def dot_S640000x64_S64x64_S640000x64_1_0_0_1_n_n : DotDims S640000x64 S64x64 S640000x64 where
  lhsContracting := [1]
  rhsContracting := [0]
  lhsNonContracting := [0]
  rhsNonContracting := [1]
  lhsBatch := []
  rhsBatch := []
  wf := dot_S640000x64_S64x64_S640000x64_1_0_0_1_n_n_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def dot_S640000x133_S133x64_S640000x64_1_0_0_1_n_n : DotDims S640000x133 S133x64 S640000x64 where
  lhsContracting := [1]
  rhsContracting := [0]
  lhsNonContracting := [0]
  rhsNonContracting := [1]
  lhsBatch := []
  rhsBatch := []
  wf := dot_S640000x133_S133x64_S640000x64_1_0_0_1_n_n_wf
def dot_S640000x64_S64x6_S640000x6_1_0_0_1_n_n : DotDims S640000x64 S64x6 S640000x6 where
  lhsContracting := [1]
  rhsContracting := [0]
  lhsNonContracting := [0]
  rhsNonContracting := [1]
  lhsBatch := []
  rhsBatch := []
  wf := dot_S640000x64_S64x6_S640000x6_1_0_0_1_n_n_wf
def scatter_S20000x6_S640000x1_S640000x6_1_0_0_1 : ScatterDims S20000x6 S640000x1 S640000x6 where
  updateWindowDims := [1]
  insertedWindowDims := [0]
  scatterDimsToOperandDims := [0]
  indexVectorDim := 1
  wf := scatter_S20000x6_S640000x1_S640000x6_1_0_0_1_wf

class Facts : Prop extends Facts₀ where

variable [Facts]
-- ==== Proof.K.D0.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 0: the edge MLP `cc0__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is a whole staging block -/

abbrev r0_0 : Rect S3200x64 := Rect.unit (s := S3200x64) ![0, 0] S3200x64.size inb_S3200x64_S3200x64_0_0
abbrev r0_1 : Rect S3200x6 := Rect.unit (s := S3200x6) ![0, 0] S3200x6.size inb_S3200x6_S3200x6_0_0
abbrev r0_2 : Rect S3200x5 := Rect.unit (s := S3200x5) ![0, 0] S3200x5.size inb_S3200x5_S3200x5_0_0
abbrev r0_3 : Rect S6x64 := Rect.unit (s := S6x64) ![0, 0] S6x64.size inb_S6x64_S6x64_0_0
abbrev r0_4 : Rect S5x64 := Rect.unit (s := S5x64) ![0, 0] S5x64.size inb_S5x64_S5x64_0_0
abbrev r0_5 : Rect S1x64 := Rect.unit (s := S1x64) ![0, 0] S1x64.size inb_S1x64_S1x64_0_0
abbrev r0_6 : Rect S64x64 := Rect.unit (s := S64x64) ![0, 0] S64x64.size inb_S64x64_S64x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out0_9 (x0 : Vec F S3200x6 .f32) (x1 : Vec F S3200x6 .f32) (x2 : Vec F S3200x5 .f32) (x3 : Vec F S6x64 .f32) (x4 : Vec F S6x64 .f32) (x5 : Vec F S5x64 .f32) (x6 : Vec F S1x64 .f32) (x7 : Vec F S64x64 .f32) (x8 : Vec F S1x64 .f32) : Vec F S3200x64 .f32 :=
  View.canon [⟨r0_0, k0_pay1 (k0_pay2 (View.ld x0 r0_1) (View.ld x1 r0_1) (View.ld x2 r0_2) (View.ld x3 r0_3) (View.ld x4 r0_3) (View.ld x5 r0_4) (View.ld x6 r0_5) (View.ld x7 r0_6)) (k0_pay3 (View.ld x8 r0_5))⟩]

/-! ## The pipeline's proof data -/

/-- Region 0's proof data on core `c`: every window's array is what the region finds (`V`); after the body at
    point `t` an input's staging buffer still holds its block and the output's holds `out0_9` of the nine
    input blocks; the invariant is the plain one (the scoped buffers and the generator register ride along
    untouched); full shares; no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (a projection of the definition). -/
theorem A_eq0 (c : Dev nD) (w : Fin cfg0.W) : (dat0 V c).A w = V c (Pipeline.arrRef spec0 w) := by
  dsimp only [dat0]

/-- What the body leaves, window by window (the `match` reduced at a literal window number). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

end Cert.Kernel.Hand
-- ==== Proof.K.D1.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 1: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: every access is a whole staging block -/

/-- the output block (stored once, whole) -/
abbrev r1_0 : Rect S2000x64 := Rect.unit (s := S2000x64) ![0, 0] S2000x64.size inb_S2000x64_S2000x64_0_0
/-- the row block of the left operand -/
abbrev r1_1 : Rect S2000x256 := Rect.unit (s := S2000x256) ![0, 0] S2000x256.size inb_S2000x256_S2000x256_0_0
/-- the weight matrix -/
abbrev r1_2 : Rect S256x64 := Rect.unit (s := S256x64) ![0, 0] S256x64.size inb_S256x64_S256x64_0_0
/-- the bias row -/
abbrev r1_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k1_pay1`, operands rounded to bf16 before the product). -/
def out1_3 (x0 : Vec F S2000x256 .f32) (x1 : Vec F S256x64 .f32) (x2 : Vec F S1x64 .f32) : Vec F S2000x64 .f32 :=
  View.canon [⟨r1_0, k1_pay1 (View.ld x0 r1_1) (View.ld x1 r1_2) (View.ld x2 r1_3)⟩]

/-! ## The proof data of the pipeline -/

/-- Pipeline 1 on core `c`: the arrays are `V`'s; after the body at point `t` an input's staging block is its
    block of the array, unchanged, and the output's is `out1_3` of the three input blocks; the invariant is the
    untouched scoped rest with the generator register; every share is full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The arrays of the proof data are `V`'s (a projection, reduced without unfolding `V`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.Kernel.Hand

end
-- ==== Proof.K.D2.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 2: the edge MLP `cc2__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body reads and writes: each is a whole staging block -/

abbrev r2_0 : Rect S3200x64 := Rect.unit (s := S3200x64) ![0, 0] S3200x64.size inb_S3200x64_S3200x64_0_0
abbrev r2_1 : Rect S3200x5 := Rect.unit (s := S3200x5) ![0, 0] S3200x5.size inb_S3200x5_S3200x5_0_0
abbrev r2_2 : Rect S64x64 := Rect.unit (s := S64x64) ![0, 0] S64x64.size inb_S64x64_S64x64_0_0
abbrev r2_3 : Rect S5x64 := Rect.unit (s := S5x64) ![0, 0] S5x64.size inb_S5x64_S5x64_0_0
abbrev r2_4 : Rect S1x64 := Rect.unit (s := S1x64) ![0, 0] S1x64.size inb_S1x64_S1x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out2_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) : Vec F S3200x64 .f32 :=
  View.canon [⟨r2_0, k2_pay1 (k2_pay2 (View.ld x0 r2_0) (View.ld x1 r2_0) (View.ld x2 r2_1) (View.ld x3 r2_2) (View.ld x4 r2_2) (View.ld x5 r2_3) (View.ld x6 r2_4) (View.ld x7 r2_2)) (k2_pay3 (View.ld x8 r2_4))⟩]

/-! ## The pipeline's proof data -/

/-- Region 2's proof data on core `c`: every window's array is what the region finds (`V`); after the body at
    point `t` an input's staging buffer still holds its block and the output's holds `out2_9` of the nine
    input blocks; the invariant is the plain one (the scoped buffers and the generator register ride along
    untouched); full shares; no core owes another anything. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents (a projection of the definition). -/
theorem A_eq2 (c : Dev nD) (w : Fin cfg2.W) : (dat2 V c).A w = V c (Pipeline.arrRef spec2 w) := by
  dsimp only [dat2]

/-- What the body leaves, window by window (the `match` reduced at a literal window number). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Cert.Kernel.Hand
-- ==== Proof.K.D3.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 3: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body touches: every access is a whole staging block -/

/-- the output block (stored once, whole) -/
abbrev r3_0 : Rect S2000x64 := Rect.unit (s := S2000x64) ![0, 0] S2000x64.size inb_S2000x64_S2000x64_0_0
/-- the row block of the left operand -/
abbrev r3_1 : Rect S2000x256 := Rect.unit (s := S2000x256) ![0, 0] S2000x256.size inb_S2000x256_S2000x256_0_0
/-- the weight matrix -/
abbrev r3_2 : Rect S256x64 := Rect.unit (s := S256x64) ![0, 0] S256x64.size inb_S256x64_S256x64_0_0
/-- the bias row -/
abbrev r3_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k3_pay1`, operands rounded to bf16 before the product). -/
def out3_3 (x0 : Vec F S2000x256 .f32) (x1 : Vec F S256x64 .f32) (x2 : Vec F S1x64 .f32) : Vec F S2000x64 .f32 :=
  View.canon [⟨r3_0, k3_pay1 (View.ld x0 r3_1) (View.ld x1 r3_2) (View.ld x2 r3_3)⟩]

/-! ## The proof data of the pipeline -/

/-- Pipeline 3 on core `c`: the arrays are `V`'s; after the body at point `t` an input's staging block is its
    block of the array, unchanged, and the output's is `out3_3` of the three input blocks; the invariant is the
    untouched scoped rest with the generator register; every share is full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The arrays of the proof data are `V`'s (a projection, reduced without unfolding `V`). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.Kernel.Hand

end
-- ==== Proof.K.D4.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 4: the edge MLP `cc4__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes: each is a whole staging block -/

abbrev r4_0 : Rect S3200x64 := Rect.unit (s := S3200x64) ![0, 0] S3200x64.size inb_S3200x64_S3200x64_0_0
abbrev r4_1 : Rect S3200x5 := Rect.unit (s := S3200x5) ![0, 0] S3200x5.size inb_S3200x5_S3200x5_0_0
abbrev r4_2 : Rect S64x64 := Rect.unit (s := S64x64) ![0, 0] S64x64.size inb_S64x64_S64x64_0_0
abbrev r4_3 : Rect S5x64 := Rect.unit (s := S5x64) ![0, 0] S5x64.size inb_S5x64_S5x64_0_0
abbrev r4_4 : Rect S1x64 := Rect.unit (s := S1x64) ![0, 0] S1x64.size inb_S1x64_S1x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out4_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) : Vec F S3200x64 .f32 :=
  View.canon [⟨r4_0, k4_pay1 (k4_pay2 (View.ld x0 r4_0) (View.ld x1 r4_0) (View.ld x2 r4_1) (View.ld x3 r4_2) (View.ld x4 r4_2) (View.ld x5 r4_3) (View.ld x6 r4_4) (View.ld x7 r4_2)) (k4_pay3 (View.ld x8 r4_4))⟩]

/-! ## The pipeline's proof data -/

/-- Region 4's proof data on core `c`: every window's array is what the region finds (`V`); after the body at
    point `t` an input's staging buffer still holds its block and the output's holds `out4_9` of the nine
    input blocks; the invariant is the plain one (the scoped buffers and the generator register ride along
    untouched); full shares; no core owes another anything. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents (a projection of the definition). -/
theorem A_eq4 (c : Dev nD) (w : Fin cfg4.W) : (dat4 V c).A w = V c (Pipeline.arrRef spec4 w) := by
  dsimp only [dat4]

/-- What the body leaves, window by window (the `match` reduced at a literal window number). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

end Cert.Kernel.Hand
-- ==== Proof.K.D5.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 5: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The rectangles the body touches: every access is a whole staging block -/

/-- the output block (stored once, whole) -/
abbrev r5_0 : Rect S2000x64 := Rect.unit (s := S2000x64) ![0, 0] S2000x64.size inb_S2000x64_S2000x64_0_0
/-- the row block of the left operand -/
abbrev r5_1 : Rect S2000x256 := Rect.unit (s := S2000x256) ![0, 0] S2000x256.size inb_S2000x256_S2000x256_0_0
/-- the weight matrix -/
abbrev r5_2 : Rect S256x64 := Rect.unit (s := S256x64) ![0, 0] S256x64.size inb_S256x64_S256x64_0_0
/-- the bias row -/
abbrev r5_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k5_pay1`, operands rounded to bf16 before the product). -/
def out5_3 (x0 : Vec F S2000x256 .f32) (x1 : Vec F S256x64 .f32) (x2 : Vec F S1x64 .f32) : Vec F S2000x64 .f32 :=
  View.canon [⟨r5_0, k5_pay1 (View.ld x0 r5_1) (View.ld x1 r5_2) (View.ld x2 r5_3)⟩]

/-! ## The proof data of the pipeline -/

/-- Pipeline 5 on core `c`: the arrays are `V`'s; after the body at point `t` an input's staging block is its
    block of the array, unchanged, and the output's is `out5_3` of the three input blocks; the invariant is the
    untouched scoped rest with the generator register; every share is full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The arrays of the proof data are `V`'s (a projection, reduced without unfolding `V`). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.Kernel.Hand

end
-- ==== Proof.K.D6.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 6: the edge MLP `cc6__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The rectangles the body reads and writes: each is a whole staging block -/

abbrev r6_0 : Rect S3200x6 := Rect.unit (s := S3200x6) ![0, 0] S3200x6.size inb_S3200x6_S3200x6_0_0
abbrev r6_1 : Rect S3200x64 := Rect.unit (s := S3200x64) ![0, 0] S3200x64.size inb_S3200x64_S3200x64_0_0
abbrev r6_2 : Rect S3200x5 := Rect.unit (s := S3200x5) ![0, 0] S3200x5.size inb_S3200x5_S3200x5_0_0
abbrev r6_3 : Rect S64x64 := Rect.unit (s := S64x64) ![0, 0] S64x64.size inb_S64x64_S64x64_0_0
abbrev r6_4 : Rect S5x64 := Rect.unit (s := S5x64) ![0, 0] S5x64.size inb_S5x64_S5x64_0_0
abbrev r6_5 : Rect S1x64 := Rect.unit (s := S1x64) ![0, 0] S1x64.size inb_S1x64_S1x64_0_0
abbrev r6_6 : Rect S64x6 := Rect.unit (s := S64x6) ![0, 0] S64x6.size inb_S64x6_S64x6_0_0
abbrev r6_7 : Rect S1x6 := Rect.unit (s := S1x6) ![0, 0] S1x6.size inb_S1x6_S1x6_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out6_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x6 .f32) (x8 : Vec F S1x6 .f32) : Vec F S3200x6 .f32 :=
  View.canon [⟨r6_0, k6_pay1 (k6_pay2 (View.ld x0 r6_1) (View.ld x1 r6_1) (View.ld x2 r6_2) (View.ld x3 r6_3) (View.ld x4 r6_3) (View.ld x5 r6_4) (View.ld x6 r6_5) (View.ld x7 r6_6)) (k6_pay3 (View.ld x8 r6_7))⟩]

/-! ## The pipeline's proof data -/

/-- Region 6's proof data on core `c`: every window's array is what the region finds (`V`); after the body at
    point `t` an input's staging buffer still holds its block and the output's holds `out6_9` of the nine
    input blocks; the invariant is the plain one (the scoped buffers and the generator register ride along
    untouched); full shares; no core owes another anything. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents (a projection of the definition). -/
theorem A_eq6 (c : Dev nD) (w : Fin cfg6.W) : (dat6 V c).A w = V c (Pipeline.arrRef spec6 w) := by
  dsimp only [dat6]

/-- What the body leaves, window by window (the `match` reduced at a literal window number). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

end Cert.Kernel.Hand
-- ==== Proof.K.Fold.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.Gen.Kernel.Regions
import proofs.«120992_j5111011082634_2_alg».proof.Proof.K.D0
import proofs.«120992_j5111011082634_2_alg».proof.Proof.K.D1
import proofs.«120992_j5111011082634_2_alg».proof.Proof.K.D2
import proofs.«120992_j5111011082634_2_alg».proof.Proof.K.D3
import proofs.«120992_j5111011082634_2_alg».proof.Proof.K.D4
import proofs.«120992_j5111011082634_2_alg».proof.Proof.K.D5
import proofs.«120992_j5111011082634_2_alg».proof.Proof.K.D6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of @main

@main is 25 items in order: 18 stretches of host operations and the 7 pallas_calls. `W J c` is what core `c`'s buffers
hold before item `J` (`W 0`: at launch; `W 25`: at the return), folded from the launch memory: a host stretch rewrites
the buffers its operations write; a pallas_call leaves its windows' arrays at what its write-backs leave and every
other buffer alone. `V J` is `W J` read at the TensorCore's references. -/

variable (m : (ℓ : Loc nD τ sig) → Buf (Elt F) ℓ) (ρ : Dev nD → PrngReg)

/-! ## The input windows of each pallas_call -/

/-- Every window of pallas_call 0 but the last is an input. -/
theorem isIn0 : ∀ w : Fin cfg0.W, w ≠ 9 → (cfg0.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 1 but the last is an input. -/
theorem isIn1 : ∀ w : Fin cfg1.W, w ≠ 3 → (cfg1.win w).isOut = false
  | ⟨0, _⟩, _ => rfl | ⟨1, _⟩, _ => rfl | ⟨2, _⟩, _ => rfl | ⟨3, _⟩, h => absurd rfl h
/-- Every window of pallas_call 2 but the last is an input. -/
theorem isIn2 : ∀ w : Fin cfg2.W, w ≠ 9 → (cfg2.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 3 but the last is an input. -/
theorem isIn3 : ∀ w : Fin cfg3.W, w ≠ 3 → (cfg3.win w).isOut = false
  | ⟨0, _⟩, _ => rfl | ⟨1, _⟩, _ => rfl | ⟨2, _⟩, _ => rfl | ⟨3, _⟩, h => absurd rfl h
/-- Every window of pallas_call 4 but the last is an input. -/
theorem isIn4 : ∀ w : Fin cfg4.W, w ≠ 9 → (cfg4.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 5 but the last is an input. -/
theorem isIn5 : ∀ w : Fin cfg5.W, w ≠ 3 → (cfg5.win w).isOut = false
  | ⟨0, _⟩, _ => rfl | ⟨1, _⟩, _ => rfl | ⟨2, _⟩, _ => rfl | ⟨3, _⟩, h => absurd rfl h
/-- Every window of pallas_call 6 but the last is an input. -/
theorem isIn6 : ∀ w : Fin cfg6.W, w ≠ 9 → (cfg6.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h

/-! ## The fold -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ hostOps0_W) : W1 m ρ c r = W0 m ρ c r :=
  StableHlo.after_of_writes_sub hostOps0 _ hostOps0_writes h

/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- A reference the stretch does not write keeps its contents. -/
theorem W2_of (c : Dev nD) (r : Ref sig .tc) (h : r ∉ hostOps0_1_W) : W2 m ρ c r = W1 m ρ c r :=
  StableHlo.after_of_writes_sub hostOps0_1 _ hostOps0_1_writes h

/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ hostOps0_2_W) : W3 m ρ c r = W2 m ρ c r :=
  StableHlo.after_of_writes_sub hostOps0_2 _ hostOps0_2_writes h

/-- After item 3, the host stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- A reference the stretch does not write keeps its contents. -/
theorem W4_of (c : Dev nD) (r : Ref sig .tc) (h : r ∉ hostOps0_3_W) : W4 m ρ c r = W3 m ρ c r :=
  StableHlo.after_of_writes_sub hostOps0_3 _ hostOps0_3_writes h

/-- After item 4, the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- A reference the stretch does not write keeps its contents. -/
theorem W5_of (c : Dev nD) (r : Ref sig .tc) (h : r ∉ hostOps0_4_W) : W5 m ρ c r = W4 m ρ c r :=
  StableHlo.after_of_writes_sub hostOps0_4 _ hostOps0_4_writes h

/-- After item 5, pallas_call 0: its arrays at what the pipeline's write-backs leave (an input array as entered, the
    output array with every flushed block written), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
/-- The two facts the exit of the region is put back together from: each array at what the pipeline leaves, every
    other buffer as at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Every reference but the output array `main_v42` keeps its contents: an input array is never written, and no other
    buffer is one of the call's arrays. -/
theorem W6_of (c : Dev nD) (r : Ref sig .tc) (h : r ≠ main_v42) : W6 m ρ c r = W5 m ρ c r := by
  by_cases hr : ∃ w, Pipeline.arrRef spec0 w = r
  · obtain ⟨w, rfl⟩ := hr
    have hw : w ≠ 9 := fun e => h (by rw [e])
    exact (W6_arr m ρ c w).trans (((dat0 (V5 m ρ) c).arrAt_in w (isIn0 w hw) _).trans (A_eq0 (V5 m ρ) c w))
  · exact W6_of_ne m ρ c r fun w e => hr ⟨w, e⟩
/-- The output array holds what the write-backs of all the grid's points leave. -/
theorem W6_out (c : Dev nD) : W6 m ρ c main_v42 = (dat0 (V5 m ρ) c).arrAt 9 cfg0.N :=
  W6_arr m ρ c 9

/-- After item 6, the host stretch `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- A reference the stretch does not write keeps its contents. -/
theorem W7_of (c : Dev nD) (r : Ref sig .tc) (h : r ∉ hostOps1_W) : W7 m ρ c r = W6 m ρ c r :=
  StableHlo.after_of_writes_sub hostOps1 _ hostOps1_writes h

/-- After item 7, the host stretch `hostOps1_1`. -/
abbrev W8 : Dev nD → Valuation τ sig (Elt F) := fun c => StableHlo.after hostOps1_1 (W7 m ρ c)
abbrev V8 : (c : Dev nD) → (b : Ref sig .tc) → Buf (Elt F) ((c : Thread nD τ).loc b) := fun c b => W8 m ρ c b
/-- A reference the stretch does not write keeps its contents. -/
theorem W8_of (c : Dev nD) (r : Ref sig .tc) (h : r ∉ hostOps1_1_W) : W8 m ρ c r = W7 m ρ c r :=
  StableHlo.after_of_writes_sub hostOps1_1 _ hostOps1_1_writes h

/-- After item 8, the host stretch `hostOps1_2`. -/
abbrev W9 : Dev nD → Valuation τ sig (Elt F) := fun c => StableHlo.after hostOps1_2 (W8 m ρ c)
abbrev V9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ hostOps1_2_W) : W9 m ρ c r = W8 m ρ c r :=
  StableHlo.after_of_writes_sub hostOps1_2 _ hostOps1_2_writes h

/-- After item 9, pallas_call 1: its arrays at what the pipeline's write-backs leave (an input array as entered, the
    output array with every flushed block written), every other buffer as entered. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
/-- The two facts the exit of the region is put back together from: each array at what the pipeline leaves, every
    other buffer as at entry. -/
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- Every reference but the output array `main_v102` keeps its contents: an input array is never written, and no other
    buffer is one of the call's arrays. -/
theorem W10_of (c : Dev nD) (r : Ref sig .tc) (h : r ≠ main_v102) : W10 m ρ c r = W9 m ρ c r := by
  by_cases hr : ∃ w, Pipeline.arrRef spec1 w = r
  · obtain ⟨w, rfl⟩ := hr
    have hw : w ≠ 3 := fun e => h (by rw [e])
    exact (W10_arr m ρ c w).trans (((dat1 (V9 m ρ) c).arrAt_in w (isIn1 w hw) _).trans (A_eq1 (V9 m ρ) c w))
  · exact W10_of_ne m ρ c r fun w e => hr ⟨w, e⟩
/-- The output array holds what the write-backs of all the grid's points leave. -/
theorem W10_out (c : Dev nD) : W10 m ρ c main_v102 = (dat1 (V9 m ρ) c).arrAt 3 cfg1.N :=
  W10_arr m ρ c 3

/-- After item 10, the host stretch `hostOps2`. -/
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
/-- A reference the stretch does not write keeps its contents. -/
theorem W11_of (c : Dev nD) (r : Ref sig .tc) (h : r ∉ hostOps2_W) : W11 m ρ c r = W10 m ρ c r :=
  StableHlo.after_of_writes_sub hostOps2 _ hostOps2_writes h

/-- After item 11, pallas_call 2: its arrays at what the pipeline's write-backs leave (an input array as entered, the
    output array with every flushed block written), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
/-- The two facts the exit of the region is put back together from: each array at what the pipeline leaves, every
    other buffer as at entry. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- Every reference but the output array `main_v130` keeps its contents: an input array is never written, and no other
    buffer is one of the call's arrays. -/
theorem W12_of (c : Dev nD) (r : Ref sig .tc) (h : r ≠ main_v130) : W12 m ρ c r = W11 m ρ c r := by
  by_cases hr : ∃ w, Pipeline.arrRef spec2 w = r
  · obtain ⟨w, rfl⟩ := hr
    have hw : w ≠ 9 := fun e => h (by rw [e])
    exact (W12_arr m ρ c w).trans (((dat2 (V11 m ρ) c).arrAt_in w (isIn2 w hw) _).trans (A_eq2 (V11 m ρ) c w))
  · exact W12_of_ne m ρ c r fun w e => hr ⟨w, e⟩
/-- The output array holds what the write-backs of all the grid's points leave. -/
theorem W12_out (c : Dev nD) : W12 m ρ c main_v130 = (dat2 (V11 m ρ) c).arrAt 9 cfg2.N :=
  W12_arr m ρ c 9

/-- After item 12, the host stretch `hostOps3`. -/
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
/-- A reference the stretch does not write keeps its contents. -/
theorem W13_of (c : Dev nD) (r : Ref sig .tc) (h : r ∉ hostOps3_W) : W13 m ρ c r = W12 m ρ c r :=
  StableHlo.after_of_writes_sub hostOps3 _ hostOps3_writes h

/-- After item 13, the host stretch `hostOps3_1`. -/
abbrev W14 : Dev nD → Valuation τ sig (Elt F) := fun c => StableHlo.after hostOps3_1 (W13 m ρ c)
abbrev V14 : (c : Dev nD) → (b : Ref sig .tc) → Buf (Elt F) ((c : Thread nD τ).loc b) := fun c b => W14 m ρ c b
/-- A reference the stretch does not write keeps its contents. -/
theorem W14_of (c : Dev nD) (r : Ref sig .tc) (h : r ∉ hostOps3_1_W) : W14 m ρ c r = W13 m ρ c r :=
  StableHlo.after_of_writes_sub hostOps3_1 _ hostOps3_1_writes h

/-- After item 14, the host stretch `hostOps3_2`. -/
abbrev W15 : Dev nD → Valuation τ sig (Elt F) := fun c => StableHlo.after hostOps3_2 (W14 m ρ c)
abbrev V15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ hostOps3_2_W) : W15 m ρ c r = W14 m ρ c r :=
  StableHlo.after_of_writes_sub hostOps3_2 _ hostOps3_2_writes h

/-- After item 15, pallas_call 3: its arrays at what the pipeline's write-backs leave (an input array as entered, the
    output array with every flushed block written), every other buffer as entered. -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
/-- The two facts the exit of the region is put back together from: each array at what the pipeline leaves, every
    other buffer as at entry. -/
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
/-- Every reference but the output array `main_v190` keeps its contents: an input array is never written, and no other
    buffer is one of the call's arrays. -/
theorem W16_of (c : Dev nD) (r : Ref sig .tc) (h : r ≠ main_v190) : W16 m ρ c r = W15 m ρ c r := by
  by_cases hr : ∃ w, Pipeline.arrRef spec3 w = r
  · obtain ⟨w, rfl⟩ := hr
    have hw : w ≠ 3 := fun e => h (by rw [e])
    exact (W16_arr m ρ c w).trans (((dat3 (V15 m ρ) c).arrAt_in w (isIn3 w hw) _).trans (A_eq3 (V15 m ρ) c w))
  · exact W16_of_ne m ρ c r fun w e => hr ⟨w, e⟩
/-- The output array holds what the write-backs of all the grid's points leave. -/
theorem W16_out (c : Dev nD) : W16 m ρ c main_v190 = (dat3 (V15 m ρ) c).arrAt 3 cfg3.N :=
  W16_arr m ρ c 3

/-- After item 16, the host stretch `hostOps4`. -/
abbrev W17 : Dev nD → Valuation τ sig (Elt F) := fun c => StableHlo.after hostOps4 (W16 m ρ c)
abbrev V17 : (c : Dev nD) → (b : Ref sig .tc) → Buf (Elt F) ((c : Thread nD τ).loc b) := fun c b => W17 m ρ c b
/-- A reference the stretch does not write keeps its contents. -/
theorem W17_of (c : Dev nD) (r : Ref sig .tc) (h : r ∉ hostOps4_W) : W17 m ρ c r = W16 m ρ c r :=
  StableHlo.after_of_writes_sub hostOps4 _ hostOps4_writes h

/-- After item 17, pallas_call 4: its arrays at what the pipeline's write-backs leave (an input array as entered, the
    output array with every flushed block written), every other buffer as entered. -/
def W18 (c : Dev nD) : Valuation τ sig (Elt F) :=
  Pipeline.withArrays spec4 c (W17 m ρ c) fun w => (dat4 (V17 m ρ) c).arrAt w cfg4.N
theorem W18_arr (c : Dev nD) (w : Fin cfg4.W) :
    W18 m ρ c (Proc.devRef .tc (Pipeline.arrRef spec4 w)) = (dat4 (V17 m ρ) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m ρ c (Proc.devRef .tc b) = W17 m ρ c (Proc.devRef .tc b) := by
  unfold W18; exact Pipeline.withArrays_of_ne spec4 c _ _ b hb
abbrev V18 : (c : Dev nD) → (b : Ref sig .tc) → Buf (Elt F) ((c : Thread nD τ).loc b) := fun c b => W18 m ρ c b
/-- The two facts the exit of the region is put back together from: each array at what the pipeline leaves, every
    other buffer as at entry. -/
theorem hF4 (c : Dev nD) (w : Fin cfg4.W) : (dat4 (V17 m ρ) c).arrAt w cfg4.N = V18 m ρ c (Pipeline.arrRef spec4 w) :=
  (W18_arr m ρ c w).symm
theorem hrest4 (c : Dev nD) : ∀ b, b ∉ Finset.univ.image (Pipeline.arrRef spec4) → V18 m ρ c b = V17 m ρ c b :=
  fun b hb => W18_of_ne m ρ c b fun w e => hb (Finset.mem_image.mpr ⟨w, Finset.mem_univ _, e⟩)
/-- Every reference but the output array `main_v218` keeps its contents: an input array is never written, and no other
    buffer is one of the call's arrays. -/
theorem W18_of (c : Dev nD) (r : Ref sig .tc) (h : r ≠ main_v218) : W18 m ρ c r = W17 m ρ c r := by
  by_cases hr : ∃ w, Pipeline.arrRef spec4 w = r
  · obtain ⟨w, rfl⟩ := hr
    have hw : w ≠ 9 := fun e => h (by rw [e])
    exact (W18_arr m ρ c w).trans (((dat4 (V17 m ρ) c).arrAt_in w (isIn4 w hw) _).trans (A_eq4 (V17 m ρ) c w))
  · exact W18_of_ne m ρ c r fun w e => hr ⟨w, e⟩
/-- The output array holds what the write-backs of all the grid's points leave. -/
theorem W18_out (c : Dev nD) : W18 m ρ c main_v218 = (dat4 (V17 m ρ) c).arrAt 9 cfg4.N :=
  W18_arr m ρ c 9

/-- After item 18, the host stretch `hostOps5`. -/
abbrev W19 : Dev nD → Valuation τ sig (Elt F) := fun c => StableHlo.after hostOps5 (W18 m ρ c)
abbrev V19 : (c : Dev nD) → (b : Ref sig .tc) → Buf (Elt F) ((c : Thread nD τ).loc b) := fun c b => W19 m ρ c b
/-- A reference the stretch does not write keeps its contents. -/
theorem W19_of (c : Dev nD) (r : Ref sig .tc) (h : r ∉ hostOps5_W) : W19 m ρ c r = W18 m ρ c r :=
  StableHlo.after_of_writes_sub hostOps5 _ hostOps5_writes h

/-- After item 19, the host stretch `hostOps5_1`. -/
abbrev W20 : Dev nD → Valuation τ sig (Elt F) := fun c => StableHlo.after hostOps5_1 (W19 m ρ c)
abbrev V20 : (c : Dev nD) → (b : Ref sig .tc) → Buf (Elt F) ((c : Thread nD τ).loc b) := fun c b => W20 m ρ c b
/-- A reference the stretch does not write keeps its contents. -/
theorem W20_of (c : Dev nD) (r : Ref sig .tc) (h : r ∉ hostOps5_1_W) : W20 m ρ c r = W19 m ρ c r :=
  StableHlo.after_of_writes_sub hostOps5_1 _ hostOps5_1_writes h

/-- After item 20, the host stretch `hostOps5_2`. -/
abbrev W21 : Dev nD → Valuation τ sig (Elt F) := fun c => StableHlo.after hostOps5_2 (W20 m ρ c)
abbrev V21 : (c : Dev nD) → (b : Ref sig .tc) → Buf (Elt F) ((c : Thread nD τ).loc b) := fun c b => W21 m ρ c b
/-- A reference the stretch does not write keeps its contents. -/
theorem W21_of (c : Dev nD) (r : Ref sig .tc) (h : r ∉ hostOps5_2_W) : W21 m ρ c r = W20 m ρ c r :=
  StableHlo.after_of_writes_sub hostOps5_2 _ hostOps5_2_writes h

/-- After item 21, pallas_call 5: its arrays at what the pipeline's write-backs leave (an input array as entered, the
    output array with every flushed block written), every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
/-- The two facts the exit of the region is put back together from: each array at what the pipeline leaves, every
    other buffer as at entry. -/
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)
/-- Every reference but the output array `main_v278` keeps its contents: an input array is never written, and no other
    buffer is one of the call's arrays. -/
theorem W22_of (c : Dev nD) (r : Ref sig .tc) (h : r ≠ main_v278) : W22 m ρ c r = W21 m ρ c r := by
  by_cases hr : ∃ w, Pipeline.arrRef spec5 w = r
  · obtain ⟨w, rfl⟩ := hr
    have hw : w ≠ 3 := fun e => h (by rw [e])
    exact (W22_arr m ρ c w).trans (((dat5 (V21 m ρ) c).arrAt_in w (isIn5 w hw) _).trans (A_eq5 (V21 m ρ) c w))
  · exact W22_of_ne m ρ c r fun w e => hr ⟨w, e⟩
/-- The output array holds what the write-backs of all the grid's points leave. -/
theorem W22_out (c : Dev nD) : W22 m ρ c main_v278 = (dat5 (V21 m ρ) c).arrAt 3 cfg5.N :=
  W22_arr m ρ c 3

/-- After item 22, the host stretch `hostOps6`. -/
abbrev W23 : Dev nD → Valuation τ sig (Elt F) := fun c => StableHlo.after hostOps6 (W22 m ρ c)
abbrev V23 : (c : Dev nD) → (b : Ref sig .tc) → Buf (Elt F) ((c : Thread nD τ).loc b) := fun c b => W23 m ρ c b
/-- A reference the stretch does not write keeps its contents. -/
theorem W23_of (c : Dev nD) (r : Ref sig .tc) (h : r ∉ hostOps6_W) : W23 m ρ c r = W22 m ρ c r :=
  StableHlo.after_of_writes_sub hostOps6 _ hostOps6_writes h

/-- After item 23, pallas_call 6: its arrays at what the pipeline's write-backs leave (an input array as entered, the
    output array with every flushed block written), every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
/-- The two facts the exit of the region is put back together from: each array at what the pipeline leaves, every
    other buffer as at entry. -/
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)
/-- Every reference but the output array `main_v298` keeps its contents: an input array is never written, and no other
    buffer is one of the call's arrays. -/
theorem W24_of (c : Dev nD) (r : Ref sig .tc) (h : r ≠ main_v298) : W24 m ρ c r = W23 m ρ c r := by
  by_cases hr : ∃ w, Pipeline.arrRef spec6 w = r
  · obtain ⟨w, rfl⟩ := hr
    have hw : w ≠ 9 := fun e => h (by rw [e])
    exact (W24_arr m ρ c w).trans (((dat6 (V23 m ρ) c).arrAt_in w (isIn6 w hw) _).trans (A_eq6 (V23 m ρ) c w))
  · exact W24_of_ne m ρ c r fun w e => hr ⟨w, e⟩
/-- The output array holds what the write-backs of all the grid's points leave. -/
theorem W24_out (c : Dev nD) : W24 m ρ c main_v298 = (dat6 (V23 m ρ) c).arrAt 9 cfg6.N :=
  W24_arr m ρ c 9

/-- After item 24, the host stretch `hostOps7`. -/
abbrev W25 : Dev nD → Valuation τ sig (Elt F) := fun c => StableHlo.after hostOps7 (W24 m ρ c)
abbrev V25 : (c : Dev nD) → (b : Ref sig .tc) → Buf (Elt F) ((c : Thread nD τ).loc b) := fun c b => W25 m ρ c b
/-- A reference the stretch does not write keeps its contents. -/
theorem W25_of (c : Dev nD) (r : Ref sig .tc) (h : r ∉ hostOps7_W) : W25 m ρ c r = W24 m ρ c r :=
  StableHlo.after_of_writes_sub hostOps7 _ hostOps7_writes h

end Cert.Kernel.Hand

end
-- ==== Proof.K.B0.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 0: the edge MLP's body obligation

The body at a grid point finds each input's staging buffer at that input's block (whether the pipeline fetched it
at this point or an earlier one), and leaves the output's staging buffer at `out0_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- A single piece over the whole-block rectangle tiles the block (block size = the block; checked by evaluation). -/
theorem cover0_9 (p0 : Vec F S3200x64 .f32) (y : S3200x64.Idx) :
    ∃ pc ∈ ([⟨r0_0, p0⟩] : List (View.Piece (Elt F) S3200x64 .f32)), y ∈ pc.1.set :=
  View.cover_of_tiled [⟨r0_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out0_9 x0 … x8`. The grid coordinate `i` is not read. -/
theorem sound_kernel0 (c : Dev nD) (E : Set ℕ) (i : grid0.Coords) (arg1 : Memref sig .tc .vmem S3200x6 .f32) (harg1 : arg1.IsWhole) (arg2 : Memref sig .tc .vmem S3200x6 .f32) (harg2 : arg2.IsWhole) (arg3 : Memref sig .tc .vmem S3200x5 .f32) (harg3 : arg3.IsWhole) (arg4 : Memref sig .tc .vmem S6x64 .f32) (harg4 : arg4.IsWhole) (arg5 : Memref sig .tc .vmem S6x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x6 .f32) (x1 : Vec F S3200x6 .f32) (x2 : Vec F S3200x5 .f32) (x3 : Vec F S6x64 .f32) (x4 : Vec F S6x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The inputs' buffers under this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation at a generic point -/

/-- What the pipeline hands the body at point `t`: the invariant, the core's debts (none), and each window's current
    staging memref at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body hands back: the same, each memref at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies at those blocks; the
    invariant and the core's debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.B1.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 1: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

theorem cover1_3 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out1_3 x0 x1 x2`: three loads, a
    load of the output block whose value is not used, one store of the payload over the whole block. -/
theorem sound_kernel1 (c : Dev nD) (E : Set ℕ) (i : grid1.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__tag_mm_kernel i arg0 harg0 arg1 harg1 arg2 harg2 arg3 harg3) K := by
  simp only [cc1__tag_mm_kernel_eq_skeleton]; unfold cc1__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The inputs' blocks, for this pipeline's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the pipeline hands the body at point `t`: the invariant, the core's dues, and each window's current
    staging memref at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body hands back: the same, each staging memref at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input memrefs hold their blocks, so the triple applies; the invariant and the dues are
    not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.B2.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 2: the edge MLP's body obligation

The body at a grid point finds each input's staging buffer at that input's block (whether the pipeline fetched it
at this point or an earlier one), and leaves the output's staging buffer at `out2_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- A single piece over the whole-block rectangle tiles the block (block size = the block; checked by evaluation). -/
theorem cover2_9 (p0 : Vec F S3200x64 .f32) (y : S3200x64.Idx) :
    ∃ pc ∈ ([⟨r2_0, p0⟩] : List (View.Piece (Elt F) S3200x64 .f32)), y ∈ pc.1.set :=
  View.cover_of_tiled [⟨r2_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out2_9 x0 … x8`. The grid coordinate `i` is not read. -/
theorem sound_kernel2 (c : Dev nD) (E : Set ℕ) (i : grid2.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The inputs' buffers under this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation at a generic point -/

/-- What the pipeline hands the body at point `t`: the invariant, the core's debts (none), and each window's current
    staging memref at what the schedule has left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body hands back: the same, each memref at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies at those blocks; the
    invariant and the core's debts are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.B3.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 3: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output block -/

theorem cover3_3 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out3_3 x0 x1 x2`: three loads, a
    load of the output block whose value is not used, one store of the payload over the whole block. -/
theorem sound_kernel3 (c : Dev nD) (E : Set ℕ) (i : grid3.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__tag_mm_kernel i arg0 harg0 arg1 harg1 arg2 harg2 arg3 harg3) K := by
  simp only [cc3__tag_mm_kernel_eq_skeleton]; unfold cc3__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The inputs' blocks, for this pipeline's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the pipeline hands the body at point `t`: the invariant, the core's dues, and each window's current
    staging memref at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body hands back: the same, each staging memref at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input memrefs hold their blocks, so the triple applies; the invariant and the dues are
    not read and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.B4.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 4: the edge MLP's body obligation

The body at a grid point finds each input's staging buffer at that input's block (whether the pipeline fetched it
at this point or an earlier one), and leaves the output's staging buffer at `out4_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The one store covers the output block -/

/-- A single piece over the whole-block rectangle tiles the block (block size = the block; checked by evaluation). -/
theorem cover4_9 (p0 : Vec F S3200x64 .f32) (y : S3200x64.Idx) :
    ∃ pc ∈ ([⟨r4_0, p0⟩] : List (View.Piece (Elt F) S3200x64 .f32)), y ∈ pc.1.set :=
  View.cover_of_tiled [⟨r4_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out4_9 x0 … x8`. The grid coordinate `i` is not read. -/
theorem sound_kernel4 (c : Dev nD) (E : Set ℕ) (i : grid4.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10) K := by
  simp only [cc4__mlp_kernel_eq_skeleton]; unfold cc4__mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-! ## The inputs' buffers under this region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation at a generic point -/

/-- What the pipeline hands the body at point `t`: the invariant, the core's debts (none), and each window's current
    staging memref at what the schedule has left in it. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- What the body hands back: the same, each memref at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks, so the body's triple applies at those blocks; the
    invariant and the core's debts are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.B5.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 5: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The one store covers the output block -/

theorem cover5_3 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out5_3 x0 x1 x2`: three loads, a
    load of the output block whose value is not used, one store of the payload over the whole block. -/
theorem sound_kernel5 (c : Dev nD) (E : Set ℕ) (i : grid5.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__tag_mm_kernel i arg0 harg0 arg1 harg1 arg2 harg2 arg3 harg3) K := by
  simp only [cc5__tag_mm_kernel_eq_skeleton]; unfold cc5__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover5_3 _)

/-! ## The inputs' blocks, for this pipeline's proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic point -/

/-- What the pipeline hands the body at point `t`: the invariant, the core's dues, and each window's current
    staging memref at what the pipeline left there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What the body hands back: the same, each staging memref at the proof data's `after`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input memrefs hold their blocks, so the triple applies; the invariant and the dues are
    not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 5, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.B6.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.K.D6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 6: the edge MLP's body obligation

The body at a grid point finds each input's staging buffer at that input's block (whether the pipeline fetched it
at this point or an earlier one), and leaves the output's staging buffer at `out6_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The one store covers the output block -/

/-- A single piece over the whole-block rectangle tiles the block (block size = the block; checked by evaluation). -/
theorem cover6_9 (p0 : Vec F S3200x6 .f32) (y : S3200x6.Idx) :
    ∃ pc ∈ ([⟨r6_0, p0⟩] : List (View.Piece (Elt F) S3200x6 .f32)), y ∈ pc.1.set :=
  View.cover_of_tiled [⟨r6_0, p0⟩] S3200x6.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out6_9 x0 … x8`. The grid coordinate `i` is not read. -/
theorem sound_kernel6 (c : Dev nD) (E : Set ℕ) (i : grid6.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x6 .f32) (harg8 : arg8.IsWhole) (arg9 : Memref sig .tc .vmem S1x6 .f32) (harg9 : arg9.IsWhole) (arg10 : Memref sig .tc .vmem S3200x6 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x6 .f32) (x8 : Vec F S1x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10) K := by
  simp only [cc6__mlp_kernel_eq_skeleton]; unfold cc6__mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover6_9 _)

/-! ## The inputs' buffers under this region's proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation at a generic point -/

/-- What the pipeline hands the body at point `t`: the invariant, the core's debts (none), and each window's current
    staging memref at what the schedule has left in it. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- What the body hands back: the same, each memref at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks, so the body's triple applies at those blocks; the
    invariant and the core's debts are not read and pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ (grid6.coords t) _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Run.lean ====
import proofs.«120992_j5111011082634_2_alg».proof.Proof.Gen.Kernel.Launch
import proofs.«120992_j5111011082634_2_alg».proof.Proof.Gen.Kernel.Skeleton
import proofs.«120992_j5111011082634_2_alg».proof.Proof.Gen.Kernel.Points
import proofs.«120992_j5111011082634_2_alg».proof.Proof.Gen.Kernel.Regions
import proofs.«120992_j5111011082634_2_alg».proof.Proof.K.Fold
import proofs.«120992_j5111011082634_2_alg».proof.Proof.K.B0
import proofs.«120992_j5111011082634_2_alg».proof.Proof.K.B1
import proofs.«120992_j5111011082634_2_alg».proof.Proof.K.B2
import proofs.«120992_j5111011082634_2_alg».proof.Proof.K.B3
import proofs.«120992_j5111011082634_2_alg».proof.Proof.K.B4
import proofs.«120992_j5111011082634_2_alg».proof.Proof.K.B5
import proofs.«120992_j5111011082634_2_alg».proof.Proof.K.B6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: its 25 items as segments, from the launch to the return -/

variable (m : (ℓ : Loc nD τ sig) → Buf (Elt F) ℓ) (ρ : Dev nD → PrngReg)

/-! ## The arguments end as launched

No host operation writes an argument and no pallas_call has one as its output array, so the fold at an argument walks
back through all 25 items to the launch memory. -/

theorem W25_main_arg0 (c : Dev nD) : W25 m ρ c main_arg0 = m ((c : Thread nD τ).loc main_arg0) :=
  (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W25_main_arg1 (c : Dev nD) : W25 m ρ c main_arg1 = m ((c : Thread nD τ).loc main_arg1) :=
  (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W25_main_arg2 (c : Dev nD) : W25 m ρ c main_arg2 = m ((c : Thread nD τ).loc main_arg2) :=
  (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W25_main_arg3 (c : Dev nD) : W25 m ρ c main_arg3 = m ((c : Thread nD τ).loc main_arg3) :=
  (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W25_main_arg4 (c : Dev nD) : W25 m ρ c main_arg4 = m ((c : Thread nD τ).loc main_arg4) :=
  (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W25_main_arg5 (c : Dev nD) : W25 m ρ c main_arg5 = m ((c : Thread nD τ).loc main_arg5) :=
  (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W25_main_arg6 (c : Dev nD) : W25 m ρ c main_arg6 = m ((c : Thread nD τ).loc main_arg6) :=
  (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W25_main_arg7 (c : Dev nD) : W25 m ρ c main_arg7 = m ((c : Thread nD τ).loc main_arg7) :=
  (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W25_main_arg8 (c : Dev nD) : W25 m ρ c main_arg8 = m ((c : Thread nD τ).loc main_arg8) :=
  (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W25_main_arg9 (c : Dev nD) : W25 m ρ c main_arg9 = m ((c : Thread nD τ).loc main_arg9) :=
  (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W25_main_arg10 (c : Dev nD) : W25 m ρ c main_arg10 = m ((c : Thread nD τ).loc main_arg10) :=
  (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W25_main_arg11 (c : Dev nD) : W25 m ρ c main_arg11 = m ((c : Thread nD τ).loc main_arg11) :=
  (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W25_main_arg12 (c : Dev nD) : W25 m ρ c main_arg12 = m ((c : Thread nD τ).loc main_arg12) :=
  (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W25_main_arg13 (c : Dev nD) : W25 m ρ c main_arg13 = m ((c : Thread nD τ).loc main_arg13) :=
  (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W25_main_arg14 (c : Dev nD) : W25 m ρ c main_arg14 = m ((c : Thread nD τ).loc main_arg14) :=
  (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W25_main_arg15 (c : Dev nD) : W25 m ρ c main_arg15 = m ((c : Thread nD τ).loc main_arg15) :=
  (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl
theorem W25_main_arg16 (c : Dev nD) : W25 m ρ c main_arg16 = m ((c : Thread nD τ).loc main_arg16) :=
  (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl

/-! ## The proof data of the seven pipelines and the thread state between items -/

/-- No pipeline has a prefetched table. -/
abbrev adm : (p : Fin 7) → (pcfgs (F := F) p).Adm := fun p => (cfgs p).toPCfg_adm
/-- Each pipeline's proof data at the contents its pallas_call is entered with: a literal case split on the pipeline,
    so that the configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V11 m ρ) c
  | ⟨3, _⟩ => fun c => dat3 (V15 m ρ) c
  | ⟨4, _⟩ => fun c => dat4 (V17 m ρ) c
  | ⟨5, _⟩ => fun c => dat5 (V21 m ρ) c
  | ⟨6, _⟩ => fun c => dat6 (V23 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core holds beside its buffers between any two items: its generator register at some state, and dues of
    nothing. -/
abbrev R (c : Dev nD) : sProp 𝕄 := iprop((∃ r, prngReg c r) ∗ ∃ W, owes (c : Thread nD τ) (0 : CellTallies nD τ sig Unit) W)
/-- A stretch of host operations as a segment over the unscoped buffers held at `W`, `R` beside them; it ends with
    those buffers at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents `W25`, the generator
    register at some state. -/
abbrev Tₙ (c : Dev nD) : sProp 𝕄 := iprop(StableHlo.held (c : Thread nD τ) (Pipeline.ucRefs τ sig) (W25 m ρ c) ∗ ∃ r, prngReg c r)

/-! ## The pallas_calls as segments

Each is entered with every unscoped buffer at its entry contents and left with them at its exit contents: its arrays
are split out of the unscoped buffers at entry and put back, at what the write-backs leave, at the exit; the generator
register goes into the pipeline's invariant and comes back; nothing is owed; the kernel has no semaphore of its own. -/

set_option backward.isDefEq.respectTransparency.types false in
/-- pallas_call 0: entered at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1: entered at `W9`, left at `W10`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2: entered at `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3: entered at `W15`, left at `W16`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 4: entered at `W17`, left at `W18`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 5: entered at `W21`, left at `W22`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 6: entered at `W23`, left at `W24`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its segments, and the launch -/

/-- @main's 25 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (reg3 m ρ),
    .host (hseg hostOps4 hostOps4_sub hostOps4_fresh (W16 m ρ)),
    .region (reg4 m ρ),
    .host (hseg hostOps5 hostOps5_sub hostOps5_fresh (W18 m ρ)),
    .host (hseg hostOps5_1 hostOps5_1_sub hostOps5_1_fresh (W19 m ρ)),
    .host (hseg hostOps5_2 hostOps5_2_sub hostOps5_2_fresh (W20 m ρ)),
    .region (reg5 m ρ),
    .host (hseg hostOps6 hostOps6_sub hostOps6_fresh (W22 m ρ)),
    .region (reg6 m ρ),
    .host (hseg hostOps7 hostOps7_sub hostOps7_fresh (W24 m ρ)) ]

/-- The fragments of the segments are the items of @main's chain, in order. -/
theorem segs_prog : (segs m ρ).map Pipeline.Seg.prog = [
    StableHlo.seq hostOps0,
    StableHlo.seq hostOps0_1,
    StableHlo.seq hostOps0_2,
    StableHlo.seq hostOps0_3,
    StableHlo.seq hostOps0_4,
    Prog.lift (.customCall (Pipeline.entry 0) ()),
    StableHlo.seq hostOps1,
    StableHlo.seq hostOps1_1,
    StableHlo.seq hostOps1_2,
    Prog.lift (.customCall (Pipeline.entry 1) ()),
    StableHlo.seq hostOps2,
    Prog.lift (.customCall (Pipeline.entry 2) ()),
    StableHlo.seq hostOps3,
    StableHlo.seq hostOps3_1,
    StableHlo.seq hostOps3_2,
    Prog.lift (.customCall (Pipeline.entry 3) ()),
    StableHlo.seq hostOps4,
    Prog.lift (.customCall (Pipeline.entry 4) ()),
    StableHlo.seq hostOps5,
    StableHlo.seq hostOps5_1,
    StableHlo.seq hostOps5_2,
    Prog.lift (.customCall (Pipeline.entry 5) ()),
    StableHlo.seq hostOps6,
    Prog.lift (.customCall (Pipeline.entry 6) ()),
    StableHlo.seq hostOps7 ] := rfl

/-- @main is the run of its segments. -/
theorem main_run (c : Dev nD) : main (F := F) c = Pipeline.Seg.run (segs m ρ) := by
  rw [main_chain c, Pipeline.Seg.run_eq_chain, segs_prog]

set_option backward.isDefEq.respectTransparency.types false in
/-- THE RUN. At the compiled mesh, from any memory with zero counters, every weakly fair execution of @main on the
    TensorCores terminates without a fault; the result buffer `main_v301` ends at what the fold `W25` says and
    every argument array ends as launched. -/
theorem run_main : θ_run defs (onTc (τ := τ) (main (F := F))) ⟨m, fun _ => 0, ρ⟩ (fun r => ∀ c : Dev nD,
      r.2.mem ((c.tc : Thread nD τ).loc main_v301) = W25 m ρ c (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c) ∗ (∃ r, prngReg c r) ∗ ∃ W, owes (c : Thread nD τ) (0 : CellTallies nD τ sig Unit) W)
          ⊢ iprop((StableHlo.held (c : Thread nD τ) (Pipeline.ucRefs τ sig) (W25 m ρ c) ∗ ∃ r, prngReg c r) ∗ ∃ W, owes (c : Thread nD τ) (0 : CellTallies nD τ sig Unit) W)
        from Idealize.SL.BI.sep_assoc')⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v301 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c)⟩)

/-- THE FRAME of the program: as `run_main`, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_main m ρ)

end Cert.Kernel.Hand

end
-- ==== Proof.KI.D0.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 0: the edge MLP `cc0__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each is a whole staging block -/

abbrev r0_0 : Rect S3200x64 := Rect.unit (s := S3200x64) ![0, 0] S3200x64.size inb_S3200x64_S3200x64_0_0
abbrev r0_1 : Rect S3200x6 := Rect.unit (s := S3200x6) ![0, 0] S3200x6.size inb_S3200x6_S3200x6_0_0
abbrev r0_2 : Rect S3200x5 := Rect.unit (s := S3200x5) ![0, 0] S3200x5.size inb_S3200x5_S3200x5_0_0
abbrev r0_3 : Rect S6x64 := Rect.unit (s := S6x64) ![0, 0] S6x64.size inb_S6x64_S6x64_0_0
abbrev r0_4 : Rect S5x64 := Rect.unit (s := S5x64) ![0, 0] S5x64.size inb_S5x64_S5x64_0_0
abbrev r0_5 : Rect S1x64 := Rect.unit (s := S1x64) ![0, 0] S1x64.size inb_S1x64_S1x64_0_0
abbrev r0_6 : Rect S64x64 := Rect.unit (s := S64x64) ![0, 0] S64x64.size inb_S64x64_S64x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out0_9 (x0 : Vec F S3200x6 .f32) (x1 : Vec F S3200x6 .f32) (x2 : Vec F S3200x5 .f32) (x3 : Vec F S6x64 .f32) (x4 : Vec F S6x64 .f32) (x5 : Vec F S5x64 .f32) (x6 : Vec F S1x64 .f32) (x7 : Vec F S64x64 .f32) (x8 : Vec F S1x64 .f32) : Vec F S3200x64 .f32 :=
  View.canon [⟨r0_0, k0_pay1 (k0_pay2 (View.ld x0 r0_1) (View.ld x1 r0_1) (View.ld x2 r0_2) (View.ld x3 r0_3) (View.ld x4 r0_3) (View.ld x5 r0_4) (View.ld x6 r0_5) (View.ld x7 r0_6)) (k0_pay3 (View.ld x8 r0_5))⟩]

/-! ## The pipeline's proof data -/

/-- Region 0's proof data on core `c`: every window's array is what the region finds (`V`); after the body at
    point `t` an input's staging buffer still holds its block and the output's holds `out0_9` of the nine
    input blocks; the invariant is the plain one (the scoped buffers and the generator register ride along
    untouched); full shares; no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (a projection of the definition). -/
theorem A_eq0 (c : Dev nD) (w : Fin cfg0.W) : (dat0 V c).A w = V c (Pipeline.arrRef spec0 w) := by
  dsimp only [dat0]

/-- What the body leaves, window by window (the `match` reduced at a literal window number). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

end Cert.KernelIdeal.Hand
-- ==== Proof.KI.D1.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 1: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body touches: every access is a whole staging block -/

/-- the output block (stored once, whole) -/
abbrev r1_0 : Rect S2000x64 := Rect.unit (s := S2000x64) ![0, 0] S2000x64.size inb_S2000x64_S2000x64_0_0
/-- the row block of the left operand -/
abbrev r1_1 : Rect S2000x256 := Rect.unit (s := S2000x256) ![0, 0] S2000x256.size inb_S2000x256_S2000x256_0_0
/-- the weight matrix -/
abbrev r1_2 : Rect S256x64 := Rect.unit (s := S256x64) ![0, 0] S256x64.size inb_S256x64_S256x64_0_0
/-- the bias row -/
abbrev r1_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k1_pay1`, operands rounded to bf16 before the product). -/
def out1_3 (x0 : Vec F S2000x256 .f32) (x1 : Vec F S256x64 .f32) (x2 : Vec F S1x64 .f32) : Vec F S2000x64 .f32 :=
  View.canon [⟨r1_0, k1_pay1 (View.ld x0 r1_1) (View.ld x1 r1_2) (View.ld x2 r1_3)⟩]

/-! ## The proof data of the pipeline -/

/-- Pipeline 1 on core `c`: the arrays are `V`'s; after the body at point `t` an input's staging block is its
    block of the array, unchanged, and the output's is `out1_3` of the three input blocks; the invariant is the
    untouched scoped rest with the generator register; every share is full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The arrays of the proof data are `V`'s (a projection, reduced without unfolding `V`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

end Cert.KernelIdeal.Hand

end
-- ==== Proof.KI.D2.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 2: the edge MLP `cc2__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body reads and writes: each is a whole staging block -/

abbrev r2_0 : Rect S3200x64 := Rect.unit (s := S3200x64) ![0, 0] S3200x64.size inb_S3200x64_S3200x64_0_0
abbrev r2_1 : Rect S3200x5 := Rect.unit (s := S3200x5) ![0, 0] S3200x5.size inb_S3200x5_S3200x5_0_0
abbrev r2_2 : Rect S64x64 := Rect.unit (s := S64x64) ![0, 0] S64x64.size inb_S64x64_S64x64_0_0
abbrev r2_3 : Rect S5x64 := Rect.unit (s := S5x64) ![0, 0] S5x64.size inb_S5x64_S5x64_0_0
abbrev r2_4 : Rect S1x64 := Rect.unit (s := S1x64) ![0, 0] S1x64.size inb_S1x64_S1x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out2_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) : Vec F S3200x64 .f32 :=
  View.canon [⟨r2_0, k2_pay1 (k2_pay2 (View.ld x0 r2_0) (View.ld x1 r2_0) (View.ld x2 r2_1) (View.ld x3 r2_2) (View.ld x4 r2_2) (View.ld x5 r2_3) (View.ld x6 r2_4) (View.ld x7 r2_2)) (k2_pay3 (View.ld x8 r2_4))⟩]

/-! ## The pipeline's proof data -/

/-- Region 2's proof data on core `c`: every window's array is what the region finds (`V`); after the body at
    point `t` an input's staging buffer still holds its block and the output's holds `out2_9` of the nine
    input blocks; the invariant is the plain one (the scoped buffers and the generator register ride along
    untouched); full shares; no core owes another anything. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents (a projection of the definition). -/
theorem A_eq2 (c : Dev nD) (w : Fin cfg2.W) : (dat2 V c).A w = V c (Pipeline.arrRef spec2 w) := by
  dsimp only [dat2]

/-- What the body leaves, window by window (the `match` reduced at a literal window number). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Cert.KernelIdeal.Hand
-- ==== Proof.KI.D3.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 3: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The rectangles the body touches: every access is a whole staging block -/

/-- the output block (stored once, whole) -/
abbrev r3_0 : Rect S2000x64 := Rect.unit (s := S2000x64) ![0, 0] S2000x64.size inb_S2000x64_S2000x64_0_0
/-- the row block of the left operand -/
abbrev r3_1 : Rect S2000x256 := Rect.unit (s := S2000x256) ![0, 0] S2000x256.size inb_S2000x256_S2000x256_0_0
/-- the weight matrix -/
abbrev r3_2 : Rect S256x64 := Rect.unit (s := S256x64) ![0, 0] S256x64.size inb_S256x64_S256x64_0_0
/-- the bias row -/
abbrev r3_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k3_pay1`, operands rounded to bf16 before the product). -/
def out3_3 (x0 : Vec F S2000x256 .f32) (x1 : Vec F S256x64 .f32) (x2 : Vec F S1x64 .f32) : Vec F S2000x64 .f32 :=
  View.canon [⟨r3_0, k3_pay1 (View.ld x0 r3_1) (View.ld x1 r3_2) (View.ld x2 r3_3)⟩]

/-! ## The proof data of the pipeline -/

/-- Pipeline 3 on core `c`: the arrays are `V`'s; after the body at point `t` an input's staging block is its
    block of the array, unchanged, and the output's is `out3_3` of the three input blocks; the invariant is the
    untouched scoped rest with the generator register; every share is full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The arrays of the proof data are `V`'s (a projection, reduced without unfolding `V`). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.KernelIdeal.Hand

end
-- ==== Proof.KI.D4.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 4: the edge MLP `cc4__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The rectangles the body reads and writes: each is a whole staging block -/

abbrev r4_0 : Rect S3200x64 := Rect.unit (s := S3200x64) ![0, 0] S3200x64.size inb_S3200x64_S3200x64_0_0
abbrev r4_1 : Rect S3200x5 := Rect.unit (s := S3200x5) ![0, 0] S3200x5.size inb_S3200x5_S3200x5_0_0
abbrev r4_2 : Rect S64x64 := Rect.unit (s := S64x64) ![0, 0] S64x64.size inb_S64x64_S64x64_0_0
abbrev r4_3 : Rect S5x64 := Rect.unit (s := S5x64) ![0, 0] S5x64.size inb_S5x64_S5x64_0_0
abbrev r4_4 : Rect S1x64 := Rect.unit (s := S1x64) ![0, 0] S1x64.size inb_S1x64_S1x64_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out4_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) : Vec F S3200x64 .f32 :=
  View.canon [⟨r4_0, k4_pay1 (k4_pay2 (View.ld x0 r4_0) (View.ld x1 r4_0) (View.ld x2 r4_1) (View.ld x3 r4_2) (View.ld x4 r4_2) (View.ld x5 r4_3) (View.ld x6 r4_4) (View.ld x7 r4_2)) (k4_pay3 (View.ld x8 r4_4))⟩]

/-! ## The pipeline's proof data -/

/-- Region 4's proof data on core `c`: every window's array is what the region finds (`V`); after the body at
    point `t` an input's staging buffer still holds its block and the output's holds `out4_9` of the nine
    input blocks; the invariant is the plain one (the scoped buffers and the generator register ride along
    untouched); full shares; no core owes another anything. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents (a projection of the definition). -/
theorem A_eq4 (c : Dev nD) (w : Fin cfg4.W) : (dat4 V c).A w = V c (Pipeline.arrRef spec4 w) := by
  dsimp only [dat4]

/-- What the body leaves, window by window (the `match` reduced at a literal window number). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

end Cert.KernelIdeal.Hand
-- ==== Proof.KI.D5.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 5: blocks, the stored value, the proof data

Everything is stated at a parameter `V`: what the TensorCore's buffers hold when the call is entered. -/

variable (V : (c : Dev nD) → (b : Ref sig .tc) → Buf (Elt F) ((c : Thread nD τ).loc b))

/-- The block of window `w` at grid point `t`: the window's rectangle at `t` read off its array as `V` has it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The rectangles the body touches: every access is a whole staging block -/

/-- the output block (stored once, whole) -/
abbrev r5_0 : Rect S2000x64 := Rect.unit (s := S2000x64) ![0, 0] S2000x64.size inb_S2000x64_S2000x64_0_0
/-- the row block of the left operand -/
abbrev r5_1 : Rect S2000x256 := Rect.unit (s := S2000x256) ![0, 0] S2000x256.size inb_S2000x256_S2000x256_0_0
/-- the weight matrix -/
abbrev r5_2 : Rect S256x64 := Rect.unit (s := S256x64) ![0, 0] S256x64.size inb_S256x64_S256x64_0_0
/-- the bias row -/
abbrev r5_3 : Rect S1x64 := Rect.unit (s := S1x64) ![0, 0] S1x64.size inb_S1x64_S1x64_0_0

/-! ## What the body leaves in the output block -/

/-- The output block after the body, as a function of the three input blocks: one whole-block write of
    `max (x0 · x1 + x2) 0` (the kernel's payload `k5_pay1`, operands rounded to bf16 before the product). -/
def out5_3 (x0 : Vec F S2000x256 .f32) (x1 : Vec F S256x64 .f32) (x2 : Vec F S1x64 .f32) : Vec F S2000x64 .f32 :=
  View.canon [⟨r5_0, k5_pay1 (View.ld x0 r5_1) (View.ld x1 r5_2) (View.ld x2 r5_3)⟩]

/-! ## The proof data of the pipeline -/

/-- Pipeline 5 on core `c`: the arrays are `V`'s; after the body at point `t` an input's staging block is its
    block of the array, unchanged, and the output's is `out5_3` of the three input blocks; the invariant is the
    untouched scoped rest with the generator register; every share is full and nothing is owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The arrays of the proof data are `V`'s (a projection, reduced without unfolding `V`). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.KernelIdeal.Hand

end
-- ==== Proof.KI.D6.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 6: the edge MLP `cc6__mlp_kernel` on ten windows (nine inputs, one output), 200 grid points

Definitions only: the block each window shows the body at a grid point, the block the body leaves in the output
window as a closed function of the nine input blocks, and the pipeline's proof data built from them. -/

/-- The block of window `w` at grid point `t`: the window's view at that point, read off the array as the region
    finds it. For the three row-blocked inputs this is rows `3200 t … 3200 t + 3199`; for the six weight and bias
    inputs the index map is constant and the block is the whole array at every point. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The rectangles the body reads and writes: each is a whole staging block -/

abbrev r6_0 : Rect S3200x6 := Rect.unit (s := S3200x6) ![0, 0] S3200x6.size inb_S3200x6_S3200x6_0_0
abbrev r6_1 : Rect S3200x64 := Rect.unit (s := S3200x64) ![0, 0] S3200x64.size inb_S3200x64_S3200x64_0_0
abbrev r6_2 : Rect S3200x5 := Rect.unit (s := S3200x5) ![0, 0] S3200x5.size inb_S3200x5_S3200x5_0_0
abbrev r6_3 : Rect S64x64 := Rect.unit (s := S64x64) ![0, 0] S64x64.size inb_S64x64_S64x64_0_0
abbrev r6_4 : Rect S5x64 := Rect.unit (s := S5x64) ![0, 0] S5x64.size inb_S5x64_S5x64_0_0
abbrev r6_5 : Rect S1x64 := Rect.unit (s := S1x64) ![0, 0] S1x64.size inb_S1x64_S1x64_0_0
abbrev r6_6 : Rect S64x6 := Rect.unit (s := S64x6) ![0, 0] S64x6.size inb_S64x6_S64x6_0_0
abbrev r6_7 : Rect S1x6 := Rect.unit (s := S1x6) ![0, 0] S1x6.size inb_S1x6_S1x6_0_0

/-! ## What the body leaves in the output block -/

/-- The output block after the body, from the nine input blocks: one store over the whole block, of
    `relu (a·W₁ₐ + b·W₁ᵦ + e·W₁ₑ + β₁) · W₂ + β₂` (matrix products on operands rounded to bf16, sums in f32),
    where `a, b, e` are the three row blocks `x0, x1, x2`, `W₁ₐ, W₁ᵦ, W₁ₑ` the first layer's three weight
    blocks `x3, x4, x5`, `β₁ = x6`, `W₂ = x7`, `β₂ = x8`. Written as the list of stored pieces, the last store
    first; here the list has one piece and it covers the block. -/
def out6_9 (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x6 .f32) (x8 : Vec F S1x6 .f32) : Vec F S3200x6 .f32 :=
  View.canon [⟨r6_0, k6_pay1 (k6_pay2 (View.ld x0 r6_1) (View.ld x1 r6_1) (View.ld x2 r6_2) (View.ld x3 r6_3) (View.ld x4 r6_3) (View.ld x5 r6_4) (View.ld x6 r6_5) (View.ld x7 r6_6)) (k6_pay3 (View.ld x8 r6_7))⟩]

/-! ## The pipeline's proof data -/

/-- Region 6's proof data on core `c`: every window's array is what the region finds (`V`); after the body at
    point `t` an input's staging buffer still holds its block and the output's holds `out6_9` of the nine
    input blocks; the invariant is the plain one (the scoped buffers and the generator register ride along
    untouched); full shares; no core owes another anything. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

/-- The proof data's arrays are the region-entry contents (a projection of the definition). -/
theorem A_eq6 (c : Dev nD) (w : Fin cfg6.W) : (dat6 V c).A w = V c (Pipeline.arrRef spec6 w) := by
  dsimp only [dat6]

/-- What the body leaves, window by window (the `match` reduced at a literal window number). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

end Cert.KernelIdeal.Hand
-- ==== Proof.KI.Fold.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.Gen.KernelIdeal.Regions
import proofs.«120992_j5111011082634_2_alg».proof.Proof.KI.D0
import proofs.«120992_j5111011082634_2_alg».proof.Proof.KI.D1
import proofs.«120992_j5111011082634_2_alg».proof.Proof.KI.D2
import proofs.«120992_j5111011082634_2_alg».proof.Proof.KI.D3
import proofs.«120992_j5111011082634_2_alg».proof.Proof.KI.D4
import proofs.«120992_j5111011082634_2_alg».proof.Proof.KI.D5
import proofs.«120992_j5111011082634_2_alg».proof.Proof.KI.D6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at every boundary of @main

@main is 25 items in order: 18 stretches of host operations and the 7 pallas_calls. `W J c` is what core `c`'s buffers
hold before item `J` (`W 0`: at launch; `W 25`: at the return), folded from the launch memory: a host stretch rewrites
the buffers its operations write; a pallas_call leaves its windows' arrays at what its write-backs leave and every
other buffer alone. `V J` is `W J` read at the TensorCore's references. -/

variable (m : (ℓ : Loc nD τ sig) → Buf (Elt F) ℓ) (ρ : Dev nD → PrngReg)

/-! ## The input windows of each pallas_call -/

/-- Every window of pallas_call 0 but the last is an input. -/
theorem isIn0 : ∀ w : Fin cfg0.W, w ≠ 9 → (cfg0.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 1 but the last is an input. -/
theorem isIn1 : ∀ w : Fin cfg1.W, w ≠ 3 → (cfg1.win w).isOut = false
  | ⟨0, _⟩, _ => rfl | ⟨1, _⟩, _ => rfl | ⟨2, _⟩, _ => rfl | ⟨3, _⟩, h => absurd rfl h
/-- Every window of pallas_call 2 but the last is an input. -/
theorem isIn2 : ∀ w : Fin cfg2.W, w ≠ 9 → (cfg2.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 3 but the last is an input. -/
theorem isIn3 : ∀ w : Fin cfg3.W, w ≠ 3 → (cfg3.win w).isOut = false
  | ⟨0, _⟩, _ => rfl | ⟨1, _⟩, _ => rfl | ⟨2, _⟩, _ => rfl | ⟨3, _⟩, h => absurd rfl h
/-- Every window of pallas_call 4 but the last is an input. -/
theorem isIn4 : ∀ w : Fin cfg4.W, w ≠ 9 → (cfg4.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h
/-- Every window of pallas_call 5 but the last is an input. -/
theorem isIn5 : ∀ w : Fin cfg5.W, w ≠ 3 → (cfg5.win w).isOut = false
  | ⟨0, _⟩, _ => rfl | ⟨1, _⟩, _ => rfl | ⟨2, _⟩, _ => rfl | ⟨3, _⟩, h => absurd rfl h
/-- Every window of pallas_call 6 but the last is an input. -/
theorem isIn6 : ∀ w : Fin cfg6.W, w ≠ 9 → (cfg6.win w).isOut = false
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl | ⟨9, _⟩, h => absurd rfl h

/-! ## The fold -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ hostOps0_W) : W1 m ρ c r = W0 m ρ c r :=
  StableHlo.after_of_writes_sub hostOps0 _ hostOps0_writes h

/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- A reference the stretch does not write keeps its contents. -/
theorem W2_of (c : Dev nD) (r : Ref sig .tc) (h : r ∉ hostOps0_1_W) : W2 m ρ c r = W1 m ρ c r :=
  StableHlo.after_of_writes_sub hostOps0_1 _ hostOps0_1_writes h

/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ hostOps0_2_W) : W3 m ρ c r = W2 m ρ c r :=
  StableHlo.after_of_writes_sub hostOps0_2 _ hostOps0_2_writes h

/-- After item 3, the host stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- A reference the stretch does not write keeps its contents. -/
theorem W4_of (c : Dev nD) (r : Ref sig .tc) (h : r ∉ hostOps0_3_W) : W4 m ρ c r = W3 m ρ c r :=
  StableHlo.after_of_writes_sub hostOps0_3 _ hostOps0_3_writes h

/-- After item 4, the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- A reference the stretch does not write keeps its contents. -/
theorem W5_of (c : Dev nD) (r : Ref sig .tc) (h : r ∉ hostOps0_4_W) : W5 m ρ c r = W4 m ρ c r :=
  StableHlo.after_of_writes_sub hostOps0_4 _ hostOps0_4_writes h

/-- After item 5, pallas_call 0: its arrays at what the pipeline's write-backs leave (an input array as entered, the
    output array with every flushed block written), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
/-- The two facts the exit of the region is put back together from: each array at what the pipeline leaves, every
    other buffer as at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Every reference but the output array `main_v42` keeps its contents: an input array is never written, and no other
    buffer is one of the call's arrays. -/
theorem W6_of (c : Dev nD) (r : Ref sig .tc) (h : r ≠ main_v42) : W6 m ρ c r = W5 m ρ c r := by
  by_cases hr : ∃ w, Pipeline.arrRef spec0 w = r
  · obtain ⟨w, rfl⟩ := hr
    have hw : w ≠ 9 := fun e => h (by rw [e])
    exact (W6_arr m ρ c w).trans (((dat0 (V5 m ρ) c).arrAt_in w (isIn0 w hw) _).trans (A_eq0 (V5 m ρ) c w))
  · exact W6_of_ne m ρ c r fun w e => hr ⟨w, e⟩
/-- The output array holds what the write-backs of all the grid's points leave. -/
theorem W6_out (c : Dev nD) : W6 m ρ c main_v42 = (dat0 (V5 m ρ) c).arrAt 9 cfg0.N :=
  W6_arr m ρ c 9

/-- After item 6, the host stretch `hostOps1`. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- A reference the stretch does not write keeps its contents. -/
theorem W7_of (c : Dev nD) (r : Ref sig .tc) (h : r ∉ hostOps1_W) : W7 m ρ c r = W6 m ρ c r :=
  StableHlo.after_of_writes_sub hostOps1 _ hostOps1_writes h

/-- After item 7, the host stretch `hostOps1_1`. -/
abbrev W8 : Dev nD → Valuation τ sig (Elt F) := fun c => StableHlo.after hostOps1_1 (W7 m ρ c)
abbrev V8 : (c : Dev nD) → (b : Ref sig .tc) → Buf (Elt F) ((c : Thread nD τ).loc b) := fun c b => W8 m ρ c b
/-- A reference the stretch does not write keeps its contents. -/
theorem W8_of (c : Dev nD) (r : Ref sig .tc) (h : r ∉ hostOps1_1_W) : W8 m ρ c r = W7 m ρ c r :=
  StableHlo.after_of_writes_sub hostOps1_1 _ hostOps1_1_writes h

/-- After item 8, the host stretch `hostOps1_2`. -/
abbrev W9 : Dev nD → Valuation τ sig (Elt F) := fun c => StableHlo.after hostOps1_2 (W8 m ρ c)
abbrev V9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ hostOps1_2_W) : W9 m ρ c r = W8 m ρ c r :=
  StableHlo.after_of_writes_sub hostOps1_2 _ hostOps1_2_writes h

/-- After item 9, pallas_call 1: its arrays at what the pipeline's write-backs leave (an input array as entered, the
    output array with every flushed block written), every other buffer as entered. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev V10 : (c : Dev nD) → (b : Ref sig .tc) → Buf (Elt F) ((c : Thread nD τ).loc b) := fun c b => W10 m ρ c b
/-- The two facts the exit of the region is put back together from: each array at what the pipeline leaves, every
    other buffer as at entry. -/
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)
/-- Every reference but the output array `main_v102` keeps its contents: an input array is never written, and no other
    buffer is one of the call's arrays. -/
theorem W10_of (c : Dev nD) (r : Ref sig .tc) (h : r ≠ main_v102) : W10 m ρ c r = W9 m ρ c r := by
  by_cases hr : ∃ w, Pipeline.arrRef spec1 w = r
  · obtain ⟨w, rfl⟩ := hr
    have hw : w ≠ 3 := fun e => h (by rw [e])
    exact (W10_arr m ρ c w).trans (((dat1 (V9 m ρ) c).arrAt_in w (isIn1 w hw) _).trans (A_eq1 (V9 m ρ) c w))
  · exact W10_of_ne m ρ c r fun w e => hr ⟨w, e⟩
/-- The output array holds what the write-backs of all the grid's points leave. -/
theorem W10_out (c : Dev nD) : W10 m ρ c main_v102 = (dat1 (V9 m ρ) c).arrAt 3 cfg1.N :=
  W10_arr m ρ c 3

/-- After item 10, the host stretch `hostOps2`. -/
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
/-- A reference the stretch does not write keeps its contents. -/
theorem W11_of (c : Dev nD) (r : Ref sig .tc) (h : r ∉ hostOps2_W) : W11 m ρ c r = W10 m ρ c r :=
  StableHlo.after_of_writes_sub hostOps2 _ hostOps2_writes h

/-- After item 11, pallas_call 2: its arrays at what the pipeline's write-backs leave (an input array as entered, the
    output array with every flushed block written), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
/-- The two facts the exit of the region is put back together from: each array at what the pipeline leaves, every
    other buffer as at entry. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- Every reference but the output array `main_v130` keeps its contents: an input array is never written, and no other
    buffer is one of the call's arrays. -/
theorem W12_of (c : Dev nD) (r : Ref sig .tc) (h : r ≠ main_v130) : W12 m ρ c r = W11 m ρ c r := by
  by_cases hr : ∃ w, Pipeline.arrRef spec2 w = r
  · obtain ⟨w, rfl⟩ := hr
    have hw : w ≠ 9 := fun e => h (by rw [e])
    exact (W12_arr m ρ c w).trans (((dat2 (V11 m ρ) c).arrAt_in w (isIn2 w hw) _).trans (A_eq2 (V11 m ρ) c w))
  · exact W12_of_ne m ρ c r fun w e => hr ⟨w, e⟩
/-- The output array holds what the write-backs of all the grid's points leave. -/
theorem W12_out (c : Dev nD) : W12 m ρ c main_v130 = (dat2 (V11 m ρ) c).arrAt 9 cfg2.N :=
  W12_arr m ρ c 9

/-- After item 12, the host stretch `hostOps3`. -/
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
/-- A reference the stretch does not write keeps its contents. -/
theorem W13_of (c : Dev nD) (r : Ref sig .tc) (h : r ∉ hostOps3_W) : W13 m ρ c r = W12 m ρ c r :=
  StableHlo.after_of_writes_sub hostOps3 _ hostOps3_writes h

/-- After item 13, the host stretch `hostOps3_1`. -/
abbrev W14 : Dev nD → Valuation τ sig (Elt F) := fun c => StableHlo.after hostOps3_1 (W13 m ρ c)
abbrev V14 : (c : Dev nD) → (b : Ref sig .tc) → Buf (Elt F) ((c : Thread nD τ).loc b) := fun c b => W14 m ρ c b
/-- A reference the stretch does not write keeps its contents. -/
theorem W14_of (c : Dev nD) (r : Ref sig .tc) (h : r ∉ hostOps3_1_W) : W14 m ρ c r = W13 m ρ c r :=
  StableHlo.after_of_writes_sub hostOps3_1 _ hostOps3_1_writes h

/-- After item 14, the host stretch `hostOps3_2`. -/
abbrev W15 : Dev nD → Valuation τ sig (Elt F) := fun c => StableHlo.after hostOps3_2 (W14 m ρ c)
abbrev V15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ hostOps3_2_W) : W15 m ρ c r = W14 m ρ c r :=
  StableHlo.after_of_writes_sub hostOps3_2 _ hostOps3_2_writes h

/-- After item 15, pallas_call 3: its arrays at what the pipeline's write-backs leave (an input array as entered, the
    output array with every flushed block written), every other buffer as entered. -/
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
/-- The two facts the exit of the region is put back together from: each array at what the pipeline leaves, every
    other buffer as at entry. -/
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
/-- Every reference but the output array `main_v190` keeps its contents: an input array is never written, and no other
    buffer is one of the call's arrays. -/
theorem W16_of (c : Dev nD) (r : Ref sig .tc) (h : r ≠ main_v190) : W16 m ρ c r = W15 m ρ c r := by
  by_cases hr : ∃ w, Pipeline.arrRef spec3 w = r
  · obtain ⟨w, rfl⟩ := hr
    have hw : w ≠ 3 := fun e => h (by rw [e])
    exact (W16_arr m ρ c w).trans (((dat3 (V15 m ρ) c).arrAt_in w (isIn3 w hw) _).trans (A_eq3 (V15 m ρ) c w))
  · exact W16_of_ne m ρ c r fun w e => hr ⟨w, e⟩
/-- The output array holds what the write-backs of all the grid's points leave. -/
theorem W16_out (c : Dev nD) : W16 m ρ c main_v190 = (dat3 (V15 m ρ) c).arrAt 3 cfg3.N :=
  W16_arr m ρ c 3

/-- After item 16, the host stretch `hostOps4`. -/
abbrev W17 : Dev nD → Valuation τ sig (Elt F) := fun c => StableHlo.after hostOps4 (W16 m ρ c)
abbrev V17 : (c : Dev nD) → (b : Ref sig .tc) → Buf (Elt F) ((c : Thread nD τ).loc b) := fun c b => W17 m ρ c b
/-- A reference the stretch does not write keeps its contents. -/
theorem W17_of (c : Dev nD) (r : Ref sig .tc) (h : r ∉ hostOps4_W) : W17 m ρ c r = W16 m ρ c r :=
  StableHlo.after_of_writes_sub hostOps4 _ hostOps4_writes h

/-- After item 17, pallas_call 4: its arrays at what the pipeline's write-backs leave (an input array as entered, the
    output array with every flushed block written), every other buffer as entered. -/
def W18 (c : Dev nD) : Valuation τ sig (Elt F) :=
  Pipeline.withArrays spec4 c (W17 m ρ c) fun w => (dat4 (V17 m ρ) c).arrAt w cfg4.N
theorem W18_arr (c : Dev nD) (w : Fin cfg4.W) :
    W18 m ρ c (Proc.devRef .tc (Pipeline.arrRef spec4 w)) = (dat4 (V17 m ρ) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m ρ c (Proc.devRef .tc b) = W17 m ρ c (Proc.devRef .tc b) := by
  unfold W18; exact Pipeline.withArrays_of_ne spec4 c _ _ b hb
abbrev V18 : (c : Dev nD) → (b : Ref sig .tc) → Buf (Elt F) ((c : Thread nD τ).loc b) := fun c b => W18 m ρ c b
/-- The two facts the exit of the region is put back together from: each array at what the pipeline leaves, every
    other buffer as at entry. -/
theorem hF4 (c : Dev nD) (w : Fin cfg4.W) : (dat4 (V17 m ρ) c).arrAt w cfg4.N = V18 m ρ c (Pipeline.arrRef spec4 w) :=
  (W18_arr m ρ c w).symm
theorem hrest4 (c : Dev nD) : ∀ b, b ∉ Finset.univ.image (Pipeline.arrRef spec4) → V18 m ρ c b = V17 m ρ c b :=
  fun b hb => W18_of_ne m ρ c b fun w e => hb (Finset.mem_image.mpr ⟨w, Finset.mem_univ _, e⟩)
/-- Every reference but the output array `main_v218` keeps its contents: an input array is never written, and no other
    buffer is one of the call's arrays. -/
theorem W18_of (c : Dev nD) (r : Ref sig .tc) (h : r ≠ main_v218) : W18 m ρ c r = W17 m ρ c r := by
  by_cases hr : ∃ w, Pipeline.arrRef spec4 w = r
  · obtain ⟨w, rfl⟩ := hr
    have hw : w ≠ 9 := fun e => h (by rw [e])
    exact (W18_arr m ρ c w).trans (((dat4 (V17 m ρ) c).arrAt_in w (isIn4 w hw) _).trans (A_eq4 (V17 m ρ) c w))
  · exact W18_of_ne m ρ c r fun w e => hr ⟨w, e⟩
/-- The output array holds what the write-backs of all the grid's points leave. -/
theorem W18_out (c : Dev nD) : W18 m ρ c main_v218 = (dat4 (V17 m ρ) c).arrAt 9 cfg4.N :=
  W18_arr m ρ c 9

/-- After item 18, the host stretch `hostOps5`. -/
abbrev W19 : Dev nD → Valuation τ sig (Elt F) := fun c => StableHlo.after hostOps5 (W18 m ρ c)
abbrev V19 : (c : Dev nD) → (b : Ref sig .tc) → Buf (Elt F) ((c : Thread nD τ).loc b) := fun c b => W19 m ρ c b
/-- A reference the stretch does not write keeps its contents. -/
theorem W19_of (c : Dev nD) (r : Ref sig .tc) (h : r ∉ hostOps5_W) : W19 m ρ c r = W18 m ρ c r :=
  StableHlo.after_of_writes_sub hostOps5 _ hostOps5_writes h

/-- After item 19, the host stretch `hostOps5_1`. -/
abbrev W20 : Dev nD → Valuation τ sig (Elt F) := fun c => StableHlo.after hostOps5_1 (W19 m ρ c)
abbrev V20 : (c : Dev nD) → (b : Ref sig .tc) → Buf (Elt F) ((c : Thread nD τ).loc b) := fun c b => W20 m ρ c b
/-- A reference the stretch does not write keeps its contents. -/
theorem W20_of (c : Dev nD) (r : Ref sig .tc) (h : r ∉ hostOps5_1_W) : W20 m ρ c r = W19 m ρ c r :=
  StableHlo.after_of_writes_sub hostOps5_1 _ hostOps5_1_writes h

/-- After item 20, the host stretch `hostOps5_2`. -/
abbrev W21 : Dev nD → Valuation τ sig (Elt F) := fun c => StableHlo.after hostOps5_2 (W20 m ρ c)
abbrev V21 : (c : Dev nD) → (b : Ref sig .tc) → Buf (Elt F) ((c : Thread nD τ).loc b) := fun c b => W21 m ρ c b
/-- A reference the stretch does not write keeps its contents. -/
theorem W21_of (c : Dev nD) (r : Ref sig .tc) (h : r ∉ hostOps5_2_W) : W21 m ρ c r = W20 m ρ c r :=
  StableHlo.after_of_writes_sub hostOps5_2 _ hostOps5_2_writes h

/-- After item 21, pallas_call 5: its arrays at what the pipeline's write-backs leave (an input array as entered, the
    output array with every flushed block written), every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
/-- The two facts the exit of the region is put back together from: each array at what the pipeline leaves, every
    other buffer as at entry. -/
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)
/-- Every reference but the output array `main_v278` keeps its contents: an input array is never written, and no other
    buffer is one of the call's arrays. -/
theorem W22_of (c : Dev nD) (r : Ref sig .tc) (h : r ≠ main_v278) : W22 m ρ c r = W21 m ρ c r := by
  by_cases hr : ∃ w, Pipeline.arrRef spec5 w = r
  · obtain ⟨w, rfl⟩ := hr
    have hw : w ≠ 3 := fun e => h (by rw [e])
    exact (W22_arr m ρ c w).trans (((dat5 (V21 m ρ) c).arrAt_in w (isIn5 w hw) _).trans (A_eq5 (V21 m ρ) c w))
  · exact W22_of_ne m ρ c r fun w e => hr ⟨w, e⟩
/-- The output array holds what the write-backs of all the grid's points leave. -/
theorem W22_out (c : Dev nD) : W22 m ρ c main_v278 = (dat5 (V21 m ρ) c).arrAt 3 cfg5.N :=
  W22_arr m ρ c 3

/-- After item 22, the host stretch `hostOps6`. -/
abbrev W23 : Dev nD → Valuation τ sig (Elt F) := fun c => StableHlo.after hostOps6 (W22 m ρ c)
abbrev V23 : (c : Dev nD) → (b : Ref sig .tc) → Buf (Elt F) ((c : Thread nD τ).loc b) := fun c b => W23 m ρ c b
/-- A reference the stretch does not write keeps its contents. -/
theorem W23_of (c : Dev nD) (r : Ref sig .tc) (h : r ∉ hostOps6_W) : W23 m ρ c r = W22 m ρ c r :=
  StableHlo.after_of_writes_sub hostOps6 _ hostOps6_writes h

/-- After item 23, pallas_call 6: its arrays at what the pipeline's write-backs leave (an input array as entered, the
    output array with every flushed block written), every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
/-- The two facts the exit of the region is put back together from: each array at what the pipeline leaves, every
    other buffer as at entry. -/
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)
/-- Every reference but the output array `main_v298` keeps its contents: an input array is never written, and no other
    buffer is one of the call's arrays. -/
theorem W24_of (c : Dev nD) (r : Ref sig .tc) (h : r ≠ main_v298) : W24 m ρ c r = W23 m ρ c r := by
  by_cases hr : ∃ w, Pipeline.arrRef spec6 w = r
  · obtain ⟨w, rfl⟩ := hr
    have hw : w ≠ 9 := fun e => h (by rw [e])
    exact (W24_arr m ρ c w).trans (((dat6 (V23 m ρ) c).arrAt_in w (isIn6 w hw) _).trans (A_eq6 (V23 m ρ) c w))
  · exact W24_of_ne m ρ c r fun w e => hr ⟨w, e⟩
/-- The output array holds what the write-backs of all the grid's points leave. -/
theorem W24_out (c : Dev nD) : W24 m ρ c main_v298 = (dat6 (V23 m ρ) c).arrAt 9 cfg6.N :=
  W24_arr m ρ c 9

/-- After item 24, the host stretch `hostOps7`. -/
abbrev W25 : Dev nD → Valuation τ sig (Elt F) := fun c => StableHlo.after hostOps7 (W24 m ρ c)
abbrev V25 : (c : Dev nD) → (b : Ref sig .tc) → Buf (Elt F) ((c : Thread nD τ).loc b) := fun c b => W25 m ρ c b
/-- A reference the stretch does not write keeps its contents. -/
theorem W25_of (c : Dev nD) (r : Ref sig .tc) (h : r ∉ hostOps7_W) : W25 m ρ c r = W24 m ρ c r :=
  StableHlo.after_of_writes_sub hostOps7 _ hostOps7_writes h

end Cert.KernelIdeal.Hand

end
-- ==== Proof.KI.B0.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 0: the edge MLP's body obligation

The body at a grid point finds each input's staging buffer at that input's block (whether the pipeline fetched it
at this point or an earlier one), and leaves the output's staging buffer at `out0_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- A single piece over the whole-block rectangle tiles the block (block size = the block; checked by evaluation). -/
theorem cover0_9 (p0 : Vec F S3200x64 .f32) (y : S3200x64.Idx) :
    ∃ pc ∈ ([⟨r0_0, p0⟩] : List (View.Piece (Elt F) S3200x64 .f32)), y ∈ pc.1.set :=
  View.cover_of_tiled [⟨r0_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out0_9 x0 … x8`. The grid coordinate `i` is not read. -/
theorem sound_kernel0 (c : Dev nD) (E : Set ℕ) (i : grid0.Coords) (arg1 : Memref sig .tc .vmem S3200x6 .f32) (harg1 : arg1.IsWhole) (arg2 : Memref sig .tc .vmem S3200x6 .f32) (harg2 : arg2.IsWhole) (arg3 : Memref sig .tc .vmem S3200x5 .f32) (harg3 : arg3.IsWhole) (arg4 : Memref sig .tc .vmem S6x64 .f32) (harg4 : arg4.IsWhole) (arg5 : Memref sig .tc .vmem S6x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x6 .f32) (x1 : Vec F S3200x6 .f32) (x2 : Vec F S3200x5 .f32) (x3 : Vec F S6x64 .f32) (x4 : Vec F S6x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The inputs' buffers under this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation at a generic point -/

/-- What the pipeline hands the body at point `t`: the invariant, the core's debts (none), and each window's current
    staging memref at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What the body hands back: the same, each memref at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies at those blocks; the
    invariant and the core's debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.B1.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 1: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

theorem cover1_3 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out1_3 x0 x1 x2`: three loads, a
    load of the output block whose value is not used, one store of the payload over the whole block. -/
theorem sound_kernel1 (c : Dev nD) (E : Set ℕ) (i : grid1.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__tag_mm_kernel i arg0 harg0 arg1 harg1 arg2 harg2 arg3 harg3) K := by
  simp only [cc1__tag_mm_kernel_eq_skeleton]; unfold cc1__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The inputs' blocks, for this pipeline's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the pipeline hands the body at point `t`: the invariant, the core's dues, and each window's current
    staging memref at what the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body hands back: the same, each staging memref at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input memrefs hold their blocks, so the triple applies; the invariant and the dues are
    not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.B2.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 2: the edge MLP's body obligation

The body at a grid point finds each input's staging buffer at that input's block (whether the pipeline fetched it
at this point or an earlier one), and leaves the output's staging buffer at `out2_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- A single piece over the whole-block rectangle tiles the block (block size = the block; checked by evaluation). -/
theorem cover2_9 (p0 : Vec F S3200x64 .f32) (y : S3200x64.Idx) :
    ∃ pc ∈ ([⟨r2_0, p0⟩] : List (View.Piece (Elt F) S3200x64 .f32)), y ∈ pc.1.set :=
  View.cover_of_tiled [⟨r2_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out2_9 x0 … x8`. The grid coordinate `i` is not read. -/
theorem sound_kernel2 (c : Dev nD) (E : Set ℕ) (i : grid2.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The inputs' buffers under this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation at a generic point -/

/-- What the pipeline hands the body at point `t`: the invariant, the core's debts (none), and each window's current
    staging memref at what the schedule has left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What the body hands back: the same, each memref at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies at those blocks; the
    invariant and the core's debts are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.B3.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 3: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The one store covers the output block -/

theorem cover3_3 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out3_3 x0 x1 x2`: three loads, a
    load of the output block whose value is not used, one store of the payload over the whole block. -/
theorem sound_kernel3 (c : Dev nD) (E : Set ℕ) (i : grid3.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__tag_mm_kernel i arg0 harg0 arg1 harg1 arg2 harg2 arg3 harg3) K := by
  simp only [cc3__tag_mm_kernel_eq_skeleton]; unfold cc3__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The inputs' blocks, for this pipeline's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the pipeline hands the body at point `t`: the invariant, the core's dues, and each window's current
    staging memref at what the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body hands back: the same, each staging memref at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input memrefs hold their blocks, so the triple applies; the invariant and the dues are
    not read and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.B4.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 4: the edge MLP's body obligation

The body at a grid point finds each input's staging buffer at that input's block (whether the pipeline fetched it
at this point or an earlier one), and leaves the output's staging buffer at `out4_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The one store covers the output block -/

/-- A single piece over the whole-block rectangle tiles the block (block size = the block; checked by evaluation). -/
theorem cover4_9 (p0 : Vec F S3200x64 .f32) (y : S3200x64.Idx) :
    ∃ pc ∈ ([⟨r4_0, p0⟩] : List (View.Piece (Elt F) S3200x64 .f32)), y ∈ pc.1.set :=
  View.cover_of_tiled [⟨r4_0, p0⟩] S3200x64.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out4_9 x0 … x8`. The grid coordinate `i` is not read. -/
theorem sound_kernel4 (c : Dev nD) (E : Set ℕ) (i : grid4.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S3200x64 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__mlp_kernel i arg1 harg1 arg2 harg2 arg3 harg3 arg4 harg4 arg5 harg5 arg6 harg6 arg7 harg7 arg8 harg8 arg9 harg9 arg10 harg10) K := by
  simp only [cc4__mlp_kernel_eq_skeleton]; unfold cc4__mlp_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-! ## The inputs' buffers under this region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation at a generic point -/

/-- What the pipeline hands the body at point `t`: the invariant, the core's debts (none), and each window's current
    staging memref at what the schedule has left in it. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- What the body hands back: the same, each memref at the proof data's `after`. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks, so the body's triple applies at those blocks; the
    invariant and the core's debts are not read and pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.B5.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul-bias-relu kernel of pallas_call 5: the body's triple and the body obligation -/

variable (V : (c : Dev nD) → (b : Ref sig .tc) → Buf (Elt F) ((c : Thread nD τ).loc b))

/-! ## An input's staging block holds the array's block at every point

whether the pipeline fetched it at that point or carried it over from an earlier one (the weight and the bias are
fetched at the first point only): between two fetches the window's block index does not move. Stated for any proof
data with `V`'s arrays whose body leaves the input blocks in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The one store covers the output block -/

theorem cover5_3 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-! ## The body's triple -/

set_option maxHeartbeats 1000000 in
/-- On whole staging memrefs — the three inputs' holding `x0`, `x1`, `x2`, the output's holding anything — the body
    runs without fault and ends with the inputs untouched and the output block at `out5_3 x0 x1 x2`: three loads, a
    load of the output block whose value is not used, one store of the payload over the whole block. -/
theorem sound_kernel5 (c : Dev nD) (E : Set ℕ) (i : grid5.Coords)
    (arg0 : Memref sig .tc .vmem S2000x256 .f32) (harg0 : arg0.IsWhole) (arg1 : Memref sig .tc .vmem S256x64 .f32) (harg1 : arg1.IsWhole)
    (arg2 : Memref sig .tc .vmem S1x64 .f32) (harg2 : arg2.IsWhole) (arg3 : Memref sig .tc .vmem S2000x64 .f32) (harg3 : arg3.IsWhole)
    (x0 : Vec F S2000x256 .f32) (x1 : Vec F S256x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__tag_mm_kernel i arg0 harg0 arg1 harg1 arg2 harg2 arg3 harg3) K := by
  simp only [cc5__tag_mm_kernel_eq_skeleton]; unfold cc5__tag_mm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover5_3 _)

/-! ## The inputs' blocks, for this pipeline's proof data -/

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation at a generic point -/

/-- What the pipeline hands the body at point `t`: the invariant, the core's dues, and each window's current
    staging memref at what the pipeline left there. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- What the body hands back: the same, each staging memref at the proof data's `after`. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input memrefs hold their blocks, so the triple applies; the invariant and the dues are
    not read and pass through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 5, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.B6.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.KI.D6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 3200 rows holds an index recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is a function of it
variable (V : (c : Dev nD) → (b : Ref sig .tc) → Buf (Elt F) ((c : Thread nD τ).loc b))

/-! # Region 6: the edge MLP's body obligation

The body at a grid point finds each input's staging buffer at that input's block (whether the pipeline fetched it
at this point or an earlier one), and leaves the output's staging buffer at `out6_9` of the nine input blocks. -/

/-! ## An input's staging buffer holds its block at every point

For ANY proof data whose array for the window is the region-entry contents (`hA`) and whose body leaves the block
in place (`hafter`). The three row-blocked inputs are fetched at every point. The six weight and bias inputs are
fetched at point 0 only; their block index never moves, so the buffer still holds the block fetched first, which is
the block of every later point. One library lemma covers both kinds. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-! ## The one store covers the output block -/

/-- A single piece over the whole-block rectangle tiles the block (block size = the block; checked by evaluation). -/
theorem cover6_9 (p0 : Vec F S3200x6 .f32) (y : S3200x6.Idx) :
    ∃ pc ∈ ([⟨r6_0, p0⟩] : List (View.Piece (Elt F) S3200x6 .f32)), y ∈ pc.1.set :=
  View.cover_of_tiled [⟨r6_0, p0⟩] S3200x6.size (by rfl) y

/-! ## The body's triple -/

set_option maxHeartbeats 1000000 in
/-- The kernel body on whole staging memrefs: the nine inputs' read `x0 … x8`, the output's holds anything. It runs
    — nine whole-block loads inside the outlined first part, one more load (of the output block, whose value is not
    used) and one whole-block store — to a state where the inputs' memrefs read as before and the output's reads
    `out6_9 x0 … x8`. The grid coordinate `i` is not read. -/
theorem sound_kernel6 (c : Dev nD) (E : Set ℕ) (i : grid6.Coords) (arg1 : Memref sig .tc .vmem S3200x64 .f32) (harg1 : arg1.IsWhole) (arg2 : Memref sig .tc .vmem S3200x64 .f32) (harg2 : arg2.IsWhole) (arg3 : Memref sig .tc .vmem S3200x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x6 .f32) (harg8 : arg8.IsWhole) (arg9 : Memref sig .tc .vmem S1x6 .f32) (harg9 : arg9.IsWhole) (arg10 : Memref sig .tc .vmem S3200x6 .f32) (harg10 : arg10.IsWhole)
    (x0 : Vec F S3200x64 .f32) (x1 : Vec F S3200x64 .f32) (x2 : Vec F S3200x5 .f32) (x3 : Vec F S64x64 .f32) (x4 : Vec F S64x64 .f32) (x5 : Vec F S5x64 .f32) (x6 : Vec F S1x64 .f32) (x7 : Vec F S64x6 .f32) (x8 : Vec F S1x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8)) -∗ K ⟨⟩))
      ⊢ wp frame (wpE (defs₀ (F := F)) Variants.none c none) E (cc6__mlp_kernel i arg1 harg1 arg2 harg2 arg3 harg3 arg4 harg4 arg5 harg5 arg6 harg6 arg7 harg7 arg8 harg8 arg9 harg9 arg10 harg10) K := by
  simp only [cc6__mlp_kernel_eq_skeleton]; unfold cc6__mlp_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover6_9 _)

/-! ## The inputs' buffers under this region's proof data -/

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d

/-! ## The body obligation at a generic point -/

/-- What the pipeline hands the body at point `t`: the invariant, the core's debts (none), and each window's current
    staging memref at what the schedule has left in it. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d)))

/-- What the body hands back: the same, each memref at the proof data's `after`. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t))

/-- The body at any point: the inputs' memrefs hold their blocks, so the body's triple applies at those blocks; the
    invariant and the core's debts are not read and pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel6 c Set.univ (grid6.coords t) _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Run.lean ====
import proofs.«120992_j5111011082634_2_alg».proof.Proof.Gen.KernelIdeal.Launch
import proofs.«120992_j5111011082634_2_alg».proof.Proof.Gen.KernelIdeal.Skeleton
import proofs.«120992_j5111011082634_2_alg».proof.Proof.Gen.KernelIdeal.Points
import proofs.«120992_j5111011082634_2_alg».proof.Proof.Gen.KernelIdeal.Regions
import proofs.«120992_j5111011082634_2_alg».proof.Proof.KI.Fold
import proofs.«120992_j5111011082634_2_alg».proof.Proof.KI.B0
import proofs.«120992_j5111011082634_2_alg».proof.Proof.KI.B1
import proofs.«120992_j5111011082634_2_alg».proof.Proof.KI.B2
import proofs.«120992_j5111011082634_2_alg».proof.Proof.KI.B3
import proofs.«120992_j5111011082634_2_alg».proof.Proof.KI.B4
import proofs.«120992_j5111011082634_2_alg».proof.Proof.KI.B5
import proofs.«120992_j5111011082634_2_alg».proof.Proof.KI.B6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with thousands of rows is checked structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: its 25 items as segments, from the launch to the return -/

variable (m : (ℓ : Loc nD τ sig) → Buf (Elt F) ℓ) (ρ : Dev nD → PrngReg)

/-! ## The arguments end as launched

No host operation writes an argument and no pallas_call has one as its output array, so the fold at an argument walks
back through all 25 items to the launch memory. -/

theorem W25_main_arg0 (c : Dev nD) : W25 m ρ c main_arg0 = m ((c : Thread nD τ).loc main_arg0) :=
  (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W25_main_arg1 (c : Dev nD) : W25 m ρ c main_arg1 = m ((c : Thread nD τ).loc main_arg1) :=
  (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W25_main_arg2 (c : Dev nD) : W25 m ρ c main_arg2 = m ((c : Thread nD τ).loc main_arg2) :=
  (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W25_main_arg3 (c : Dev nD) : W25 m ρ c main_arg3 = m ((c : Thread nD τ).loc main_arg3) :=
  (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W25_main_arg4 (c : Dev nD) : W25 m ρ c main_arg4 = m ((c : Thread nD τ).loc main_arg4) :=
  (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W25_main_arg5 (c : Dev nD) : W25 m ρ c main_arg5 = m ((c : Thread nD τ).loc main_arg5) :=
  (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W25_main_arg6 (c : Dev nD) : W25 m ρ c main_arg6 = m ((c : Thread nD τ).loc main_arg6) :=
  (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W25_main_arg7 (c : Dev nD) : W25 m ρ c main_arg7 = m ((c : Thread nD τ).loc main_arg7) :=
  (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W25_main_arg8 (c : Dev nD) : W25 m ρ c main_arg8 = m ((c : Thread nD τ).loc main_arg8) :=
  (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W25_main_arg9 (c : Dev nD) : W25 m ρ c main_arg9 = m ((c : Thread nD τ).loc main_arg9) :=
  (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W25_main_arg10 (c : Dev nD) : W25 m ρ c main_arg10 = m ((c : Thread nD τ).loc main_arg10) :=
  (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W25_main_arg11 (c : Dev nD) : W25 m ρ c main_arg11 = m ((c : Thread nD τ).loc main_arg11) :=
  (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W25_main_arg12 (c : Dev nD) : W25 m ρ c main_arg12 = m ((c : Thread nD τ).loc main_arg12) :=
  (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W25_main_arg13 (c : Dev nD) : W25 m ρ c main_arg13 = m ((c : Thread nD τ).loc main_arg13) :=
  (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W25_main_arg14 (c : Dev nD) : W25 m ρ c main_arg14 = m ((c : Thread nD τ).loc main_arg14) :=
  (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W25_main_arg15 (c : Dev nD) : W25 m ρ c main_arg15 = m ((c : Thread nD τ).loc main_arg15) :=
  (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl
theorem W25_main_arg16 (c : Dev nD) : W25 m ρ c main_arg16 = m ((c : Thread nD τ).loc main_arg16) :=
  (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans <| rfl

/-! ## The proof data of the seven pipelines and the thread state between items -/

/-- No pipeline has a prefetched table. -/
abbrev adm : (p : Fin 7) → (pcfgs (F := F) p).Adm := fun p => (cfgs p).toPCfg_adm
/-- Each pipeline's proof data at the contents its pallas_call is entered with: a literal case split on the pipeline,
    so that the configuration at a numeral reduces to the printed one. -/
def pdats : (p : Fin 7) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
  | ⟨2, _⟩ => fun c => dat2 (V11 m ρ) c
  | ⟨3, _⟩ => fun c => dat3 (V15 m ρ) c
  | ⟨4, _⟩ => fun c => dat4 (V17 m ρ) c
  | ⟨5, _⟩ => fun c => dat5 (V21 m ρ) c
  | ⟨6, _⟩ => fun c => dat6 (V23 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core holds beside its buffers between any two items: its generator register at some state, and dues of
    nothing. -/
abbrev R (c : Dev nD) : sProp 𝕄 := iprop((∃ r, prngReg c r) ∗ ∃ W, owes (c : Thread nD τ) (0 : CellTallies nD τ sig Unit) W)
/-- A stretch of host operations as a segment over the unscoped buffers held at `W`, `R` beside them; it ends with
    those buffers at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents `W25`, the generator
    register at some state. -/
abbrev Tₙ (c : Dev nD) : sProp 𝕄 := iprop(StableHlo.held (c : Thread nD τ) (Pipeline.ucRefs τ sig) (W25 m ρ c) ∗ ∃ r, prngReg c r)

/-! ## The pallas_calls as segments

Each is entered with every unscoped buffer at its entry contents and left with them at its exit contents: its arrays
are split out of the unscoped buffers at entry and put back, at what the write-backs leave, at the exit; the generator
register goes into the pipeline's invariant and comes back; nothing is owed; the kernel has no semaphore of its own. -/

set_option backward.isDefEq.respectTransparency.types false in
/-- pallas_call 0: entered at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1: entered at `W9`, left at `W10`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2: entered at `W11`, left at `W12`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 3: entered at `W15`, left at `W16`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 4: entered at `W17`, left at `W18`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 5: entered at `W21`, left at `W22`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 6: entered at `W23`, left at `W24`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the list of its segments, and the launch -/

/-- @main's 25 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ),
    .host (hseg hostOps2 hostOps2_sub hostOps2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (reg3 m ρ),
    .host (hseg hostOps4 hostOps4_sub hostOps4_fresh (W16 m ρ)),
    .region (reg4 m ρ),
    .host (hseg hostOps5 hostOps5_sub hostOps5_fresh (W18 m ρ)),
    .host (hseg hostOps5_1 hostOps5_1_sub hostOps5_1_fresh (W19 m ρ)),
    .host (hseg hostOps5_2 hostOps5_2_sub hostOps5_2_fresh (W20 m ρ)),
    .region (reg5 m ρ),
    .host (hseg hostOps6 hostOps6_sub hostOps6_fresh (W22 m ρ)),
    .region (reg6 m ρ),
    .host (hseg hostOps7 hostOps7_sub hostOps7_fresh (W24 m ρ)) ]

/-- The fragments of the segments are the items of @main's chain, in order. -/
theorem segs_prog : (segs m ρ).map Pipeline.Seg.prog = [
    StableHlo.seq hostOps0,
    StableHlo.seq hostOps0_1,
    StableHlo.seq hostOps0_2,
    StableHlo.seq hostOps0_3,
    StableHlo.seq hostOps0_4,
    Prog.lift (.customCall (Pipeline.entry 0) ()),
    StableHlo.seq hostOps1,
    StableHlo.seq hostOps1_1,
    StableHlo.seq hostOps1_2,
    Prog.lift (.customCall (Pipeline.entry 1) ()),
    StableHlo.seq hostOps2,
    Prog.lift (.customCall (Pipeline.entry 2) ()),
    StableHlo.seq hostOps3,
    StableHlo.seq hostOps3_1,
    StableHlo.seq hostOps3_2,
    Prog.lift (.customCall (Pipeline.entry 3) ()),
    StableHlo.seq hostOps4,
    Prog.lift (.customCall (Pipeline.entry 4) ()),
    StableHlo.seq hostOps5,
    StableHlo.seq hostOps5_1,
    StableHlo.seq hostOps5_2,
    Prog.lift (.customCall (Pipeline.entry 5) ()),
    StableHlo.seq hostOps6,
    Prog.lift (.customCall (Pipeline.entry 6) ()),
    StableHlo.seq hostOps7 ] := rfl

/-- @main is the run of its segments. -/
theorem main_run (c : Dev nD) : main (F := F) c = Pipeline.Seg.run (segs m ρ) := by
  rw [main_chain c, Pipeline.Seg.run_eq_chain, segs_prog]

set_option backward.isDefEq.respectTransparency.types false in
/-- THE RUN. At the compiled mesh, from any memory with zero counters, every weakly fair execution of @main on the
    TensorCores terminates without a fault; the result buffer `main_v301` ends at what the fold `W25` says and
    every argument array ends as launched. -/
theorem run_main : θ_run defs (onTc (τ := τ) (main (F := F))) ⟨m, fun _ => 0, ρ⟩ (fun r => ∀ c : Dev nD,
      r.2.mem ((c.tc : Thread nD τ).loc main_v301) = W25 m ρ c (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c) ∗ (∃ r, prngReg c r) ∗ ∃ W, owes (c : Thread nD τ) (0 : CellTallies nD τ sig Unit) W)
          ⊢ iprop((StableHlo.held (c : Thread nD τ) (Pipeline.ucRefs τ sig) (W25 m ρ c) ∗ ∃ r, prngReg c r) ∗ ∃ W, owes (c : Thread nD τ) (0 : CellTallies nD τ sig Unit) W)
        from Idealize.SL.BI.sep_assoc')⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v301 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c),
       (h c _ (mem_uc main_arg10 (by decide))).trans (W25_main_arg10 m ρ c),
       (h c _ (mem_uc main_arg11 (by decide))).trans (W25_main_arg11 m ρ c),
       (h c _ (mem_uc main_arg12 (by decide))).trans (W25_main_arg12 m ρ c),
       (h c _ (mem_uc main_arg13 (by decide))).trans (W25_main_arg13 m ρ c),
       (h c _ (mem_uc main_arg14 (by decide))).trans (W25_main_arg14 m ρ c),
       (h c _ (mem_uc main_arg15 (by decide))).trans (W25_main_arg15 m ρ c),
       (h c _ (mem_uc main_arg16 (by decide))).trans (W25_main_arg16 m ρ c)⟩)

/-- THE FRAME of the program: as `run_main`, keeping only that every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_main m ρ)

end Cert.KernelIdeal.Hand

end
-- ==== Proof.LibPlainDot.lean ====
/-
  A plain matrix product read at an index.

  For the dimension numbers of an [M, K] by [K, N] product (contract the left operand's axis 1 with the right
  operand's axis 0, no batch axis) the contraction index has one coordinate, which ranges over `Fin K`; entry
  `(p, q)` of the product is `Σ_k lhs (p, k) · rhs (k, q)`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The left operand is read in the output's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand is read in the output's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product at `(p, q)` is the sum over `k : Fin K` of `lhs (p, k) · rhs (k, q)`. -/
theorem contr_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col _ _)
  rw [el, er]

/-- A matrix-unit product into a zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact contr_sum lhs rhs p q

end Cert.PlainDot

end
-- ==== Proof.Spec.lean ====
/-
  The edge network's per-edge function, as plain sums over extended reals.

  An edge e carries three rows: the features of its target node (xd, width D), of its source node (xs, width D) and
  its own attributes (ea, width 5). The first layer multiplies them by three blocks of weight rows and adds a bias,
  the result is clamped at 0, and a second layer (weights w2, bias b2) maps the 64 hidden values to O outputs.
-/
import Idealize.ShloMosaic.PureOps.Ideal
import Idealize.ShloMosaic.Lib.ValueIdx

noncomputable section

namespace Cert.Spec

open Idealize.ShloMosaic Idealize.ShloMosaic.ValueIdx
open scoped BigOperators

/-- Hidden unit k of edge p before the clamp: the three row-times-column sums and the bias. -/
def hidden {D : Nat} (xd xs : (⟨2, ![640000, D]⟩ : Shape).Idx → EReal) (ea : (⟨2, ![640000, 5]⟩ : Shape).Idx → EReal)
    (w1d w1s : (⟨2, ![D, 64]⟩ : Shape).Idx → EReal) (w1e : (⟨2, ![5, 64]⟩ : Shape).Idx → EReal)
    (b1 : (⟨2, ![1, 64]⟩ : Shape).Idx → EReal) (p : Fin 640000) (k : Fin 64) : EReal :=
  (((∑ a : Fin D, xd (ix2 p a) * w1d (ix2 a k)) + (∑ a : Fin D, xs (ix2 p a) * w1s (ix2 a k)))
      + (∑ a : Fin 5, ea (ix2 p a) * w1e (ix2 a k))) + b1 (ix2 (0 : Fin 1) k)

/-- Output q of edge p: the clamped hidden units against column q of the second layer, plus its bias. -/
def mlpRow {D O : Nat} (xd xs : (⟨2, ![640000, D]⟩ : Shape).Idx → EReal) (ea : (⟨2, ![640000, 5]⟩ : Shape).Idx → EReal)
    (w1d w1s : (⟨2, ![D, 64]⟩ : Shape).Idx → EReal) (w1e : (⟨2, ![5, 64]⟩ : Shape).Idx → EReal)
    (b1 : (⟨2, ![1, 64]⟩ : Shape).Idx → EReal) (w2 : (⟨2, ![64, O]⟩ : Shape).Idx → EReal)
    (b2 : (⟨2, ![1, O]⟩ : Shape).Idx → EReal) (p : Fin 640000) (q : Fin O) : EReal :=
  (∑ k : Fin 64, max (hidden xd xs ea w1d w1s w1e b1 p k) 0 * w2 (ix2 k q)) + b2 (ix2 (0 : Fin 1) q)

/-- The per-edge function as one [640000, O] array. -/
def mlpG {D O : Nat} (xd xs : (⟨2, ![640000, D]⟩ : Shape).Idx → EReal) (ea : (⟨2, ![640000, 5]⟩ : Shape).Idx → EReal)
    (w1d w1s : (⟨2, ![D, 64]⟩ : Shape).Idx → EReal) (w1e : (⟨2, ![5, 64]⟩ : Shape).Idx → EReal)
    (b1 : (⟨2, ![1, 64]⟩ : Shape).Idx → EReal) (w2 : (⟨2, ![64, O]⟩ : Shape).Idx → EReal)
    (b2 : (⟨2, ![1, O]⟩ : Shape).Idx → EReal) : (⟨2, ![640000, O]⟩ : Shape).Idx → EReal :=
  fun i => mlpRow xd xs ea w1d w1s w1e b1 w2 b2 (i 0) (i 1)

end Cert.Spec

end
-- ==== Proof.KI.Val0.lean ====
/-
  The edge-network region (pallas_call 0), read as a value at the ideal instance.

  Its output array has 640000 rows in two hundred blocks of 3200; grid point t computes block t from block t of the
  two gathered node-feature arrays and of the edge attributes, and from the whole weight and bias arrays. Entry (p, q)
  of the output is therefore the per-edge function of row p of the three row arrays — the same function at every
  point — and, the blocks tiling the array, the array the region leaves IS that function.
-/
import proofs.«120992_j5111011082634_2_alg».proof.Proof.KI.D0
import proofs.«120992_j5111011082634_2_alg».proof.Proof.LibPlainDot
import proofs.«120992_j5111011082634_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open scoped BigOperators

theorem hz0 : (![0, 0] : Fin 2 → Nat) = fun _ => 0 := funext fun a => by fin_cases a <;> rfl

/-- The kernel's product records are the plain ones. -/
theorem dotA0_eq : dot_S3200x6_S6x64_S3200x64_1_0_0_1_n_n = DotDims.plain 3200 6 64 := rfl
theorem dotC_eq : dot_S3200x5_S5x64_S3200x64_1_0_0_1_n_n = DotDims.plain 3200 5 64 := rfl
theorem dotB_eq : dot_S3200x64_S64x64_S3200x64_1_0_0_1_n_n = DotDims.plain 3200 64 64 := rfl

/-- The body's stored value at (r, q) of a block: the per-edge function of row r of the three row blocks (the
    roundings to bf16 are the identity on extended reals). -/
theorem mlp_pay_apply0 (x0 x1 : Vec Ideal S3200x6 .f32) (x2 : Vec Ideal S3200x5 .f32) (x3 x4 : Vec Ideal S6x64 .f32)
    (x5 : Vec Ideal S5x64 .f32) (x6 : Vec Ideal S1x64 .f32) (x7 : Vec Ideal S64x64 .f32) (x8 : Vec Ideal S1x64 .f32)
    (r : Fin 3200) (q : Fin 64) :
    k0_pay1 (F := Ideal) (k0_pay2 x0 x1 x2 x3 x4 x5 x6 x7) (k0_pay3 x8) (ix2 r q)
      = (∑ k : Fin 64, max ((((∑ a : Fin 6, x0 (ix2 r a) * x3 (ix2 a k)) + (∑ a : Fin 6, x1 (ix2 r a) * x4 (ix2 a k)))
            + (∑ a : Fin 5, x2 (ix2 r a) * x5 (ix2 a k))) + x6 (ix2 (0 : Fin 1) k)) 0 * x7 (ix2 k q))
          + x8 (ix2 (0 : Fin 1) q) := by
  unfold k0_pay1 k0_pay2 k0_pay3
  rw [addf_apply, dotA0_eq, dotB_eq, dotC_eq]
  refine congrArg₂ (· + ·) ?_ ?_
  · refine (Cert.PlainDot.matmul_zero_apply none _ _ r q).trans ?_
    refine Finset.sum_congr rfl fun k _ => ?_
    rw [truncf_apply, truncf_apply, maximumf_apply, broadcast_apply, addf_apply, addf_apply, addf_apply]
    refine congrArg₂ (· * ·) (congrArg₂ max (congrArg₂ (· + ·) (congrArg₂ (· + ·) (congrArg₂ (· + ·) ?_ ?_) ?_) ?_)
      Ideal.ofBits_zero_f32) rfl
    · refine (Cert.PlainDot.matmul_zero_apply none _ _ r k).trans ?_
      simp only [truncf_apply, shapeCast_self]
    · refine (Cert.PlainDot.matmul_zero_apply none _ _ r k).trans ?_
      simp only [truncf_apply, shapeCast_self]
    · refine (Cert.PlainDot.matmul_zero_apply none _ _ r k).trans ?_
      simp only [truncf_apply, shapeCast_self]
    · refine (broadcastTo_1b_ab_apply _ _ r k).trans ?_
      rw [shapeCast_self]
  · refine (broadcastTo_1b_ab_apply _ _ r q).trans ?_
    rw [shapeCast_self]

/-! ## From blocks to the array -/

/-- The index maps over the grid: the three row windows and the output window sit at row block t, the six weight
    and bias windows stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row r of block t is row 3200·t + r of the array. -/
def rowOf0 (t : Fin cfg0.N) (r : Fin 3200) : Fin 640000 :=
  ⟨t.val * 3200 + r.val, by have h : t.val < 200 := lt_of_lt_of_eq t.isLt N_0; have := r.isLt; omega⟩

variable (V : (c : Dev nD) → (b : Ref sig .tc) → Buf (Elt Ideal) ((c : Thread nD τ).loc b))

/-- Block t of the row array of window 0, at (r, a), is the array at (3200·t + r, a). -/
theorem blk0_0 (c : Dev nD) (t : Fin cfg0.N) (r : Fin 3200) (a : Fin 6) :
    iblk0 V c 0 t (ix2 r a) = V c main_v32 (ix2 (rowOf0 t r) a) := by
  have e := idx_facts0 t
  show V c main_v32 (((cfg0.win 0).blk t).view.emb (ix2 r a)) = V c main_v32 (ix2 (rowOf0 t r) a)
  refine congrArg _ (funext fun d => Fin.ext ?_)
  match d with
  | ⟨0, _⟩ => show win0_0.index t (0 : Fin 2) * 3200 + 1 * r.val = t.val * 3200 + r.val; omega
  | ⟨1, _⟩ => show win0_0.index t (1 : Fin 2) * 6 + 1 * a.val = a.val; omega

/-- Block t of the row array of window 1, at (r, a), is the array at (3200·t + r, a). -/
theorem blk0_1 (c : Dev nD) (t : Fin cfg0.N) (r : Fin 3200) (a : Fin 6) :
    iblk0 V c 1 t (ix2 r a) = V c main_v39 (ix2 (rowOf0 t r) a) := by
  have e := idx_facts0 t
  show V c main_v39 (((cfg0.win 1).blk t).view.emb (ix2 r a)) = V c main_v39 (ix2 (rowOf0 t r) a)
  refine congrArg _ (funext fun d => Fin.ext ?_)
  match d with
  | ⟨0, _⟩ => show win0_1.index t (0 : Fin 2) * 3200 + 1 * r.val = t.val * 3200 + r.val; omega
  | ⟨1, _⟩ => show win0_1.index t (1 : Fin 2) * 6 + 1 * a.val = a.val; omega

/-- Block t of the row array of window 2, at (r, a), is the array at (3200·t + r, a). -/
theorem blk0_2 (c : Dev nD) (t : Fin cfg0.N) (r : Fin 3200) (a : Fin 5) :
    iblk0 V c 2 t (ix2 r a) = V c main_v11 (ix2 (rowOf0 t r) a) := by
  have e := idx_facts0 t
  show V c main_v11 (((cfg0.win 2).blk t).view.emb (ix2 r a)) = V c main_v11 (ix2 (rowOf0 t r) a)
  refine congrArg _ (funext fun d => Fin.ext ?_)
  match d with
  | ⟨0, _⟩ => show win0_2.index t (0 : Fin 2) * 3200 + 1 * r.val = t.val * 3200 + r.val; omega
  | ⟨1, _⟩ => show win0_2.index t (1 : Fin 2) * 5 + 1 * a.val = a.val; omega

/-- Window 3's block is its whole array at every point. -/
theorem blk0_3 (c : Dev nD) (t : Fin cfg0.N) (a : Fin 6) (k : Fin 64) :
    iblk0 V c 3 t (ix2 a k) = V c main_v23 (ix2 a k) := by
  have e := idx_facts0 t
  show V c main_v23 (((cfg0.win 3).blk t).view.emb (ix2 a k)) = V c main_v23 (ix2 a k)
  refine congrArg _ (funext fun d => Fin.ext ?_)
  match d with
  | ⟨0, _⟩ => show win0_3.index t (0 : Fin 2) * 6 + 1 * a.val = a.val; omega
  | ⟨1, _⟩ => show win0_3.index t (1 : Fin 2) * 64 + 1 * k.val = k.val; omega

/-- Window 4's block is its whole array at every point. -/
theorem blk0_4 (c : Dev nD) (t : Fin cfg0.N) (a : Fin 6) (k : Fin 64) :
    iblk0 V c 4 t (ix2 a k) = V c main_v24 (ix2 a k) := by
  have e := idx_facts0 t
  show V c main_v24 (((cfg0.win 4).blk t).view.emb (ix2 a k)) = V c main_v24 (ix2 a k)
  refine congrArg _ (funext fun d => Fin.ext ?_)
  match d with
  | ⟨0, _⟩ => show win0_4.index t (0 : Fin 2) * 6 + 1 * a.val = a.val; omega
  | ⟨1, _⟩ => show win0_4.index t (1 : Fin 2) * 64 + 1 * k.val = k.val; omega

/-- Window 5's block is its whole array at every point. -/
theorem blk0_5 (c : Dev nD) (t : Fin cfg0.N) (a : Fin 5) (k : Fin 64) :
    iblk0 V c 5 t (ix2 a k) = V c main_v25 (ix2 a k) := by
  have e := idx_facts0 t
  show V c main_v25 (((cfg0.win 5).blk t).view.emb (ix2 a k)) = V c main_v25 (ix2 a k)
  refine congrArg _ (funext fun d => Fin.ext ?_)
  match d with
  | ⟨0, _⟩ => show win0_5.index t (0 : Fin 2) * 5 + 1 * a.val = a.val; omega
  | ⟨1, _⟩ => show win0_5.index t (1 : Fin 2) * 64 + 1 * k.val = k.val; omega

/-- Window 6's block is its whole array at every point. -/
theorem blk0_6 (c : Dev nD) (t : Fin cfg0.N) (a : Fin 1) (k : Fin 64) :
    iblk0 V c 6 t (ix2 a k) = V c main_v40 (ix2 a k) := by
  have e := idx_facts0 t
  show V c main_v40 (((cfg0.win 6).blk t).view.emb (ix2 a k)) = V c main_v40 (ix2 a k)
  refine congrArg _ (funext fun d => Fin.ext ?_)
  match d with
  | ⟨0, _⟩ => show win0_6.index t (0 : Fin 2) * 1 + 1 * a.val = a.val; omega
  | ⟨1, _⟩ => show win0_6.index t (1 : Fin 2) * 64 + 1 * k.val = k.val; omega

/-- Window 7's block is its whole array at every point. -/
theorem blk0_7 (c : Dev nD) (t : Fin cfg0.N) (a : Fin 64) (k : Fin 64) :
    iblk0 V c 7 t (ix2 a k) = V c main_arg5 (ix2 a k) := by
  have e := idx_facts0 t
  show V c main_arg5 (((cfg0.win 7).blk t).view.emb (ix2 a k)) = V c main_arg5 (ix2 a k)
  refine congrArg _ (funext fun d => Fin.ext ?_)
  match d with
  | ⟨0, _⟩ => show win0_7.index t (0 : Fin 2) * 64 + 1 * a.val = a.val; omega
  | ⟨1, _⟩ => show win0_7.index t (1 : Fin 2) * 64 + 1 * k.val = k.val; omega

/-- Window 8's block is its whole array at every point. -/
theorem blk0_8 (c : Dev nD) (t : Fin cfg0.N) (a : Fin 1) (k : Fin 64) :
    iblk0 V c 8 t (ix2 a k) = V c main_v41 (ix2 a k) := by
  have e := idx_facts0 t
  show V c main_v41 (((cfg0.win 8).blk t).view.emb (ix2 a k)) = V c main_v41 (ix2 a k)
  refine congrArg _ (funext fun d => Fin.ext ?_)
  match d with
  | ⟨0, _⟩ => show win0_8.index t (0 : Fin 2) * 1 + 1 * a.val = a.val; omega
  | ⟨1, _⟩ => show win0_8.index t (1 : Fin 2) * 64 + 1 * k.val = k.val; omega

/-- Entry (r, q) of the output's block t sits at (3200·t + r, q) of the output array. -/
theorem emb0_9 (t : Fin cfg0.N) (r : Fin 3200) (q : Fin 64) :
    ((cfg0.win 9).blk t).view.emb (ix2 r q) = ix2 (rowOf0 t r) q := by
  have e := idx_facts0 t
  refine funext fun d => Fin.ext ?_
  match d with
  | ⟨0, _⟩ => show win0_9.index t (0 : Fin 2) * 3200 + 1 * r.val = t.val * 3200 + r.val; omega
  | ⟨1, _⟩ => show win0_9.index t (1 : Fin 2) * 64 + 1 * q.val = q.val; omega

/-- The per-edge function of the nine arrays as the region finds them. -/
abbrev G0 (c : Dev nD) : S640000x64.Idx → EReal :=
  mlpG (D := 6) (O := 64) (V c main_v32) (V c main_v39) (V c main_v11) (V c main_v23) (V c main_v24) (V c main_v25)
    (V c main_v40) (V c main_arg5) (V c main_v41)

/-- WHAT POINT t WRITES BACK is block t of the per-edge function of the nine arrays. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz0]
  simp only [View.ld_unit_zero (S := S3200x6) hz0, View.ld_unit_zero (S := S3200x5) hz0, View.ld_unit_zero (S := S6x64) hz0,
    View.ld_unit_zero (S := S5x64) hz0, View.ld_unit_zero (S := S1x64) hz0, View.ld_unit_zero (S := S64x64) hz0]
  funext j
  obtain ⟨r, q, rfl⟩ : ∃ (r : Fin 3200) (q : Fin 64), j = ix2 r q := ⟨j 0, j 1, eq_ix2 j⟩
  refine (mlp_pay_apply0 _ _ _ _ _ _ _ _ _ r q).trans ?_
  show _ = G0 V c (((cfg0.win 9).blk t).view.emb (ix2 r q))
  rw [emb0_9 t r q]
  show _ = mlpRow (D := 6) (O := 64) (V c main_v32) (V c main_v39) (V c main_v11) (V c main_v23) (V c main_v24) (V c main_v25)
    (V c main_v40) (V c main_arg5) (V c main_v41) (rowOf0 t r) q
  unfold mlpRow Cert.Spec.hidden
  rw [blk0_8 V c t 0 q]
  refine congrArg (fun s => s + _) (Finset.sum_congr rfl fun k _ => ?_)
  rw [blk0_7 V c t k q, blk0_6 V c t 0 k]
  refine congrArg (fun s => max (s + _) 0 * _) ?_
  refine congrArg₂ (· + ·) (congrArg₂ (· + ·) ?_ ?_) ?_
  · exact Finset.sum_congr rfl fun a _ => by rw [blk0_0 V c t r a, blk0_3 V c t a k]
  · exact Finset.sum_congr rfl fun a _ => by rw [blk0_1 V c t r a, blk0_4 V c t a k]
  · exact Finset.sum_congr rfl fun a _ => by rw [blk0_2 V c t r a, blk0_5 V c t a k]

/-- An index of the output array is in point t's block iff each coordinate is in the block's range. -/
theorem mem_blk0 (t : Fin cfg0.N) (i : S640000x64.Idx) :
    i ∈ ((cfg0.win 9).blk t).view.set ↔ ∀ a : Fin 2, win0_9.index t a * S3200x64.size a ≤ (i a).val ∧ (i a).val < win0_9.index t a * S3200x64.size a + S3200x64.size a := by
  show i ∈ ((View.whole main_v42).slice (win0_9.rect t)).set ↔ _
  rw [View.set_slice_whole, Rect.mem_set_unit]
  exact Iff.rfl

/-- The two hundred row blocks tile the output array: row p is in block p / 3200. -/
theorem cover0 (i : S640000x64.Idx) : ∃ t : Fin cfg0.N, (cfg0.win 9).flush t = true ∧ i ∈ ((cfg0.win 9).blk t).view.set := by
  have hi0 : (i 0).val < 640000 := (i 0).isLt
  have hi1 : (i 1).val < 64 := (i 1).isLt
  let t : Fin cfg0.N := ⟨(i 0).val / 3200, lt_of_lt_of_eq (by omega) N_0.symm⟩
  have e := idx_facts0 t
  have ht : t.val = (i 0).val / 3200 := rfl
  refine ⟨t, flush0_9 t, ?_⟩
  rw [mem_blk0]
  intro a
  match a with
  | ⟨0, _⟩ => show win0_9.index t (0 : Fin 2) * 3200 ≤ (i 0).val ∧ (i 0).val < win0_9.index t (0 : Fin 2) * 3200 + 3200; omega
  | ⟨1, _⟩ => show win0_9.index t (1 : Fin 2) * 64 ≤ (i 1).val ∧ (i 1).val < win0_9.index t (1 : Fin 2) * 64 + 64; omega

/-- THE ARRAY THE REGION LEAVES: the per-edge function of the nine arrays as the region finds them. -/
theorem final0 (c : Dev nD) : (dat0 V c).arrAt 9 cfg0.N = G0 V c :=
  (dat0 V c).arrAt_eq_of_cover 9 _ (fun t _ => flushed0_eq V c t) cover0

end Cert.KernelIdeal.HandValue

end
-- ==== Proof.KI.Val1.lean ====
/-
  The matmul-bias-relu region (pallas_call 1), read as a value at the ideal instance.

  Its output array has 20000 rows in ten blocks of 2000; grid point t computes block t from block t of the
  [20000, 256] feature array, the whole [256, 64] weight matrix and the [1, 64] bias row. So entry (p, q) of the
  output is  max (Σ_k f[p, k] · w[k, q] + b[0, q]) 0  — the same function of the three arrays at every point —
  and, the ten blocks tiling the array, the array the region leaves IS that function.
-/
import proofs.«120992_j5111011082634_2_alg».proof.Proof.KI.D1
import proofs.«120992_j5111011082634_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-- Entry (p, q) of relu (f · w + b): a row of features against a column of weights, plus the bias, clamped at 0. -/
def tagRow (f : S20000x256.Idx → EReal) (w : S256x64.Idx → EReal) (b : S1x64.Idx → EReal) (p : Fin 20000) (q : Fin 64) : EReal :=
  max ((∑ k : Fin 256, f (ix2 p k) * w (ix2 k q)) + b (ix2 (0 : Fin 1) q)) 0

/-- relu (f · w + b) as one array. -/
def tagG (f : S20000x256.Idx → EReal) (w : S256x64.Idx → EReal) (b : S1x64.Idx → EReal) : S20000x64.Idx → EReal :=
  fun i => tagRow f w b (i 0) (i 1)

/-- The kernel's product record is the plain [2000, 256] × [256, 64] one. -/
theorem dot1_eq : dot_S2000x256_S256x64_S2000x64_1_0_0_1_n_n = DotDims.plain 2000 256 64 := rfl

/-- The body's stored value at (r, q) of a block: the block's row r against column q of the weights, plus the
    bias, clamped at 0 (the roundings to bf16 are the identity on extended reals). -/
theorem tag_pay_apply (x0 : Vec Ideal S2000x256 .f32) (x1 : Vec Ideal S256x64 .f32) (x2 : Vec Ideal S1x64 .f32)
    (r : Fin 2000) (q : Fin 64) :
    k1_pay1 (F := Ideal) x0 x1 x2 (ix2 r q)
      = max ((∑ k : Fin 256, x0 (ix2 r k) * x1 (ix2 k q)) + x2 (ix2 (0 : Fin 1) q)) 0 := by
  unfold k1_pay1
  rw [maximumf_apply, addf_apply, broadcast_apply, dot1_eq]
  refine congrArg₂ max (congrArg₂ (· + ·) ?_ ?_) Ideal.ofBits_zero_f32
  · refine (Cert.PlainDot.matmul_zero_apply none _ _ r q).trans ?_
    simp only [truncf_apply, shapeCast_self]
  · refine (broadcastTo_1b_ab_apply _ _ r q).trans ?_
    rw [shapeCast_self]

/-! ## From blocks to the array -/

theorem hz2 : (![0, 0] : Fin 2 → Nat) = fun _ => 0 := funext fun a => by fin_cases a <;> rfl

/-- The index maps over the grid: the feature and output windows sit at row block t, the weight and bias
    windows stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of block t is row 2000·t + r of the array. -/
def rowOf1 (t : Fin cfg1.N) (r : Fin 2000) : Fin 20000 :=
  ⟨t.val * 2000 + r.val, by have h : t.val < 10 := lt_of_lt_of_eq t.isLt N_1; have := r.isLt; omega⟩

variable (V : (c : Dev nD) → (b : Ref sig .tc) → Buf (Elt Ideal) ((c : Thread nD τ).loc b))

/-- Block t of the feature array, at (r, k), is the array at (2000·t + r, k). -/
theorem blk1_0 (c : Dev nD) (t : Fin cfg1.N) (r : Fin 2000) (k : Fin 256) :
    iblk1 V c 0 t (ix2 r k) = V c main_v99 (ix2 (rowOf1 t r) k) := by
  obtain ⟨e00, e01, -⟩ := idx_facts1 t
  show V c main_v99 (((cfg1.win 0).blk t).view.emb (ix2 r k)) = V c main_v99 (ix2 (rowOf1 t r) k)
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 256 + 1 * k.val = k.val; omega

/-- The weight window's block is the whole weight matrix. -/
theorem blk1_1 (c : Dev nD) (t : Fin cfg1.N) (k : Fin 256) (q : Fin 64) :
    iblk1 V c 1 t (ix2 k q) = V c main_v100 (ix2 k q) := by
  obtain ⟨-, -, e10, e11, -⟩ := idx_facts1 t
  show V c main_v100 (((cfg1.win 1).blk t).view.emb (ix2 k q)) = V c main_v100 (ix2 k q)
  refine congrArg _ (funext fun a => Fin.ext ?_)
  match a with
  | ⟨0, _⟩ => show win1_1.index t (0 : Fin 2) * 256 + 1 * k.val = k.val; omega
  | ⟨1, _⟩ => show win1_1.index t (1 : Fin 2) * 64 + 1 * q.val = q.val; omega

/-- The bias window's block is the whole bias row. -/
theorem blk1_2 (c : Dev nD) (t : Fin cfg1.N) (q : Fin 64) :
    iblk1 V c 2 t (ix2 (0 : Fin 1) q) = V c main_v101 (ix2 (0 : Fin 1) q) := by
  obtain ⟨-, -, -, -, e20, e21, -⟩ := idx_facts1 t
  show V c main_v101 (((cfg1.win 2).blk t).view.emb (ix2 (0 : Fin 1) q)) = V c main_v101 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- Entry (r, q) of the output's block t sits at (2000·t + r, q) of the output array. -/
theorem emb1_3 (t : Fin cfg1.N) (r : Fin 2000) (q : Fin 64) :
    ((cfg1.win 3).blk t).view.emb (ix2 r q) = ix2 (rowOf1 t r) q := by
  obtain ⟨-, -, -, -, -, -, e30, e31⟩ := idx_facts1 t
  refine funext fun a => Fin.ext ?_
  match a with
  | ⟨0, _⟩ => show win1_3.index t (0 : Fin 2) * 2000 + 1 * r.val = t.val * 2000 + r.val; omega
  | ⟨1, _⟩ => show win1_3.index t (1 : Fin 2) * 64 + 1 * q.val = q.val; omega

/-- WHAT POINT t WRITES BACK is block t of relu (f · w + b) of the three arrays as the region finds them. -/
theorem flushed1_eq (c : Dev nD) (t : Fin cfg1.N) :
    (dat1 V c).flushed 3 t
      = ((cfg1.win 3).blk t).view.read (Elt Ideal) (tagG (V c main_v99) (V c main_v100) (V c main_v101)) := by
  show (cfg1.win 3).cut (grid1.coords t) ((dat1 V c).after 3 t) = _
  rw [after1_3]
  unfold out1_3
  rw [View.canon_unit_zero hz2]
  simp only [View.ld_unit_zero (S := S2000x256) hz2, View.ld_unit_zero (S := S256x64) hz2, View.ld_unit_zero (S := S1x64) hz2]
  funext j
  obtain ⟨r, q, rfl⟩ : ∃ (r : Fin 2000) (q : Fin 64), j = ix2 r q := ⟨j 0, j 1, eq_ix2 j⟩
  refine (tag_pay_apply _ _ _ r q).trans ?_
  show _ = tagG (V c main_v99) (V c main_v100) (V c main_v101) (((cfg1.win 3).blk t).view.emb (ix2 r q))
  rw [emb1_3 t r q]
  show _ = tagRow (V c main_v99) (V c main_v100) (V c main_v101) (rowOf1 t r) q
  unfold tagRow
  rw [blk1_2 V c t q]
  refine congrArg (fun s => max (s + _) 0) (Finset.sum_congr rfl fun k _ => ?_)
  rw [blk1_0 V c t r k, blk1_1 V c t k q]

/-- An index of the output array is in point t's block iff each coordinate is in the block's range. -/
theorem mem_blk1 (t : Fin cfg1.N) (i : S20000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v102).slice (win1_3.rect t)).set ↔ _
  rw [View.set_slice_whole, Rect.mem_set_unit]
  exact Iff.rfl

/-- The ten row blocks tile the output array: row p is in block p / 2000. -/
theorem cover1 (i : S20000x64.Idx) : ∃ t : Fin cfg1.N, (cfg1.win 3).flush t = true ∧ i ∈ ((cfg1.win 3).blk t).view.set := by
  have hi0 : (i 0).val < 20000 := (i 0).isLt
  have hi1 : (i 1).val < 64 := (i 1).isLt
  let t : Fin cfg1.N := ⟨(i 0).val / 2000, lt_of_lt_of_eq (by omega) N_1.symm⟩
  obtain ⟨-, -, -, -, -, -, e30, e31⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- THE ARRAY THE REGION LEAVES: relu (f · w + b) of the three arrays as the region finds them. -/
theorem final1 (c : Dev nD) :
    (dat1 V c).arrAt 3 cfg1.N = tagG (V c main_v99) (V c main_v100) (V c main_v101) :=
  (dat1 V c).arrAt_eq_of_cover 3 _ (fun t _ => flushed1_eq V c t) cover1

end Cert.KernelIdeal.HandValue

end
-- ==== Proof.KI.Val2.lean ====
/-
  The edge-network region (pallas_call 2), read as a value at the ideal instance: the edge network of pallas_call 0
  at input width 64 and output width 64, on this call's arrays.

  Its output array has 640000 rows in two hundred blocks of 3200; grid point t computes block t from block t of the
  two gathered node-feature arrays and of the edge attributes, and from the whole weight and bias arrays. Entry (p, q)
  of the output is the per-edge function of row p of the three row arrays, and, the blocks tiling the array, the
  array the region leaves IS that function.
-/
import proofs.«120992_j5111011082634_2_alg».proof.Proof.KI.D2
import proofs.«120992_j5111011082634_2_alg».proof.Proof.KI.Val0

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open scoped BigOperators

/-- The body's stored value at (r, q) of a block: the per-edge function of row r of the three row blocks (the
    roundings to bf16 are the identity on extended reals). -/
theorem mlp_pay_apply2 (x0 x1 : Vec Ideal S3200x64 .f32) (x2 : Vec Ideal S3200x5 .f32) (x3 x4 : Vec Ideal S64x64 .f32)
    (x5 : Vec Ideal S5x64 .f32) (x6 : Vec Ideal S1x64 .f32) (x7 : Vec Ideal S64x64 .f32) (x8 : Vec Ideal S1x64 .f32)
    (r : Fin 3200) (q : Fin 64) :
    k2_pay1 (F := Ideal) (k2_pay2 x0 x1 x2 x3 x4 x5 x6 x7) (k2_pay3 x8) (ix2 r q)
      = (∑ k : Fin 64, max ((((∑ a : Fin 64, x0 (ix2 r a) * x3 (ix2 a k)) + (∑ a : Fin 64, x1 (ix2 r a) * x4 (ix2 a k)))
            + (∑ a : Fin 5, x2 (ix2 r a) * x5 (ix2 a k))) + x6 (ix2 (0 : Fin 1) k)) 0 * x7 (ix2 k q))
          + x8 (ix2 (0 : Fin 1) q) := by
  unfold k2_pay1 k2_pay2 k2_pay3
  rw [addf_apply, dotB_eq, dotC_eq]
  refine congrArg₂ (· + ·) ?_ ?_
  · refine (Cert.PlainDot.matmul_zero_apply none _ _ r q).trans ?_
    refine Finset.sum_congr rfl fun k _ => ?_
    rw [truncf_apply, truncf_apply, maximumf_apply, broadcast_apply, addf_apply, addf_apply, addf_apply]
    refine congrArg₂ (· * ·) (congrArg₂ max (congrArg₂ (· + ·) (congrArg₂ (· + ·) (congrArg₂ (· + ·) ?_ ?_) ?_) ?_)
      Ideal.ofBits_zero_f32) ?_
    · refine (Cert.PlainDot.matmul_zero_apply none _ _ r k).trans ?_
      simp only [truncf_apply, shapeCast_self]
    · refine (Cert.PlainDot.matmul_zero_apply none _ _ r k).trans ?_
      simp only [truncf_apply, shapeCast_self]
    · refine (Cert.PlainDot.matmul_zero_apply none _ _ r k).trans ?_
      simp only [truncf_apply, shapeCast_self]
    · refine (broadcastTo_1b_ab_apply _ _ r k).trans ?_
      rw [shapeCast_self]
    · simp only [shapeCast_self]
  · refine (broadcastTo_1b_ab_apply _ _ r q).trans ?_
    rw [shapeCast_self]

/-! ## From blocks to the array -/

/-- The index maps over the grid: the three row windows and the output window sit at row block t, the six weight
    and bias windows stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row r of block t is row 3200·t + r of the array. -/
def rowOf2 (t : Fin cfg2.N) (r : Fin 3200) : Fin 640000 :=
  ⟨t.val * 3200 + r.val, by have h : t.val < 200 := lt_of_lt_of_eq t.isLt N_2; have := r.isLt; omega⟩

variable (V : (c : Dev nD) → (b : Ref sig .tc) → Buf (Elt Ideal) ((c : Thread nD τ).loc b))

/-- Block t of the row array of window 0, at (r, a), is the array at (3200·t + r, a). -/
theorem blk2_0 (c : Dev nD) (t : Fin cfg2.N) (r : Fin 3200) (a : Fin 64) :
    iblk2 V c 0 t (ix2 r a) = V c main_v120 (ix2 (rowOf2 t r) a) := by
  have e := idx_facts2 t
  show V c main_v120 (((cfg2.win 0).blk t).view.emb (ix2 r a)) = V c main_v120 (ix2 (rowOf2 t r) a)
  refine congrArg _ (funext fun d => Fin.ext ?_)
  match d with
  | ⟨0, _⟩ => show win2_0.index t (0 : Fin 2) * 3200 + 1 * r.val = t.val * 3200 + r.val; omega
  | ⟨1, _⟩ => show win2_0.index t (1 : Fin 2) * 64 + 1 * a.val = a.val; omega

/-- Block t of the row array of window 1, at (r, a), is the array at (3200·t + r, a). -/
theorem blk2_1 (c : Dev nD) (t : Fin cfg2.N) (r : Fin 3200) (a : Fin 64) :
    iblk2 V c 1 t (ix2 r a) = V c main_v127 (ix2 (rowOf2 t r) a) := by
  have e := idx_facts2 t
  show V c main_v127 (((cfg2.win 1).blk t).view.emb (ix2 r a)) = V c main_v127 (ix2 (rowOf2 t r) a)
  refine congrArg _ (funext fun d => Fin.ext ?_)
  match d with
  | ⟨0, _⟩ => show win2_1.index t (0 : Fin 2) * 3200 + 1 * r.val = t.val * 3200 + r.val; omega
  | ⟨1, _⟩ => show win2_1.index t (1 : Fin 2) * 64 + 1 * a.val = a.val; omega

/-- Block t of the row array of window 2, at (r, a), is the array at (3200·t + r, a). -/
theorem blk2_2 (c : Dev nD) (t : Fin cfg2.N) (r : Fin 3200) (a : Fin 5) :
    iblk2 V c 2 t (ix2 r a) = V c main_v11 (ix2 (rowOf2 t r) a) := by
  have e := idx_facts2 t
  show V c main_v11 (((cfg2.win 2).blk t).view.emb (ix2 r a)) = V c main_v11 (ix2 (rowOf2 t r) a)
  refine congrArg _ (funext fun d => Fin.ext ?_)
  match d with
  | ⟨0, _⟩ => show win2_2.index t (0 : Fin 2) * 3200 + 1 * r.val = t.val * 3200 + r.val; omega
  | ⟨1, _⟩ => show win2_2.index t (1 : Fin 2) * 5 + 1 * a.val = a.val; omega

/-- Window 3's block is its whole array at every point. -/
theorem blk2_3 (c : Dev nD) (t : Fin cfg2.N) (a : Fin 64) (k : Fin 64) :
    iblk2 V c 3 t (ix2 a k) = V c main_v111 (ix2 a k) := by
  have e := idx_facts2 t
  show V c main_v111 (((cfg2.win 3).blk t).view.emb (ix2 a k)) = V c main_v111 (ix2 a k)
  refine congrArg _ (funext fun d => Fin.ext ?_)
  match d with
  | ⟨0, _⟩ => show win2_3.index t (0 : Fin 2) * 64 + 1 * a.val = a.val; omega
  | ⟨1, _⟩ => show win2_3.index t (1 : Fin 2) * 64 + 1 * k.val = k.val; omega

/-- Window 4's block is its whole array at every point. -/
theorem blk2_4 (c : Dev nD) (t : Fin cfg2.N) (a : Fin 64) (k : Fin 64) :
    iblk2 V c 4 t (ix2 a k) = V c main_v112 (ix2 a k) := by
  have e := idx_facts2 t
  show V c main_v112 (((cfg2.win 4).blk t).view.emb (ix2 a k)) = V c main_v112 (ix2 a k)
  refine congrArg _ (funext fun d => Fin.ext ?_)
  match d with
  | ⟨0, _⟩ => show win2_4.index t (0 : Fin 2) * 64 + 1 * a.val = a.val; omega
  | ⟨1, _⟩ => show win2_4.index t (1 : Fin 2) * 64 + 1 * k.val = k.val; omega

/-- Window 5's block is its whole array at every point. -/
theorem blk2_5 (c : Dev nD) (t : Fin cfg2.N) (a : Fin 5) (k : Fin 64) :
    iblk2 V c 5 t (ix2 a k) = V c main_v113 (ix2 a k) := by
  have e := idx_facts2 t
  show V c main_v113 (((cfg2.win 5).blk t).view.emb (ix2 a k)) = V c main_v113 (ix2 a k)
  refine congrArg _ (funext fun d => Fin.ext ?_)
  match d with
  | ⟨0, _⟩ => show win2_5.index t (0 : Fin 2) * 5 + 1 * a.val = a.val; omega
  | ⟨1, _⟩ => show win2_5.index t (1 : Fin 2) * 64 + 1 * k.val = k.val; omega

/-- Window 6's block is its whole array at every point. -/
theorem blk2_6 (c : Dev nD) (t : Fin cfg2.N) (a : Fin 1) (k : Fin 64) :
    iblk2 V c 6 t (ix2 a k) = V c main_v128 (ix2 a k) := by
  have e := idx_facts2 t
  show V c main_v128 (((cfg2.win 6).blk t).view.emb (ix2 a k)) = V c main_v128 (ix2 a k)
  refine congrArg _ (funext fun d => Fin.ext ?_)
  match d with
  | ⟨0, _⟩ => show win2_6.index t (0 : Fin 2) * 1 + 1 * a.val = a.val; omega
  | ⟨1, _⟩ => show win2_6.index t (1 : Fin 2) * 64 + 1 * k.val = k.val; omega

/-- Window 7's block is its whole array at every point. -/
theorem blk2_7 (c : Dev nD) (t : Fin cfg2.N) (a : Fin 64) (k : Fin 64) :
    iblk2 V c 7 t (ix2 a k) = V c main_v108 (ix2 a k) := by
  have e := idx_facts2 t
  show V c main_v108 (((cfg2.win 7).blk t).view.emb (ix2 a k)) = V c main_v108 (ix2 a k)
  refine congrArg _ (funext fun d => Fin.ext ?_)
  match d with
  | ⟨0, _⟩ => show win2_7.index t (0 : Fin 2) * 64 + 1 * a.val = a.val; omega
  | ⟨1, _⟩ => show win2_7.index t (1 : Fin 2) * 64 + 1 * k.val = k.val; omega

/-- Window 8's block is its whole array at every point. -/
theorem blk2_8 (c : Dev nD) (t : Fin cfg2.N) (a : Fin 1) (k : Fin 64) :
    iblk2 V c 8 t (ix2 a k) = V c main_v129 (ix2 a k) := by
  have e := idx_facts2 t
  show V c main_v129 (((cfg2.win 8).blk t).view.emb (ix2 a k)) = V c main_v129 (ix2 a k)
  refine congrArg _ (funext fun d => Fin.ext ?_)
  match d with
  | ⟨0, _⟩ => show win2_8.index t (0 : Fin 2) * 1 + 1 * a.val = a.val; omega
  | ⟨1, _⟩ => show win2_8.index t (1 : Fin 2) * 64 + 1 * k.val = k.val; omega

/-- Entry (r, q) of the output's block t sits at (3200·t + r, q) of the output array. -/
theorem emb2_9 (t : Fin cfg2.N) (r : Fin 3200) (q : Fin 64) :
    ((cfg2.win 9).blk t).view.emb (ix2 r q) = ix2 (rowOf2 t r) q := by
  have e := idx_facts2 t
  refine funext fun d => Fin.ext ?_
  match d with
  | ⟨0, _⟩ => show win2_9.index t (0 : Fin 2) * 3200 + 1 * r.val = t.val * 3200 + r.val; omega
  | ⟨1, _⟩ => show win2_9.index t (1 : Fin 2) * 64 + 1 * q.val = q.val; omega

/-- The per-edge function of the nine arrays as the region finds them. -/
abbrev G2 (c : Dev nD) : S640000x64.Idx → EReal :=
  mlpG (D := 64) (O := 64) (V c main_v120) (V c main_v127) (V c main_v11) (V c main_v111) (V c main_v112) (V c main_v113)
    (V c main_v128) (V c main_v108) (V c main_v129)

/-- WHAT POINT t WRITES BACK is block t of the per-edge function of the nine arrays. -/
theorem flushed2_eq (c : Dev nD) (t : Fin cfg2.N) :
    (dat2 V c).flushed 9 t = ((cfg2.win 9).blk t).view.read (Elt Ideal) (G2 V c) := by
  show (cfg2.win 9).cut (grid2.coords t) ((dat2 V c).after 9 t) = _
  rw [after2_9]
  unfold out2_9
  rw [View.canon_unit_zero hz0]
  simp only [View.ld_unit_zero (S := S3200x64) hz0, View.ld_unit_zero (S := S3200x5) hz0, View.ld_unit_zero (S := S64x64) hz0, View.ld_unit_zero (S := S5x64) hz0, View.ld_unit_zero (S := S1x64) hz0]
  funext j
  obtain ⟨r, q, rfl⟩ : ∃ (r : Fin 3200) (q : Fin 64), j = ix2 r q := ⟨j 0, j 1, eq_ix2 j⟩
  refine (mlp_pay_apply2 _ _ _ _ _ _ _ _ _ r q).trans ?_
  show _ = G2 V c (((cfg2.win 9).blk t).view.emb (ix2 r q))
  rw [emb2_9 t r q]
  show _ = mlpRow (D := 64) (O := 64) (V c main_v120) (V c main_v127) (V c main_v11) (V c main_v111) (V c main_v112) (V c main_v113)
    (V c main_v128) (V c main_v108) (V c main_v129) (rowOf2 t r) q
  unfold mlpRow Cert.Spec.hidden
  rw [blk2_8 V c t 0 q]
  refine congrArg (fun s => s + _) (Finset.sum_congr rfl fun k _ => ?_)
  rw [blk2_7 V c t k q, blk2_6 V c t 0 k]
  refine congrArg (fun s => max (s + _) 0 * _) ?_
  refine congrArg₂ (· + ·) (congrArg₂ (· + ·) ?_ ?_) ?_
  · exact Finset.sum_congr rfl fun a _ => by rw [blk2_0 V c t r a, blk2_3 V c t a k]
  · exact Finset.sum_congr rfl fun a _ => by rw [blk2_1 V c t r a, blk2_4 V c t a k]
  · exact Finset.sum_congr rfl fun a _ => by rw [blk2_2 V c t r a, blk2_5 V c t a k]

/-- An index of the output array is in point t's block iff each coordinate is in the block's range. -/
theorem mem_blk2 (t : Fin cfg2.N) (i : S640000x64.Idx) :
    i ∈ ((cfg2.win 9).blk t).view.set ↔ ∀ a : Fin 2, win2_9.index t a * S3200x64.size a ≤ (i a).val ∧ (i a).val < win2_9.index t a * S3200x64.size a + S3200x64.size a := by
  show i ∈ ((View.whole main_v130).slice (win2_9.rect t)).set ↔ _
  rw [View.set_slice_whole, Rect.mem_set_unit]
  exact Iff.rfl

/-- The two hundred row blocks tile the output array: row p is in block p / 3200. -/
theorem cover2 (i : S640000x64.Idx) : ∃ t : Fin cfg2.N, (cfg2.win 9).flush t = true ∧ i ∈ ((cfg2.win 9).blk t).view.set := by
  have hi0 : (i 0).val < 640000 := (i 0).isLt
  have hi1 : (i 1).val < 64 := (i 1).isLt
  let t : Fin cfg2.N := ⟨(i 0).val / 3200, lt_of_lt_of_eq (by omega) N_2.symm⟩
  have e := idx_facts2 t
  have ht : t.val = (i 0).val / 3200 := rfl
  refine ⟨t, flush2_9 t, ?_⟩
  rw [mem_blk2]
  intro a
  match a with
  | ⟨0, _⟩ => show win2_9.index t (0 : Fin 2) * 3200 ≤ (i 0).val ∧ (i 0).val < win2_9.index t (0 : Fin 2) * 3200 + 3200; omega
  | ⟨1, _⟩ => show win2_9.index t (1 : Fin 2) * 64 ≤ (i 1).val ∧ (i 1).val < win2_9.index t (1 : Fin 2) * 64 + 64; omega

/-- THE ARRAY THE REGION LEAVES: the per-edge function of the nine arrays as the region finds them. -/
theorem final2 (c : Dev nD) : (dat2 V c).arrAt 9 cfg2.N = G2 V c :=
  (dat2 V c).arrAt_eq_of_cover 9 _ (fun t _ => flushed2_eq V c t) cover2

end Cert.KernelIdeal.HandValue

end
-- ==== Proof.KI.Val3.lean ====
/-
  The matmul-bias-relu region (pallas_call 3), read as a value at the ideal instance: the same kernel as pallas_call 1
  on this call's arrays, so the same function of them.

  Its output array has 20000 rows in ten blocks of 2000; grid point t computes block t from block t of the
  [20000, 256] feature array, the whole [256, 64] weight matrix and the [1, 64] bias row. So entry (p, q) of the
  output is  max (Σ_k f[p, k] · w[k, q] + b[0, q]) 0  — the same function of the three arrays at every point —
  and, the ten blocks tiling the array, the array the region leaves IS that function.
-/
import proofs.«120992_j5111011082634_2_alg».proof.Proof.KI.D3
import proofs.«120992_j5111011082634_2_alg».proof.Proof.KI.Val1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-- The body's stored value at (r, q) of a block: the block's row r against column q of the weights, plus the
    bias, clamped at 0 (the roundings to bf16 are the identity on extended reals). -/
theorem tag_pay_apply3 (x0 : Vec Ideal S2000x256 .f32) (x1 : Vec Ideal S256x64 .f32) (x2 : Vec Ideal S1x64 .f32)
    (r : Fin 2000) (q : Fin 64) :
    k3_pay1 (F := Ideal) x0 x1 x2 (ix2 r q)
      = max ((∑ k : Fin 256, x0 (ix2 r k) * x1 (ix2 k q)) + x2 (ix2 (0 : Fin 1) q)) 0 := by
  unfold k3_pay1
  rw [maximumf_apply, addf_apply, broadcast_apply, dot1_eq]
  refine congrArg₂ max (congrArg₂ (· + ·) ?_ ?_) Ideal.ofBits_zero_f32
  · refine (Cert.PlainDot.matmul_zero_apply none _ _ r q).trans ?_
    simp only [truncf_apply, shapeCast_self]
  · refine (broadcastTo_1b_ab_apply _ _ r q).trans ?_
    rw [shapeCast_self]

/-! ## From blocks to the array -/

/-- The index maps over the grid: the feature and output windows sit at row block t, the weight and bias
    windows stay at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of block t is row 2000·t + r of the array. -/
def rowOf3 (t : Fin cfg3.N) (r : Fin 2000) : Fin 20000 :=
  ⟨t.val * 2000 + r.val, by have h : t.val < 10 := lt_of_lt_of_eq t.isLt N_3; have := r.isLt; omega⟩

variable (V : (c : Dev nD) → (b : Ref sig .tc) → Buf (Elt Ideal) ((c : Thread nD τ).loc b))

/-- Block t of the feature array, at (r, k), is the array at (2000·t + r, k). -/
theorem blk3_0 (c : Dev nD) (t : Fin cfg3.N) (r : Fin 2000) (k : Fin 256) :
    iblk3 V c 0 t (ix2 r k) = V c main_v187 (ix2 (rowOf3 t r) k) := by
  obtain ⟨e00, e01, -⟩ := idx_facts3 t
  show V c main_v187 (((cfg3.win 0).blk t).view.emb (ix2 r k)) = V c main_v187 (ix2 (rowOf3 t r) k)
  refine congrArg _ (funext fun a => Fin.ext ?_)
  match a with
  | ⟨0, _⟩ => show win3_0.index t (0 : Fin 2) * 2000 + 1 * r.val = t.val * 2000 + r.val; omega
  | ⟨1, _⟩ => show win3_0.index t (1 : Fin 2) * 256 + 1 * k.val = k.val; omega

/-- The weight window's block is the whole weight matrix. -/
theorem blk3_1 (c : Dev nD) (t : Fin cfg3.N) (k : Fin 256) (q : Fin 64) :
    iblk3 V c 1 t (ix2 k q) = V c main_v188 (ix2 k q) := by
  obtain ⟨-, -, e10, e11, -⟩ := idx_facts3 t
  show V c main_v188 (((cfg3.win 1).blk t).view.emb (ix2 k q)) = V c main_v188 (ix2 k q)
  refine congrArg _ (funext fun a => Fin.ext ?_)
  match a with
  | ⟨0, _⟩ => show win3_1.index t (0 : Fin 2) * 256 + 1 * k.val = k.val; omega
  | ⟨1, _⟩ => show win3_1.index t (1 : Fin 2) * 64 + 1 * q.val = q.val; omega

/-- The bias window's block is the whole bias row. -/
theorem blk3_2 (c : Dev nD) (t : Fin cfg3.N) (q : Fin 64) :
    iblk3 V c 2 t (ix2 (0 : Fin 1) q) = V c main_v189 (ix2 (0 : Fin 1) q) := by
  obtain ⟨-, -, -, -, e20, e21, -⟩ := idx_facts3 t
  show V c main_v189 (((cfg3.win 2).blk t).view.emb (ix2 (0 : Fin 1) q)) = V c main_v189 (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- Entry (r, q) of the output's block t sits at (2000·t + r, q) of the output array. -/
theorem emb3_3 (t : Fin cfg3.N) (r : Fin 2000) (q : Fin 64) :
    ((cfg3.win 3).blk t).view.emb (ix2 r q) = ix2 (rowOf3 t r) q := by
  obtain ⟨-, -, -, -, -, -, e30, e31⟩ := idx_facts3 t
  refine funext fun a => Fin.ext ?_
  match a with
  | ⟨0, _⟩ => show win3_3.index t (0 : Fin 2) * 2000 + 1 * r.val = t.val * 2000 + r.val; omega
  | ⟨1, _⟩ => show win3_3.index t (1 : Fin 2) * 64 + 1 * q.val = q.val; omega

/-- WHAT POINT t WRITES BACK is block t of relu (f · w + b) of the three arrays as the region finds them. -/
theorem flushed3_eq (c : Dev nD) (t : Fin cfg3.N) :
    (dat3 V c).flushed 3 t
      = ((cfg3.win 3).blk t).view.read (Elt Ideal) (tagG (V c main_v187) (V c main_v188) (V c main_v189)) := by
  show (cfg3.win 3).cut (grid3.coords t) ((dat3 V c).after 3 t) = _
  rw [after3_3]
  unfold out3_3
  rw [View.canon_unit_zero hz2]
  simp only [View.ld_unit_zero (S := S2000x256) hz2, View.ld_unit_zero (S := S256x64) hz2, View.ld_unit_zero (S := S1x64) hz2]
  funext j
  obtain ⟨r, q, rfl⟩ : ∃ (r : Fin 2000) (q : Fin 64), j = ix2 r q := ⟨j 0, j 1, eq_ix2 j⟩
  refine (tag_pay_apply3 _ _ _ r q).trans ?_
  show _ = tagG (V c main_v187) (V c main_v188) (V c main_v189) (((cfg3.win 3).blk t).view.emb (ix2 r q))
  rw [emb3_3 t r q]
  show _ = tagRow (V c main_v187) (V c main_v188) (V c main_v189) (rowOf3 t r) q
  unfold tagRow
  rw [blk3_2 V c t q]
  refine congrArg (fun s => max (s + _) 0) (Finset.sum_congr rfl fun k _ => ?_)
  rw [blk3_0 V c t r k, blk3_1 V c t k q]

/-- An index of the output array is in point t's block iff each coordinate is in the block's range. -/
theorem mem_blk3 (t : Fin cfg3.N) (i : S20000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v190).slice (win3_3.rect t)).set ↔ _
  rw [View.set_slice_whole, Rect.mem_set_unit]
  exact Iff.rfl

/-- The ten row blocks tile the output array: row p is in block p / 2000. -/
theorem cover3 (i : S20000x64.Idx) : ∃ t : Fin cfg3.N, (cfg3.win 3).flush t = true ∧ i ∈ ((cfg3.win 3).blk t).view.set := by
  have hi0 : (i 0).val < 20000 := (i 0).isLt
  have hi1 : (i 1).val < 64 := (i 1).isLt
  let t : Fin cfg3.N := ⟨(i 0).val / 2000, lt_of_lt_of_eq (by omega) N_3.symm⟩
  obtain ⟨-, -, -, -, -, -, e30, e31⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- THE ARRAY THE REGION LEAVES: relu (f · w + b) of the three arrays as the region finds them. -/
theorem final3 (c : Dev nD) :
    (dat3 V c).arrAt 3 cfg3.N = tagG (V c main_v187) (V c main_v188) (V c main_v189) :=
  (dat3 V c).arrAt_eq_of_cover 3 _ (fun t _ => flushed3_eq V c t) cover3

end Cert.KernelIdeal.HandValue

end
-- ==== Proof.KI.Val4.lean ====
/-
  The edge-network region (pallas_call 4), read as a value at the ideal instance: the edge network of pallas_call 0
  at input width 64 and output width 64, on this call's arrays.

  Its output array has 640000 rows in two hundred blocks of 3200; grid point t computes block t from block t of the
  two gathered node-feature arrays and of the edge attributes, and from the whole weight and bias arrays. Entry (p, q)
  of the output is the per-edge function of row p of the three row arrays, and, the blocks tiling the array, the
  array the region leaves IS that function.
-/
import proofs.«120992_j5111011082634_2_alg».proof.Proof.KI.D4
import proofs.«120992_j5111011082634_2_alg».proof.Proof.KI.Val0

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open scoped BigOperators

/-- The body's stored value at (r, q) of a block: the per-edge function of row r of the three row blocks (the
    roundings to bf16 are the identity on extended reals). -/
theorem mlp_pay_apply4 (x0 x1 : Vec Ideal S3200x64 .f32) (x2 : Vec Ideal S3200x5 .f32) (x3 x4 : Vec Ideal S64x64 .f32)
    (x5 : Vec Ideal S5x64 .f32) (x6 : Vec Ideal S1x64 .f32) (x7 : Vec Ideal S64x64 .f32) (x8 : Vec Ideal S1x64 .f32)
    (r : Fin 3200) (q : Fin 64) :
    k4_pay1 (F := Ideal) (k4_pay2 x0 x1 x2 x3 x4 x5 x6 x7) (k4_pay3 x8) (ix2 r q)
      = (∑ k : Fin 64, max ((((∑ a : Fin 64, x0 (ix2 r a) * x3 (ix2 a k)) + (∑ a : Fin 64, x1 (ix2 r a) * x4 (ix2 a k)))
            + (∑ a : Fin 5, x2 (ix2 r a) * x5 (ix2 a k))) + x6 (ix2 (0 : Fin 1) k)) 0 * x7 (ix2 k q))
          + x8 (ix2 (0 : Fin 1) q) := by
  unfold k4_pay1 k4_pay2 k4_pay3
  rw [addf_apply, dotB_eq, dotC_eq]
  refine congrArg₂ (· + ·) ?_ ?_
  · refine (Cert.PlainDot.matmul_zero_apply none _ _ r q).trans ?_
    refine Finset.sum_congr rfl fun k _ => ?_
    rw [truncf_apply, truncf_apply, maximumf_apply, broadcast_apply, addf_apply, addf_apply, addf_apply]
    refine congrArg₂ (· * ·) (congrArg₂ max (congrArg₂ (· + ·) (congrArg₂ (· + ·) (congrArg₂ (· + ·) ?_ ?_) ?_) ?_)
      Ideal.ofBits_zero_f32) ?_
    · refine (Cert.PlainDot.matmul_zero_apply none _ _ r k).trans ?_
      simp only [truncf_apply, shapeCast_self]
    · refine (Cert.PlainDot.matmul_zero_apply none _ _ r k).trans ?_
      simp only [truncf_apply, shapeCast_self]
    · refine (Cert.PlainDot.matmul_zero_apply none _ _ r k).trans ?_
      simp only [truncf_apply, shapeCast_self]
    · refine (broadcastTo_1b_ab_apply _ _ r k).trans ?_
      rw [shapeCast_self]
    · simp only [shapeCast_self]
  · refine (broadcastTo_1b_ab_apply _ _ r q).trans ?_
    rw [shapeCast_self]

/-! ## From blocks to the array -/

/-- The index maps over the grid: the three row windows and the output window sit at row block t, the six weight
    and bias windows stay at block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Row r of block t is row 3200·t + r of the array. -/
def rowOf4 (t : Fin cfg4.N) (r : Fin 3200) : Fin 640000 :=
  ⟨t.val * 3200 + r.val, by have h : t.val < 200 := lt_of_lt_of_eq t.isLt N_4; have := r.isLt; omega⟩

variable (V : (c : Dev nD) → (b : Ref sig .tc) → Buf (Elt Ideal) ((c : Thread nD τ).loc b))

/-- Block t of the row array of window 0, at (r, a), is the array at (3200·t + r, a). -/
theorem blk4_0 (c : Dev nD) (t : Fin cfg4.N) (r : Fin 3200) (a : Fin 64) :
    iblk4 V c 0 t (ix2 r a) = V c main_v208 (ix2 (rowOf4 t r) a) := by
  have e := idx_facts4 t
  show V c main_v208 (((cfg4.win 0).blk t).view.emb (ix2 r a)) = V c main_v208 (ix2 (rowOf4 t r) a)
  refine congrArg _ (funext fun d => Fin.ext ?_)
  match d with
  | ⟨0, _⟩ => show win4_0.index t (0 : Fin 2) * 3200 + 1 * r.val = t.val * 3200 + r.val; omega
  | ⟨1, _⟩ => show win4_0.index t (1 : Fin 2) * 64 + 1 * a.val = a.val; omega

/-- Block t of the row array of window 1, at (r, a), is the array at (3200·t + r, a). -/
theorem blk4_1 (c : Dev nD) (t : Fin cfg4.N) (r : Fin 3200) (a : Fin 64) :
    iblk4 V c 1 t (ix2 r a) = V c main_v215 (ix2 (rowOf4 t r) a) := by
  have e := idx_facts4 t
  show V c main_v215 (((cfg4.win 1).blk t).view.emb (ix2 r a)) = V c main_v215 (ix2 (rowOf4 t r) a)
  refine congrArg _ (funext fun d => Fin.ext ?_)
  match d with
  | ⟨0, _⟩ => show win4_1.index t (0 : Fin 2) * 3200 + 1 * r.val = t.val * 3200 + r.val; omega
  | ⟨1, _⟩ => show win4_1.index t (1 : Fin 2) * 64 + 1 * a.val = a.val; omega

/-- Block t of the row array of window 2, at (r, a), is the array at (3200·t + r, a). -/
theorem blk4_2 (c : Dev nD) (t : Fin cfg4.N) (r : Fin 3200) (a : Fin 5) :
    iblk4 V c 2 t (ix2 r a) = V c main_v11 (ix2 (rowOf4 t r) a) := by
  have e := idx_facts4 t
  show V c main_v11 (((cfg4.win 2).blk t).view.emb (ix2 r a)) = V c main_v11 (ix2 (rowOf4 t r) a)
  refine congrArg _ (funext fun d => Fin.ext ?_)
  match d with
  | ⟨0, _⟩ => show win4_2.index t (0 : Fin 2) * 3200 + 1 * r.val = t.val * 3200 + r.val; omega
  | ⟨1, _⟩ => show win4_2.index t (1 : Fin 2) * 5 + 1 * a.val = a.val; omega

/-- Window 3's block is its whole array at every point. -/
theorem blk4_3 (c : Dev nD) (t : Fin cfg4.N) (a : Fin 64) (k : Fin 64) :
    iblk4 V c 3 t (ix2 a k) = V c main_v199 (ix2 a k) := by
  have e := idx_facts4 t
  show V c main_v199 (((cfg4.win 3).blk t).view.emb (ix2 a k)) = V c main_v199 (ix2 a k)
  refine congrArg _ (funext fun d => Fin.ext ?_)
  match d with
  | ⟨0, _⟩ => show win4_3.index t (0 : Fin 2) * 64 + 1 * a.val = a.val; omega
  | ⟨1, _⟩ => show win4_3.index t (1 : Fin 2) * 64 + 1 * k.val = k.val; omega

/-- Window 4's block is its whole array at every point. -/
theorem blk4_4 (c : Dev nD) (t : Fin cfg4.N) (a : Fin 64) (k : Fin 64) :
    iblk4 V c 4 t (ix2 a k) = V c main_v200 (ix2 a k) := by
  have e := idx_facts4 t
  show V c main_v200 (((cfg4.win 4).blk t).view.emb (ix2 a k)) = V c main_v200 (ix2 a k)
  refine congrArg _ (funext fun d => Fin.ext ?_)
  match d with
  | ⟨0, _⟩ => show win4_4.index t (0 : Fin 2) * 64 + 1 * a.val = a.val; omega
  | ⟨1, _⟩ => show win4_4.index t (1 : Fin 2) * 64 + 1 * k.val = k.val; omega

/-- Window 5's block is its whole array at every point. -/
theorem blk4_5 (c : Dev nD) (t : Fin cfg4.N) (a : Fin 5) (k : Fin 64) :
    iblk4 V c 5 t (ix2 a k) = V c main_v201 (ix2 a k) := by
  have e := idx_facts4 t
  show V c main_v201 (((cfg4.win 5).blk t).view.emb (ix2 a k)) = V c main_v201 (ix2 a k)
  refine congrArg _ (funext fun d => Fin.ext ?_)
  match d with
  | ⟨0, _⟩ => show win4_5.index t (0 : Fin 2) * 5 + 1 * a.val = a.val; omega
  | ⟨1, _⟩ => show win4_5.index t (1 : Fin 2) * 64 + 1 * k.val = k.val; omega

/-- Window 6's block is its whole array at every point. -/
theorem blk4_6 (c : Dev nD) (t : Fin cfg4.N) (a : Fin 1) (k : Fin 64) :
    iblk4 V c 6 t (ix2 a k) = V c main_v216 (ix2 a k) := by
  have e := idx_facts4 t
  show V c main_v216 (((cfg4.win 6).blk t).view.emb (ix2 a k)) = V c main_v216 (ix2 a k)
  refine congrArg _ (funext fun d => Fin.ext ?_)
  match d with
  | ⟨0, _⟩ => show win4_6.index t (0 : Fin 2) * 1 + 1 * a.val = a.val; omega
  | ⟨1, _⟩ => show win4_6.index t (1 : Fin 2) * 64 + 1 * k.val = k.val; omega

/-- Window 7's block is its whole array at every point. -/
theorem blk4_7 (c : Dev nD) (t : Fin cfg4.N) (a : Fin 64) (k : Fin 64) :
    iblk4 V c 7 t (ix2 a k) = V c main_v196 (ix2 a k) := by
  have e := idx_facts4 t
  show V c main_v196 (((cfg4.win 7).blk t).view.emb (ix2 a k)) = V c main_v196 (ix2 a k)
  refine congrArg _ (funext fun d => Fin.ext ?_)
  match d with
  | ⟨0, _⟩ => show win4_7.index t (0 : Fin 2) * 64 + 1 * a.val = a.val; omega
  | ⟨1, _⟩ => show win4_7.index t (1 : Fin 2) * 64 + 1 * k.val = k.val; omega

/-- Window 8's block is its whole array at every point. -/
theorem blk4_8 (c : Dev nD) (t : Fin cfg4.N) (a : Fin 1) (k : Fin 64) :
    iblk4 V c 8 t (ix2 a k) = V c main_v217 (ix2 a k) := by
  have e := idx_facts4 t
  show V c main_v217 (((cfg4.win 8).blk t).view.emb (ix2 a k)) = V c main_v217 (ix2 a k)
  refine congrArg _ (funext fun d => Fin.ext ?_)
  match d with
  | ⟨0, _⟩ => show win4_8.index t (0 : Fin 2) * 1 + 1 * a.val = a.val; omega
  | ⟨1, _⟩ => show win4_8.index t (1 : Fin 2) * 64 + 1 * k.val = k.val; omega

/-- Entry (r, q) of the output's block t sits at (3200·t + r, q) of the output array. -/
theorem emb4_9 (t : Fin cfg4.N) (r : Fin 3200) (q : Fin 64) :
    ((cfg4.win 9).blk t).view.emb (ix2 r q) = ix2 (rowOf4 t r) q := by
  have e := idx_facts4 t
  refine funext fun d => Fin.ext ?_
  match d with
  | ⟨0, _⟩ => show win4_9.index t (0 : Fin 2) * 3200 + 1 * r.val = t.val * 3200 + r.val; omega
  | ⟨1, _⟩ => show win4_9.index t (1 : Fin 2) * 64 + 1 * q.val = q.val; omega

/-- The per-edge function of the nine arrays as the region finds them. -/
abbrev G4 (c : Dev nD) : S640000x64.Idx → EReal :=
  mlpG (D := 64) (O := 64) (V c main_v208) (V c main_v215) (V c main_v11) (V c main_v199) (V c main_v200) (V c main_v201)
    (V c main_v216) (V c main_v196) (V c main_v217)

/-- WHAT POINT t WRITES BACK is block t of the per-edge function of the nine arrays. -/
theorem flushed4_eq (c : Dev nD) (t : Fin cfg4.N) :
    (dat4 V c).flushed 9 t = ((cfg4.win 9).blk t).view.read (Elt Ideal) (G4 V c) := by
  show (cfg4.win 9).cut (grid4.coords t) ((dat4 V c).after 9 t) = _
  rw [after4_9]
  unfold out4_9
  rw [View.canon_unit_zero hz0]
  simp only [View.ld_unit_zero (S := S3200x64) hz0, View.ld_unit_zero (S := S3200x5) hz0, View.ld_unit_zero (S := S64x64) hz0, View.ld_unit_zero (S := S5x64) hz0, View.ld_unit_zero (S := S1x64) hz0]
  funext j
  obtain ⟨r, q, rfl⟩ : ∃ (r : Fin 3200) (q : Fin 64), j = ix2 r q := ⟨j 0, j 1, eq_ix2 j⟩
  refine (mlp_pay_apply4 _ _ _ _ _ _ _ _ _ r q).trans ?_
  show _ = G4 V c (((cfg4.win 9).blk t).view.emb (ix2 r q))
  rw [emb4_9 t r q]
  show _ = mlpRow (D := 64) (O := 64) (V c main_v208) (V c main_v215) (V c main_v11) (V c main_v199) (V c main_v200) (V c main_v201)
    (V c main_v216) (V c main_v196) (V c main_v217) (rowOf4 t r) q
  unfold mlpRow Cert.Spec.hidden
  rw [blk4_8 V c t 0 q]
  refine congrArg (fun s => s + _) (Finset.sum_congr rfl fun k _ => ?_)
  rw [blk4_7 V c t k q, blk4_6 V c t 0 k]
  refine congrArg (fun s => max (s + _) 0 * _) ?_
  refine congrArg₂ (· + ·) (congrArg₂ (· + ·) ?_ ?_) ?_
  · exact Finset.sum_congr rfl fun a _ => by rw [blk4_0 V c t r a, blk4_3 V c t a k]
  · exact Finset.sum_congr rfl fun a _ => by rw [blk4_1 V c t r a, blk4_4 V c t a k]
  · exact Finset.sum_congr rfl fun a _ => by rw [blk4_2 V c t r a, blk4_5 V c t a k]

/-- An index of the output array is in point t's block iff each coordinate is in the block's range. -/
theorem mem_blk4 (t : Fin cfg4.N) (i : S640000x64.Idx) :
    i ∈ ((cfg4.win 9).blk t).view.set ↔ ∀ a : Fin 2, win4_9.index t a * S3200x64.size a ≤ (i a).val ∧ (i a).val < win4_9.index t a * S3200x64.size a + S3200x64.size a := by
  show i ∈ ((View.whole main_v218).slice (win4_9.rect t)).set ↔ _
  rw [View.set_slice_whole, Rect.mem_set_unit]
  exact Iff.rfl

/-- The two hundred row blocks tile the output array: row p is in block p / 3200. -/
theorem cover4 (i : S640000x64.Idx) : ∃ t : Fin cfg4.N, (cfg4.win 9).flush t = true ∧ i ∈ ((cfg4.win 9).blk t).view.set := by
  have hi0 : (i 0).val < 640000 := (i 0).isLt
  have hi1 : (i 1).val < 64 := (i 1).isLt
  let t : Fin cfg4.N := ⟨(i 0).val / 3200, lt_of_lt_of_eq (by omega) N_4.symm⟩
  have e := idx_facts4 t
  have ht : t.val = (i 0).val / 3200 := rfl
  refine ⟨t, flush4_9 t, ?_⟩
  rw [mem_blk4]
  intro a
  match a with
  | ⟨0, _⟩ => show win4_9.index t (0 : Fin 2) * 3200 ≤ (i 0).val ∧ (i 0).val < win4_9.index t (0 : Fin 2) * 3200 + 3200; omega
  | ⟨1, _⟩ => show win4_9.index t (1 : Fin 2) * 64 ≤ (i 1).val ∧ (i 1).val < win4_9.index t (1 : Fin 2) * 64 + 64; omega

/-- THE ARRAY THE REGION LEAVES: the per-edge function of the nine arrays as the region finds them. -/
theorem final4 (c : Dev nD) : (dat4 V c).arrAt 9 cfg4.N = G4 V c :=
  (dat4 V c).arrAt_eq_of_cover 9 _ (fun t _ => flushed4_eq V c t) cover4

end Cert.KernelIdeal.HandValue

end
-- ==== Proof.KI.Val5.lean ====
/-
  The matmul-bias-relu region (pallas_call 5), read as a value at the ideal instance: the same kernel as pallas_call 1
  on this call's arrays, so the same function of them.

  Its output array has 20000 rows in ten blocks of 2000; grid point t computes block t from block t of the
  [20000, 256] feature array, the whole [256, 64] weight matrix and the [1, 64] bias row. So entry (p, q) of the
  output is  max (Σ_k f[p, k] · w[k, q] + b[0, q]) 0  — the same function of the three arrays at every point —
  and, the ten blocks tiling the array, the array the region leaves IS that function.
-/
import proofs.«120992_j5111011082634_2_alg».proof.Proof.KI.D5
import proofs.«120992_j5111011082634_2_alg».proof.Proof.KI.Val1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

/-- The body's stored value at (r, q) of a block: the block's row r against column q of the weights, plus the
    bias, clamped at 0 (the roundings to bf16 are the identity on extended reals). -/
theorem tag_pay_apply5 (x0 : Vec Ideal S2000x256 .f32) (x1 : Vec Ideal S256x64 .f32) (x2 : Vec Ideal S1x64 .f32)
    (r : Fin 2000) (q : Fin 64) :
    k5_pay1 (F := Ideal) x0 x1 x2 (ix2 r q)
      = max ((∑ k : Fin 256, x0 (ix2 r k) * x1 (ix2 k q)) + x2 (ix2 (0 : Fin 1) q)) 0 := by
  unfold k5_pay1
  rw [maximumf_apply, addf_apply, broadcast_apply, dot1_eq]
  refine congrArg₂ max (congrArg₂ (· + ·) ?_ ?_) Ideal.ofBits_zero_f32
  · refine (Cert.PlainDot.matmul_zero_apply none _ _ r q).trans ?_
    simp only [truncf_apply, shapeCast_self]
  · refine (broadcastTo_1b_ab_apply _ _ r q).trans ?_
    rw [shapeCast_self]

/-! ## From blocks to the array -/

/-- The index maps over the grid: the feature and output windows sit at row block t, the weight and bias
    windows stay at block 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row r of block t is row 2000·t + r of the array. -/
def rowOf5 (t : Fin cfg5.N) (r : Fin 2000) : Fin 20000 :=
  ⟨t.val * 2000 + r.val, by have h : t.val < 10 := lt_of_lt_of_eq t.isLt N_5; have := r.isLt; omega⟩

variable (V : (c : Dev nD) → (b : Ref sig .tc) → Buf (Elt Ideal) ((c : Thread nD τ).loc b))

/-- Block t of the feature array, at (r, k), is the array at (2000·t + r, k). -/
theorem blk5_0 (c : Dev nD) (t : Fin cfg5.N) (r : Fin 2000) (k : Fin 256) :
    iblk5 V c 0 t (ix2 r k) = V c main_v275 (ix2 (rowOf5 t r) k) := by
  obtain ⟨e00, e01, -⟩ := idx_facts5 t
  show V c main_v275 (((cfg5.win 0).blk t).view.emb (ix2 r k)) = V c main_v275 (ix2 (rowOf5 t r) k)
  refine congrArg _ (funext fun a => Fin.ext ?_)
  match a with
  | ⟨0, _⟩ => show win5_0.index t (0 : Fin 2) * 2000 + 1 * r.val = t.val * 2000 + r.val; omega
  | ⟨1, _⟩ => show win5_0.index t (1 : Fin 2) * 256 + 1 * k.val = k.val; omega

/-- The weight window's block is the whole weight matrix. -/
theorem blk5_1 (c : Dev nD) (t : Fin cfg5.N) (k : Fin 256) (q : Fin 64) :
    iblk5 V c 1 t (ix2 k q) = V c main_v276 (ix2 k q) := by
  obtain ⟨-, -, e10, e11, -⟩ := idx_facts5 t
  show V c main_v276 (((cfg5.win 1).blk t).view.emb (ix2 k q)) = V c main_v276 (ix2 k q)
  refine congrArg _ (funext fun a => Fin.ext ?_)
  match a with
  | ⟨0, _⟩ => show win5_1.index t (0 : Fin 2) * 256 + 1 * k.val = k.val; omega
  | ⟨1, _⟩ => show win5_1.index t (1 : Fin 2) * 64 + 1 * q.val = q.val; omega

/-- The bias window's block is the whole bias row. -/
theorem blk5_2 (c : Dev nD) (t : Fin cfg5.N) (q : Fin 64) :
    iblk5 V c 2 t (ix2 (0 : Fin 1) q) = V c main_v277 (ix2 (0 : Fin 1) q) := by
  obtain ⟨-, -, -, -, e20, e21, -⟩ := idx_facts5 t
  show V c main_v277 (((cfg5.win 2).blk t).view.emb (ix2 (0 : Fin 1) q)) = V c main_v277 (ix2 (0 : Fin 1) q)
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = q.val; omega

/-- Entry (r, q) of the output's block t sits at (2000·t + r, q) of the output array. -/
theorem emb5_3 (t : Fin cfg5.N) (r : Fin 2000) (q : Fin 64) :
    ((cfg5.win 3).blk t).view.emb (ix2 r q) = ix2 (rowOf5 t r) q := by
  obtain ⟨-, -, -, -, -, -, e30, e31⟩ := idx_facts5 t
  refine funext fun a => Fin.ext ?_
  match a with
  | ⟨0, _⟩ => show win5_3.index t (0 : Fin 2) * 2000 + 1 * r.val = t.val * 2000 + r.val; omega
  | ⟨1, _⟩ => show win5_3.index t (1 : Fin 2) * 64 + 1 * q.val = q.val; omega

/-- WHAT POINT t WRITES BACK is block t of relu (f · w + b) of the three arrays as the region finds them. -/
theorem flushed5_eq (c : Dev nD) (t : Fin cfg5.N) :
    (dat5 V c).flushed 3 t
      = ((cfg5.win 3).blk t).view.read (Elt Ideal) (tagG (V c main_v275) (V c main_v276) (V c main_v277)) := by
  show (cfg5.win 3).cut (grid5.coords t) ((dat5 V c).after 3 t) = _
  rw [after5_3]
  unfold out5_3
  rw [View.canon_unit_zero hz2]
  simp only [View.ld_unit_zero (S := S2000x256) hz2, View.ld_unit_zero (S := S256x64) hz2, View.ld_unit_zero (S := S1x64) hz2]
  funext j
  obtain ⟨r, q, rfl⟩ : ∃ (r : Fin 2000) (q : Fin 64), j = ix2 r q := ⟨j 0, j 1, eq_ix2 j⟩
  refine (tag_pay_apply5 _ _ _ r q).trans ?_
  show _ = tagG (V c main_v275) (V c main_v276) (V c main_v277) (((cfg5.win 3).blk t).view.emb (ix2 r q))
  rw [emb5_3 t r q]
  show _ = tagRow (V c main_v275) (V c main_v276) (V c main_v277) (rowOf5 t r) q
  unfold tagRow
  rw [blk5_2 V c t q]
  refine congrArg (fun s => max (s + _) 0) (Finset.sum_congr rfl fun k _ => ?_)
  rw [blk5_0 V c t r k, blk5_1 V c t k q]

/-- An index of the output array is in point t's block iff each coordinate is in the block's range. -/
theorem mem_blk5 (t : Fin cfg5.N) (i : S20000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v278).slice (win5_3.rect t)).set ↔ _
  rw [View.set_slice_whole, Rect.mem_set_unit]
  exact Iff.rfl

/-- The ten row blocks tile the output array: row p is in block p / 2000. -/
theorem cover5 (i : S20000x64.Idx) : ∃ t : Fin cfg5.N, (cfg5.win 3).flush t = true ∧ i ∈ ((cfg5.win 3).blk t).view.set := by
  have hi0 : (i 0).val < 20000 := (i 0).isLt
  have hi1 : (i 1).val < 64 := (i 1).isLt
  let t : Fin cfg5.N := ⟨(i 0).val / 2000, lt_of_lt_of_eq (by omega) N_5.symm⟩
  obtain ⟨-, -, -, -, -, -, e30, e31⟩ := idx_facts5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- THE ARRAY THE REGION LEAVES: relu (f · w + b) of the three arrays as the region finds them. -/
theorem final5 (c : Dev nD) :
    (dat5 V c).arrAt 3 cfg5.N = tagG (V c main_v275) (V c main_v276) (V c main_v277) :=
  (dat5 V c).arrAt_eq_of_cover 3 _ (fun t _ => flushed5_eq V c t) cover5

end Cert.KernelIdeal.HandValue

end
-- ==== Proof.KI.Val6.lean ====
/-
  The edge-network region (pallas_call 6), read as a value at the ideal instance: the edge network of pallas_call 0
  at input width 64 and output width 6, on this call's arrays.

  Its output array has 640000 rows in two hundred blocks of 3200; grid point t computes block t from block t of the
  two gathered node-feature arrays and of the edge attributes, and from the whole weight and bias arrays. Entry (p, q)
  of the output is the per-edge function of row p of the three row arrays, and, the blocks tiling the array, the
  array the region leaves IS that function.
-/
import proofs.«120992_j5111011082634_2_alg».proof.Proof.KI.D6
import proofs.«120992_j5111011082634_2_alg».proof.Proof.KI.Val0

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open scoped BigOperators

/-- The last product's record is the plain [3200, 64] × [64, 6] one. -/
theorem dotL_eq : dot_S3200x64_S64x6_S3200x6_1_0_0_1_n_n = DotDims.plain 3200 64 6 := rfl

/-- The body's stored value at (r, q) of a block: the per-edge function of row r of the three row blocks (the
    roundings to bf16 are the identity on extended reals). -/
theorem mlp_pay_apply6 (x0 x1 : Vec Ideal S3200x64 .f32) (x2 : Vec Ideal S3200x5 .f32) (x3 x4 : Vec Ideal S64x64 .f32)
    (x5 : Vec Ideal S5x64 .f32) (x6 : Vec Ideal S1x64 .f32) (x7 : Vec Ideal S64x6 .f32) (x8 : Vec Ideal S1x6 .f32)
    (r : Fin 3200) (q : Fin 6) :
    k6_pay1 (F := Ideal) (k6_pay2 x0 x1 x2 x3 x4 x5 x6 x7) (k6_pay3 x8) (ix2 r q)
      = (∑ k : Fin 64, max ((((∑ a : Fin 64, x0 (ix2 r a) * x3 (ix2 a k)) + (∑ a : Fin 64, x1 (ix2 r a) * x4 (ix2 a k)))
            + (∑ a : Fin 5, x2 (ix2 r a) * x5 (ix2 a k))) + x6 (ix2 (0 : Fin 1) k)) 0 * x7 (ix2 k q))
          + x8 (ix2 (0 : Fin 1) q) := by
  unfold k6_pay1 k6_pay2 k6_pay3
  rw [addf_apply, dotB_eq, dotC_eq, dotL_eq]
  refine congrArg₂ (· + ·) ?_ ?_
  · refine (Cert.PlainDot.matmul_zero_apply none _ _ r q).trans ?_
    refine Finset.sum_congr rfl fun k _ => ?_
    rw [truncf_apply, truncf_apply, maximumf_apply, broadcast_apply, addf_apply, addf_apply, addf_apply]
    refine congrArg₂ (· * ·) (congrArg₂ max (congrArg₂ (· + ·) (congrArg₂ (· + ·) (congrArg₂ (· + ·) ?_ ?_) ?_) ?_)
      Ideal.ofBits_zero_f32) ?_
    · refine (Cert.PlainDot.matmul_zero_apply none _ _ r k).trans ?_
      simp only [truncf_apply, shapeCast_self]
    · refine (Cert.PlainDot.matmul_zero_apply none _ _ r k).trans ?_
      simp only [truncf_apply, shapeCast_self]
    · refine (Cert.PlainDot.matmul_zero_apply none _ _ r k).trans ?_
      simp only [truncf_apply, shapeCast_self]
    · refine (broadcastTo_1b_ab_apply _ _ r k).trans ?_
      rw [shapeCast_self]
    · simp only [shapeCast_self]
  · refine (broadcastTo_1b_ab_apply _ _ r q).trans ?_
    rw [shapeCast_self]

/-! ## From blocks to the array -/

/-- The index maps over the grid: the three row windows and the output window sit at row block t, the six weight
    and bias windows stay at block 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- Row r of block t is row 3200·t + r of the array. -/
def rowOf6 (t : Fin cfg6.N) (r : Fin 3200) : Fin 640000 :=
  ⟨t.val * 3200 + r.val, by have h : t.val < 200 := lt_of_lt_of_eq t.isLt N_6; have := r.isLt; omega⟩

variable (V : (c : Dev nD) → (b : Ref sig .tc) → Buf (Elt Ideal) ((c : Thread nD τ).loc b))

/-- Block t of the row array of window 0, at (r, a), is the array at (3200·t + r, a). -/
theorem blk6_0 (c : Dev nD) (t : Fin cfg6.N) (r : Fin 3200) (a : Fin 64) :
    iblk6 V c 0 t (ix2 r a) = V c main_v288 (ix2 (rowOf6 t r) a) := by
  have e := idx_facts6 t
  show V c main_v288 (((cfg6.win 0).blk t).view.emb (ix2 r a)) = V c main_v288 (ix2 (rowOf6 t r) a)
  refine congrArg _ (funext fun d => Fin.ext ?_)
  match d with
  | ⟨0, _⟩ => show win6_0.index t (0 : Fin 2) * 3200 + 1 * r.val = t.val * 3200 + r.val; omega
  | ⟨1, _⟩ => show win6_0.index t (1 : Fin 2) * 64 + 1 * a.val = a.val; omega

/-- Block t of the row array of window 1, at (r, a), is the array at (3200·t + r, a). -/
theorem blk6_1 (c : Dev nD) (t : Fin cfg6.N) (r : Fin 3200) (a : Fin 64) :
    iblk6 V c 1 t (ix2 r a) = V c main_v295 (ix2 (rowOf6 t r) a) := by
  have e := idx_facts6 t
  show V c main_v295 (((cfg6.win 1).blk t).view.emb (ix2 r a)) = V c main_v295 (ix2 (rowOf6 t r) a)
  refine congrArg _ (funext fun d => Fin.ext ?_)
  match d with
  | ⟨0, _⟩ => show win6_1.index t (0 : Fin 2) * 3200 + 1 * r.val = t.val * 3200 + r.val; omega
  | ⟨1, _⟩ => show win6_1.index t (1 : Fin 2) * 64 + 1 * a.val = a.val; omega

/-- Block t of the row array of window 2, at (r, a), is the array at (3200·t + r, a). -/
theorem blk6_2 (c : Dev nD) (t : Fin cfg6.N) (r : Fin 3200) (a : Fin 5) :
    iblk6 V c 2 t (ix2 r a) = V c main_v11 (ix2 (rowOf6 t r) a) := by
  have e := idx_facts6 t
  show V c main_v11 (((cfg6.win 2).blk t).view.emb (ix2 r a)) = V c main_v11 (ix2 (rowOf6 t r) a)
  refine congrArg _ (funext fun d => Fin.ext ?_)
  match d with
  | ⟨0, _⟩ => show win6_2.index t (0 : Fin 2) * 3200 + 1 * r.val = t.val * 3200 + r.val; omega
  | ⟨1, _⟩ => show win6_2.index t (1 : Fin 2) * 5 + 1 * a.val = a.val; omega

/-- Window 3's block is its whole array at every point. -/
theorem blk6_3 (c : Dev nD) (t : Fin cfg6.N) (a : Fin 64) (k : Fin 64) :
    iblk6 V c 3 t (ix2 a k) = V c main_v279 (ix2 a k) := by
  have e := idx_facts6 t
  show V c main_v279 (((cfg6.win 3).blk t).view.emb (ix2 a k)) = V c main_v279 (ix2 a k)
  refine congrArg _ (funext fun d => Fin.ext ?_)
  match d with
  | ⟨0, _⟩ => show win6_3.index t (0 : Fin 2) * 64 + 1 * a.val = a.val; omega
  | ⟨1, _⟩ => show win6_3.index t (1 : Fin 2) * 64 + 1 * k.val = k.val; omega

/-- Window 4's block is its whole array at every point. -/
theorem blk6_4 (c : Dev nD) (t : Fin cfg6.N) (a : Fin 64) (k : Fin 64) :
    iblk6 V c 4 t (ix2 a k) = V c main_v280 (ix2 a k) := by
  have e := idx_facts6 t
  show V c main_v280 (((cfg6.win 4).blk t).view.emb (ix2 a k)) = V c main_v280 (ix2 a k)
  refine congrArg _ (funext fun d => Fin.ext ?_)
  match d with
  | ⟨0, _⟩ => show win6_4.index t (0 : Fin 2) * 64 + 1 * a.val = a.val; omega
  | ⟨1, _⟩ => show win6_4.index t (1 : Fin 2) * 64 + 1 * k.val = k.val; omega

/-- Window 5's block is its whole array at every point. -/
theorem blk6_5 (c : Dev nD) (t : Fin cfg6.N) (a : Fin 5) (k : Fin 64) :
    iblk6 V c 5 t (ix2 a k) = V c main_v281 (ix2 a k) := by
  have e := idx_facts6 t
  show V c main_v281 (((cfg6.win 5).blk t).view.emb (ix2 a k)) = V c main_v281 (ix2 a k)
  refine congrArg _ (funext fun d => Fin.ext ?_)
  match d with
  | ⟨0, _⟩ => show win6_5.index t (0 : Fin 2) * 5 + 1 * a.val = a.val; omega
  | ⟨1, _⟩ => show win6_5.index t (1 : Fin 2) * 64 + 1 * k.val = k.val; omega

/-- Window 6's block is its whole array at every point. -/
theorem blk6_6 (c : Dev nD) (t : Fin cfg6.N) (a : Fin 1) (k : Fin 64) :
    iblk6 V c 6 t (ix2 a k) = V c main_v296 (ix2 a k) := by
  have e := idx_facts6 t
  show V c main_v296 (((cfg6.win 6).blk t).view.emb (ix2 a k)) = V c main_v296 (ix2 a k)
  refine congrArg _ (funext fun d => Fin.ext ?_)
  match d with
  | ⟨0, _⟩ => show win6_6.index t (0 : Fin 2) * 1 + 1 * a.val = a.val; omega
  | ⟨1, _⟩ => show win6_6.index t (1 : Fin 2) * 64 + 1 * k.val = k.val; omega

/-- Window 7's block is its whole array at every point. -/
theorem blk6_7 (c : Dev nD) (t : Fin cfg6.N) (a : Fin 64) (k : Fin 6) :
    iblk6 V c 7 t (ix2 a k) = V c main_arg13 (ix2 a k) := by
  have e := idx_facts6 t
  show V c main_arg13 (((cfg6.win 7).blk t).view.emb (ix2 a k)) = V c main_arg13 (ix2 a k)
  refine congrArg _ (funext fun d => Fin.ext ?_)
  match d with
  | ⟨0, _⟩ => show win6_7.index t (0 : Fin 2) * 64 + 1 * a.val = a.val; omega
  | ⟨1, _⟩ => show win6_7.index t (1 : Fin 2) * 6 + 1 * k.val = k.val; omega

/-- Window 8's block is its whole array at every point. -/
theorem blk6_8 (c : Dev nD) (t : Fin cfg6.N) (a : Fin 1) (k : Fin 6) :
    iblk6 V c 8 t (ix2 a k) = V c main_v297 (ix2 a k) := by
  have e := idx_facts6 t
  show V c main_v297 (((cfg6.win 8).blk t).view.emb (ix2 a k)) = V c main_v297 (ix2 a k)
  refine congrArg _ (funext fun d => Fin.ext ?_)
  match d with
  | ⟨0, _⟩ => show win6_8.index t (0 : Fin 2) * 1 + 1 * a.val = a.val; omega
  | ⟨1, _⟩ => show win6_8.index t (1 : Fin 2) * 6 + 1 * k.val = k.val; omega

/-- Entry (r, q) of the output's block t sits at (3200·t + r, q) of the output array. -/
theorem emb6_9 (t : Fin cfg6.N) (r : Fin 3200) (q : Fin 6) :
    ((cfg6.win 9).blk t).view.emb (ix2 r q) = ix2 (rowOf6 t r) q := by
  have e := idx_facts6 t
  refine funext fun d => Fin.ext ?_
  match d with
  | ⟨0, _⟩ => show win6_9.index t (0 : Fin 2) * 3200 + 1 * r.val = t.val * 3200 + r.val; omega
  | ⟨1, _⟩ => show win6_9.index t (1 : Fin 2) * 6 + 1 * q.val = q.val; omega

/-- The per-edge function of the nine arrays as the region finds them. -/
abbrev G6 (c : Dev nD) : S640000x6.Idx → EReal :=
  mlpG (D := 64) (O := 6) (V c main_v288) (V c main_v295) (V c main_v11) (V c main_v279) (V c main_v280) (V c main_v281)
    (V c main_v296) (V c main_arg13) (V c main_v297)

/-- WHAT POINT t WRITES BACK is block t of the per-edge function of the nine arrays. -/
theorem flushed6_eq (c : Dev nD) (t : Fin cfg6.N) :
    (dat6 V c).flushed 9 t = ((cfg6.win 9).blk t).view.read (Elt Ideal) (G6 V c) := by
  show (cfg6.win 9).cut (grid6.coords t) ((dat6 V c).after 9 t) = _
  rw [after6_9]
  unfold out6_9
  rw [View.canon_unit_zero hz0]
  simp only [View.ld_unit_zero (S := S3200x64) hz0, View.ld_unit_zero (S := S3200x5) hz0, View.ld_unit_zero (S := S64x64) hz0, View.ld_unit_zero (S := S5x64) hz0, View.ld_unit_zero (S := S1x64) hz0, View.ld_unit_zero (S := S64x6) hz0, View.ld_unit_zero (S := S1x6) hz0]
  funext j
  obtain ⟨r, q, rfl⟩ : ∃ (r : Fin 3200) (q : Fin 6), j = ix2 r q := ⟨j 0, j 1, eq_ix2 j⟩
  refine (mlp_pay_apply6 _ _ _ _ _ _ _ _ _ r q).trans ?_
  show _ = G6 V c (((cfg6.win 9).blk t).view.emb (ix2 r q))
  rw [emb6_9 t r q]
  show _ = mlpRow (D := 64) (O := 6) (V c main_v288) (V c main_v295) (V c main_v11) (V c main_v279) (V c main_v280) (V c main_v281)
    (V c main_v296) (V c main_arg13) (V c main_v297) (rowOf6 t r) q
  unfold mlpRow Cert.Spec.hidden
  rw [blk6_8 V c t 0 q]
  refine congrArg (fun s => s + _) (Finset.sum_congr rfl fun k _ => ?_)
  rw [blk6_7 V c t k q, blk6_6 V c t 0 k]
  refine congrArg (fun s => max (s + _) 0 * _) ?_
  refine congrArg₂ (· + ·) (congrArg₂ (· + ·) ?_ ?_) ?_
  · exact Finset.sum_congr rfl fun a _ => by rw [blk6_0 V c t r a, blk6_3 V c t a k]
  · exact Finset.sum_congr rfl fun a _ => by rw [blk6_1 V c t r a, blk6_4 V c t a k]
  · exact Finset.sum_congr rfl fun a _ => by rw [blk6_2 V c t r a, blk6_5 V c t a k]

/-- An index of the output array is in point t's block iff each coordinate is in the block's range. -/
theorem mem_blk6 (t : Fin cfg6.N) (i : S640000x6.Idx) :
    i ∈ ((cfg6.win 9).blk t).view.set ↔ ∀ a : Fin 2, win6_9.index t a * S3200x6.size a ≤ (i a).val ∧ (i a).val < win6_9.index t a * S3200x6.size a + S3200x6.size a := by
  show i ∈ ((View.whole main_v298).slice (win6_9.rect t)).set ↔ _
  rw [View.set_slice_whole, Rect.mem_set_unit]
  exact Iff.rfl

/-- The two hundred row blocks tile the output array: row p is in block p / 3200. -/
theorem cover6 (i : S640000x6.Idx) : ∃ t : Fin cfg6.N, (cfg6.win 9).flush t = true ∧ i ∈ ((cfg6.win 9).blk t).view.set := by
  have hi0 : (i 0).val < 640000 := (i 0).isLt
  have hi1 : (i 1).val < 6 := (i 1).isLt
  let t : Fin cfg6.N := ⟨(i 0).val / 3200, lt_of_lt_of_eq (by omega) N_6.symm⟩
  have e := idx_facts6 t
  have ht : t.val = (i 0).val / 3200 := rfl
  refine ⟨t, flush6_9 t, ?_⟩
  rw [mem_blk6]
  intro a
  match a with
  | ⟨0, _⟩ => show win6_9.index t (0 : Fin 2) * 3200 ≤ (i 0).val ∧ (i 0).val < win6_9.index t (0 : Fin 2) * 3200 + 3200; omega
  | ⟨1, _⟩ => show win6_9.index t (1 : Fin 2) * 6 ≤ (i 1).val ∧ (i 1).val < win6_9.index t (1 : Fin 2) * 6 + 6; omega

/-- THE ARRAY THE REGION LEAVES: the per-edge function of the nine arrays as the region finds them. -/
theorem final6 (c : Dev nD) : (dat6 V c).arrAt 9 cfg6.N = G6 V c :=
  (dat6 V c).arrAt_eq_of_cover 9 _ (fun t _ => flushed6_eq V c t) cover6

end Cert.KernelIdeal.HandValue

end
-- ==== Proof.Ref.Layers.lean ====
/- The network the reference program computes, layer by layer, as functions of the layers' inputs: each definition is
   the composition of the host operations of one layer (the same operations, in the same order, applied to the same
   operands), read at the exact-real instance. -/
import proofs.«120992_j5111011082634_2_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The graph: node features, edge ends, edge attributes -/

/-- The node features the network reads: columns 4 … 9 of the 16 given. -/
def nodeX (a0 : FVec Ideal S20000x16 .f32) : FVec Ideal S20000x6 .f32 :=
  extractStridedSlice S20000x6 ![0, 4] a0 slices_S20000x16_S20000x6_0_4

/-- Row 0 of the 2 × 320000 edge list, as a vector. -/
def edgeRow0 (a1 : IVec S2x320000 32) : IVec S320000 32 :=
  shapeCast _ (extractStridedSlice S1x320000 ![0, 0] a1 slices_S2x320000_S1x320000_0_0) shapeCasts_S1x320000_S320000

/-- Row 1 of the edge list. -/
def edgeRow1 (a1 : IVec S2x320000 32) : IVec S320000 32 :=
  shapeCast _ (extractStridedSlice S1x320000 ![1, 0] a1 slices_S2x320000_S1x320000_1_0) shapeCasts_S1x320000_S320000

/-- One end of each of the 640000 directed edges: row 0 of the list, then row 1 (every edge, then every edge reversed). -/
def srcIdx (a1 : IVec S2x320000 32) : IVec S640000 32 :=
  concatenate S640000 0 [⟨S320000, edgeRow0 a1⟩, ⟨S320000, edgeRow1 a1⟩] concatenates_S320000_S320000_S640000_d0

/-- The other end: row 1 of the list, then row 0. -/
def dstIdx (a1 : IVec S2x320000 32) : IVec S640000 32 :=
  concatenate S640000 0 [⟨S320000, edgeRow1 a1⟩, ⟨S320000, edgeRow0 a1⟩] concatenates_S320000_S320000_S640000_d0

/-- The edge attributes, once for each direction. -/
def edgeAttr (a2 : FVec Ideal S320000x5 .f32) : FVec Ideal S640000x5 .f32 :=
  concatenate S640000x5 0 [⟨S320000x5, a2⟩, ⟨S320000x5, a2⟩] concatenates_S320000x5_S320000x5_S640000x5_d0

/-! ## Indexing by an edge end -/

/-- An edge-end vector as a gather index: a negative entry counts from the end (20000 is added), and the vector becomes
    a column. -/
def wrapIdx (i : IVec S640000 32) : IVec S640000x1 32 :=
  broadcastInDim S640000x1 ![0] bcast_S640000_S640000x1_0
    (select (cmpi .slt i (broadcastInDim S640000 ![] bcast_S_S640000 (constantI S_ 32 0#32)))
      (addi i (broadcastInDim S640000 ![] bcast_S_S640000 (constantI S_ 32 20000#32))) i)

/-- An edge-end vector as a scatter index: the vector as a column, as it is. -/
def colIdx (i : IVec S640000 32) : IVec S640000x1 32 :=
  broadcastInDim S640000x1 ![0] bcast_S640000_S640000x1_0 i

/-- The rows of a 20000 × 64 array at an edge end. -/
def rows64 (x : FVec Ideal S20000x64 .f32) (i : IVec S640000 32) : FVec Ideal S640000x64 .f32 :=
  Host.gather gather_S20000x64_S640000x1_S640000x64_1_0_n_n_0_1_164 x (wrapIdx i)

/-- The rows of a 20000 × 6 array at an edge end. -/
def rows6 (x : FVec Ideal S20000x6 .f32) (i : IVec S640000 32) : FVec Ideal S640000x6 .f32 :=
  Host.gather gather_S20000x6_S640000x1_S640000x6_1_0_n_n_0_1_16 x (wrapIdx i)

/-- Per-edge rows of 64 summed into the node at the given end of each edge, from zero. -/
def sumAt64 (i : IVec S640000 32) (u : FVec Ideal S640000x64 .f32) : FVec Ideal S20000x64 .f32 :=
  Host.scatterAdd (F := Ideal) scatter_S20000x64_S640000x1_S640000x64_1_0_0_1
    (broadcastInDim S20000x64 ![] bcast_S_S20000x64 (constant (F := Ideal) S_ .f32 0x00000000#32)) (colIdx i) u

/-- Per-edge rows of 6 summed into the node at the given end of each edge, from zero. -/
def sumAt6 (i : IVec S640000 32) (u : FVec Ideal S640000x6 .f32) : FVec Ideal S20000x6 .f32 :=
  Host.scatterAdd (F := Ideal) scatter_S20000x6_S640000x1_S640000x6_1_0_0_1
    (broadcastInDim S20000x6 ![] bcast_S_S20000x6 (constant (F := Ideal) S_ .f32 0x00000000#32)) (colIdx i) u

/-! ## The normalisation -/

/-- Each node's degree: ones summed at the given end of every directed edge. -/
def degOf (dst : IVec S640000 32) : FVec Ideal S20000 .f32 :=
  Host.scatterAdd (F := Ideal) scatter_S20000_S640000x1_S640000_n_0_0_1
    (broadcastInDim S20000 ![] bcast_S_S20000 (constant (F := Ideal) S_ .f32 0x00000000#32)) (colIdx dst)
    (broadcastInDim S640000 ![] bcast_S_S640000 (constant (F := Ideal) S_ .f32 0x3F800000#32))

/-- The inverse square root of a degree where it is positive, zero elsewhere (the root is taken of 1 where the degree
    is not positive, and that value is then discarded). -/
def disOf (deg : FVec Ideal S20000 .f32) : FVec Ideal S20000 .f32 :=
  select (cmpf (F := Ideal) .ogt deg (broadcastInDim S20000 ![] bcast_S_S20000 (constant (F := Ideal) S_ .f32 0x00000000#32)))
    (Host.rsqrt (F := Ideal)
      (select (cmpf (F := Ideal) .ogt deg (broadcastInDim S20000 ![] bcast_S_S20000 (constant (F := Ideal) S_ .f32 0x00000000#32)))
        deg (broadcastInDim S20000 ![] bcast_S_S20000 (constant (F := Ideal) S_ .f32 0x3F800000#32))))
    (broadcastInDim S20000 ![] bcast_S_S20000 (constant (F := Ideal) S_ .f32 0x00000000#32))

/-- The weight of each directed edge: the product of that quantity at its two ends. -/
def normOf (dis : FVec Ideal S20000 .f32) (src dst : IVec S640000 32) : FVec Ideal S640000 .f32 :=
  mulf (F := Ideal)
    (Host.gather gather_S20000_S640000x1_S640000_n_0_n_n_0_1_1 dis (wrapIdx src))
    (Host.gather gather_S20000_S640000x1_S640000_n_0_n_n_0_1_1 dis (wrapIdx dst))

/-! ## Pieces of a layer -/

/-- A bias of 64 added to every one of 640000 rows: the bias as that array. -/
def edgeBias64 (b : FVec Ideal S64 .f32) : FVec Ideal S640000x64 .f32 :=
  broadcastInDim S640000x64 ![0, 1] bcast_S1x64_S640000x64_0_1 (broadcastInDim S1x64 ![1] bcast_S64_S1x64_1 b)

/-- A bias of 6 as a 640000 × 6 array. -/
def edgeBias6 (b : FVec Ideal S6 .f32) : FVec Ideal S640000x6 .f32 :=
  broadcastInDim S640000x6 ![0, 1] bcast_S1x6_S640000x6_0_1 (broadcastInDim S1x6 ![1] bcast_S6_S1x6_1 b)

/-- A bias of 64 as a 20000 × 64 array. -/
def nodeBias64 (b : FVec Ideal S64 .f32) : FVec Ideal S20000x64 .f32 :=
  broadcastInDim S20000x64 ![0, 1] bcast_S1x64_S20000x64_0_1 (broadcastInDim S1x64 ![1] bcast_S64_S1x64_1 b)

/-- The rectifier on per-edge rows: the maximum with zero. -/
def reluE (x : FVec Ideal S640000x64 .f32) : FVec Ideal S640000x64 .f32 :=
  maximumf (F := Ideal) x (broadcastInDim S640000x64 ![] bcast_S_S640000x64 (constant (F := Ideal) S_ .f32 0x00000000#32))

/-- The rectifier on per-node rows. -/
def reluN (x : FVec Ideal S20000x64 .f32) : FVec Ideal S20000x64 .f32 :=
  maximumf (F := Ideal) x (broadcastInDim S20000x64 ![] bcast_S_S20000x64 (constant (F := Ideal) S_ .f32 0x00000000#32))

/-- What the first message function reads for each edge: the 6 node features at its two ends and its 5 attributes. -/
def edgeIn17 (x : FVec Ideal S20000x6 .f32) (src dst : IVec S640000 32) (ea : FVec Ideal S640000x5 .f32) :
    FVec Ideal S640000x17 .f32 :=
  concatenate S640000x17 1 [⟨S640000x6, rows6 x dst⟩, ⟨S640000x6, rows6 x src⟩, ⟨S640000x5, ea⟩]
    concatenates_S640000x6_S640000x6_S640000x5_S640000x17_d1

/-- What a later message function reads for each edge: the 64 node features at its two ends and its 5 attributes. -/
def edgeIn133 (x : FVec Ideal S20000x64 .f32) (src dst : IVec S640000 32) (ea : FVec Ideal S640000x5 .f32) :
    FVec Ideal S640000x133 .f32 :=
  concatenate S640000x133 1 [⟨S640000x64, rows64 x dst⟩, ⟨S640000x64, rows64 x src⟩, ⟨S640000x5, ea⟩]
    concatenates_S640000x64_S640000x64_S640000x5_S640000x133_d1

/-- The second layer of a message function, 64 to 64 columns, on rectified per-edge rows. -/
def edgeOut64 (h : FVec Ideal S640000x64 .f32) (W2 : FVec Ideal S64x64 .f32) (b2 : FVec Ideal S64 .f32) :
    FVec Ideal S640000x64 .f32 :=
  addf (F := Ideal) (Host.dotGeneral (F := Ideal) dot_S640000x64_S64x64_S640000x64_1_0_0_1_n_n none (reluE h) W2) (edgeBias64 b2)

/-! ## The layers -/

/-- The first edge aggregation: per edge a two-layer perceptron of the 17 inputs, summed into one end of the edge,
    rectified. -/
def refEA0 (x : FVec Ideal S20000x6 .f32) (src dst : IVec S640000 32) (ea : FVec Ideal S640000x5 .f32)
    (W1 : FVec Ideal S17x64 .f32) (b1 : FVec Ideal S64 .f32) (W2 : FVec Ideal S64x64 .f32) (b2 : FVec Ideal S64 .f32) :
    FVec Ideal S20000x64 .f32 :=
  reluN (sumAt64 dst (edgeOut64
    (addf (F := Ideal) (Host.dotGeneral (F := Ideal) dot_S640000x17_S17x64_S640000x64_1_0_0_1_n_n none (edgeIn17 x src dst ea) W1)
      (edgeBias64 b1)) W2 b2))

/-- A middle edge aggregation: the same on 133 inputs per edge. -/
def refEAmid (x : FVec Ideal S20000x64 .f32) (src dst : IVec S640000 32) (ea : FVec Ideal S640000x5 .f32)
    (W1 : FVec Ideal S133x64 .f32) (b1 : FVec Ideal S64 .f32) (W2 : FVec Ideal S64x64 .f32) (b2 : FVec Ideal S64 .f32) :
    FVec Ideal S20000x64 .f32 :=
  reluN (sumAt64 dst (edgeOut64
    (addf (F := Ideal) (Host.dotGeneral (F := Ideal) dot_S640000x133_S133x64_S640000x64_1_0_0_1_n_n none (edgeIn133 x src dst ea) W1)
      (edgeBias64 b1)) W2 b2))

/-- The last edge aggregation: 133 inputs per edge, 6 outputs, summed into one end of the edge; no rectifier after the sum. -/
def refEAlast (x : FVec Ideal S20000x64 .f32) (src dst : IVec S640000 32) (ea : FVec Ideal S640000x5 .f32)
    (W1 : FVec Ideal S133x64 .f32) (b1 : FVec Ideal S64 .f32) (W2 : FVec Ideal S64x6 .f32) (b2 : FVec Ideal S6 .f32) :
    FVec Ideal S20000x6 .f32 :=
  sumAt6 dst (addf (F := Ideal)
    (Host.dotGeneral (F := Ideal) dot_S640000x64_S64x6_S640000x6_1_0_0_1_n_n none
      (reluE (addf (F := Ideal)
        (Host.dotGeneral (F := Ideal) dot_S640000x133_S133x64_S640000x64_1_0_0_1_n_n none (edgeIn133 x src dst ea) W1)
        (edgeBias64 b1))) W2)
    (edgeBias6 b2))

/-- One propagation step of a graph convolution: the rows at one end of every edge, scaled by the edge's weight, summed
    into the other end. -/
def hop (x : FVec Ideal S20000x64 .f32) (src dst : IVec S640000 32) (norm : FVec Ideal S640000 .f32) :
    FVec Ideal S20000x64 .f32 :=
  sumAt64 dst (mulf (F := Ideal)
    (broadcastInDim S640000x64 ![0, 1] bcast_S640000x1_S640000x64_0_1 (broadcastInDim S640000x1 ![0] bcast_S640000_S640000x1_0 norm))
    (rows64 x src))

/-- The four 64 × 64 weights of a graph convolution, out of their 4 × 64 × 64 array. -/
def tagW0 (Ws : FVec Ideal S4x64x64 .f32) : FVec Ideal S64x64 .f32 :=
  shapeCast _ (extractStridedSlice S1x64x64 ![0, 0, 0] Ws slices_S4x64x64_S1x64x64_0_0_0) shapeCasts_S1x64x64_S64x64
@[inherit_doc tagW0] def tagW1 (Ws : FVec Ideal S4x64x64 .f32) : FVec Ideal S64x64 .f32 :=
  shapeCast _ (extractStridedSlice S1x64x64 ![1, 0, 0] Ws slices_S4x64x64_S1x64x64_1_0_0) shapeCasts_S1x64x64_S64x64
@[inherit_doc tagW0] def tagW2 (Ws : FVec Ideal S4x64x64 .f32) : FVec Ideal S64x64 .f32 :=
  shapeCast _ (extractStridedSlice S1x64x64 ![2, 0, 0] Ws slices_S4x64x64_S1x64x64_2_0_0) shapeCasts_S1x64x64_S64x64
@[inherit_doc tagW0] def tagW3 (Ws : FVec Ideal S4x64x64 .f32) : FVec Ideal S64x64 .f32 :=
  shapeCast _ (extractStridedSlice S1x64x64 ![3, 0, 0] Ws slices_S4x64x64_S1x64x64_3_0_0) shapeCasts_S1x64x64_S64x64

/-- Per-node rows of 64 times a 64 × 64 weight. -/
def nodeDot (x : FVec Ideal S20000x64 .f32) (W : FVec Ideal S64x64 .f32) : FVec Ideal S20000x64 .f32 :=
  Host.dotGeneral (F := Ideal) dot_S20000x64_S64x64_S20000x64_1_0_0_1_n_n none x W

/-- A graph convolution with three propagation steps: the features and their three successive propagations each times
    its own weight, added up in that order, plus the bias, rectified. -/
def refTAG (x : FVec Ideal S20000x64 .f32) (src dst : IVec S640000 32) (norm : FVec Ideal S640000 .f32)
    (Ws : FVec Ideal S4x64x64 .f32) (b : FVec Ideal S64 .f32) : FVec Ideal S20000x64 .f32 :=
  reluN (addf (F := Ideal)
    (addf (F := Ideal)
      (addf (F := Ideal)
        (addf (F := Ideal) (nodeDot x (tagW0 Ws)) (nodeDot (hop x src dst norm) (tagW1 Ws)))
        (nodeDot (hop (hop x src dst norm) src dst norm) (tagW2 Ws)))
      (nodeDot (hop (hop (hop x src dst norm) src dst norm) src dst norm) (tagW3 Ws)))
    (nodeBias64 b))

/-! ## The stacked parameters' slices -/

/-- Graph convolution `k`'s weights and bias out of the three stacked. -/
def tagWs0 (a15 : FVec Ideal S3x4x64x64 .f32) : FVec Ideal S4x64x64 .f32 :=
  shapeCast _ (extractStridedSlice S1x4x64x64 ![0, 0, 0, 0] a15 slices_S3x4x64x64_S1x4x64x64_0_0_0_0) shapeCasts_S1x4x64x64_S4x64x64
@[inherit_doc tagWs0] def tagWs1 (a15 : FVec Ideal S3x4x64x64 .f32) : FVec Ideal S4x64x64 .f32 :=
  shapeCast _ (extractStridedSlice S1x4x64x64 ![1, 0, 0, 0] a15 slices_S3x4x64x64_S1x4x64x64_1_0_0_0) shapeCasts_S1x4x64x64_S4x64x64
@[inherit_doc tagWs0] def tagWs2 (a15 : FVec Ideal S3x4x64x64 .f32) : FVec Ideal S4x64x64 .f32 :=
  shapeCast _ (extractStridedSlice S1x4x64x64 ![2, 0, 0, 0] a15 slices_S3x4x64x64_S1x4x64x64_2_0_0_0) shapeCasts_S1x4x64x64_S4x64x64
@[inherit_doc tagWs0] def tagB0 (a16 : FVec Ideal S3x64 .f32) : FVec Ideal S64 .f32 :=
  shapeCast _ (extractStridedSlice S1x64 ![0, 0] a16 slices_S3x64_S1x64_0_0) shapeCasts_S1x64_S64
@[inherit_doc tagWs0] def tagB1 (a16 : FVec Ideal S3x64 .f32) : FVec Ideal S64 .f32 :=
  shapeCast _ (extractStridedSlice S1x64 ![1, 0] a16 slices_S3x64_S1x64_1_0) shapeCasts_S1x64_S64
@[inherit_doc tagWs0] def tagB2 (a16 : FVec Ideal S3x64 .f32) : FVec Ideal S64 .f32 :=
  shapeCast _ (extractStridedSlice S1x64 ![2, 0] a16 slices_S3x64_S1x64_2_0) shapeCasts_S1x64_S64

/-- Middle edge aggregation `k`'s two weights and two biases out of the two stacked. -/
def midW1_0 (a7 : FVec Ideal S2x133x64 .f32) : FVec Ideal S133x64 .f32 :=
  shapeCast _ (extractStridedSlice S1x133x64 ![0, 0, 0] a7 slices_S2x133x64_S1x133x64_0_0_0) shapeCasts_S1x133x64_S133x64
@[inherit_doc midW1_0] def midW1_1 (a7 : FVec Ideal S2x133x64 .f32) : FVec Ideal S133x64 .f32 :=
  shapeCast _ (extractStridedSlice S1x133x64 ![1, 0, 0] a7 slices_S2x133x64_S1x133x64_1_0_0) shapeCasts_S1x133x64_S133x64
@[inherit_doc midW1_0] def midB_0 (a : FVec Ideal S2x64 .f32) : FVec Ideal S64 .f32 :=
  shapeCast _ (extractStridedSlice S1x64 ![0, 0] a slices_S2x64_S1x64_0_0) shapeCasts_S1x64_S64
@[inherit_doc midW1_0] def midB_1 (a : FVec Ideal S2x64 .f32) : FVec Ideal S64 .f32 :=
  shapeCast _ (extractStridedSlice S1x64 ![1, 0] a slices_S2x64_S1x64_1_0) shapeCasts_S1x64_S64
@[inherit_doc midW1_0] def midW2_0 (a9 : FVec Ideal S2x64x64 .f32) : FVec Ideal S64x64 .f32 :=
  shapeCast _ (extractStridedSlice S1x64x64 ![0, 0, 0] a9 slices_S2x64x64_S1x64x64_0_0_0) shapeCasts_S1x64x64_S64x64
@[inherit_doc midW1_0] def midW2_1 (a9 : FVec Ideal S2x64x64 .f32) : FVec Ideal S64x64 .f32 :=
  shapeCast _ (extractStridedSlice S1x64x64 ![1, 0, 0] a9 slices_S2x64x64_S1x64x64_1_0_0) shapeCasts_S1x64x64_S64x64

/-! ## The whole network -/

/-- The program's result as a function of its seventeen arguments: edge aggregation, then three times a graph
    convolution followed by an edge aggregation, all over the one graph and its one normalisation. -/
def refOut (a0 : FVec Ideal S20000x16 .f32) (a1 : IVec S2x320000 32) (a2 : FVec Ideal S320000x5 .f32)
    (a3 : FVec Ideal S17x64 .f32) (a4 : FVec Ideal S64 .f32) (a5 : FVec Ideal S64x64 .f32) (a6 : FVec Ideal S64 .f32)
    (a7 : FVec Ideal S2x133x64 .f32) (a8 : FVec Ideal S2x64 .f32) (a9 : FVec Ideal S2x64x64 .f32) (a10 : FVec Ideal S2x64 .f32)
    (a11 : FVec Ideal S133x64 .f32) (a12 : FVec Ideal S64 .f32) (a13 : FVec Ideal S64x6 .f32) (a14 : FVec Ideal S6 .f32)
    (a15 : FVec Ideal S3x4x64x64 .f32) (a16 : FVec Ideal S3x64 .f32) : FVec Ideal S20000x6 .f32 :=
  let src := srcIdx a1
  let dst := dstIdx a1
  let ea := edgeAttr a2
  let norm := normOf (disOf (degOf dst)) src dst
  let h0 := refEA0 (nodeX a0) src dst ea a3 a4 a5 a6
  let t0 := refTAG h0 src dst norm (tagWs0 a15) (tagB0 a16)
  let h1 := refEAmid t0 src dst ea (midW1_0 a7) (midB_0 a8) (midW2_0 a9) (midB_0 a10)
  let t1 := refTAG h1 src dst norm (tagWs1 a15) (tagB1 a16)
  let h2 := refEAmid t1 src dst ea (midW1_1 a7) (midB_1 a8) (midW2_1 a9) (midB_1 a10)
  let t2 := refTAG h2 src dst norm (tagWs2 a15) (tagB2 a16)
  refEAlast t2 src dst ea a11 a12 a13 a14

end Cert.ReferenceIdeal.Hand

end
-- ==== Proof.KI.KTerms.lean ====
/- The few array functions only the kernel program's host side has, as definitions at the exact-real instance: the
   graph convolution's propagation with the normalisation applied to the nodes on both sides of the sum (rather than to
   the edges), the four propagated feature arrays side by side, the four stacked weights as one tall matrix, a bias as
   a one-row matrix, and a first-layer weight matrix cut into the row blocks that multiply the target rows, the source
   rows and the edge attributes. -/
import proofs.«120992_j5111011082634_2_alg».proof.Proof.Gen.KernelIdeal.Launch
import proofs.«120992_j5111011082634_2_alg».proof.Proof.Ref.Layers
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo

/-! ## Propagation with the normalisation on the nodes -/

/-- Row `n` of a 20000 × 64 array times entry `n` of a 20000-vector. -/
def scaleRows (dis : FVec Ideal S20000 .f32) (x : FVec Ideal S20000x64 .f32) : FVec Ideal S20000x64 .f32 :=
  mulf (F := Ideal)
    (broadcastInDim S20000x64 ![0, 1] bcast_S20000x1_S20000x64_0_1 (broadcastInDim S20000x1 ![0] bcast_S20000_S20000x1_0 dis)) x

/-- One propagation step: the rows scaled, taken at one end of every edge, summed into the other end, scaled again. -/
def khop (dis : FVec Ideal S20000 .f32) (x : FVec Ideal S20000x64 .f32) (src dst : IVec S640000 32) :
    FVec Ideal S20000x64 .f32 :=
  scaleRows dis (Cert.ReferenceIdeal.Hand.sumAt64 dst (Cert.ReferenceIdeal.Hand.rows64 (scaleRows dis x) src))

/-- Four 20000 × 64 arrays side by side: columns 0 … 63 the first, 64 … 127 the second, and so on. -/
def feat4 (x h1 h2 h3 : FVec Ideal S20000x64 .f32) : FVec Ideal S20000x256 .f32 :=
  concatenate S20000x256 1 [⟨S20000x64, x⟩, ⟨S20000x64, h1⟩, ⟨S20000x64, h2⟩, ⟨S20000x64, h3⟩]
    concatenates_S20000x64_S20000x64_S20000x64_S20000x64_S20000x256_d1

/-- The features and their three successive propagations, side by side: what a graph convolution multiplies by its
    tall weight matrix. -/
def tagFeat (dis : FVec Ideal S20000 .f32) (x : FVec Ideal S20000x64 .f32) (src dst : IVec S640000 32) :
    FVec Ideal S20000x256 .f32 :=
  feat4 x (khop dis x src dst) (khop dis (khop dis x src dst) src dst)
    (khop dis (khop dis (khop dis x src dst) src dst) src dst)

/-! ## Weights and biases as the matrices the regions read -/

/-- Four 64 × 64 weights stacked into one 256 × 64 matrix: weight `k` is rows 64·k … 64·k + 63. -/
def wcat (Ws : FVec Ideal S4x64x64 .f32) : FVec Ideal S256x64 .f32 :=
  shapeCast _ Ws shapeCasts_S4x64x64_S256x64

/-- A bias of 64 as a 1 × 64 matrix. -/
def row64 (b : FVec Ideal S64 .f32) : FVec Ideal S1x64 .f32 :=
  shapeCast _ b shapeCasts_S64_S1x64

/-- A bias of 6 as a 1 × 6 matrix. -/
def row6 (b : FVec Ideal S6 .f32) : FVec Ideal S1x6 .f32 :=
  shapeCast _ b shapeCasts_S6_S1x6

/-- Rows 0 … 5 of a 17 × 64 weight matrix: the rows that multiply the target node's 6 features. -/
def w17top (W : FVec Ideal S17x64 .f32) : FVec Ideal S6x64 .f32 :=
  extractStridedSlice S6x64 ![0, 0] W slices_S17x64_S6x64_0_0
/-- Rows 6 … 11: the rows that multiply the source node's 6 features. -/
def w17mid (W : FVec Ideal S17x64 .f32) : FVec Ideal S6x64 .f32 :=
  extractStridedSlice S6x64 ![6, 0] W slices_S17x64_S6x64_6_0
/-- Rows 12 … 16: the rows that multiply the edge's 5 attributes. -/
def w17bot (W : FVec Ideal S17x64 .f32) : FVec Ideal S5x64 .f32 :=
  extractStridedSlice S5x64 ![12, 0] W slices_S17x64_S5x64_12_0

/-- Rows 0 … 63 of a 133 × 64 weight matrix: the rows that multiply the target node's 64 features. -/
def w133top (W : FVec Ideal S133x64 .f32) : FVec Ideal S64x64 .f32 :=
  extractStridedSlice S64x64 ![0, 0] W slices_S133x64_S64x64_0_0
/-- Rows 64 … 127: the rows that multiply the source node's 64 features. -/
def w133mid (W : FVec Ideal S133x64 .f32) : FVec Ideal S64x64 .f32 :=
  extractStridedSlice S64x64 ![64, 0] W slices_S133x64_S64x64_64_0
/-- Rows 128 … 132: the rows that multiply the edge's 5 attributes. -/
def w133bot (W : FVec Ideal S133x64 .f32) : FVec Ideal S5x64 .f32 :=
  extractStridedSlice S5x64 ![128, 0] W slices_S133x64_S5x64_128_0

end Cert.KernelIdeal.HandValue

end
-- ==== Proof.KI.StretchTac.lean ====
/- Two spellings of a concatenation — of two arrays and of four — with each array an argument of its own, and the
   evaluation of a list of host operations at a buffer by rewriting passes that also reach the operands of a
   concatenation: an array inside a list of (shape, array) pairs is not reached by a rewriting pass that descends through
   function arguments only, an argument of the spellings below is. -/
import Idealize.ShloMosaic.Lib.StableHlo.Run
import Idealize.ShloMosaic.PureOps.ShapeOps

namespace Cert.KernelIdeal.HandValue

open Idealize.ShloMosaic Idealize.ShloMosaic.StableHlo

variable {α : Type}

/-- Two arrays joined along an axis. -/
def cat2 (t : Shape) (a : Fin t.rank) (s1 s2 : Shape) (x : s1.Idx → α) (y : s2.Idx → α)
    (h : Shape.Concatenates [s1, s2] t a) : t.Idx → α :=
  concatenate t a [⟨s1, x⟩, ⟨s2, y⟩] h

theorem cat2_fold (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 x y h := rfl

/-- Four arrays joined along an axis. -/
def cat4 (t : Shape) (a : Fin t.rank) (s1 s2 s3 s4 : Shape) (x : s1.Idx → α) (y : s2.Idx → α) (z : s3.Idx → α)
    (w : s4.Idx → α) (h : Shape.Concatenates [s1, s2, s3, s4] t a) : t.Idx → α :=
  concatenate t a [⟨s1, x⟩, ⟨s2, y⟩, ⟨s3, z⟩, ⟨s4, w⟩] h

theorem cat4_fold (t : Shape) (a : Fin t.rank) (s1 s2 s3 s4 : Shape) (x : s1.Idx → α) (y : s2.Idx → α)
    (z : s3.Idx → α) (w : s4.Idx → α) (h : Shape.Concatenates [s1, s2, s3, s4] t a) :
    concatenate t a [⟨s1, x⟩, ⟨s2, y⟩, ⟨s3, z⟩, ⟨s4, w⟩] h = cat4 t a s1 s2 s3 s4 x y z w h := rfl

/-- What a buffer holds after a literal list of host operations, by rewriting passes: each operation's result at its
    own buffer is its function of its operands' contents, at any other buffer what was there; a concatenation is respelled
    so that the pass goes on into its operands. -/
macro "host_results" : tactic =>
  `(tactic| (after_results_simp
             repeat (simp only [cat2_fold, cat4_fold]; after_results_simp)))

end Cert.KernelIdeal.HandValue
-- ==== Proof.KI.StretchHead.lean ====
/- What the host operations of the kernel program before its first region leave in the buffers that later items read, for
   ANY contents `V` of the buffers at the start: the graph (node features, the two ends of every directed edge, the edge
   attributes), the normalisation (each node's degree, and its inverse square root where the degree is positive), and
   what the first edge network reads. -/
import proofs.«120992_j5111011082634_2_alg».proof.Proof.Gen.KernelIdeal.Launch
import proofs.«120992_j5111011082634_2_alg».proof.Proof.Ref.Layers
import proofs.«120992_j5111011082634_2_alg».proof.Proof.KI.KTerms
import proofs.«120992_j5111011082634_2_alg».proof.Proof.KI.StretchTac
import proofs.«120992_j5111011082634_2_alg».proof.Proof.Gen.KernelIdeal.Regions
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## `hostOps0`: the graph and the degree -/

/-- The node features the network reads. -/
theorem hostOps0_v0 (V : Valuation τ sig (Elt Ideal)) :
    after hostOps0 V main_v0 = nodeX (V main_arg0) := by
  host_results
  rfl
/-- The source end of every directed edge. -/
theorem hostOps0_v5 (V : Valuation τ sig (Elt Ideal)) :
    after hostOps0 V main_v5 = srcIdx (V main_arg1) := by
  host_results
  rfl
/-- The target end of every directed edge. -/
theorem hostOps0_v10 (V : Valuation τ sig (Elt Ideal)) :
    after hostOps0 V main_v10 = dstIdx (V main_arg1) := by
  host_results
  rfl
/-- The edge attributes, once for each direction. -/
theorem hostOps0_v11 (V : Valuation τ sig (Elt Ideal)) :
    after hostOps0 V main_v11 = edgeAttr (V main_arg2) := by
  host_results
  rfl
/-- Each node's degree: ones summed at the target end of every directed edge. -/
theorem hostOps0_v15 (V : Valuation τ sig (Elt Ideal)) :
    after hostOps0 V main_v15 = degOf (dstIdx (V main_arg1)) := by
  host_results
  rfl
/-- Where the degree is positive. -/
theorem hostOps0_v17 (V : Valuation τ sig (Elt Ideal)) :
    after hostOps0 V main_v17 = cmpf (F := Ideal) .ogt (degOf (dstIdx (V main_arg1)))
      (broadcastInDim S20000 ![] bcast_S_S20000 (constant (F := Ideal) S_ .f32 0x00000000#32)) := by
  host_results
  rfl
/-- Where the degree is positive, computed a second time. -/
theorem hostOps0_v19 (V : Valuation τ sig (Elt Ideal)) :
    after hostOps0 V main_v19 = cmpf (F := Ideal) .ogt (degOf (dstIdx (V main_arg1)))
      (broadcastInDim S20000 ![] bcast_S_S20000 (constant (F := Ideal) S_ .f32 0x00000000#32)) := by
  host_results
  rfl
/-- The constant one. -/
theorem hostOps0_cst3 (V : Valuation τ sig (Elt Ideal)) :
    after hostOps0 V main_cst_3 = constant (F := Ideal) S_ .f32 0x3F800000#32 := by
  host_results

/-! ## `hostOps0_1`, `hostOps0_2`, `hostOps0_3`: the inverse square root between two selections -/

/-- The degree where it is positive, the given constant elsewhere. -/
theorem hostOps0_1_v20 (V : Valuation τ sig (Elt Ideal)) :
    after hostOps0_1 V main_v20 = select (V main_v19) (V main_v15) (broadcastInDim S20000 ![] bcast_S_S20000 (V main_cst_3)) := by
  host_results
  rfl
/-- The inverse square root. -/
theorem hostOps0_2_v21 (V : Valuation τ sig (Elt Ideal)) :
    after hostOps0_2 V main_v21 = Host.rsqrt (F := Ideal) (s := S20000) (φ := .f32) (V main_v20) := by
  host_results
/-- The constant zero. -/
theorem hostOps0_2_cst4 (V : Valuation τ sig (Elt Ideal)) :
    after hostOps0_2 V main_cst_4 = constant (F := Ideal) S_ .f32 0x00000000#32 := by
  host_results
/-- The root where the degree is positive, the given constant elsewhere. -/
theorem hostOps0_3_v22' (V : Valuation τ sig (Elt Ideal)) :
    after hostOps0_3 V main_v22 = select (V main_v17) (V main_v21) (broadcastInDim S20000 ![] bcast_S_S20000 (V main_cst_4)) := by
  host_results
  rfl

/-- The four stretches in a row (the degree, then two calls of the selection function around the inverse square root)
    leave the inverse square root of each node's degree where it is positive and zero elsewhere: each stretch's result
    read off the one before, the flag of the positive degrees carried unchanged through the two stretches that do not
    write it. -/
theorem hostOps0_3_v22 (V : Valuation τ sig (Elt Ideal)) :
    after hostOps0_3 (after hostOps0_2 (after hostOps0_1 (after hostOps0 V))) main_v22
      = disOf (degOf (dstIdx (V main_arg1))) := by
  have a15 := hostOps0_v15 V
  have a17 := hostOps0_v17 V
  have a19 := hostOps0_v19 V
  have ac3 := hostOps0_cst3 V
  generalize after hostOps0 V = V1 at a15 a17 a19 ac3 ⊢
  have b20 := hostOps0_1_v20 V1
  have b17 : after hostOps0_1 V1 main_v17 = V1 main_v17 :=
    after_of_writes_sub hostOps0_1 V1 hostOps0_1_writes (by decide)
  generalize after hostOps0_1 V1 = V2 at b20 b17 ⊢
  have c21 := hostOps0_2_v21 V2
  have cc4 := hostOps0_2_cst4 V2
  have c17 : after hostOps0_2 V2 main_v17 = V2 main_v17 :=
    after_of_writes_sub hostOps0_2 V2 hostOps0_2_writes (by decide)
  generalize after hostOps0_2 V2 = V3 at c21 cc4 c17 ⊢
  rw [hostOps0_3_v22' V3, c17, b17, a17, c21, cc4, b20, a19, a15, ac3]
  rfl

/-! ## `hostOps0_4`: what the first edge network reads -/

/-- The first-layer weight rows that multiply the target node's features. -/
theorem hostOps0_4_v23 (V : Valuation τ sig (Elt Ideal)) :
    after hostOps0_4 V main_v23 = w17top (V main_arg3) := by
  host_results
  rfl
/-- The first-layer weight rows that multiply the source node's features. -/
theorem hostOps0_4_v24 (V : Valuation τ sig (Elt Ideal)) :
    after hostOps0_4 V main_v24 = w17mid (V main_arg3) := by
  host_results
  rfl
/-- The first-layer weight rows that multiply the edge attributes. -/
theorem hostOps0_4_v25 (V : Valuation τ sig (Elt Ideal)) :
    after hostOps0_4 V main_v25 = w17bot (V main_arg3) := by
  host_results
  rfl
/-- The node rows at the target end of every edge. -/
theorem hostOps0_4_v32 (V : Valuation τ sig (Elt Ideal)) :
    after hostOps0_4 V main_v32 = rows6 (V main_v0) (V main_v10) := by
  host_results
  rfl
/-- The node rows at the source end of every edge. -/
theorem hostOps0_4_v39 (V : Valuation τ sig (Elt Ideal)) :
    after hostOps0_4 V main_v39 = rows6 (V main_v0) (V main_v5) := by
  host_results
  rfl
/-- The first-layer bias as a one-row matrix. -/
theorem hostOps0_4_v40 (V : Valuation τ sig (Elt Ideal)) :
    after hostOps0_4 V main_v40 = row64 (V main_arg4) := by
  host_results
  rfl
/-- The second-layer bias as a one-row matrix. -/
theorem hostOps0_4_v41 (V : Valuation τ sig (Elt Ideal)) :
    after hostOps0_4 V main_v41 = row64 (V main_arg6) := by
  host_results
  rfl

end Cert.KernelIdeal.HandValue

end
-- ==== Proof.KI.StretchMid.lean ====
/- What the short stretches of host operations between the first edge network and the third graph convolution of the kernel program leave in the buffers that later items
   read, for ANY contents `V` of the buffers at the start of the stretch: each result is the composition of the stretch's
   operations applied to the contents of the buffers the stretch reads, and that composition is one of the network's
   layer functions — the same operations, in the same order, that the reference program applies. -/
import proofs.«120992_j5111011082634_2_alg».proof.Proof.Gen.KernelIdeal.Launch
import proofs.«120992_j5111011082634_2_alg».proof.Proof.Ref.Layers
import proofs.«120992_j5111011082634_2_alg».proof.Proof.KI.KTerms
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## `hostOps4`: what the third edge network reads -/

/-- The first-layer weight rows that multiply the target node's features. -/
theorem hostOps4_v199 (V : Valuation τ sig (Elt Ideal)) :
    after hostOps4 V main_v199 = w133top (midW1_1 (V main_arg7)) := by
  after_results_simp
  rfl
/-- The first-layer weight rows that multiply the source node's features. -/
theorem hostOps4_v200 (V : Valuation τ sig (Elt Ideal)) :
    after hostOps4 V main_v200 = w133mid (midW1_1 (V main_arg7)) := by
  after_results_simp
  rfl
/-- The first-layer weight rows that multiply the edge attributes. -/
theorem hostOps4_v201 (V : Valuation τ sig (Elt Ideal)) :
    after hostOps4 V main_v201 = w133bot (midW1_1 (V main_arg7)) := by
  after_results_simp
  rfl
/-- The node rows at the target end of every edge. -/
theorem hostOps4_v208 (V : Valuation τ sig (Elt Ideal)) :
    after hostOps4 V main_v208 = rows64 (V main_v190) (V main_v10) := by
  after_results_simp
  rfl
/-- The node rows at the source end of every edge. -/
theorem hostOps4_v215 (V : Valuation τ sig (Elt Ideal)) :
    after hostOps4 V main_v215 = rows64 (V main_v190) (V main_v5) := by
  after_results_simp
  rfl
/-- The first-layer bias as a one-row matrix. -/
theorem hostOps4_v216 (V : Valuation τ sig (Elt Ideal)) :
    after hostOps4 V main_v216 = row64 (midB_1 (V main_arg8)) := by
  after_results_simp
  rfl
/-- The second-layer weight. -/
theorem hostOps4_v196 (V : Valuation τ sig (Elt Ideal)) :
    after hostOps4 V main_v196 = midW2_1 (V main_arg9) := by
  after_results_simp
  rfl
/-- The second-layer bias as a one-row matrix. -/
theorem hostOps4_v217 (V : Valuation τ sig (Elt Ideal)) :
    after hostOps4 V main_v217 = row64 (midB_1 (V main_arg10)) := by
  after_results_simp
  rfl

/-! ## `hostOps3`, `hostOps3_1`: the per-edge rows summed into the target nodes, then rectified -/

/-- The per-edge rows summed into the node at the target end of each edge, from zero. -/
theorem hostOps3_v133 (V : Valuation τ sig (Elt Ideal)) :
    after hostOps3 V main_v133 = sumAt64 (V main_v10) (V main_v130) := by
  after_results_simp
  rfl
/-- The maximum with zero. -/
theorem hostOps3_1_v134 (V : Valuation τ sig (Elt Ideal)) :
    after hostOps3_1 V main_v134 = reluN (V main_v133) := by
  after_results_simp
  rfl

/-! ## `hostOps2`: what the second edge network reads -/

/-- The first-layer weight rows that multiply the target node's features. -/
theorem hostOps2_v111 (V : Valuation τ sig (Elt Ideal)) :
    after hostOps2 V main_v111 = w133top (midW1_0 (V main_arg7)) := by
  after_results_simp
  rfl
/-- The first-layer weight rows that multiply the source node's features. -/
theorem hostOps2_v112 (V : Valuation τ sig (Elt Ideal)) :
    after hostOps2 V main_v112 = w133mid (midW1_0 (V main_arg7)) := by
  after_results_simp
  rfl
/-- The first-layer weight rows that multiply the edge attributes. -/
theorem hostOps2_v113 (V : Valuation τ sig (Elt Ideal)) :
    after hostOps2 V main_v113 = w133bot (midW1_0 (V main_arg7)) := by
  after_results_simp
  rfl
/-- The node rows at the target end of every edge. -/
theorem hostOps2_v120 (V : Valuation τ sig (Elt Ideal)) :
    after hostOps2 V main_v120 = rows64 (V main_v102) (V main_v10) := by
  after_results_simp
  rfl
/-- The node rows at the source end of every edge. -/
theorem hostOps2_v127 (V : Valuation τ sig (Elt Ideal)) :
    after hostOps2 V main_v127 = rows64 (V main_v102) (V main_v5) := by
  after_results_simp
  rfl
/-- The first-layer bias as a one-row matrix. -/
theorem hostOps2_v128 (V : Valuation τ sig (Elt Ideal)) :
    after hostOps2 V main_v128 = row64 (midB_0 (V main_arg8)) := by
  after_results_simp
  rfl
/-- The second-layer weight. -/
theorem hostOps2_v108 (V : Valuation τ sig (Elt Ideal)) :
    after hostOps2 V main_v108 = midW2_0 (V main_arg9) := by
  after_results_simp
  rfl
/-- The second-layer bias as a one-row matrix. -/
theorem hostOps2_v129 (V : Valuation τ sig (Elt Ideal)) :
    after hostOps2 V main_v129 = row64 (midB_0 (V main_arg10)) := by
  after_results_simp
  rfl

/-! ## `hostOps1`, `hostOps1_1`: the per-edge rows summed into the target nodes, then rectified -/

/-- The per-edge rows summed into the node at the target end of each edge, from zero. -/
theorem hostOps1_v45 (V : Valuation τ sig (Elt Ideal)) :
    after hostOps1 V main_v45 = sumAt64 (V main_v10) (V main_v42) := by
  after_results_simp
  rfl
/-- The maximum with zero. -/
theorem hostOps1_1_v46 (V : Valuation τ sig (Elt Ideal)) :
    after hostOps1_1 V main_v46 = reluN (V main_v45) := by
  after_results_simp
  rfl

end Cert.KernelIdeal.HandValue

end
-- ==== Proof.KI.StretchTail.lean ====
/- What the short stretches of host operations after the third graph convolution of the kernel program leave in the buffers that later items
   read, for ANY contents `V` of the buffers at the start of the stretch: each result is the composition of the stretch's
   operations applied to the contents of the buffers the stretch reads, and that composition is one of the network's
   layer functions — the same operations, in the same order, that the reference program applies. -/
import proofs.«120992_j5111011082634_2_alg».proof.Proof.Gen.KernelIdeal.Launch
import proofs.«120992_j5111011082634_2_alg».proof.Proof.Ref.Layers
import proofs.«120992_j5111011082634_2_alg».proof.Proof.KI.KTerms
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## `hostOps7`: the program's result -/

/-- The last edge network's per-edge rows of 6 summed into the node at the target end of each edge, from zero. -/
theorem hostOps7_v301 (V : Valuation τ sig (Elt Ideal)) :
    after hostOps7 V main_v301 = sumAt6 (V main_v10) (V main_v298) := by
  after_results_simp
  rfl

/-! ## `hostOps6`: what the last edge network reads -/

/-- The first-layer weight rows that multiply the target node's features. -/
theorem hostOps6_v279 (V : Valuation τ sig (Elt Ideal)) :
    after hostOps6 V main_v279 = w133top (V main_arg11) := by
  after_results_simp
  rfl
/-- The first-layer weight rows that multiply the source node's features. -/
theorem hostOps6_v280 (V : Valuation τ sig (Elt Ideal)) :
    after hostOps6 V main_v280 = w133mid (V main_arg11) := by
  after_results_simp
  rfl
/-- The first-layer weight rows that multiply the edge attributes. -/
theorem hostOps6_v281 (V : Valuation τ sig (Elt Ideal)) :
    after hostOps6 V main_v281 = w133bot (V main_arg11) := by
  after_results_simp
  rfl
/-- The node rows at the target end of every edge. -/
theorem hostOps6_v288 (V : Valuation τ sig (Elt Ideal)) :
    after hostOps6 V main_v288 = rows64 (V main_v278) (V main_v10) := by
  after_results_simp
  rfl
/-- The node rows at the source end of every edge. -/
theorem hostOps6_v295 (V : Valuation τ sig (Elt Ideal)) :
    after hostOps6 V main_v295 = rows64 (V main_v278) (V main_v5) := by
  after_results_simp
  rfl
/-- The first-layer bias as a one-row matrix. -/
theorem hostOps6_v296 (V : Valuation τ sig (Elt Ideal)) :
    after hostOps6 V main_v296 = row64 (V main_arg12) := by
  after_results_simp
  rfl
/-- The second-layer bias as a one-row matrix. -/
theorem hostOps6_v297 (V : Valuation τ sig (Elt Ideal)) :
    after hostOps6 V main_v297 = row6 (V main_arg14) := by
  after_results_simp
  rfl

/-! ## `hostOps5`, `hostOps5_1`: the per-edge rows summed into the target nodes, then rectified -/

/-- The per-edge rows summed into the node at the target end of each edge, from zero. -/
theorem hostOps5_v221 (V : Valuation τ sig (Elt Ideal)) :
    after hostOps5 V main_v221 = sumAt64 (V main_v10) (V main_v218) := by
  after_results_simp
  rfl
/-- The maximum with zero. -/
theorem hostOps5_1_v222 (V : Valuation τ sig (Elt Ideal)) :
    after hostOps5_1 V main_v222 = reluN (V main_v221) := by
  after_results_simp
  rfl

end Cert.KernelIdeal.HandValue

end
-- ==== Proof.KI.StretchTag1.lean ====
/- What the stretch of host operations before the first graph convolution's region leaves in the three arrays the region
   reads, for ANY contents `V` of the buffers at the start of the stretch. The stretch scales the node features by the
   normalisation, takes the rows at the source end of every edge, sums them into the target end and scales again, three
   times over, and sets the features and the three results side by side; it also reshapes the convolution's weights and
   bias. -/
import proofs.«120992_j5111011082634_2_alg».proof.Proof.Gen.KernelIdeal.Launch
import proofs.«120992_j5111011082634_2_alg».proof.Proof.Ref.Layers
import proofs.«120992_j5111011082634_2_alg».proof.Proof.KI.KTerms
import proofs.«120992_j5111011082634_2_alg».proof.Proof.KI.StretchTac
import proofs.«120992_j5111011082634_2_alg».proof.Proof.Gen.KernelIdeal.Regions
import Idealize.ShloMosaic.Lib.Pipeline.Frame
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## The three propagations -/

/-- The features propagated once. -/
theorem hostOps1_2_v66 (V : Valuation τ sig (Elt Ideal)) :
    after hostOps1_2 V main_v66 =
      khop (V main_v22) (V main_v46) (V main_v5) (V main_v10) := by
  after_results_simp
  rfl
/-- The features propagated twice. -/
theorem hostOps1_2_v82 (V : Valuation τ sig (Elt Ideal)) :
    after hostOps1_2 V main_v82 =
      khop (V main_v22) (khop (V main_v22) (V main_v46) (V main_v5) (V main_v10)) (V main_v5) (V main_v10) := by
  after_results_simp
  rfl
/-- The features propagated three times. -/
theorem hostOps1_2_v98 (V : Valuation τ sig (Elt Ideal)) :
    after hostOps1_2 V main_v98 =
      khop (V main_v22) (khop (V main_v22) (khop (V main_v22) (V main_v46) (V main_v5) (V main_v10)) (V main_v5) (V main_v10)) (V main_v5) (V main_v10) := by
  after_results_simp
  rfl
/-- The stretch does not write the features it starts from. -/
theorem hostOps1_2_v46 (V : Valuation τ sig (Elt Ideal)) : after hostOps1_2 V main_v46 = V main_v46 :=
  after_of_writes_sub hostOps1_2 V hostOps1_2_writes (by decide)

/-! ## The four arrays side by side -/

/-- The side-by-side array is the concatenation of the four arrays as the stretch leaves them: the concatenation is
    the third operation from the end, and the two after it (reshapes of the weights and the bias) write none of the
    five arrays. So, cutting the stretch before its last three operations, both sides are read off the contents the
    first sixty-one leave. -/
theorem hostOps1_2_v99_parts (V : Valuation τ sig (Elt Ideal)) :
    after hostOps1_2 V main_v99
      = feat4 (after hostOps1_2 V main_v46) (after hostOps1_2 V main_v66) (after hostOps1_2 V main_v82) (after hostOps1_2 V main_v98) := by
  rw [← List.take_append_drop 61 (hostOps1_2 : List (HloOp τ sig (Elt Ideal)))]
  simp only [StableHlo.after_append]
  generalize after (List.take 61 (hostOps1_2 : List (HloOp τ sig (Elt Ideal)))) V = V'
  change after [_, _, _] V' main_v99 = feat4 (after [_, _, _] V' main_v46) (after [_, _, _] V' main_v66)
    (after [_, _, _] V' main_v82) (after [_, _, _] V' main_v98)
  after_results_simp
  rfl

/-- The node features and their three successive propagations, side by side. -/
theorem hostOps1_2_v99 (V : Valuation τ sig (Elt Ideal)) :
    after hostOps1_2 V main_v99 = tagFeat (V main_v22) (V main_v46) (V main_v5) (V main_v10) := by
  rw [hostOps1_2_v99_parts V, hostOps1_2_v46 V, hostOps1_2_v66 V, hostOps1_2_v82 V, hostOps1_2_v98 V]
  rfl

/-! ## The weights and the bias -/

/-- The convolution's four weights as one tall matrix. -/
theorem hostOps1_2_v100 (V : Valuation τ sig (Elt Ideal)) :
    after hostOps1_2 V main_v100 = wcat (tagWs0 (V main_arg15)) := by
  after_results_simp
  rfl
/-- The convolution's bias as a one-row matrix. -/
theorem hostOps1_2_v101 (V : Valuation τ sig (Elt Ideal)) :
    after hostOps1_2 V main_v101 = row64 (tagB0 (V main_arg16)) := by
  after_results_simp
  rfl

end Cert.KernelIdeal.HandValue

end
-- ==== Proof.KI.StretchTag3.lean ====
/- What the stretch of host operations before the second graph convolution's region leaves in the three arrays the region
   reads, for ANY contents `V` of the buffers at the start of the stretch. The stretch scales the node features by the
   normalisation, takes the rows at the source end of every edge, sums them into the target end and scales again, three
   times over, and sets the features and the three results side by side; it also reshapes the convolution's weights and
   bias. -/
import proofs.«120992_j5111011082634_2_alg».proof.Proof.Gen.KernelIdeal.Launch
import proofs.«120992_j5111011082634_2_alg».proof.Proof.Ref.Layers
import proofs.«120992_j5111011082634_2_alg».proof.Proof.KI.KTerms
import proofs.«120992_j5111011082634_2_alg».proof.Proof.KI.StretchTac
import proofs.«120992_j5111011082634_2_alg».proof.Proof.Gen.KernelIdeal.Regions
import Idealize.ShloMosaic.Lib.Pipeline.Frame
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## The three propagations -/

/-- The features propagated once. -/
theorem hostOps3_2_v154 (V : Valuation τ sig (Elt Ideal)) :
    after hostOps3_2 V main_v154 =
      khop (V main_v22) (V main_v134) (V main_v5) (V main_v10) := by
  after_results_simp
  rfl
/-- The features propagated twice. -/
theorem hostOps3_2_v170 (V : Valuation τ sig (Elt Ideal)) :
    after hostOps3_2 V main_v170 =
      khop (V main_v22) (khop (V main_v22) (V main_v134) (V main_v5) (V main_v10)) (V main_v5) (V main_v10) := by
  after_results_simp
  rfl
/-- The features propagated three times. -/
theorem hostOps3_2_v186 (V : Valuation τ sig (Elt Ideal)) :
    after hostOps3_2 V main_v186 =
      khop (V main_v22) (khop (V main_v22) (khop (V main_v22) (V main_v134) (V main_v5) (V main_v10)) (V main_v5) (V main_v10)) (V main_v5) (V main_v10) := by
  after_results_simp
  rfl
/-- The stretch does not write the features it starts from. -/
theorem hostOps3_2_v134 (V : Valuation τ sig (Elt Ideal)) : after hostOps3_2 V main_v134 = V main_v134 :=
  after_of_writes_sub hostOps3_2 V hostOps3_2_writes (by decide)

/-! ## The four arrays side by side -/

/-- The side-by-side array is the concatenation of the four arrays as the stretch leaves them: the concatenation is
    the third operation from the end, and the two after it (reshapes of the weights and the bias) write none of the
    five arrays. So, cutting the stretch before its last three operations, both sides are read off the contents the
    first sixty-one leave. -/
theorem hostOps3_2_v187_parts (V : Valuation τ sig (Elt Ideal)) :
    after hostOps3_2 V main_v187
      = feat4 (after hostOps3_2 V main_v134) (after hostOps3_2 V main_v154) (after hostOps3_2 V main_v170) (after hostOps3_2 V main_v186) := by
  rw [← List.take_append_drop 61 (hostOps3_2 : List (HloOp τ sig (Elt Ideal)))]
  simp only [StableHlo.after_append]
  generalize after (List.take 61 (hostOps3_2 : List (HloOp τ sig (Elt Ideal)))) V = V'
  change after [_, _, _] V' main_v187 = feat4 (after [_, _, _] V' main_v134) (after [_, _, _] V' main_v154)
    (after [_, _, _] V' main_v170) (after [_, _, _] V' main_v186)
  after_results_simp
  rfl

/-- The node features and their three successive propagations, side by side. -/
theorem hostOps3_2_v187 (V : Valuation τ sig (Elt Ideal)) :
    after hostOps3_2 V main_v187 = tagFeat (V main_v22) (V main_v134) (V main_v5) (V main_v10) := by
  rw [hostOps3_2_v187_parts V, hostOps3_2_v134 V, hostOps3_2_v154 V, hostOps3_2_v170 V, hostOps3_2_v186 V]
  rfl

/-! ## The weights and the bias -/

/-- The convolution's four weights as one tall matrix. -/
theorem hostOps3_2_v188 (V : Valuation τ sig (Elt Ideal)) :
    after hostOps3_2 V main_v188 = wcat (tagWs1 (V main_arg15)) := by
  after_results_simp
  rfl
/-- The convolution's bias as a one-row matrix. -/
theorem hostOps3_2_v189 (V : Valuation τ sig (Elt Ideal)) :
    after hostOps3_2 V main_v189 = row64 (tagB1 (V main_arg16)) := by
  after_results_simp
  rfl

end Cert.KernelIdeal.HandValue

end
-- ==== Proof.KI.StretchTag5.lean ====
/- What the stretch of host operations before the third graph convolution's region leaves in the three arrays the region
   reads, for ANY contents `V` of the buffers at the start of the stretch. The stretch scales the node features by the
   normalisation, takes the rows at the source end of every edge, sums them into the target end and scales again, three
   times over, and sets the features and the three results side by side; it also reshapes the convolution's weights and
   bias. -/
import proofs.«120992_j5111011082634_2_alg».proof.Proof.Gen.KernelIdeal.Launch
import proofs.«120992_j5111011082634_2_alg».proof.Proof.Ref.Layers
import proofs.«120992_j5111011082634_2_alg».proof.Proof.KI.KTerms
import proofs.«120992_j5111011082634_2_alg».proof.Proof.KI.StretchTac
import proofs.«120992_j5111011082634_2_alg».proof.Proof.Gen.KernelIdeal.Regions
import Idealize.ShloMosaic.Lib.Pipeline.Frame
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-! ## The three propagations -/

/-- The features propagated once. -/
theorem hostOps5_2_v242 (V : Valuation τ sig (Elt Ideal)) :
    after hostOps5_2 V main_v242 =
      khop (V main_v22) (V main_v222) (V main_v5) (V main_v10) := by
  after_results_simp
  rfl
/-- The features propagated twice. -/
theorem hostOps5_2_v258 (V : Valuation τ sig (Elt Ideal)) :
    after hostOps5_2 V main_v258 =
      khop (V main_v22) (khop (V main_v22) (V main_v222) (V main_v5) (V main_v10)) (V main_v5) (V main_v10) := by
  after_results_simp
  rfl
/-- The features propagated three times. -/
theorem hostOps5_2_v274 (V : Valuation τ sig (Elt Ideal)) :
    after hostOps5_2 V main_v274 =
      khop (V main_v22) (khop (V main_v22) (khop (V main_v22) (V main_v222) (V main_v5) (V main_v10)) (V main_v5) (V main_v10)) (V main_v5) (V main_v10) := by
  after_results_simp
  rfl
/-- The stretch does not write the features it starts from. -/
theorem hostOps5_2_v222 (V : Valuation τ sig (Elt Ideal)) : after hostOps5_2 V main_v222 = V main_v222 :=
  after_of_writes_sub hostOps5_2 V hostOps5_2_writes (by decide)

/-! ## The four arrays side by side -/

/-- The side-by-side array is the concatenation of the four arrays as the stretch leaves them: the concatenation is
    the third operation from the end, and the two after it (reshapes of the weights and the bias) write none of the
    five arrays. So, cutting the stretch before its last three operations, both sides are read off the contents the
    first sixty-one leave. -/
theorem hostOps5_2_v275_parts (V : Valuation τ sig (Elt Ideal)) :
    after hostOps5_2 V main_v275
      = feat4 (after hostOps5_2 V main_v222) (after hostOps5_2 V main_v242) (after hostOps5_2 V main_v258) (after hostOps5_2 V main_v274) := by
  rw [← List.take_append_drop 61 (hostOps5_2 : List (HloOp τ sig (Elt Ideal)))]
  simp only [StableHlo.after_append]
  generalize after (List.take 61 (hostOps5_2 : List (HloOp τ sig (Elt Ideal)))) V = V'
  change after [_, _, _] V' main_v275 = feat4 (after [_, _, _] V' main_v222) (after [_, _, _] V' main_v242)
    (after [_, _, _] V' main_v258) (after [_, _, _] V' main_v274)
  after_results_simp
  rfl

/-- The node features and their three successive propagations, side by side. -/
theorem hostOps5_2_v275 (V : Valuation τ sig (Elt Ideal)) :
    after hostOps5_2 V main_v275 = tagFeat (V main_v22) (V main_v222) (V main_v5) (V main_v10) := by
  rw [hostOps5_2_v275_parts V, hostOps5_2_v222 V, hostOps5_2_v242 V, hostOps5_2_v258 V, hostOps5_2_v274 V]
  rfl

/-! ## The weights and the bias -/

/-- The convolution's four weights as one tall matrix. -/
theorem hostOps5_2_v276 (V : Valuation τ sig (Elt Ideal)) :
    after hostOps5_2 V main_v276 = wcat (tagWs2 (V main_arg15)) := by
  after_results_simp
  rfl
/-- The convolution's bias as a one-row matrix. -/
theorem hostOps5_2_v277 (V : Valuation τ sig (Elt Ideal)) :
    after hostOps5_2 V main_v277 = row64 (tagB2 (V main_arg16)) := by
  after_results_simp
  rfl

end Cert.KernelIdeal.HandValue

end
-- ==== Proof.KI.KOut.lean ====
/- The kernel program's result as a function of its seventeen arguments: the same stack of layers as the reference's,
   with each edge aggregation's per-edge function written as the sums the edge-network regions compute and each graph
   convolution written as the rectified product the matmul regions compute of the side-by-side propagated features. -/
import proofs.«120992_j5111011082634_2_alg».proof.Proof.KI.KTerms
import proofs.«120992_j5111011082634_2_alg».proof.Proof.KI.Val1
import proofs.«120992_j5111011082634_2_alg».proof.Proof.Spec

noncomputable section

namespace Cert.KernelIdeal.HandValue

open Cert.KernelIdeal Cert.KernelIdeal.Gen Cert.Spec
open Idealize.ShloMosaic
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

/-- The first edge aggregation: per edge the two-layer function of the 6 features at its two ends and its 5 attributes,
    summed into the target end of the edge, rectified. -/
def kEA0 (x : FVec Ideal S20000x6 .f32) (src dst : IVec S640000 32) (ea : FVec Ideal S640000x5 .f32)
    (W1 : FVec Ideal S17x64 .f32) (b1 : FVec Ideal S64 .f32) (W2 : FVec Ideal S64x64 .f32) (b2 : FVec Ideal S64 .f32) :
    FVec Ideal S20000x64 .f32 :=
  reluN (sumAt64 dst (mlpG (D := 6) (O := 64) (rows6 x dst) (rows6 x src) ea (w17top W1) (w17mid W1) (w17bot W1)
    (row64 b1) W2 (row64 b2)))

/-- A middle edge aggregation: the same on the 64 features at the two ends. -/
def kEAmid (x : FVec Ideal S20000x64 .f32) (src dst : IVec S640000 32) (ea : FVec Ideal S640000x5 .f32)
    (W1 : FVec Ideal S133x64 .f32) (b1 : FVec Ideal S64 .f32) (W2 : FVec Ideal S64x64 .f32) (b2 : FVec Ideal S64 .f32) :
    FVec Ideal S20000x64 .f32 :=
  reluN (sumAt64 dst (mlpG (D := 64) (O := 64) (rows64 x dst) (rows64 x src) ea (w133top W1) (w133mid W1) (w133bot W1)
    (row64 b1) W2 (row64 b2)))

/-- The last edge aggregation: 6 outputs per edge, summed into the target end; no rectifier after the sum. -/
def kEAlast (x : FVec Ideal S20000x64 .f32) (src dst : IVec S640000 32) (ea : FVec Ideal S640000x5 .f32)
    (W1 : FVec Ideal S133x64 .f32) (b1 : FVec Ideal S64 .f32) (W2 : FVec Ideal S64x6 .f32) (b2 : FVec Ideal S6 .f32) :
    FVec Ideal S20000x6 .f32 :=
  sumAt6 dst (mlpG (D := 64) (O := 6) (rows64 x dst) (rows64 x src) ea (w133top W1) (w133mid W1) (w133bot W1)
    (row64 b1) W2 (row6 b2))

/-- A graph convolution: the features and their three propagations side by side, times the four weights stacked,
    plus the bias, rectified. -/
def kTAG (dis : FVec Ideal S20000 .f32) (x : FVec Ideal S20000x64 .f32) (src dst : IVec S640000 32)
    (Ws : FVec Ideal S4x64x64 .f32) (b : FVec Ideal S64 .f32) : FVec Ideal S20000x64 .f32 :=
  tagG (tagFeat dis x src dst) (wcat Ws) (row64 b)

/-- The whole network, the kernel program's way. -/
def kerOut (a0 : FVec Ideal S20000x16 .f32) (a1 : IVec S2x320000 32) (a2 : FVec Ideal S320000x5 .f32)
    (a3 : FVec Ideal S17x64 .f32) (a4 : FVec Ideal S64 .f32) (a5 : FVec Ideal S64x64 .f32) (a6 : FVec Ideal S64 .f32)
    (a7 : FVec Ideal S2x133x64 .f32) (a8 : FVec Ideal S2x64 .f32) (a9 : FVec Ideal S2x64x64 .f32) (a10 : FVec Ideal S2x64 .f32)
    (a11 : FVec Ideal S133x64 .f32) (a12 : FVec Ideal S64 .f32) (a13 : FVec Ideal S64x6 .f32) (a14 : FVec Ideal S6 .f32)
    (a15 : FVec Ideal S3x4x64x64 .f32) (a16 : FVec Ideal S3x64 .f32) : FVec Ideal S20000x6 .f32 :=
  kEAlast
    (kTAG (disOf (degOf (dstIdx a1)))
      (kEAmid
        (kTAG (disOf (degOf (dstIdx a1)))
          (kEAmid
            (kTAG (disOf (degOf (dstIdx a1)))
              (kEA0 (nodeX a0) (srcIdx a1) (dstIdx a1) (edgeAttr a2) a3 a4 a5 a6)
              (srcIdx a1) (dstIdx a1) (tagWs0 a15) (tagB0 a16))
            (srcIdx a1) (dstIdx a1) (edgeAttr a2) (midW1_0 a7) (midB_0 a8) (midW2_0 a9) (midB_0 a10))
          (srcIdx a1) (dstIdx a1) (tagWs1 a15) (tagB1 a16))
        (srcIdx a1) (dstIdx a1) (edgeAttr a2) (midW1_1 a7) (midB_1 a8) (midW2_1 a9) (midB_1 a10))
      (srcIdx a1) (dstIdx a1) (tagWs2 a15) (tagB2 a16))
    (srcIdx a1) (dstIdx a1) (edgeAttr a2) a11 a12 a13 a14

end Cert.KernelIdeal.HandValue

end
-- ==== Proof.KI.Chain.lean ====
/- The kernel program's result as a value: walking @main's twenty-five items from the launch memory, every buffer a later
   item reads is a layer function of the seventeen arguments. A host stretch's results are the compositions of its
   operations (the stretch lemmas, at the contents the stretch starts from); a region's output array is the function its
   grid's write-backs tile; and a buffer written once keeps its contents through every later item that does not write it. -/
import proofs.«120992_j5111011082634_2_alg».proof.Proof.KI.Fold
import proofs.«120992_j5111011082634_2_alg».proof.Proof.KI.Val0
import proofs.«120992_j5111011082634_2_alg».proof.Proof.KI.Val1
import proofs.«120992_j5111011082634_2_alg».proof.Proof.KI.Val2
import proofs.«120992_j5111011082634_2_alg».proof.Proof.KI.Val3
import proofs.«120992_j5111011082634_2_alg».proof.Proof.KI.Val4
import proofs.«120992_j5111011082634_2_alg».proof.Proof.KI.Val5
import proofs.«120992_j5111011082634_2_alg».proof.Proof.KI.Val6
import proofs.«120992_j5111011082634_2_alg».proof.Proof.KI.StretchHead
import proofs.«120992_j5111011082634_2_alg».proof.Proof.KI.StretchMid
import proofs.«120992_j5111011082634_2_alg».proof.Proof.KI.StretchTail
import proofs.«120992_j5111011082634_2_alg».proof.Proof.KI.StretchTag1
import proofs.«120992_j5111011082634_2_alg».proof.Proof.KI.StretchTag3
import proofs.«120992_j5111011082634_2_alg».proof.Proof.KI.StretchTag5
import proofs.«120992_j5111011082634_2_alg».proof.Proof.KI.KOut

set_option maxRecDepth 16384

noncomputable section

namespace Cert.KernelIdeal.HandValue

open Cert.KernelIdeal Cert.KernelIdeal.Gen Cert.Spec
open Cert.KernelIdeal.Hand (W0 W1 W2 W3 W4 W5 W6 W7 W8 W9 W10 W11 W12 W13 W14 W15 W16 W17 W18 W19 W20 W21 W22 W23 W24 W25
  W1_of W2_of W3_of W4_of W5_of W6_of W7_of W8_of W9_of W10_of W11_of W12_of W13_of W14_of W15_of W16_of W17_of W18_of W19_of
  W20_of W21_of W22_of W23_of W24_of W25_of W6_out W10_out W12_out W16_out W18_out W22_out W24_out)
open Idealize.ShloMosaic Idealize.ShloMosaic.TcCoe Idealize.ShloMosaic.StableHlo
open Cert.ReferenceIdeal.Hand (nodeX srcIdx dstIdx edgeAttr rows64 rows6 sumAt64 sumAt6 degOf disOf reluN tagWs0 tagWs1 tagWs2 tagB0 tagB1 tagB2 midW1_0 midW1_1 midB_0 midB_1 midW2_0 midW2_1)

variable (m : (ℓ : Loc nD τ sig) → Buf (Elt Ideal) ℓ) (ρ : Dev nD → PrngReg) (c : Dev nD)

/-! ## The carries, restated for a rewriting pass

The same facts as the fold's `W<J>_of`, with the reference a pattern the pass does not index on (a reference's buffer is a
reducible function of the reference, so an index on it would never match). -/

theorem W1_at (r : Ref sig .tc) (h : r ∉ hostOps0_W) :
    W1 m ρ c (no_index (Proc.devRef .tc r)) = W0 m ρ c (Proc.devRef .tc r) := W1_of m ρ c r h
theorem W2_at (r : Ref sig .tc) (h : r ∉ hostOps0_1_W) :
    W2 m ρ c (no_index (Proc.devRef .tc r)) = W1 m ρ c (Proc.devRef .tc r) := W2_of m ρ c r h
theorem W3_at (r : Ref sig .tc) (h : r ∉ hostOps0_2_W) :
    W3 m ρ c (no_index (Proc.devRef .tc r)) = W2 m ρ c (Proc.devRef .tc r) := W3_of m ρ c r h
theorem W4_at (r : Ref sig .tc) (h : r ∉ hostOps0_3_W) :
    W4 m ρ c (no_index (Proc.devRef .tc r)) = W3 m ρ c (Proc.devRef .tc r) := W4_of m ρ c r h
theorem W5_at (r : Ref sig .tc) (h : r ∉ hostOps0_4_W) :
    W5 m ρ c (no_index (Proc.devRef .tc r)) = W4 m ρ c (Proc.devRef .tc r) := W5_of m ρ c r h
theorem W6_at (r : Ref sig .tc) (h : r ≠ main_v42) :
    W6 m ρ c (no_index (Proc.devRef .tc r)) = W5 m ρ c (Proc.devRef .tc r) := W6_of m ρ c r h
theorem W7_at (r : Ref sig .tc) (h : r ∉ hostOps1_W) :
    W7 m ρ c (no_index (Proc.devRef .tc r)) = W6 m ρ c (Proc.devRef .tc r) := W7_of m ρ c r h
theorem W8_at (r : Ref sig .tc) (h : r ∉ hostOps1_1_W) :
    W8 m ρ c (no_index (Proc.devRef .tc r)) = W7 m ρ c (Proc.devRef .tc r) := W8_of m ρ c r h
theorem W9_at (r : Ref sig .tc) (h : r ∉ hostOps1_2_W) :
    W9 m ρ c (no_index (Proc.devRef .tc r)) = W8 m ρ c (Proc.devRef .tc r) := W9_of m ρ c r h
theorem W10_at (r : Ref sig .tc) (h : r ≠ main_v102) :
    W10 m ρ c (no_index (Proc.devRef .tc r)) = W9 m ρ c (Proc.devRef .tc r) := W10_of m ρ c r h
theorem W11_at (r : Ref sig .tc) (h : r ∉ hostOps2_W) :
    W11 m ρ c (no_index (Proc.devRef .tc r)) = W10 m ρ c (Proc.devRef .tc r) := W11_of m ρ c r h
theorem W12_at (r : Ref sig .tc) (h : r ≠ main_v130) :
    W12 m ρ c (no_index (Proc.devRef .tc r)) = W11 m ρ c (Proc.devRef .tc r) := W12_of m ρ c r h
theorem W13_at (r : Ref sig .tc) (h : r ∉ hostOps3_W) :
    W13 m ρ c (no_index (Proc.devRef .tc r)) = W12 m ρ c (Proc.devRef .tc r) := W13_of m ρ c r h
theorem W14_at (r : Ref sig .tc) (h : r ∉ hostOps3_1_W) :
    W14 m ρ c (no_index (Proc.devRef .tc r)) = W13 m ρ c (Proc.devRef .tc r) := W14_of m ρ c r h
theorem W15_at (r : Ref sig .tc) (h : r ∉ hostOps3_2_W) :
    W15 m ρ c (no_index (Proc.devRef .tc r)) = W14 m ρ c (Proc.devRef .tc r) := W15_of m ρ c r h
theorem W16_at (r : Ref sig .tc) (h : r ≠ main_v190) :
    W16 m ρ c (no_index (Proc.devRef .tc r)) = W15 m ρ c (Proc.devRef .tc r) := W16_of m ρ c r h
theorem W17_at (r : Ref sig .tc) (h : r ∉ hostOps4_W) :
    W17 m ρ c (no_index (Proc.devRef .tc r)) = W16 m ρ c (Proc.devRef .tc r) := W17_of m ρ c r h
theorem W18_at (r : Ref sig .tc) (h : r ≠ main_v218) :
    W18 m ρ c (no_index (Proc.devRef .tc r)) = W17 m ρ c (Proc.devRef .tc r) := W18_of m ρ c r h
theorem W19_at (r : Ref sig .tc) (h : r ∉ hostOps5_W) :
    W19 m ρ c (no_index (Proc.devRef .tc r)) = W18 m ρ c (Proc.devRef .tc r) := W19_of m ρ c r h
theorem W20_at (r : Ref sig .tc) (h : r ∉ hostOps5_1_W) :
    W20 m ρ c (no_index (Proc.devRef .tc r)) = W19 m ρ c (Proc.devRef .tc r) := W20_of m ρ c r h
theorem W21_at (r : Ref sig .tc) (h : r ∉ hostOps5_2_W) :
    W21 m ρ c (no_index (Proc.devRef .tc r)) = W20 m ρ c (Proc.devRef .tc r) := W21_of m ρ c r h
theorem W22_at (r : Ref sig .tc) (h : r ≠ main_v278) :
    W22 m ρ c (no_index (Proc.devRef .tc r)) = W21 m ρ c (Proc.devRef .tc r) := W22_of m ρ c r h
theorem W23_at (r : Ref sig .tc) (h : r ∉ hostOps6_W) :
    W23 m ρ c (no_index (Proc.devRef .tc r)) = W22 m ρ c (Proc.devRef .tc r) := W23_of m ρ c r h
theorem W24_at (r : Ref sig .tc) (h : r ≠ main_v298) :
    W24 m ρ c (no_index (Proc.devRef .tc r)) = W23 m ρ c (Proc.devRef .tc r) := W24_of m ρ c r h
theorem W25_at (r : Ref sig .tc) (h : r ∉ hostOps7_W) :
    W25 m ρ c (no_index (Proc.devRef .tc r)) = W24 m ρ c (Proc.devRef .tc r) := W25_of m ρ c r h

/-- A buffer read at a boundary of @main is read at the boundary after the item that last wrote it: every item in between
    leaves it alone (a host stretch writes only its operations' results, a region only its output array). -/
macro "carry" : tactic =>
  `(tactic| simp (disch := decide) only [W25_at, W24_at, W23_at, W22_at, W21_at, W20_at, W19_at, W18_at, W17_at, W16_at, W15_at, W14_at, W13_at, W12_at, W11_at, W10_at, W9_at, W8_at, W7_at, W6_at, W5_at, W4_at, W3_at, W2_at, W1_at])

/-! ## The graph and its normalisation, written once before the first region -/

theorem x_at1 : W1 m ρ c main_v0 = nodeX (W0 m ρ c main_arg0) := hostOps0_v0 (W0 m ρ c)
theorem src_at1 : W1 m ρ c main_v5 = srcIdx (W0 m ρ c main_arg1) := hostOps0_v5 (W0 m ρ c)
theorem dst_at1 : W1 m ρ c main_v10 = dstIdx (W0 m ρ c main_arg1) := hostOps0_v10 (W0 m ρ c)
theorem ea_at1 : W1 m ρ c main_v11 = edgeAttr (W0 m ρ c main_arg2) := hostOps0_v11 (W0 m ρ c)
theorem dis_at4 : W4 m ρ c main_v22 = disOf (degOf (dstIdx (W0 m ρ c main_arg1))) := hostOps0_3_v22 (W0 m ρ c)

/-! ## The layers, each from the one before -/

/-- The first edge aggregation: the first region's per-edge rows, summed into the target nodes and rectified. -/
theorem layer_ea0 :
    W8 m ρ c main_v46 = kEA0 (nodeX (W0 m ρ c main_arg0)) (srcIdx (W0 m ρ c main_arg1)) (dstIdx (W0 m ρ c main_arg1)) (edgeAttr (W0 m ρ c main_arg2)) (W0 m ρ c main_arg3) (W0 m ρ c main_arg4) (W0 m ρ c main_arg5) (W0 m ρ c main_arg6) := by
  have e46 : W8 m ρ c main_v46 = reluN (W7 m ρ c main_v45) := hostOps1_1_v46 (W7 m ρ c)
  have e45 : W7 m ρ c main_v45 = sumAt64 (W6 m ρ c main_v10) (W6 m ρ c main_v42) := hostOps1_v45 (W6 m ρ c)
  have e42 : W6 m ρ c main_v42 = mlpG (D := 6) (O := 64) (W5 m ρ c main_v32) (W5 m ρ c main_v39) (W5 m ρ c main_v11)
      (W5 m ρ c main_v23) (W5 m ρ c main_v24) (W5 m ρ c main_v25) (W5 m ρ c main_v40) (W5 m ρ c main_arg5) (W5 m ρ c main_v41) :=
    (W6_out m ρ c).trans (final0 (Cert.KernelIdeal.Hand.V5 m ρ) c)
  have e32 : W5 m ρ c main_v32 = rows6 (W4 m ρ c main_v0) (W4 m ρ c main_v10) := hostOps0_4_v32 (W4 m ρ c)
  have e39 : W5 m ρ c main_v39 = rows6 (W4 m ρ c main_v0) (W4 m ρ c main_v5) := hostOps0_4_v39 (W4 m ρ c)
  have e23 : W5 m ρ c main_v23 = w17top (W4 m ρ c main_arg3) := hostOps0_4_v23 (W4 m ρ c)
  have e24 : W5 m ρ c main_v24 = w17mid (W4 m ρ c main_arg3) := hostOps0_4_v24 (W4 m ρ c)
  have e25 : W5 m ρ c main_v25 = w17bot (W4 m ρ c main_arg3) := hostOps0_4_v25 (W4 m ρ c)
  have e40 : W5 m ρ c main_v40 = row64 (W4 m ρ c main_arg4) := hostOps0_4_v40 (W4 m ρ c)
  have e41 : W5 m ρ c main_v41 = row64 (W4 m ρ c main_arg6) := hostOps0_4_v41 (W4 m ρ c)
  rw [e46, e45, e42, e32, e39, e23, e24, e25, e40, e41]
  carry
  rw [x_at1, src_at1, dst_at1, ea_at1]
  rfl

/-- The first graph convolution: the second region's rectified product of the side-by-side propagated features. -/
theorem layer_tag0 :
    W10 m ρ c main_v102 = kTAG (disOf (degOf (dstIdx (W0 m ρ c main_arg1)))) (W8 m ρ c main_v46) (srcIdx (W0 m ρ c main_arg1)) (dstIdx (W0 m ρ c main_arg1)) (tagWs0 (W0 m ρ c main_arg15)) (tagB0 (W0 m ρ c main_arg16)) := by
  have eo : W10 m ρ c main_v102 = tagG (W9 m ρ c main_v99) (W9 m ρ c main_v100) (W9 m ρ c main_v101) :=
    (W10_out m ρ c).trans (final1 (Cert.KernelIdeal.Hand.V9 m ρ) c)
  have ef : W9 m ρ c main_v99 = tagFeat (W8 m ρ c main_v22) (W8 m ρ c main_v46) (W8 m ρ c main_v5) (W8 m ρ c main_v10) :=
    hostOps1_2_v99 (W8 m ρ c)
  have ew : W9 m ρ c main_v100 = wcat (tagWs0 (W8 m ρ c main_arg15)) := hostOps1_2_v100 (W8 m ρ c)
  have eb : W9 m ρ c main_v101 = row64 (tagB0 (W8 m ρ c main_arg16)) := hostOps1_2_v101 (W8 m ρ c)
  rw [eo, ef, ew, eb]
  carry
  rw [dis_at4, src_at1, dst_at1]
  rfl

/-- The second edge aggregation, from the first graph convolution's output. -/
theorem layer_ea1 :
    W14 m ρ c main_v134 = kEAmid (W10 m ρ c main_v102) (srcIdx (W0 m ρ c main_arg1)) (dstIdx (W0 m ρ c main_arg1)) (edgeAttr (W0 m ρ c main_arg2)) (midW1_0 (W0 m ρ c main_arg7)) (midB_0 (W0 m ρ c main_arg8)) (midW2_0 (W0 m ρ c main_arg9)) (midB_0 (W0 m ρ c main_arg10)) := by
  have er : W14 m ρ c main_v134 = reluN (W13 m ρ c main_v133) := hostOps3_1_v134 (W13 m ρ c)
  have es : W13 m ρ c main_v133 = sumAt64 (W12 m ρ c main_v10) (W12 m ρ c main_v130) := hostOps3_v133 (W12 m ρ c)
  have eo : W12 m ρ c main_v130 = mlpG (D := 64) (O := 64) (W11 m ρ c main_v120) (W11 m ρ c main_v127) (W11 m ρ c main_v11)
      (W11 m ρ c main_v111) (W11 m ρ c main_v112) (W11 m ρ c main_v113) (W11 m ρ c main_v128) (W11 m ρ c main_v108) (W11 m ρ c main_v129) :=
    (W12_out m ρ c).trans (final2 (Cert.KernelIdeal.Hand.V11 m ρ) c)
  have ed : W11 m ρ c main_v120 = rows64 (W10 m ρ c main_v102) (W10 m ρ c main_v10) := hostOps2_v120 (W10 m ρ c)
  have esr : W11 m ρ c main_v127 = rows64 (W10 m ρ c main_v102) (W10 m ρ c main_v5) := hostOps2_v127 (W10 m ρ c)
  have et : W11 m ρ c main_v111 = w133top (midW1_0 (W10 m ρ c main_arg7)) := hostOps2_v111 (W10 m ρ c)
  have em : W11 m ρ c main_v112 = w133mid (midW1_0 (W10 m ρ c main_arg7)) := hostOps2_v112 (W10 m ρ c)
  have ebo : W11 m ρ c main_v113 = w133bot (midW1_0 (W10 m ρ c main_arg7)) := hostOps2_v113 (W10 m ρ c)
  have eb1 : W11 m ρ c main_v128 = row64 (midB_0 (W10 m ρ c main_arg8)) := hostOps2_v128 (W10 m ρ c)
  have ew2 : W11 m ρ c main_v108 = midW2_0 (W10 m ρ c main_arg9) := hostOps2_v108 (W10 m ρ c)
  have eb2 : W11 m ρ c main_v129 = row64 (midB_0 (W10 m ρ c main_arg10)) := hostOps2_v129 (W10 m ρ c)
  rw [er, es, eo, ed, esr, et, em, ebo, eb1, ew2, eb2]
  carry
  rw [src_at1, dst_at1, ea_at1]
  rfl

/-- The second graph convolution. -/
theorem layer_tag1 :
    W16 m ρ c main_v190 = kTAG (disOf (degOf (dstIdx (W0 m ρ c main_arg1)))) (W14 m ρ c main_v134) (srcIdx (W0 m ρ c main_arg1)) (dstIdx (W0 m ρ c main_arg1)) (tagWs1 (W0 m ρ c main_arg15)) (tagB1 (W0 m ρ c main_arg16)) := by
  have eo : W16 m ρ c main_v190 = tagG (W15 m ρ c main_v187) (W15 m ρ c main_v188) (W15 m ρ c main_v189) :=
    (W16_out m ρ c).trans (final3 (Cert.KernelIdeal.Hand.V15 m ρ) c)
  have ef : W15 m ρ c main_v187 = tagFeat (W14 m ρ c main_v22) (W14 m ρ c main_v134) (W14 m ρ c main_v5) (W14 m ρ c main_v10) :=
    hostOps3_2_v187 (W14 m ρ c)
  have ew : W15 m ρ c main_v188 = wcat (tagWs1 (W14 m ρ c main_arg15)) := hostOps3_2_v188 (W14 m ρ c)
  have eb : W15 m ρ c main_v189 = row64 (tagB1 (W14 m ρ c main_arg16)) := hostOps3_2_v189 (W14 m ρ c)
  rw [eo, ef, ew, eb]
  carry
  rw [dis_at4, src_at1, dst_at1]
  rfl

/-- The third edge aggregation, from the second graph convolution's output. -/
theorem layer_ea2 :
    W20 m ρ c main_v222 = kEAmid (W16 m ρ c main_v190) (srcIdx (W0 m ρ c main_arg1)) (dstIdx (W0 m ρ c main_arg1)) (edgeAttr (W0 m ρ c main_arg2)) (midW1_1 (W0 m ρ c main_arg7)) (midB_1 (W0 m ρ c main_arg8)) (midW2_1 (W0 m ρ c main_arg9)) (midB_1 (W0 m ρ c main_arg10)) := by
  have er : W20 m ρ c main_v222 = reluN (W19 m ρ c main_v221) := hostOps5_1_v222 (W19 m ρ c)
  have es : W19 m ρ c main_v221 = sumAt64 (W18 m ρ c main_v10) (W18 m ρ c main_v218) := hostOps5_v221 (W18 m ρ c)
  have eo : W18 m ρ c main_v218 = mlpG (D := 64) (O := 64) (W17 m ρ c main_v208) (W17 m ρ c main_v215) (W17 m ρ c main_v11)
      (W17 m ρ c main_v199) (W17 m ρ c main_v200) (W17 m ρ c main_v201) (W17 m ρ c main_v216) (W17 m ρ c main_v196) (W17 m ρ c main_v217) :=
    (W18_out m ρ c).trans (final4 (Cert.KernelIdeal.Hand.V17 m ρ) c)
  have ed : W17 m ρ c main_v208 = rows64 (W16 m ρ c main_v190) (W16 m ρ c main_v10) := hostOps4_v208 (W16 m ρ c)
  have esr : W17 m ρ c main_v215 = rows64 (W16 m ρ c main_v190) (W16 m ρ c main_v5) := hostOps4_v215 (W16 m ρ c)
  have et : W17 m ρ c main_v199 = w133top (midW1_1 (W16 m ρ c main_arg7)) := hostOps4_v199 (W16 m ρ c)
  have em : W17 m ρ c main_v200 = w133mid (midW1_1 (W16 m ρ c main_arg7)) := hostOps4_v200 (W16 m ρ c)
  have ebo : W17 m ρ c main_v201 = w133bot (midW1_1 (W16 m ρ c main_arg7)) := hostOps4_v201 (W16 m ρ c)
  have eb1 : W17 m ρ c main_v216 = row64 (midB_1 (W16 m ρ c main_arg8)) := hostOps4_v216 (W16 m ρ c)
  have ew2 : W17 m ρ c main_v196 = midW2_1 (W16 m ρ c main_arg9) := hostOps4_v196 (W16 m ρ c)
  have eb2 : W17 m ρ c main_v217 = row64 (midB_1 (W16 m ρ c main_arg10)) := hostOps4_v217 (W16 m ρ c)
  rw [er, es, eo, ed, esr, et, em, ebo, eb1, ew2, eb2]
  carry
  rw [src_at1, dst_at1, ea_at1]
  rfl

/-- The third graph convolution. -/
theorem layer_tag2 :
    W22 m ρ c main_v278 = kTAG (disOf (degOf (dstIdx (W0 m ρ c main_arg1)))) (W20 m ρ c main_v222) (srcIdx (W0 m ρ c main_arg1)) (dstIdx (W0 m ρ c main_arg1)) (tagWs2 (W0 m ρ c main_arg15)) (tagB2 (W0 m ρ c main_arg16)) := by
  have eo : W22 m ρ c main_v278 = tagG (W21 m ρ c main_v275) (W21 m ρ c main_v276) (W21 m ρ c main_v277) :=
    (W22_out m ρ c).trans (final5 (Cert.KernelIdeal.Hand.V21 m ρ) c)
  have ef : W21 m ρ c main_v275 = tagFeat (W20 m ρ c main_v22) (W20 m ρ c main_v222) (W20 m ρ c main_v5) (W20 m ρ c main_v10) :=
    hostOps5_2_v275 (W20 m ρ c)
  have ew : W21 m ρ c main_v276 = wcat (tagWs2 (W20 m ρ c main_arg15)) := hostOps5_2_v276 (W20 m ρ c)
  have eb : W21 m ρ c main_v277 = row64 (tagB2 (W20 m ρ c main_arg16)) := hostOps5_2_v277 (W20 m ρ c)
  rw [eo, ef, ew, eb]
  carry
  rw [dis_at4, src_at1, dst_at1]
  rfl

/-- The last edge aggregation, from the third graph convolution's output: the program's result. -/
theorem layer_ea3 :
    W25 m ρ c main_v301 = kEAlast (W22 m ρ c main_v278) (srcIdx (W0 m ρ c main_arg1)) (dstIdx (W0 m ρ c main_arg1)) (edgeAttr (W0 m ρ c main_arg2)) (W0 m ρ c main_arg11) (W0 m ρ c main_arg12) (W0 m ρ c main_arg13) (W0 m ρ c main_arg14) := by
  have es : W25 m ρ c main_v301 = sumAt6 (W24 m ρ c main_v10) (W24 m ρ c main_v298) := hostOps7_v301 (W24 m ρ c)
  have eo : W24 m ρ c main_v298 = mlpG (D := 64) (O := 6) (W23 m ρ c main_v288) (W23 m ρ c main_v295) (W23 m ρ c main_v11)
      (W23 m ρ c main_v279) (W23 m ρ c main_v280) (W23 m ρ c main_v281) (W23 m ρ c main_v296) (W23 m ρ c main_arg13) (W23 m ρ c main_v297) :=
    (W24_out m ρ c).trans (final6 (Cert.KernelIdeal.Hand.V23 m ρ) c)
  have ed : W23 m ρ c main_v288 = rows64 (W22 m ρ c main_v278) (W22 m ρ c main_v10) := hostOps6_v288 (W22 m ρ c)
  have esr : W23 m ρ c main_v295 = rows64 (W22 m ρ c main_v278) (W22 m ρ c main_v5) := hostOps6_v295 (W22 m ρ c)
  have et : W23 m ρ c main_v279 = w133top (W22 m ρ c main_arg11) := hostOps6_v279 (W22 m ρ c)
  have em : W23 m ρ c main_v280 = w133mid (W22 m ρ c main_arg11) := hostOps6_v280 (W22 m ρ c)
  have ebo : W23 m ρ c main_v281 = w133bot (W22 m ρ c main_arg11) := hostOps6_v281 (W22 m ρ c)
  have eb1 : W23 m ρ c main_v296 = row64 (W22 m ρ c main_arg12) := hostOps6_v296 (W22 m ρ c)
  have eb2 : W23 m ρ c main_v297 = row6 (W22 m ρ c main_arg14) := hostOps6_v297 (W22 m ρ c)
  rw [es, eo, ed, esr, et, em, ebo, eb1, eb2]
  carry
  rw [src_at1, dst_at1, ea_at1]
  rfl

/-! ## The whole program -/

/-- THE KERNEL PROGRAM'S RESULT is the network, the kernel program's way, of the seventeen arguments as the launch memory
    holds them. -/
theorem kernel_value :
    W25 m ρ c (Proc.devRef .tc main_v301)
      = kerOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  rw [layer_ea3, layer_tag2, layer_ea2, layer_tag1, layer_ea1, layer_tag0, layer_ea0]
  rfl

end Cert.KernelIdeal.HandValue

end
-- ==== Proof.Ref.Ops.lean ====
/- The reference program's host operations as lists, one list per layer of the network it computes, and its run as
   the fold of those lists: every weakly fair execution terminates with each buffer at the operations' results
   folded over the launch contents. -/
import proofs.«120992_j5111011082634_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two lists run one after the other is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_append_of {α : Type} {p : α → Prop} {xs ys : List α} (hx : xs.Forall p) (hy : ys.Forall p) :
    (xs ++ ys).Forall p := List.forall_append.mpr ⟨hx, hy⟩

set_option maxHeartbeats 1000000 in
/-- The shared prologue: the node features' columns 4 … 9 (`main_v0`); the edge list read both ways — its row 0
    then its row 1 (`main_v5`), and its row 1 then its row 0 (`main_v10`), so that every edge also runs backwards —;
    the edge attributes doubled to match (`main_v11`); each node's degree as a scatter-add of ones at `main_v10`
    (`main_v15`); its inverse square root where the degree is positive and zero elsewhere (`main_v22`); and the
    normalisation of each directed edge, the product of that quantity at its two ends (`main_v37`). -/
abbrev opsP : List (HloOp τ sig (Elt F)) :=
  [ unary main_arg0 main_v0 ((extractStridedSlice S20000x6 ![0, 4] · slices_S20000x16_S20000x6_0_4) : (⟨S20000x16, .f32⟩ : BufTy).Contents (Elt F) → (⟨S20000x6, .f32⟩ : BufTy).Contents (Elt F)),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    binary main_v2 main_v4 main_v5 ((fun a b => concatenate S640000 0 [⟨S320000, a⟩, ⟨S320000, b⟩] concatenates_S320000_S320000_S640000_d0) : (⟨S320000, .i32⟩ : BufTy).Contents (Elt F) → (⟨S320000, .i32⟩ : BufTy).Contents (Elt F) → (⟨S640000, .i32⟩ : BufTy).Contents (Elt F)),
    unary main_arg1 main_v6 ((extractStridedSlice S1x320000 ![1, 0] · slices_S2x320000_S1x320000_1_0) : (⟨S2x320000, .i32⟩ : BufTy).Contents (Elt F) → (⟨S1x320000, .i32⟩ : BufTy).Contents (Elt F)),
    reshape main_v6 main_v7 rfl shapeCasts_S1x320000_S320000,
    unary main_arg1 main_v8 ((extractStridedSlice S1x320000 ![0, 0] · slices_S2x320000_S1x320000_0_0) : (⟨S2x320000, .i32⟩ : BufTy).Contents (Elt F) → (⟨S1x320000, .i32⟩ : BufTy).Contents (Elt F)),
    reshape main_v8 main_v9 rfl shapeCasts_S1x320000_S320000,
    binary main_v7 main_v9 main_v10 ((fun a b => concatenate S640000 0 [⟨S320000, a⟩, ⟨S320000, b⟩] concatenates_S320000_S320000_S640000_d0) : (⟨S320000, .i32⟩ : BufTy).Contents (Elt F) → (⟨S320000, .i32⟩ : BufTy).Contents (Elt F) → (⟨S640000, .i32⟩ : BufTy).Contents (Elt F)),
    binary main_arg2 main_arg2 main_v11 ((fun a b => concatenate S640000x5 0 [⟨S320000x5, a⟩, ⟨S320000x5, b⟩] concatenates_S320000x5_S320000x5_S640000x5_d0) : (⟨S320000x5, .f32⟩ : BufTy).Contents (Elt F) → (⟨S320000x5, .f32⟩ : BufTy).Contents (Elt F) → (⟨S640000x5, .f32⟩ : BufTy).Contents (Elt F)),
    nullary main_cst (constant S_ .f32 0x3F800000#32),
    unary main_cst main_v12 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v13 (broadcastInDim S20000 ![] bcast_S_S20000 : (⟨S_, .f32⟩ : BufTy).Contents (Elt F) → (⟨S20000, .f32⟩ : BufTy).Contents (Elt F)),
    unary main_v10 main_v14 (broadcastInDim S640000x1 ![0] bcast_S640000_S640000x1_0 : (⟨S640000, .i32⟩ : BufTy).Contents (Elt F) → (⟨S640000x1, .i32⟩ : BufTy).Contents (Elt F)),
    ternary main_v13 main_v14 main_v12 main_v15 ((fun x i u => Host.scatterAdd scatter_S20000_S640000x1_S640000_n_0_0_1 x i u) : (⟨S20000, .f32⟩ : BufTy).Contents (Elt F) → (⟨S640000x1, .i32⟩ : BufTy).Contents (Elt F) → (⟨S640000, .f32⟩ : BufTy).Contents (Elt F) → (⟨S20000, .f32⟩ : BufTy).Contents (Elt F)),
    nullary main_cst_1 (constant S_ .f32 0x00000000#32),
    unary main_cst_1 main_v16 (broadcastInDim S20000 ![] bcast_S_S20000 : (⟨S_, .f32⟩ : BufTy).Contents (Elt F) → (⟨S20000, .f32⟩ : BufTy).Contents (Elt F)),
    binary main_v15 main_v16 main_v17 (cmpf .ogt : (⟨S20000, .f32⟩ : BufTy).Contents (Elt F) → (⟨S20000, .f32⟩ : BufTy).Contents (Elt F) → (⟨S20000, .i1⟩ : BufTy).Contents (Elt F)),
    nullary main_cst_2 (constant S_ .f32 0x00000000#32),
    unary main_cst_2 main_v18 (broadcastInDim S20000 ![] bcast_S_S20000 : (⟨S_, .f32⟩ : BufTy).Contents (Elt F) → (⟨S20000, .f32⟩ : BufTy).Contents (Elt F)),
    binary main_v15 main_v18 main_v19 (cmpf .ogt : (⟨S20000, .f32⟩ : BufTy).Contents (Elt F) → (⟨S20000, .f32⟩ : BufTy).Contents (Elt F) → (⟨S20000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S20000, .f32⟩) main_call0_v1) (broadcastInDim S20000 ![] bcast_S_S20000),
    TRef.ternary (TRef.of (T := ⟨S20000, .i1⟩) main_v19) (TRef.of (T := ⟨S20000, .f32⟩) main_v15) (TRef.of (T := ⟨S20000, .f32⟩) main_call0_v1) (TRef.of (T := ⟨S20000, .f32⟩) main_v20) select,
    unary main_v20 main_v21 (Host.rsqrt : (⟨S20000, .f32⟩ : BufTy).Contents (Elt F) → (⟨S20000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S20000, .f32⟩) main_call1_v1) (broadcastInDim S20000 ![] bcast_S_S20000),
    TRef.ternary (TRef.of (T := ⟨S20000, .i1⟩) main_v17) (TRef.of (T := ⟨S20000, .f32⟩) main_v21) (TRef.of (T := ⟨S20000, .f32⟩) main_call1_v1) (TRef.of (T := ⟨S20000, .f32⟩) main_v22) select,
    nullary main_c (constantI S_ 32 0#32),
    unary main_c main_v23 (broadcastInDim S640000 ![] bcast_S_S640000 : (⟨S_, .i32⟩ : BufTy).Contents (Elt F) → (⟨S640000, .i32⟩ : BufTy).Contents (Elt F)),
    binary main_v5 main_v23 main_v24 (cmpi .slt : (⟨S640000, .i32⟩ : BufTy).Contents (Elt F) → (⟨S640000, .i32⟩ : BufTy).Contents (Elt F) → (⟨S640000, .i1⟩ : BufTy).Contents (Elt F)),
    nullary main_c_5 (constantI S_ 32 20000#32),
    unary main_c_5 main_v25 (broadcastInDim S640000 ![] bcast_S_S640000 : (⟨S_, .i32⟩ : BufTy).Contents (Elt F) → (⟨S640000, .i32⟩ : BufTy).Contents (Elt F)),
    binary main_v5 main_v25 main_v26 (addi : (⟨S640000, .i32⟩ : BufTy).Contents (Elt F) → (⟨S640000, .i32⟩ : BufTy).Contents (Elt F) → (⟨S640000, .i32⟩ : BufTy).Contents (Elt F)),
    ternary main_v24 main_v26 main_v5 main_v27 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v27 main_v28 (broadcastInDim S640000x1 ![0] bcast_S640000_S640000x1_0 : (⟨S640000, .i32⟩ : BufTy).Contents (Elt F) → (⟨S640000x1, .i32⟩ : BufTy).Contents (Elt F)),
    binary main_v22 main_v28 main_v29 ((fun x i => Host.gather gather_S20000_S640000x1_S640000_n_0_n_n_0_1_1 x i) : (⟨S20000, .f32⟩ : BufTy).Contents (Elt F) → (⟨S640000x1, .i32⟩ : BufTy).Contents (Elt F) → (⟨S640000, .f32⟩ : BufTy).Contents (Elt F)),
    nullary main_c_6 (constantI S_ 32 0#32),
    unary main_c_6 main_v30 (broadcastInDim S640000 ![] bcast_S_S640000 : (⟨S_, .i32⟩ : BufTy).Contents (Elt F) → (⟨S640000, .i32⟩ : BufTy).Contents (Elt F)),
    binary main_v10 main_v30 main_v31 (cmpi .slt : (⟨S640000, .i32⟩ : BufTy).Contents (Elt F) → (⟨S640000, .i32⟩ : BufTy).Contents (Elt F) → (⟨S640000, .i1⟩ : BufTy).Contents (Elt F)),
    nullary main_c_7 (constantI S_ 32 20000#32),
    unary main_c_7 main_v32 (broadcastInDim S640000 ![] bcast_S_S640000 : (⟨S_, .i32⟩ : BufTy).Contents (Elt F) → (⟨S640000, .i32⟩ : BufTy).Contents (Elt F)),
    binary main_v10 main_v32 main_v33 (addi : (⟨S640000, .i32⟩ : BufTy).Contents (Elt F) → (⟨S640000, .i32⟩ : BufTy).Contents (Elt F) → (⟨S640000, .i32⟩ : BufTy).Contents (Elt F)),
    ternary main_v31 main_v33 main_v10 main_v34 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v34 main_v35 (broadcastInDim S640000x1 ![0] bcast_S640000_S640000x1_0 : (⟨S640000, .i32⟩ : BufTy).Contents (Elt F) → (⟨S640000x1, .i32⟩ : BufTy).Contents (Elt F)),
    binary main_v22 main_v35 main_v36 ((fun x i => Host.gather gather_S20000_S640000x1_S640000_n_0_n_n_0_1_1 x i) : (⟨S20000, .f32⟩ : BufTy).Contents (Elt F) → (⟨S640000x1, .i32⟩ : BufTy).Contents (Elt F) → (⟨S640000, .f32⟩ : BufTy).Contents (Elt F)),
    binary main_v29 main_v36 main_v37 (mulf : (⟨S640000, .f32⟩ : BufTy).Contents (Elt F) → (⟨S640000, .f32⟩ : BufTy).Contents (Elt F) → (⟨S640000, .f32⟩ : BufTy).Contents (Elt F)) ]

set_option maxHeartbeats 1000000 in
/-- The first edge aggregation: the rows of `main_v0` at the two ends of every edge beside the edge's attributes
    (17 columns), a two-layer perceptron with a rectifier between the layers (weights `main_arg3` … `main_arg6`),
    the messages summed into their `main_v10` end, and a rectifier (`main_v65`). -/
abbrev opsE0 : List (HloOp τ sig (Elt F)) :=
  [ nullary main_c_8 (constantI S_ 32 0#32),
    unary main_c_8 main_v38 (broadcastInDim S640000 ![] bcast_S_S640000 : (⟨S_, .i32⟩ : BufTy).Contents (Elt F) → (⟨S640000, .i32⟩ : BufTy).Contents (Elt F)),
    binary main_v10 main_v38 main_v39 (cmpi .slt : (⟨S640000, .i32⟩ : BufTy).Contents (Elt F) → (⟨S640000, .i32⟩ : BufTy).Contents (Elt F) → (⟨S640000, .i1⟩ : BufTy).Contents (Elt F)),
    nullary main_c_9 (constantI S_ 32 20000#32),
    unary main_c_9 main_v40 (broadcastInDim S640000 ![] bcast_S_S640000 : (⟨S_, .i32⟩ : BufTy).Contents (Elt F) → (⟨S640000, .i32⟩ : BufTy).Contents (Elt F)),
    binary main_v10 main_v40 main_v41 (addi : (⟨S640000, .i32⟩ : BufTy).Contents (Elt F) → (⟨S640000, .i32⟩ : BufTy).Contents (Elt F) → (⟨S640000, .i32⟩ : BufTy).Contents (Elt F)),
    ternary main_v39 main_v41 main_v10 main_v42 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v42 main_v43 (broadcastInDim S640000x1 ![0] bcast_S640000_S640000x1_0 : (⟨S640000, .i32⟩ : BufTy).Contents (Elt F) → (⟨S640000x1, .i32⟩ : BufTy).Contents (Elt F)),
    binary main_v0 main_v43 main_v44 ((fun x i => Host.gather gather_S20000x6_S640000x1_S640000x6_1_0_n_n_0_1_16 x i) : (⟨S20000x6, .f32⟩ : BufTy).Contents (Elt F) → (⟨S640000x1, .i32⟩ : BufTy).Contents (Elt F) → (⟨S640000x6, .f32⟩ : BufTy).Contents (Elt F)),
    nullary main_c_10 (constantI S_ 32 0#32),
    unary main_c_10 main_v45 (broadcastInDim S640000 ![] bcast_S_S640000 : (⟨S_, .i32⟩ : BufTy).Contents (Elt F) → (⟨S640000, .i32⟩ : BufTy).Contents (Elt F)),
    binary main_v5 main_v45 main_v46 (cmpi .slt : (⟨S640000, .i32⟩ : BufTy).Contents (Elt F) → (⟨S640000, .i32⟩ : BufTy).Contents (Elt F) → (⟨S640000, .i1⟩ : BufTy).Contents (Elt F)),
    nullary main_c_11 (constantI S_ 32 20000#32),
    unary main_c_11 main_v47 (broadcastInDim S640000 ![] bcast_S_S640000 : (⟨S_, .i32⟩ : BufTy).Contents (Elt F) → (⟨S640000, .i32⟩ : BufTy).Contents (Elt F)),
    binary main_v5 main_v47 main_v48 (addi : (⟨S640000, .i32⟩ : BufTy).Contents (Elt F) → (⟨S640000, .i32⟩ : BufTy).Contents (Elt F) → (⟨S640000, .i32⟩ : BufTy).Contents (Elt F)),
    ternary main_v46 main_v48 main_v5 main_v49 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v49 main_v50 (broadcastInDim S640000x1 ![0] bcast_S640000_S640000x1_0 : (⟨S640000, .i32⟩ : BufTy).Contents (Elt F) → (⟨S640000x1, .i32⟩ : BufTy).Contents (Elt F)),
    binary main_v0 main_v50 main_v51 ((fun x i => Host.gather gather_S20000x6_S640000x1_S640000x6_1_0_n_n_0_1_16 x i) : (⟨S20000x6, .f32⟩ : BufTy).Contents (Elt F) → (⟨S640000x1, .i32⟩ : BufTy).Contents (Elt F) → (⟨S640000x6, .f32⟩ : BufTy).Contents (Elt F)),
    nary ![main_v44, main_v51, main_v11] main_v52 (fun u => concatenate S640000x17 1 [⟨S640000x6, u 0⟩, ⟨S640000x6, u 1⟩, ⟨S640000x5, u 2⟩] concatenates_S640000x6_S640000x6_S640000x5_S640000x17_d1),
    binary main_v52 main_arg3 main_v53 ((fun l r => Host.dotGeneral dot_S640000x17_S17x64_S640000x64_1_0_0_1_n_n none l r) : (⟨S640000x17, .f32⟩ : BufTy).Contents (Elt F) → (⟨S17x64, .f32⟩ : BufTy).Contents (Elt F) → (⟨S640000x64, .f32⟩ : BufTy).Contents (Elt F)),
    unary main_arg4 main_v54 (broadcastInDim S1x64 ![1] bcast_S64_S1x64_1 : (⟨S64, .f32⟩ : BufTy).Contents (Elt F) → (⟨S1x64, .f32⟩ : BufTy).Contents (Elt F)),
    unary main_v54 main_v55 (broadcastInDim S640000x64 ![0, 1] bcast_S1x64_S640000x64_0_1 : (⟨S1x64, .f32⟩ : BufTy).Contents (Elt F) → (⟨S640000x64, .f32⟩ : BufTy).Contents (Elt F)),
    binary main_v53 main_v55 main_v56 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S640000x64, .f32⟩) main_call2_v0) (broadcastInDim S640000x64 ![] bcast_S_S640000x64),
    TRef.binary (TRef.of (T := ⟨S640000x64, .f32⟩) main_v56) (TRef.of (T := ⟨S640000x64, .f32⟩) main_call2_v0) (TRef.of (T := ⟨S640000x64, .f32⟩) main_v57) maximumf,
    binary main_v57 main_arg5 main_v58 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    unary main_arg6 main_v59 (broadcastInDim S1x64 ![1] bcast_S64_S1x64_1 : (⟨S64, .f32⟩ : BufTy).Contents (Elt F) → (⟨S1x64, .f32⟩ : BufTy).Contents (Elt F)),
    unary main_v59 main_v60 (broadcastInDim S640000x64 ![0, 1] bcast_S1x64_S640000x64_0_1 : (⟨S1x64, .f32⟩ : BufTy).Contents (Elt F) → (⟨S640000x64, .f32⟩ : BufTy).Contents (Elt F)),
    binary main_v58 main_v60 main_v61 (addf : (⟨S640000x64, .f32⟩ : BufTy).Contents (Elt F) → (⟨S640000x64, .f32⟩ : BufTy).Contents (Elt F) → (⟨S640000x64, .f32⟩ : BufTy).Contents (Elt F)),
    nullary main_cst_12 (constant S_ .f32 0x00000000#32),
    unary main_cst_12 main_v62 (broadcastInDim S20000x64 ![] bcast_S_S20000x64 : (⟨S_, .f32⟩ : BufTy).Contents (Elt F) → (⟨S20000x64, .f32⟩ : BufTy).Contents (Elt F)),
    unary main_v10 main_v63 (broadcastInDim S640000x1 ![0] bcast_S640000_S640000x1_0 : (⟨S640000, .i32⟩ : BufTy).Contents (Elt F) → (⟨S640000x1, .i32⟩ : BufTy).Contents (Elt F)),
    ternary main_v62 main_v63 main_v61 main_v64 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S20000x64, .f32⟩) main_call3_v0) (broadcastInDim S20000x64 ![] bcast_S_S20000x64),
    TRef.binary (TRef.of (T := ⟨S20000x64, .f32⟩) main_v64) (TRef.of (T := ⟨S20000x64, .f32⟩) main_call3_v0) (TRef.of (T := ⟨S20000x64, .f32⟩) main_v65) maximumf ]

set_option maxHeartbeats 1000000 in
/-- The first graph convolution, on `main_v65`: the slices 0 of `main_arg15` and `main_arg16` are its four 64 × 64
    weights and its bias; three times over the features are gathered along `main_v5`, scaled by the normalisation
    `main_v37` and summed into `main_v10`; the four hop features each meet their weight, the products are added,
    then the bias and a rectifier (`main_v127`). -/
abbrev opsT0 : List (HloOp τ sig (Elt F)) :=
  [ unary main_arg15 main_v66 ((extractStridedSlice S1x4x64x64 ![0, 0, 0, 0] · slices_S3x4x64x64_S1x4x64x64_0_0_0_0) : (⟨S3x4x64x64, .f32⟩ : BufTy).Contents (Elt F) → (⟨S1x4x64x64, .f32⟩ : BufTy).Contents (Elt F)),
    reshape main_v66 main_v67 rfl shapeCasts_S1x4x64x64_S4x64x64,
    unary main_arg16 main_v68 ((extractStridedSlice S1x64 ![0, 0] · slices_S3x64_S1x64_0_0) : (⟨S3x64, .f32⟩ : BufTy).Contents (Elt F) → (⟨S1x64, .f32⟩ : BufTy).Contents (Elt F)),
    reshape main_v68 main_v69 rfl shapeCasts_S1x64_S64,
    unary main_v67 main_v70 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v70 main_v71 rfl shapeCasts_S1x64x64_S64x64,
    binary main_v65 main_v71 main_v72 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    unary main_v37 main_v73 (broadcastInDim S640000x1 ![0] bcast_S640000_S640000x1_0 : (⟨S640000, .f32⟩ : BufTy).Contents (Elt F) → (⟨S640000x1, .f32⟩ : BufTy).Contents (Elt F)),
    nullary main_c_13 (constantI S_ 32 0#32),
    unary main_c_13 main_v74 (broadcastInDim S640000 ![] bcast_S_S640000 : (⟨S_, .i32⟩ : BufTy).Contents (Elt F) → (⟨S640000, .i32⟩ : BufTy).Contents (Elt F)),
    binary main_v5 main_v74 main_v75 (cmpi .slt : (⟨S640000, .i32⟩ : BufTy).Contents (Elt F) → (⟨S640000, .i32⟩ : BufTy).Contents (Elt F) → (⟨S640000, .i1⟩ : BufTy).Contents (Elt F)),
    nullary main_c_14 (constantI S_ 32 20000#32),
    unary main_c_14 main_v76 (broadcastInDim S640000 ![] bcast_S_S640000 : (⟨S_, .i32⟩ : BufTy).Contents (Elt F) → (⟨S640000, .i32⟩ : BufTy).Contents (Elt F)),
    binary main_v5 main_v76 main_v77 (addi : (⟨S640000, .i32⟩ : BufTy).Contents (Elt F) → (⟨S640000, .i32⟩ : BufTy).Contents (Elt F) → (⟨S640000, .i32⟩ : BufTy).Contents (Elt F)),
    ternary main_v75 main_v77 main_v5 main_v78 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v78 main_v79 (broadcastInDim S640000x1 ![0] bcast_S640000_S640000x1_0 : (⟨S640000, .i32⟩ : BufTy).Contents (Elt F) → (⟨S640000x1, .i32⟩ : BufTy).Contents (Elt F)),
    binary main_v65 main_v79 main_v80 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v73 main_v81 (broadcastInDim S640000x64 ![0, 1] bcast_S640000x1_S640000x64_0_1 : (⟨S640000x1, .f32⟩ : BufTy).Contents (Elt F) → (⟨S640000x64, .f32⟩ : BufTy).Contents (Elt F)),
    binary main_v81 main_v80 main_v82 (mulf : (⟨S640000x64, .f32⟩ : BufTy).Contents (Elt F) → (⟨S640000x64, .f32⟩ : BufTy).Contents (Elt F) → (⟨S640000x64, .f32⟩ : BufTy).Contents (Elt F)),
    nullary main_cst_15 (constant S_ .f32 0x00000000#32),
    unary main_cst_15 main_v83 (broadcastInDim S20000x64 ![] bcast_S_S20000x64 : (⟨S_, .f32⟩ : BufTy).Contents (Elt F) → (⟨S20000x64, .f32⟩ : BufTy).Contents (Elt F)),
    unary main_v10 main_v84 (broadcastInDim S640000x1 ![0] bcast_S640000_S640000x1_0 : (⟨S640000, .i32⟩ : BufTy).Contents (Elt F) → (⟨S640000x1, .i32⟩ : BufTy).Contents (Elt F)),
    ternary main_v83 main_v84 main_v82 main_v85 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v67 main_v86 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v86 main_v87 rfl shapeCasts_S1x64x64_S64x64,
    binary main_v85 main_v87 main_v88 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v72 main_v88 main_v89 (addf : (⟨S20000x64, .f32⟩ : BufTy).Contents (Elt F) → (⟨S20000x64, .f32⟩ : BufTy).Contents (Elt F) → (⟨S20000x64, .f32⟩ : BufTy).Contents (Elt F)),
    unary main_v37 main_v90 (broadcastInDim S640000x1 ![0] bcast_S640000_S640000x1_0 : (⟨S640000, .f32⟩ : BufTy).Contents (Elt F) → (⟨S640000x1, .f32⟩ : BufTy).Contents (Elt F)),
    nullary main_c_16 (constantI S_ 32 0#32),
    unary main_c_16 main_v91 (broadcastInDim S640000 ![] bcast_S_S640000 : (⟨S_, .i32⟩ : BufTy).Contents (Elt F) → (⟨S640000, .i32⟩ : BufTy).Contents (Elt F)),
    binary main_v5 main_v91 main_v92 (cmpi .slt : (⟨S640000, .i32⟩ : BufTy).Contents (Elt F) → (⟨S640000, .i32⟩ : BufTy).Contents (Elt F) → (⟨S640000, .i1⟩ : BufTy).Contents (Elt F)),
    nullary main_c_17 (constantI S_ 32 20000#32),
    unary main_c_17 main_v93 (broadcastInDim S640000 ![] bcast_S_S640000 : (⟨S_, .i32⟩ : BufTy).Contents (Elt F) → (⟨S640000, .i32⟩ : BufTy).Contents (Elt F)),
    binary main_v5 main_v93 main_v94 (addi : (⟨S640000, .i32⟩ : BufTy).Contents (Elt F) → (⟨S640000, .i32⟩ : BufTy).Contents (Elt F) → (⟨S640000, .i32⟩ : BufTy).Contents (Elt F)),
    ternary main_v92 main_v94 main_v5 main_v95 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v95 main_v96 (broadcastInDim S640000x1 ![0] bcast_S640000_S640000x1_0 : (⟨S640000, .i32⟩ : BufTy).Contents (Elt F) → (⟨S640000x1, .i32⟩ : BufTy).Contents (Elt F)),
    binary main_v85 main_v96 main_v97 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v90 main_v98 (broadcastInDim S640000x64 ![0, 1] bcast_S640000x1_S640000x64_0_1 : (⟨S640000x1, .f32⟩ : BufTy).Contents (Elt F) → (⟨S640000x64, .f32⟩ : BufTy).Contents (Elt F)),
    binary main_v98 main_v97 main_v99 (mulf : (⟨S640000x64, .f32⟩ : BufTy).Contents (Elt F) → (⟨S640000x64, .f32⟩ : BufTy).Contents (Elt F) → (⟨S640000x64, .f32⟩ : BufTy).Contents (Elt F)),
    nullary main_cst_18 (constant S_ .f32 0x00000000#32),
    unary main_cst_18 main_v100 (broadcastInDim S20000x64 ![] bcast_S_S20000x64 : (⟨S_, .f32⟩ : BufTy).Contents (Elt F) → (⟨S20000x64, .f32⟩ : BufTy).Contents (Elt F)),
    unary main_v10 main_v101 (broadcastInDim S640000x1 ![0] bcast_S640000_S640000x1_0 : (⟨S640000, .i32⟩ : BufTy).Contents (Elt F) → (⟨S640000x1, .i32⟩ : BufTy).Contents (Elt F)),
    ternary main_v100 main_v101 main_v99 main_v102 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v67 main_v103 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v103 main_v104 rfl shapeCasts_S1x64x64_S64x64,
    binary main_v102 main_v104 main_v105 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v89 main_v105 main_v106 (addf : (⟨S20000x64, .f32⟩ : BufTy).Contents (Elt F) → (⟨S20000x64, .f32⟩ : BufTy).Contents (Elt F) → (⟨S20000x64, .f32⟩ : BufTy).Contents (Elt F)),
    unary main_v37 main_v107 (broadcastInDim S640000x1 ![0] bcast_S640000_S640000x1_0 : (⟨S640000, .f32⟩ : BufTy).Contents (Elt F) → (⟨S640000x1, .f32⟩ : BufTy).Contents (Elt F)),
    nullary main_c_19 (constantI S_ 32 0#32),
    unary main_c_19 main_v108 (broadcastInDim S640000 ![] bcast_S_S640000 : (⟨S_, .i32⟩ : BufTy).Contents (Elt F) → (⟨S640000, .i32⟩ : BufTy).Contents (Elt F)),
    binary main_v5 main_v108 main_v109 (cmpi .slt : (⟨S640000, .i32⟩ : BufTy).Contents (Elt F) → (⟨S640000, .i32⟩ : BufTy).Contents (Elt F) → (⟨S640000, .i1⟩ : BufTy).Contents (Elt F)),
    nullary main_c_20 (constantI S_ 32 20000#32),
    unary main_c_20 main_v110 (broadcastInDim S640000 ![] bcast_S_S640000 : (⟨S_, .i32⟩ : BufTy).Contents (Elt F) → (⟨S640000, .i32⟩ : BufTy).Contents (Elt F)),
    binary main_v5 main_v110 main_v111 (addi : (⟨S640000, .i32⟩ : BufTy).Contents (Elt F) → (⟨S640000, .i32⟩ : BufTy).Contents (Elt F) → (⟨S640000, .i32⟩ : BufTy).Contents (Elt F)),
    ternary main_v109 main_v111 main_v5 main_v112 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v112 main_v113 (broadcastInDim S640000x1 ![0] bcast_S640000_S640000x1_0 : (⟨S640000, .i32⟩ : BufTy).Contents (Elt F) → (⟨S640000x1, .i32⟩ : BufTy).Contents (Elt F)),
    binary main_v102 main_v113 main_v114 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v107 main_v115 (broadcastInDim S640000x64 ![0, 1] bcast_S640000x1_S640000x64_0_1 : (⟨S640000x1, .f32⟩ : BufTy).Contents (Elt F) → (⟨S640000x64, .f32⟩ : BufTy).Contents (Elt F)),
    binary main_v115 main_v114 main_v116 (mulf : (⟨S640000x64, .f32⟩ : BufTy).Contents (Elt F) → (⟨S640000x64, .f32⟩ : BufTy).Contents (Elt F) → (⟨S640000x64, .f32⟩ : BufTy).Contents (Elt F)),
    nullary main_cst_21 (constant S_ .f32 0x00000000#32),
    unary main_cst_21 main_v117 (broadcastInDim S20000x64 ![] bcast_S_S20000x64 : (⟨S_, .f32⟩ : BufTy).Contents (Elt F) → (⟨S20000x64, .f32⟩ : BufTy).Contents (Elt F)),
    unary main_v10 main_v118 (broadcastInDim S640000x1 ![0] bcast_S640000_S640000x1_0 : (⟨S640000, .i32⟩ : BufTy).Contents (Elt F) → (⟨S640000x1, .i32⟩ : BufTy).Contents (Elt F)),
    ternary main_v117 main_v118 main_v116 main_v119 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v67 main_v120 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v120 main_v121 rfl shapeCasts_S1x64x64_S64x64,
    binary main_v119 main_v121 main_v122 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v106 main_v122 main_v123 (addf : (⟨S20000x64, .f32⟩ : BufTy).Contents (Elt F) → (⟨S20000x64, .f32⟩ : BufTy).Contents (Elt F) → (⟨S20000x64, .f32⟩ : BufTy).Contents (Elt F)),
    unary main_v69 main_v124 (broadcastInDim S1x64 ![1] bcast_S64_S1x64_1 : (⟨S64, .f32⟩ : BufTy).Contents (Elt F) → (⟨S1x64, .f32⟩ : BufTy).Contents (Elt F)),
    unary main_v124 main_v125 (broadcastInDim S20000x64 ![0, 1] bcast_S1x64_S20000x64_0_1 : (⟨S1x64, .f32⟩ : BufTy).Contents (Elt F) → (⟨S20000x64, .f32⟩ : BufTy).Contents (Elt F)),
    binary main_v123 main_v125 main_v126 (addf : (⟨S20000x64, .f32⟩ : BufTy).Contents (Elt F) → (⟨S20000x64, .f32⟩ : BufTy).Contents (Elt F) → (⟨S20000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S20000x64, .f32⟩) main_call4_v0) (broadcastInDim S20000x64 ![] bcast_S_S20000x64),
    TRef.binary (TRef.of (T := ⟨S20000x64, .f32⟩) main_v126) (TRef.of (T := ⟨S20000x64, .f32⟩) main_call4_v0) (TRef.of (T := ⟨S20000x64, .f32⟩) main_v127) maximumf ]

set_option maxHeartbeats 1000000 in
/-- The second edge aggregation, on `main_v127` (133 columns per edge; the slices 0 of `main_arg7` … `main_arg10`
    are its weights): result `main_v163`. -/
abbrev opsE1 : List (HloOp τ sig (Elt F)) :=
  [ unary main_arg7 main_v128 ((extractStridedSlice S1x133x64 ![0, 0, 0] · slices_S2x133x64_S1x133x64_0_0_0) : (⟨S2x133x64, .f32⟩ : BufTy).Contents (Elt F) → (⟨S1x133x64, .f32⟩ : BufTy).Contents (Elt F)),
    reshape main_v128 main_v129 rfl shapeCasts_S1x133x64_S133x64,
    unary main_arg8 main_v130 ((extractStridedSlice S1x64 ![0, 0] · slices_S2x64_S1x64_0_0) : (⟨S2x64, .f32⟩ : BufTy).Contents (Elt F) → (⟨S1x64, .f32⟩ : BufTy).Contents (Elt F)),
    reshape main_v130 main_v131 rfl shapeCasts_S1x64_S64,
    unary main_arg9 main_v132 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v132 main_v133 rfl shapeCasts_S1x64x64_S64x64,
    unary main_arg10 main_v134 ((extractStridedSlice S1x64 ![0, 0] · slices_S2x64_S1x64_0_0) : (⟨S2x64, .f32⟩ : BufTy).Contents (Elt F) → (⟨S1x64, .f32⟩ : BufTy).Contents (Elt F)),
    reshape main_v134 main_v135 rfl shapeCasts_S1x64_S64,
    nullary main_c_22 (constantI S_ 32 0#32),
    unary main_c_22 main_v136 (broadcastInDim S640000 ![] bcast_S_S640000 : (⟨S_, .i32⟩ : BufTy).Contents (Elt F) → (⟨S640000, .i32⟩ : BufTy).Contents (Elt F)),
    binary main_v10 main_v136 main_v137 (cmpi .slt : (⟨S640000, .i32⟩ : BufTy).Contents (Elt F) → (⟨S640000, .i32⟩ : BufTy).Contents (Elt F) → (⟨S640000, .i1⟩ : BufTy).Contents (Elt F)),
    nullary main_c_23 (constantI S_ 32 20000#32),
    unary main_c_23 main_v138 (broadcastInDim S640000 ![] bcast_S_S640000 : (⟨S_, .i32⟩ : BufTy).Contents (Elt F) → (⟨S640000, .i32⟩ : BufTy).Contents (Elt F)),
    binary main_v10 main_v138 main_v139 (addi : (⟨S640000, .i32⟩ : BufTy).Contents (Elt F) → (⟨S640000, .i32⟩ : BufTy).Contents (Elt F) → (⟨S640000, .i32⟩ : BufTy).Contents (Elt F)),
    ternary main_v137 main_v139 main_v10 main_v140 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v140 main_v141 (broadcastInDim S640000x1 ![0] bcast_S640000_S640000x1_0 : (⟨S640000, .i32⟩ : BufTy).Contents (Elt F) → (⟨S640000x1, .i32⟩ : BufTy).Contents (Elt F)),
    binary main_v127 main_v141 main_v142 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nullary main_c_24 (constantI S_ 32 0#32),
    unary main_c_24 main_v143 (broadcastInDim S640000 ![] bcast_S_S640000 : (⟨S_, .i32⟩ : BufTy).Contents (Elt F) → (⟨S640000, .i32⟩ : BufTy).Contents (Elt F)),
    binary main_v5 main_v143 main_v144 (cmpi .slt : (⟨S640000, .i32⟩ : BufTy).Contents (Elt F) → (⟨S640000, .i32⟩ : BufTy).Contents (Elt F) → (⟨S640000, .i1⟩ : BufTy).Contents (Elt F)),
    nullary main_c_25 (constantI S_ 32 20000#32),
    unary main_c_25 main_v145 (broadcastInDim S640000 ![] bcast_S_S640000 : (⟨S_, .i32⟩ : BufTy).Contents (Elt F) → (⟨S640000, .i32⟩ : BufTy).Contents (Elt F)),
    binary main_v5 main_v145 main_v146 (addi : (⟨S640000, .i32⟩ : BufTy).Contents (Elt F) → (⟨S640000, .i32⟩ : BufTy).Contents (Elt F) → (⟨S640000, .i32⟩ : BufTy).Contents (Elt F)),
    ternary main_v144 main_v146 main_v5 main_v147 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v147 main_v148 (broadcastInDim S640000x1 ![0] bcast_S640000_S640000x1_0 : (⟨S640000, .i32⟩ : BufTy).Contents (Elt F) → (⟨S640000x1, .i32⟩ : BufTy).Contents (Elt F)),
    binary main_v127 main_v148 main_v149 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nary ![main_v142, main_v149, main_v11] main_v150 (fun u => concatenate S640000x133 1 [⟨S640000x64, u 0⟩, ⟨S640000x64, u 1⟩, ⟨S640000x5, u 2⟩] concatenates_S640000x64_S640000x64_S640000x5_S640000x133_d1),
    binary main_v150 main_v129 main_v151 ((fun l r => Host.dotGeneral dot_S640000x133_S133x64_S640000x64_1_0_0_1_n_n none l r) : (⟨S640000x133, .f32⟩ : BufTy).Contents (Elt F) → (⟨S133x64, .f32⟩ : BufTy).Contents (Elt F) → (⟨S640000x64, .f32⟩ : BufTy).Contents (Elt F)),
    unary main_v131 main_v152 (broadcastInDim S1x64 ![1] bcast_S64_S1x64_1 : (⟨S64, .f32⟩ : BufTy).Contents (Elt F) → (⟨S1x64, .f32⟩ : BufTy).Contents (Elt F)),
    unary main_v152 main_v153 (broadcastInDim S640000x64 ![0, 1] bcast_S1x64_S640000x64_0_1 : (⟨S1x64, .f32⟩ : BufTy).Contents (Elt F) → (⟨S640000x64, .f32⟩ : BufTy).Contents (Elt F)),
    binary main_v151 main_v153 main_v154 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S640000x64, .f32⟩) main_call5_v0) (broadcastInDim S640000x64 ![] bcast_S_S640000x64),
    TRef.binary (TRef.of (T := ⟨S640000x64, .f32⟩) main_v154) (TRef.of (T := ⟨S640000x64, .f32⟩) main_call5_v0) (TRef.of (T := ⟨S640000x64, .f32⟩) main_v155) maximumf,
    binary main_v155 main_v133 main_v156 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    unary main_v135 main_v157 (broadcastInDim S1x64 ![1] bcast_S64_S1x64_1 : (⟨S64, .f32⟩ : BufTy).Contents (Elt F) → (⟨S1x64, .f32⟩ : BufTy).Contents (Elt F)),
    unary main_v157 main_v158 (broadcastInDim S640000x64 ![0, 1] bcast_S1x64_S640000x64_0_1 : (⟨S1x64, .f32⟩ : BufTy).Contents (Elt F) → (⟨S640000x64, .f32⟩ : BufTy).Contents (Elt F)),
    binary main_v156 main_v158 main_v159 (addf : (⟨S640000x64, .f32⟩ : BufTy).Contents (Elt F) → (⟨S640000x64, .f32⟩ : BufTy).Contents (Elt F) → (⟨S640000x64, .f32⟩ : BufTy).Contents (Elt F)),
    nullary main_cst_26 (constant S_ .f32 0x00000000#32),
    unary main_cst_26 main_v160 (broadcastInDim S20000x64 ![] bcast_S_S20000x64 : (⟨S_, .f32⟩ : BufTy).Contents (Elt F) → (⟨S20000x64, .f32⟩ : BufTy).Contents (Elt F)),
    unary main_v10 main_v161 (broadcastInDim S640000x1 ![0] bcast_S640000_S640000x1_0 : (⟨S640000, .i32⟩ : BufTy).Contents (Elt F) → (⟨S640000x1, .i32⟩ : BufTy).Contents (Elt F)),
    ternary main_v160 main_v161 main_v159 main_v162 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S20000x64, .f32⟩) main_call6_v0) (broadcastInDim S20000x64 ![] bcast_S_S20000x64),
    TRef.binary (TRef.of (T := ⟨S20000x64, .f32⟩) main_v162) (TRef.of (T := ⟨S20000x64, .f32⟩) main_call6_v0) (TRef.of (T := ⟨S20000x64, .f32⟩) main_v163) maximumf ]

set_option maxHeartbeats 1000000 in
/-- The second graph convolution, on `main_v163` with the slices 1 of `main_arg15`, `main_arg16`: result `main_v225`. -/
abbrev opsT1 : List (HloOp τ sig (Elt F)) :=
  [ unary main_arg15 main_v164 ((extractStridedSlice S1x4x64x64 ![1, 0, 0, 0] · slices_S3x4x64x64_S1x4x64x64_1_0_0_0) : (⟨S3x4x64x64, .f32⟩ : BufTy).Contents (Elt F) → (⟨S1x4x64x64, .f32⟩ : BufTy).Contents (Elt F)),
    reshape main_v164 main_v165 rfl shapeCasts_S1x4x64x64_S4x64x64,
    unary main_arg16 main_v166 ((extractStridedSlice S1x64 ![1, 0] · slices_S3x64_S1x64_1_0) : (⟨S3x64, .f32⟩ : BufTy).Contents (Elt F) → (⟨S1x64, .f32⟩ : BufTy).Contents (Elt F)),
    reshape main_v166 main_v167 rfl shapeCasts_S1x64_S64,
    unary main_v165 main_v168 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v168 main_v169 rfl shapeCasts_S1x64x64_S64x64,
    binary main_v163 main_v169 main_v170 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    unary main_v37 main_v171 (broadcastInDim S640000x1 ![0] bcast_S640000_S640000x1_0 : (⟨S640000, .f32⟩ : BufTy).Contents (Elt F) → (⟨S640000x1, .f32⟩ : BufTy).Contents (Elt F)),
    nullary main_c_27 (constantI S_ 32 0#32),
    unary main_c_27 main_v172 (broadcastInDim S640000 ![] bcast_S_S640000 : (⟨S_, .i32⟩ : BufTy).Contents (Elt F) → (⟨S640000, .i32⟩ : BufTy).Contents (Elt F)),
    binary main_v5 main_v172 main_v173 (cmpi .slt : (⟨S640000, .i32⟩ : BufTy).Contents (Elt F) → (⟨S640000, .i32⟩ : BufTy).Contents (Elt F) → (⟨S640000, .i1⟩ : BufTy).Contents (Elt F)),
    nullary main_c_28 (constantI S_ 32 20000#32),
    unary main_c_28 main_v174 (broadcastInDim S640000 ![] bcast_S_S640000 : (⟨S_, .i32⟩ : BufTy).Contents (Elt F) → (⟨S640000, .i32⟩ : BufTy).Contents (Elt F)),
    binary main_v5 main_v174 main_v175 (addi : (⟨S640000, .i32⟩ : BufTy).Contents (Elt F) → (⟨S640000, .i32⟩ : BufTy).Contents (Elt F) → (⟨S640000, .i32⟩ : BufTy).Contents (Elt F)),
    ternary main_v173 main_v175 main_v5 main_v176 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v176 main_v177 (broadcastInDim S640000x1 ![0] bcast_S640000_S640000x1_0 : (⟨S640000, .i32⟩ : BufTy).Contents (Elt F) → (⟨S640000x1, .i32⟩ : BufTy).Contents (Elt F)),
    binary main_v163 main_v177 main_v178 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v171 main_v179 (broadcastInDim S640000x64 ![0, 1] bcast_S640000x1_S640000x64_0_1 : (⟨S640000x1, .f32⟩ : BufTy).Contents (Elt F) → (⟨S640000x64, .f32⟩ : BufTy).Contents (Elt F)),
    binary main_v179 main_v178 main_v180 (mulf : (⟨S640000x64, .f32⟩ : BufTy).Contents (Elt F) → (⟨S640000x64, .f32⟩ : BufTy).Contents (Elt F) → (⟨S640000x64, .f32⟩ : BufTy).Contents (Elt F)),
    nullary main_cst_29 (constant S_ .f32 0x00000000#32),
    unary main_cst_29 main_v181 (broadcastInDim S20000x64 ![] bcast_S_S20000x64 : (⟨S_, .f32⟩ : BufTy).Contents (Elt F) → (⟨S20000x64, .f32⟩ : BufTy).Contents (Elt F)),
    unary main_v10 main_v182 (broadcastInDim S640000x1 ![0] bcast_S640000_S640000x1_0 : (⟨S640000, .i32⟩ : BufTy).Contents (Elt F) → (⟨S640000x1, .i32⟩ : BufTy).Contents (Elt F)),
    ternary main_v181 main_v182 main_v180 main_v183 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v165 main_v184 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v184 main_v185 rfl shapeCasts_S1x64x64_S64x64,
    binary main_v183 main_v185 main_v186 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v170 main_v186 main_v187 (addf : (⟨S20000x64, .f32⟩ : BufTy).Contents (Elt F) → (⟨S20000x64, .f32⟩ : BufTy).Contents (Elt F) → (⟨S20000x64, .f32⟩ : BufTy).Contents (Elt F)),
    unary main_v37 main_v188 (broadcastInDim S640000x1 ![0] bcast_S640000_S640000x1_0 : (⟨S640000, .f32⟩ : BufTy).Contents (Elt F) → (⟨S640000x1, .f32⟩ : BufTy).Contents (Elt F)),
    nullary main_c_30 (constantI S_ 32 0#32),
    unary main_c_30 main_v189 (broadcastInDim S640000 ![] bcast_S_S640000 : (⟨S_, .i32⟩ : BufTy).Contents (Elt F) → (⟨S640000, .i32⟩ : BufTy).Contents (Elt F)),
    binary main_v5 main_v189 main_v190 (cmpi .slt : (⟨S640000, .i32⟩ : BufTy).Contents (Elt F) → (⟨S640000, .i32⟩ : BufTy).Contents (Elt F) → (⟨S640000, .i1⟩ : BufTy).Contents (Elt F)),
    nullary main_c_31 (constantI S_ 32 20000#32),
    unary main_c_31 main_v191 (broadcastInDim S640000 ![] bcast_S_S640000 : (⟨S_, .i32⟩ : BufTy).Contents (Elt F) → (⟨S640000, .i32⟩ : BufTy).Contents (Elt F)),
    binary main_v5 main_v191 main_v192 (addi : (⟨S640000, .i32⟩ : BufTy).Contents (Elt F) → (⟨S640000, .i32⟩ : BufTy).Contents (Elt F) → (⟨S640000, .i32⟩ : BufTy).Contents (Elt F)),
    ternary main_v190 main_v192 main_v5 main_v193 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v193 main_v194 (broadcastInDim S640000x1 ![0] bcast_S640000_S640000x1_0 : (⟨S640000, .i32⟩ : BufTy).Contents (Elt F) → (⟨S640000x1, .i32⟩ : BufTy).Contents (Elt F)),
    binary main_v183 main_v194 main_v195 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v188 main_v196 (broadcastInDim S640000x64 ![0, 1] bcast_S640000x1_S640000x64_0_1 : (⟨S640000x1, .f32⟩ : BufTy).Contents (Elt F) → (⟨S640000x64, .f32⟩ : BufTy).Contents (Elt F)),
    binary main_v196 main_v195 main_v197 (mulf : (⟨S640000x64, .f32⟩ : BufTy).Contents (Elt F) → (⟨S640000x64, .f32⟩ : BufTy).Contents (Elt F) → (⟨S640000x64, .f32⟩ : BufTy).Contents (Elt F)),
    nullary main_cst_32 (constant S_ .f32 0x00000000#32),
    unary main_cst_32 main_v198 (broadcastInDim S20000x64 ![] bcast_S_S20000x64 : (⟨S_, .f32⟩ : BufTy).Contents (Elt F) → (⟨S20000x64, .f32⟩ : BufTy).Contents (Elt F)),
    unary main_v10 main_v199 (broadcastInDim S640000x1 ![0] bcast_S640000_S640000x1_0 : (⟨S640000, .i32⟩ : BufTy).Contents (Elt F) → (⟨S640000x1, .i32⟩ : BufTy).Contents (Elt F)),
    ternary main_v198 main_v199 main_v197 main_v200 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v165 main_v201 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v201 main_v202 rfl shapeCasts_S1x64x64_S64x64,
    binary main_v200 main_v202 main_v203 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v187 main_v203 main_v204 (addf : (⟨S20000x64, .f32⟩ : BufTy).Contents (Elt F) → (⟨S20000x64, .f32⟩ : BufTy).Contents (Elt F) → (⟨S20000x64, .f32⟩ : BufTy).Contents (Elt F)),
    unary main_v37 main_v205 (broadcastInDim S640000x1 ![0] bcast_S640000_S640000x1_0 : (⟨S640000, .f32⟩ : BufTy).Contents (Elt F) → (⟨S640000x1, .f32⟩ : BufTy).Contents (Elt F)),
    nullary main_c_33 (constantI S_ 32 0#32),
    unary main_c_33 main_v206 (broadcastInDim S640000 ![] bcast_S_S640000 : (⟨S_, .i32⟩ : BufTy).Contents (Elt F) → (⟨S640000, .i32⟩ : BufTy).Contents (Elt F)),
    binary main_v5 main_v206 main_v207 (cmpi .slt : (⟨S640000, .i32⟩ : BufTy).Contents (Elt F) → (⟨S640000, .i32⟩ : BufTy).Contents (Elt F) → (⟨S640000, .i1⟩ : BufTy).Contents (Elt F)),
    nullary main_c_34 (constantI S_ 32 20000#32),
    unary main_c_34 main_v208 (broadcastInDim S640000 ![] bcast_S_S640000 : (⟨S_, .i32⟩ : BufTy).Contents (Elt F) → (⟨S640000, .i32⟩ : BufTy).Contents (Elt F)),
    binary main_v5 main_v208 main_v209 (addi : (⟨S640000, .i32⟩ : BufTy).Contents (Elt F) → (⟨S640000, .i32⟩ : BufTy).Contents (Elt F) → (⟨S640000, .i32⟩ : BufTy).Contents (Elt F)),
    ternary main_v207 main_v209 main_v5 main_v210 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v210 main_v211 (broadcastInDim S640000x1 ![0] bcast_S640000_S640000x1_0 : (⟨S640000, .i32⟩ : BufTy).Contents (Elt F) → (⟨S640000x1, .i32⟩ : BufTy).Contents (Elt F)),
    binary main_v200 main_v211 main_v212 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v205 main_v213 (broadcastInDim S640000x64 ![0, 1] bcast_S640000x1_S640000x64_0_1 : (⟨S640000x1, .f32⟩ : BufTy).Contents (Elt F) → (⟨S640000x64, .f32⟩ : BufTy).Contents (Elt F)),
    binary main_v213 main_v212 main_v214 (mulf : (⟨S640000x64, .f32⟩ : BufTy).Contents (Elt F) → (⟨S640000x64, .f32⟩ : BufTy).Contents (Elt F) → (⟨S640000x64, .f32⟩ : BufTy).Contents (Elt F)),
    nullary main_cst_35 (constant S_ .f32 0x00000000#32),
    unary main_cst_35 main_v215 (broadcastInDim S20000x64 ![] bcast_S_S20000x64 : (⟨S_, .f32⟩ : BufTy).Contents (Elt F) → (⟨S20000x64, .f32⟩ : BufTy).Contents (Elt F)),
    unary main_v10 main_v216 (broadcastInDim S640000x1 ![0] bcast_S640000_S640000x1_0 : (⟨S640000, .i32⟩ : BufTy).Contents (Elt F) → (⟨S640000x1, .i32⟩ : BufTy).Contents (Elt F)),
    ternary main_v215 main_v216 main_v214 main_v217 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v165 main_v218 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v218 main_v219 rfl shapeCasts_S1x64x64_S64x64,
    binary main_v217 main_v219 main_v220 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v204 main_v220 main_v221 (addf : (⟨S20000x64, .f32⟩ : BufTy).Contents (Elt F) → (⟨S20000x64, .f32⟩ : BufTy).Contents (Elt F) → (⟨S20000x64, .f32⟩ : BufTy).Contents (Elt F)),
    unary main_v167 main_v222 (broadcastInDim S1x64 ![1] bcast_S64_S1x64_1 : (⟨S64, .f32⟩ : BufTy).Contents (Elt F) → (⟨S1x64, .f32⟩ : BufTy).Contents (Elt F)),
    unary main_v222 main_v223 (broadcastInDim S20000x64 ![0, 1] bcast_S1x64_S20000x64_0_1 : (⟨S1x64, .f32⟩ : BufTy).Contents (Elt F) → (⟨S20000x64, .f32⟩ : BufTy).Contents (Elt F)),
    binary main_v221 main_v223 main_v224 (addf : (⟨S20000x64, .f32⟩ : BufTy).Contents (Elt F) → (⟨S20000x64, .f32⟩ : BufTy).Contents (Elt F) → (⟨S20000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S20000x64, .f32⟩) main_call7_v0) (broadcastInDim S20000x64 ![] bcast_S_S20000x64),
    TRef.binary (TRef.of (T := ⟨S20000x64, .f32⟩) main_v224) (TRef.of (T := ⟨S20000x64, .f32⟩) main_call7_v0) (TRef.of (T := ⟨S20000x64, .f32⟩) main_v225) maximumf ]

set_option maxHeartbeats 1000000 in
/-- The third edge aggregation, on `main_v225` with the slices 1 of `main_arg7` … `main_arg10`: result `main_v261`. -/
abbrev opsE2 : List (HloOp τ sig (Elt F)) :=
  [ unary main_arg7 main_v226 ((extractStridedSlice S1x133x64 ![1, 0, 0] · slices_S2x133x64_S1x133x64_1_0_0) : (⟨S2x133x64, .f32⟩ : BufTy).Contents (Elt F) → (⟨S1x133x64, .f32⟩ : BufTy).Contents (Elt F)),
    reshape main_v226 main_v227 rfl shapeCasts_S1x133x64_S133x64,
    unary main_arg8 main_v228 ((extractStridedSlice S1x64 ![1, 0] · slices_S2x64_S1x64_1_0) : (⟨S2x64, .f32⟩ : BufTy).Contents (Elt F) → (⟨S1x64, .f32⟩ : BufTy).Contents (Elt F)),
    reshape main_v228 main_v229 rfl shapeCasts_S1x64_S64,
    unary main_arg9 main_v230 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v230 main_v231 rfl shapeCasts_S1x64x64_S64x64,
    unary main_arg10 main_v232 ((extractStridedSlice S1x64 ![1, 0] · slices_S2x64_S1x64_1_0) : (⟨S2x64, .f32⟩ : BufTy).Contents (Elt F) → (⟨S1x64, .f32⟩ : BufTy).Contents (Elt F)),
    reshape main_v232 main_v233 rfl shapeCasts_S1x64_S64,
    nullary main_c_36 (constantI S_ 32 0#32),
    unary main_c_36 main_v234 (broadcastInDim S640000 ![] bcast_S_S640000 : (⟨S_, .i32⟩ : BufTy).Contents (Elt F) → (⟨S640000, .i32⟩ : BufTy).Contents (Elt F)),
    binary main_v10 main_v234 main_v235 (cmpi .slt : (⟨S640000, .i32⟩ : BufTy).Contents (Elt F) → (⟨S640000, .i32⟩ : BufTy).Contents (Elt F) → (⟨S640000, .i1⟩ : BufTy).Contents (Elt F)),
    nullary main_c_37 (constantI S_ 32 20000#32),
    unary main_c_37 main_v236 (broadcastInDim S640000 ![] bcast_S_S640000 : (⟨S_, .i32⟩ : BufTy).Contents (Elt F) → (⟨S640000, .i32⟩ : BufTy).Contents (Elt F)),
    binary main_v10 main_v236 main_v237 (addi : (⟨S640000, .i32⟩ : BufTy).Contents (Elt F) → (⟨S640000, .i32⟩ : BufTy).Contents (Elt F) → (⟨S640000, .i32⟩ : BufTy).Contents (Elt F)),
    ternary main_v235 main_v237 main_v10 main_v238 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v238 main_v239 (broadcastInDim S640000x1 ![0] bcast_S640000_S640000x1_0 : (⟨S640000, .i32⟩ : BufTy).Contents (Elt F) → (⟨S640000x1, .i32⟩ : BufTy).Contents (Elt F)),
    binary main_v225 main_v239 main_v240 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nullary main_c_38 (constantI S_ 32 0#32),
    unary main_c_38 main_v241 (broadcastInDim S640000 ![] bcast_S_S640000 : (⟨S_, .i32⟩ : BufTy).Contents (Elt F) → (⟨S640000, .i32⟩ : BufTy).Contents (Elt F)),
    binary main_v5 main_v241 main_v242 (cmpi .slt : (⟨S640000, .i32⟩ : BufTy).Contents (Elt F) → (⟨S640000, .i32⟩ : BufTy).Contents (Elt F) → (⟨S640000, .i1⟩ : BufTy).Contents (Elt F)),
    nullary main_c_39 (constantI S_ 32 20000#32),
    unary main_c_39 main_v243 (broadcastInDim S640000 ![] bcast_S_S640000 : (⟨S_, .i32⟩ : BufTy).Contents (Elt F) → (⟨S640000, .i32⟩ : BufTy).Contents (Elt F)),
    binary main_v5 main_v243 main_v244 (addi : (⟨S640000, .i32⟩ : BufTy).Contents (Elt F) → (⟨S640000, .i32⟩ : BufTy).Contents (Elt F) → (⟨S640000, .i32⟩ : BufTy).Contents (Elt F)),
    ternary main_v242 main_v244 main_v5 main_v245 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v245 main_v246 (broadcastInDim S640000x1 ![0] bcast_S640000_S640000x1_0 : (⟨S640000, .i32⟩ : BufTy).Contents (Elt F) → (⟨S640000x1, .i32⟩ : BufTy).Contents (Elt F)),
    binary main_v225 main_v246 main_v247 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nary ![main_v240, main_v247, main_v11] main_v248 (fun u => concatenate S640000x133 1 [⟨S640000x64, u 0⟩, ⟨S640000x64, u 1⟩, ⟨S640000x5, u 2⟩] concatenates_S640000x64_S640000x64_S640000x5_S640000x133_d1),
    binary main_v248 main_v227 main_v249 ((fun l r => Host.dotGeneral dot_S640000x133_S133x64_S640000x64_1_0_0_1_n_n none l r) : (⟨S640000x133, .f32⟩ : BufTy).Contents (Elt F) → (⟨S133x64, .f32⟩ : BufTy).Contents (Elt F) → (⟨S640000x64, .f32⟩ : BufTy).Contents (Elt F)),
    unary main_v229 main_v250 (broadcastInDim S1x64 ![1] bcast_S64_S1x64_1 : (⟨S64, .f32⟩ : BufTy).Contents (Elt F) → (⟨S1x64, .f32⟩ : BufTy).Contents (Elt F)),
    unary main_v250 main_v251 (broadcastInDim S640000x64 ![0, 1] bcast_S1x64_S640000x64_0_1 : (⟨S1x64, .f32⟩ : BufTy).Contents (Elt F) → (⟨S640000x64, .f32⟩ : BufTy).Contents (Elt F)),
    binary main_v249 main_v251 main_v252 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S640000x64, .f32⟩) main_call8_v0) (broadcastInDim S640000x64 ![] bcast_S_S640000x64),
    TRef.binary (TRef.of (T := ⟨S640000x64, .f32⟩) main_v252) (TRef.of (T := ⟨S640000x64, .f32⟩) main_call8_v0) (TRef.of (T := ⟨S640000x64, .f32⟩) main_v253) maximumf,
    binary main_v253 main_v231 main_v254 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    unary main_v233 main_v255 (broadcastInDim S1x64 ![1] bcast_S64_S1x64_1 : (⟨S64, .f32⟩ : BufTy).Contents (Elt F) → (⟨S1x64, .f32⟩ : BufTy).Contents (Elt F)),
    unary main_v255 main_v256 (broadcastInDim S640000x64 ![0, 1] bcast_S1x64_S640000x64_0_1 : (⟨S1x64, .f32⟩ : BufTy).Contents (Elt F) → (⟨S640000x64, .f32⟩ : BufTy).Contents (Elt F)),
    binary main_v254 main_v256 main_v257 (addf : (⟨S640000x64, .f32⟩ : BufTy).Contents (Elt F) → (⟨S640000x64, .f32⟩ : BufTy).Contents (Elt F) → (⟨S640000x64, .f32⟩ : BufTy).Contents (Elt F)),
    nullary main_cst_40 (constant S_ .f32 0x00000000#32),
    unary main_cst_40 main_v258 (broadcastInDim S20000x64 ![] bcast_S_S20000x64 : (⟨S_, .f32⟩ : BufTy).Contents (Elt F) → (⟨S20000x64, .f32⟩ : BufTy).Contents (Elt F)),
    unary main_v10 main_v259 (broadcastInDim S640000x1 ![0] bcast_S640000_S640000x1_0 : (⟨S640000, .i32⟩ : BufTy).Contents (Elt F) → (⟨S640000x1, .i32⟩ : BufTy).Contents (Elt F)),
    ternary main_v258 main_v259 main_v257 main_v260 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S20000x64, .f32⟩) main_call9_v0) (broadcastInDim S20000x64 ![] bcast_S_S20000x64),
    TRef.binary (TRef.of (T := ⟨S20000x64, .f32⟩) main_v260) (TRef.of (T := ⟨S20000x64, .f32⟩) main_call9_v0) (TRef.of (T := ⟨S20000x64, .f32⟩) main_v261) maximumf ]

set_option maxHeartbeats 1000000 in
/-- The third graph convolution, on `main_v261` with the slices 2 of `main_arg15`, `main_arg16`: result `main_v323`. -/
abbrev opsT2 : List (HloOp τ sig (Elt F)) :=
  [ unary main_arg15 main_v262 ((extractStridedSlice S1x4x64x64 ![2, 0, 0, 0] · slices_S3x4x64x64_S1x4x64x64_2_0_0_0) : (⟨S3x4x64x64, .f32⟩ : BufTy).Contents (Elt F) → (⟨S1x4x64x64, .f32⟩ : BufTy).Contents (Elt F)),
    reshape main_v262 main_v263 rfl shapeCasts_S1x4x64x64_S4x64x64,
    unary main_arg16 main_v264 ((extractStridedSlice S1x64 ![2, 0] · slices_S3x64_S1x64_2_0) : (⟨S3x64, .f32⟩ : BufTy).Contents (Elt F) → (⟨S1x64, .f32⟩ : BufTy).Contents (Elt F)),
    reshape main_v264 main_v265 rfl shapeCasts_S1x64_S64,
    unary main_v263 main_v266 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v266 main_v267 rfl shapeCasts_S1x64x64_S64x64,
    binary main_v261 main_v267 main_v268 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    unary main_v37 main_v269 (broadcastInDim S640000x1 ![0] bcast_S640000_S640000x1_0 : (⟨S640000, .f32⟩ : BufTy).Contents (Elt F) → (⟨S640000x1, .f32⟩ : BufTy).Contents (Elt F)),
    nullary main_c_41 (constantI S_ 32 0#32),
    unary main_c_41 main_v270 (broadcastInDim S640000 ![] bcast_S_S640000 : (⟨S_, .i32⟩ : BufTy).Contents (Elt F) → (⟨S640000, .i32⟩ : BufTy).Contents (Elt F)),
    binary main_v5 main_v270 main_v271 (cmpi .slt : (⟨S640000, .i32⟩ : BufTy).Contents (Elt F) → (⟨S640000, .i32⟩ : BufTy).Contents (Elt F) → (⟨S640000, .i1⟩ : BufTy).Contents (Elt F)),
    nullary main_c_42 (constantI S_ 32 20000#32),
    unary main_c_42 main_v272 (broadcastInDim S640000 ![] bcast_S_S640000 : (⟨S_, .i32⟩ : BufTy).Contents (Elt F) → (⟨S640000, .i32⟩ : BufTy).Contents (Elt F)),
    binary main_v5 main_v272 main_v273 (addi : (⟨S640000, .i32⟩ : BufTy).Contents (Elt F) → (⟨S640000, .i32⟩ : BufTy).Contents (Elt F) → (⟨S640000, .i32⟩ : BufTy).Contents (Elt F)),
    ternary main_v271 main_v273 main_v5 main_v274 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v274 main_v275 (broadcastInDim S640000x1 ![0] bcast_S640000_S640000x1_0 : (⟨S640000, .i32⟩ : BufTy).Contents (Elt F) → (⟨S640000x1, .i32⟩ : BufTy).Contents (Elt F)),
    binary main_v261 main_v275 main_v276 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v269 main_v277 (broadcastInDim S640000x64 ![0, 1] bcast_S640000x1_S640000x64_0_1 : (⟨S640000x1, .f32⟩ : BufTy).Contents (Elt F) → (⟨S640000x64, .f32⟩ : BufTy).Contents (Elt F)),
    binary main_v277 main_v276 main_v278 (mulf : (⟨S640000x64, .f32⟩ : BufTy).Contents (Elt F) → (⟨S640000x64, .f32⟩ : BufTy).Contents (Elt F) → (⟨S640000x64, .f32⟩ : BufTy).Contents (Elt F)),
    nullary main_cst_43 (constant S_ .f32 0x00000000#32),
    unary main_cst_43 main_v279 (broadcastInDim S20000x64 ![] bcast_S_S20000x64 : (⟨S_, .f32⟩ : BufTy).Contents (Elt F) → (⟨S20000x64, .f32⟩ : BufTy).Contents (Elt F)),
    unary main_v10 main_v280 (broadcastInDim S640000x1 ![0] bcast_S640000_S640000x1_0 : (⟨S640000, .i32⟩ : BufTy).Contents (Elt F) → (⟨S640000x1, .i32⟩ : BufTy).Contents (Elt F)),
    ternary main_v279 main_v280 main_v278 main_v281 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v263 main_v282 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v282 main_v283 rfl shapeCasts_S1x64x64_S64x64,
    binary main_v281 main_v283 main_v284 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v268 main_v284 main_v285 (addf : (⟨S20000x64, .f32⟩ : BufTy).Contents (Elt F) → (⟨S20000x64, .f32⟩ : BufTy).Contents (Elt F) → (⟨S20000x64, .f32⟩ : BufTy).Contents (Elt F)),
    unary main_v37 main_v286 (broadcastInDim S640000x1 ![0] bcast_S640000_S640000x1_0 : (⟨S640000, .f32⟩ : BufTy).Contents (Elt F) → (⟨S640000x1, .f32⟩ : BufTy).Contents (Elt F)),
    nullary main_c_44 (constantI S_ 32 0#32),
    unary main_c_44 main_v287 (broadcastInDim S640000 ![] bcast_S_S640000 : (⟨S_, .i32⟩ : BufTy).Contents (Elt F) → (⟨S640000, .i32⟩ : BufTy).Contents (Elt F)),
    binary main_v5 main_v287 main_v288 (cmpi .slt : (⟨S640000, .i32⟩ : BufTy).Contents (Elt F) → (⟨S640000, .i32⟩ : BufTy).Contents (Elt F) → (⟨S640000, .i1⟩ : BufTy).Contents (Elt F)),
    nullary main_c_45 (constantI S_ 32 20000#32),
    unary main_c_45 main_v289 (broadcastInDim S640000 ![] bcast_S_S640000 : (⟨S_, .i32⟩ : BufTy).Contents (Elt F) → (⟨S640000, .i32⟩ : BufTy).Contents (Elt F)),
    binary main_v5 main_v289 main_v290 (addi : (⟨S640000, .i32⟩ : BufTy).Contents (Elt F) → (⟨S640000, .i32⟩ : BufTy).Contents (Elt F) → (⟨S640000, .i32⟩ : BufTy).Contents (Elt F)),
    ternary main_v288 main_v290 main_v5 main_v291 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v291 main_v292 (broadcastInDim S640000x1 ![0] bcast_S640000_S640000x1_0 : (⟨S640000, .i32⟩ : BufTy).Contents (Elt F) → (⟨S640000x1, .i32⟩ : BufTy).Contents (Elt F)),
    binary main_v281 main_v292 main_v293 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v286 main_v294 (broadcastInDim S640000x64 ![0, 1] bcast_S640000x1_S640000x64_0_1 : (⟨S640000x1, .f32⟩ : BufTy).Contents (Elt F) → (⟨S640000x64, .f32⟩ : BufTy).Contents (Elt F)),
    binary main_v294 main_v293 main_v295 (mulf : (⟨S640000x64, .f32⟩ : BufTy).Contents (Elt F) → (⟨S640000x64, .f32⟩ : BufTy).Contents (Elt F) → (⟨S640000x64, .f32⟩ : BufTy).Contents (Elt F)),
    nullary main_cst_46 (constant S_ .f32 0x00000000#32),
    unary main_cst_46 main_v296 (broadcastInDim S20000x64 ![] bcast_S_S20000x64 : (⟨S_, .f32⟩ : BufTy).Contents (Elt F) → (⟨S20000x64, .f32⟩ : BufTy).Contents (Elt F)),
    unary main_v10 main_v297 (broadcastInDim S640000x1 ![0] bcast_S640000_S640000x1_0 : (⟨S640000, .i32⟩ : BufTy).Contents (Elt F) → (⟨S640000x1, .i32⟩ : BufTy).Contents (Elt F)),
    ternary main_v296 main_v297 main_v295 main_v298 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v263 main_v299 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v299 main_v300 rfl shapeCasts_S1x64x64_S64x64,
    binary main_v298 main_v300 main_v301 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v285 main_v301 main_v302 (addf : (⟨S20000x64, .f32⟩ : BufTy).Contents (Elt F) → (⟨S20000x64, .f32⟩ : BufTy).Contents (Elt F) → (⟨S20000x64, .f32⟩ : BufTy).Contents (Elt F)),
    unary main_v37 main_v303 (broadcastInDim S640000x1 ![0] bcast_S640000_S640000x1_0 : (⟨S640000, .f32⟩ : BufTy).Contents (Elt F) → (⟨S640000x1, .f32⟩ : BufTy).Contents (Elt F)),
    nullary main_c_47 (constantI S_ 32 0#32),
    unary main_c_47 main_v304 (broadcastInDim S640000 ![] bcast_S_S640000 : (⟨S_, .i32⟩ : BufTy).Contents (Elt F) → (⟨S640000, .i32⟩ : BufTy).Contents (Elt F)),
    binary main_v5 main_v304 main_v305 (cmpi .slt : (⟨S640000, .i32⟩ : BufTy).Contents (Elt F) → (⟨S640000, .i32⟩ : BufTy).Contents (Elt F) → (⟨S640000, .i1⟩ : BufTy).Contents (Elt F)),
    nullary main_c_48 (constantI S_ 32 20000#32),
    unary main_c_48 main_v306 (broadcastInDim S640000 ![] bcast_S_S640000 : (⟨S_, .i32⟩ : BufTy).Contents (Elt F) → (⟨S640000, .i32⟩ : BufTy).Contents (Elt F)),
    binary main_v5 main_v306 main_v307 (addi : (⟨S640000, .i32⟩ : BufTy).Contents (Elt F) → (⟨S640000, .i32⟩ : BufTy).Contents (Elt F) → (⟨S640000, .i32⟩ : BufTy).Contents (Elt F)),
    ternary main_v305 main_v307 main_v5 main_v308 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v308 main_v309 (broadcastInDim S640000x1 ![0] bcast_S640000_S640000x1_0 : (⟨S640000, .i32⟩ : BufTy).Contents (Elt F) → (⟨S640000x1, .i32⟩ : BufTy).Contents (Elt F)),
    binary main_v298 main_v309 main_v310 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    unary main_v303 main_v311 (broadcastInDim S640000x64 ![0, 1] bcast_S640000x1_S640000x64_0_1 : (⟨S640000x1, .f32⟩ : BufTy).Contents (Elt F) → (⟨S640000x64, .f32⟩ : BufTy).Contents (Elt F)),
    binary main_v311 main_v310 main_v312 (mulf : (⟨S640000x64, .f32⟩ : BufTy).Contents (Elt F) → (⟨S640000x64, .f32⟩ : BufTy).Contents (Elt F) → (⟨S640000x64, .f32⟩ : BufTy).Contents (Elt F)),
    nullary main_cst_49 (constant S_ .f32 0x00000000#32),
    unary main_cst_49 main_v313 (broadcastInDim S20000x64 ![] bcast_S_S20000x64 : (⟨S_, .f32⟩ : BufTy).Contents (Elt F) → (⟨S20000x64, .f32⟩ : BufTy).Contents (Elt F)),
    unary main_v10 main_v314 (broadcastInDim S640000x1 ![0] bcast_S640000_S640000x1_0 : (⟨S640000, .i32⟩ : BufTy).Contents (Elt F) → (⟨S640000x1, .i32⟩ : BufTy).Contents (Elt F)),
    ternary main_v313 main_v314 main_v312 main_v315 ((fun x i u => Host.scatterAdd scatter_S20000x64_S640000x1_S640000x64_1_0_0_1 x i u) : (⟨S20000x64, .f32⟩ : BufTy).Contents (Elt F) → (⟨S640000x1, .i32⟩ : BufTy).Contents (Elt F) → (⟨S640000x64, .f32⟩ : BufTy).Contents (Elt F) → (⟨S20000x64, .f32⟩ : BufTy).Contents (Elt F)),
    unary main_v263 main_v316 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v316 main_v317 rfl shapeCasts_S1x64x64_S64x64,
    binary main_v315 main_v317 main_v318 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    binary main_v302 main_v318 main_v319 (addf : (⟨S20000x64, .f32⟩ : BufTy).Contents (Elt F) → (⟨S20000x64, .f32⟩ : BufTy).Contents (Elt F) → (⟨S20000x64, .f32⟩ : BufTy).Contents (Elt F)),
    unary main_v265 main_v320 (broadcastInDim S1x64 ![1] bcast_S64_S1x64_1 : (⟨S64, .f32⟩ : BufTy).Contents (Elt F) → (⟨S1x64, .f32⟩ : BufTy).Contents (Elt F)),
    unary main_v320 main_v321 (broadcastInDim S20000x64 ![0, 1] bcast_S1x64_S20000x64_0_1 : (⟨S1x64, .f32⟩ : BufTy).Contents (Elt F) → (⟨S20000x64, .f32⟩ : BufTy).Contents (Elt F)),
    binary main_v319 main_v321 main_v322 (addf : (⟨S20000x64, .f32⟩ : BufTy).Contents (Elt F) → (⟨S20000x64, .f32⟩ : BufTy).Contents (Elt F) → (⟨S20000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S20000x64, .f32⟩) main_call10_v0) (broadcastInDim S20000x64 ![] bcast_S_S20000x64),
    TRef.binary (TRef.of (T := ⟨S20000x64, .f32⟩) main_v322) (TRef.of (T := ⟨S20000x64, .f32⟩) main_call10_v0) (TRef.of (T := ⟨S20000x64, .f32⟩) main_v323) maximumf ]

set_option maxHeartbeats 1000000 in
/-- The last edge aggregation, on `main_v323` with the weights `main_arg11` … `main_arg14` (6 output columns), with
    no rectifier after the sum: the program's result `main_v350`. -/
abbrev opsE3 : List (HloOp τ sig (Elt F)) :=
  [ nullary main_c_50 (constantI S_ 32 0#32),
    unary main_c_50 main_v324 (broadcastInDim S640000 ![] bcast_S_S640000 : (⟨S_, .i32⟩ : BufTy).Contents (Elt F) → (⟨S640000, .i32⟩ : BufTy).Contents (Elt F)),
    binary main_v10 main_v324 main_v325 (cmpi .slt : (⟨S640000, .i32⟩ : BufTy).Contents (Elt F) → (⟨S640000, .i32⟩ : BufTy).Contents (Elt F) → (⟨S640000, .i1⟩ : BufTy).Contents (Elt F)),
    nullary main_c_51 (constantI S_ 32 20000#32),
    unary main_c_51 main_v326 (broadcastInDim S640000 ![] bcast_S_S640000 : (⟨S_, .i32⟩ : BufTy).Contents (Elt F) → (⟨S640000, .i32⟩ : BufTy).Contents (Elt F)),
    binary main_v10 main_v326 main_v327 (addi : (⟨S640000, .i32⟩ : BufTy).Contents (Elt F) → (⟨S640000, .i32⟩ : BufTy).Contents (Elt F) → (⟨S640000, .i32⟩ : BufTy).Contents (Elt F)),
    ternary main_v325 main_v327 main_v10 main_v328 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v328 main_v329 (broadcastInDim S640000x1 ![0] bcast_S640000_S640000x1_0 : (⟨S640000, .i32⟩ : BufTy).Contents (Elt F) → (⟨S640000x1, .i32⟩ : BufTy).Contents (Elt F)),
    binary main_v323 main_v329 main_v330 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nullary main_c_52 (constantI S_ 32 0#32),
    unary main_c_52 main_v331 (broadcastInDim S640000 ![] bcast_S_S640000 : (⟨S_, .i32⟩ : BufTy).Contents (Elt F) → (⟨S640000, .i32⟩ : BufTy).Contents (Elt F)),
    binary main_v5 main_v331 main_v332 (cmpi .slt : (⟨S640000, .i32⟩ : BufTy).Contents (Elt F) → (⟨S640000, .i32⟩ : BufTy).Contents (Elt F) → (⟨S640000, .i1⟩ : BufTy).Contents (Elt F)),
    nullary main_c_53 (constantI S_ 32 20000#32),
    unary main_c_53 main_v333 (broadcastInDim S640000 ![] bcast_S_S640000 : (⟨S_, .i32⟩ : BufTy).Contents (Elt F) → (⟨S640000, .i32⟩ : BufTy).Contents (Elt F)),
    binary main_v5 main_v333 main_v334 (addi : (⟨S640000, .i32⟩ : BufTy).Contents (Elt F) → (⟨S640000, .i32⟩ : BufTy).Contents (Elt F) → (⟨S640000, .i32⟩ : BufTy).Contents (Elt F)),
    ternary main_v332 main_v334 main_v5 main_v335 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v335 main_v336 (broadcastInDim S640000x1 ![0] bcast_S640000_S640000x1_0 : (⟨S640000, .i32⟩ : BufTy).Contents (Elt F) → (⟨S640000x1, .i32⟩ : BufTy).Contents (Elt F)),
    binary main_v323 main_v336 main_v337 ((fun x i => Host.gather gather_S20000x64_S640000x1_S640000x64_1_0_n_n_0_1_164 x i) : (⟨S20000x64, .f32⟩ : BufTy).Contents (Elt F) → (⟨S640000x1, .i32⟩ : BufTy).Contents (Elt F) → (⟨S640000x64, .f32⟩ : BufTy).Contents (Elt F)),
    nary ![main_v330, main_v337, main_v11] main_v338 (fun u => concatenate S640000x133 1 [⟨S640000x64, u 0⟩, ⟨S640000x64, u 1⟩, ⟨S640000x5, u 2⟩] concatenates_S640000x64_S640000x64_S640000x5_S640000x133_d1),
    binary main_v338 main_arg11 main_v339 ((fun l r => Host.dotGeneral dot_S640000x133_S133x64_S640000x64_1_0_0_1_n_n none l r) : (⟨S640000x133, .f32⟩ : BufTy).Contents (Elt F) → (⟨S133x64, .f32⟩ : BufTy).Contents (Elt F) → (⟨S640000x64, .f32⟩ : BufTy).Contents (Elt F)),
    unary main_arg12 main_v340 (broadcastInDim S1x64 ![1] bcast_S64_S1x64_1 : (⟨S64, .f32⟩ : BufTy).Contents (Elt F) → (⟨S1x64, .f32⟩ : BufTy).Contents (Elt F)),
    unary main_v340 main_v341 (broadcastInDim S640000x64 ![0, 1] bcast_S1x64_S640000x64_0_1 : (⟨S1x64, .f32⟩ : BufTy).Contents (Elt F) → (⟨S640000x64, .f32⟩ : BufTy).Contents (Elt F)),
    binary main_v339 main_v341 main_v342 (addf : (⟨S640000x64, .f32⟩ : BufTy).Contents (Elt F) → (⟨S640000x64, .f32⟩ : BufTy).Contents (Elt F) → (⟨S640000x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S640000x64, .f32⟩) main_call11_v0) (broadcastInDim S640000x64 ![] bcast_S_S640000x64),
    TRef.binary (TRef.of (T := ⟨S640000x64, .f32⟩) main_v342) (TRef.of (T := ⟨S640000x64, .f32⟩) main_call11_v0) (TRef.of (T := ⟨S640000x64, .f32⟩) main_v343) maximumf,
    binary main_v343 main_arg13 main_v344 ((fun l r => Host.dotGeneral dot_S640000x64_S64x6_S640000x6_1_0_0_1_n_n none l r) : (⟨S640000x64, .f32⟩ : BufTy).Contents (Elt F) → (⟨S64x6, .f32⟩ : BufTy).Contents (Elt F) → (⟨S640000x6, .f32⟩ : BufTy).Contents (Elt F)),
    unary main_arg14 main_v345 (broadcastInDim S1x6 ![1] bcast_S6_S1x6_1 : (⟨S6, .f32⟩ : BufTy).Contents (Elt F) → (⟨S1x6, .f32⟩ : BufTy).Contents (Elt F)),
    unary main_v345 main_v346 (broadcastInDim S640000x6 ![0, 1] bcast_S1x6_S640000x6_0_1 : (⟨S1x6, .f32⟩ : BufTy).Contents (Elt F) → (⟨S640000x6, .f32⟩ : BufTy).Contents (Elt F)),
    binary main_v344 main_v346 main_v347 (addf : (⟨S640000x6, .f32⟩ : BufTy).Contents (Elt F) → (⟨S640000x6, .f32⟩ : BufTy).Contents (Elt F) → (⟨S640000x6, .f32⟩ : BufTy).Contents (Elt F)),
    nullary main_cst_54 (constant S_ .f32 0x00000000#32),
    unary main_cst_54 main_v348 (broadcastInDim S20000x6 ![] bcast_S_S20000x6 : (⟨S_, .f32⟩ : BufTy).Contents (Elt F) → (⟨S20000x6, .f32⟩ : BufTy).Contents (Elt F)),
    unary main_v10 main_v349 (broadcastInDim S640000x1 ![0] bcast_S640000_S640000x1_0 : (⟨S640000, .i32⟩ : BufTy).Contents (Elt F) → (⟨S640000x1, .i32⟩ : BufTy).Contents (Elt F)),
    ternary main_v348 main_v349 main_v347 main_v350 ((fun x i u => Host.scatterAdd scatter_S20000x6_S640000x1_S640000x6_1_0_0_1 x i u) : (⟨S20000x6, .f32⟩ : BufTy).Contents (Elt F) → (⟨S640000x1, .i32⟩ : BufTy).Contents (Elt F) → (⟨S640000x6, .f32⟩ : BufTy).Contents (Elt F) → (⟨S20000x6, .f32⟩ : BufTy).Contents (Elt F)) ]

/-- The whole program: the eight layers in order. -/
abbrev opsAll : List (HloOp τ sig (Elt F)) := opsP ++ opsE0 ++ opsT0 ++ opsE1 ++ opsT1 ++ opsE2 ++ opsT2 ++ opsE3

set_option maxRecDepth 8192 in
set_option maxHeartbeats 4000000 in
/-- The printed program is the run of that list. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP_sub : (opsP : List (HloOp τ sig (Elt F))).Forall fun op => op.bufs ⊆ tcRefs τ sig :=
  ⟨unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem opsE0_sub : (opsE0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub ..⟩

set_option maxRecDepth 8192 in
theorem opsT0_sub : (opsT0 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxRecDepth 8192 in
theorem opsE1_sub : (opsE1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub ..⟩

set_option maxRecDepth 8192 in
theorem opsT1_sub : (opsT1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxRecDepth 8192 in
theorem opsE2_sub : (opsE2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub ..⟩

set_option maxRecDepth 8192 in
theorem opsT2_sub : (opsT2 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub ..⟩

set_option maxRecDepth 8192 in
theorem opsE3_sub : (opsE3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

set_option maxRecDepth 8192 in
theorem opsP_fresh : ∀ op ∈ (opsP : List (HloOp τ sig (Elt F))), op.fresh = ∅ := by
  intro _ h; (repeat (cases h with | head => rfl | tail _ h => ?_)); exact nomatch h

set_option maxRecDepth 8192 in
theorem opsE0_fresh : ∀ op ∈ (opsE0 : List (HloOp τ sig (Elt F))), op.fresh = ∅ := by
  intro _ h; (repeat (cases h with | head => rfl | tail _ h => ?_)); exact nomatch h

set_option maxRecDepth 8192 in
theorem opsT0_fresh : ∀ op ∈ (opsT0 : List (HloOp τ sig (Elt F))), op.fresh = ∅ := by
  intro _ h; (repeat (cases h with | head => rfl | tail _ h => ?_)); exact nomatch h

set_option maxRecDepth 8192 in
theorem opsE1_fresh : ∀ op ∈ (opsE1 : List (HloOp τ sig (Elt F))), op.fresh = ∅ := by
  intro _ h; (repeat (cases h with | head => rfl | tail _ h => ?_)); exact nomatch h

set_option maxRecDepth 8192 in
theorem opsT1_fresh : ∀ op ∈ (opsT1 : List (HloOp τ sig (Elt F))), op.fresh = ∅ := by
  intro _ h; (repeat (cases h with | head => rfl | tail _ h => ?_)); exact nomatch h

set_option maxRecDepth 8192 in
theorem opsE2_fresh : ∀ op ∈ (opsE2 : List (HloOp τ sig (Elt F))), op.fresh = ∅ := by
  intro _ h; (repeat (cases h with | head => rfl | tail _ h => ?_)); exact nomatch h

set_option maxRecDepth 8192 in
theorem opsT2_fresh : ∀ op ∈ (opsT2 : List (HloOp τ sig (Elt F))), op.fresh = ∅ := by
  intro _ h; (repeat (cases h with | head => rfl | tail _ h => ?_)); exact nomatch h

set_option maxRecDepth 8192 in
theorem opsE3_fresh : ∀ op ∈ (opsE3 : List (HloOp τ sig (Elt F))), op.fresh = ∅ := by
  intro _ h; (repeat (cases h with | head => rfl | tail _ h => ?_)); exact nomatch h

/-- Every operation touches TensorCore references only. -/
theorem opsAll_sub : (opsAll : List (HloOp τ sig (Elt F))).Forall fun op => op.bufs ⊆ tcRefs τ sig :=
  forall_append_of (forall_append_of (forall_append_of (forall_append_of (forall_append_of (forall_append_of
    (forall_append_of opsP_sub opsE0_sub) opsT0_sub) opsE1_sub) opsT1_sub) opsE2_sub) opsT2_sub) opsE3_sub

/-- Every operation determines its results. -/
theorem opsAll_fresh : ∀ op ∈ (opsAll : List (HloOp τ sig (Elt F))), op.fresh = ∅ := by
  intro op h
  simp only [opsAll, List.mem_append] at h
  rcases h with ((((((h | h) | h) | h) | h) | h) | h) | h
  · exact opsP_fresh op h
  · exact opsE0_fresh op h
  · exact opsT0_fresh op h
  · exact opsE1_fresh op h
  · exact opsT1_fresh op h
  · exact opsE2_fresh op h
  · exact opsT2_fresh op h
  · exact opsE3_fresh op h

/-- On every device, for any float values, from any memory with zero counters: every weakly fair execution of the
    program terminates with every buffer at the fold of the eight layers' operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ
    (fun _ => opsAll_fresh)

end Cert.ReferenceIdeal.Hand

end
-- ==== Proof.Ref.ChunkP.lean ====
/- The prologue's operations, run from any contents, leave the graph — the node features read, the two edge-end
   vectors, the doubled edge attributes — and the edge weights in their buffers, and every buffer they do not write as
   it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsP_W : List (Ref sig .tc) :=
  [main_v0, main_v1, main_v2, main_v3, main_v4, main_v5, main_v6, main_v7, main_v8, main_v9, main_v10, main_v11,
   main_cst, main_v12, main_cst_0, main_v13, main_v14, main_v15, main_cst_1, main_v16, main_v17, main_cst_2,
   main_v18, main_v19, main_cst_3, main_call0_v0, main_call0_v1, main_v20, main_v21, main_cst_4, main_call1_v0,
   main_call1_v1, main_v22, main_c, main_v23, main_v24, main_c_5, main_v25, main_v26, main_v27, main_v28,
   main_v29, main_c_6, main_v30, main_v31, main_c_7, main_v32, main_v33, main_v34, main_v35, main_v36, main_v37]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsP_writes : (opsP : List (HloOp τ sig (Elt F))).Forall fun op =>
    op.writes ⊆ (opsP_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsP_keep (V : Valuation τ sig (Elt F)) {r : Ref sig .tc} (h : r ∉ opsP_W) :
    after opsP V (Proc.devRef .tc r) = V (Proc.devRef .tc r) :=
  after_of_writes_sub opsP V opsP_writes h

set_option maxRecDepth 8192 in
set_option maxHeartbeats 4000000 in
/-- The node features the network reads. -/
theorem after_opsP_v0 (V : Valuation τ sig (Elt Ideal)) :
    after opsP V (Proc.devRef .tc main_v0)
      = nodeX (V (Proc.devRef .tc main_arg0)) := by
  simp only [opsP]
  after_results_simp
  rfl

set_option maxRecDepth 8192 in
set_option maxHeartbeats 4000000 in
/-- One end of every directed edge. -/
theorem after_opsP_v5 (V : Valuation τ sig (Elt Ideal)) :
    after opsP V (Proc.devRef .tc main_v5)
      = srcIdx (V (Proc.devRef .tc main_arg1)) := by
  simp only [opsP]
  after_results_simp
  rfl

set_option maxRecDepth 8192 in
set_option maxHeartbeats 4000000 in
/-- The other end of every directed edge. -/
theorem after_opsP_v10 (V : Valuation τ sig (Elt Ideal)) :
    after opsP V (Proc.devRef .tc main_v10)
      = dstIdx (V (Proc.devRef .tc main_arg1)) := by
  simp only [opsP]
  after_results_simp
  rfl

set_option maxRecDepth 8192 in
set_option maxHeartbeats 4000000 in
/-- The attributes of every directed edge. -/
theorem after_opsP_v11 (V : Valuation τ sig (Elt Ideal)) :
    after opsP V (Proc.devRef .tc main_v11)
      = edgeAttr (V (Proc.devRef .tc main_arg2)) := by
  simp only [opsP]
  after_results_simp
  rfl

set_option maxRecDepth 8192 in
set_option maxHeartbeats 4000000 in
/-- The weight of every directed edge. -/
theorem after_opsP_v37 (V : Valuation τ sig (Elt Ideal)) :
    after opsP V (Proc.devRef .tc main_v37)
      = normOf (disOf (degOf (dstIdx (V (Proc.devRef .tc main_arg1))))) (srcIdx (V (Proc.devRef .tc main_arg1))) (dstIdx (V (Proc.devRef .tc main_arg1))) := by
  simp only [opsP]
  after_results_simp
  -- the two `where`s are a module-local function's operations: their values are stated at the buffers' own types,
  -- through conversions that are the identity here; with those gone both sides are the same composition
  simp only [TRef.toBuf, TRef.ofBuf, cast_eq]
  rfl

end Cert.ReferenceIdeal.Hand

end
-- ==== Proof.Ref.ChunkE0.lean ====
/- The first edge aggregation's operations, run from any contents, leave `refEA0` of the layer's inputs in the result
   buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsE0_W : List (Ref sig .tc) :=
  [main_c_8, main_v38, main_v39, main_c_9, main_v40, main_v41, main_v42, main_v43, main_v44, main_c_10, main_v45,
   main_v46, main_c_11, main_v47, main_v48, main_v49, main_v50, main_v51, main_v52, main_v53, main_v54, main_v55,
   main_v56, main_call2_cst, main_call2_v0, main_v57, main_v58, main_v59, main_v60, main_v61, main_cst_12,
   main_v62, main_v63, main_v64, main_call3_cst, main_call3_v0, main_v65]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsE0_writes : (opsE0 : List (HloOp τ sig (Elt F))).Forall fun op =>
    op.writes ⊆ (opsE0_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem⟩

/-- A buffer the layer's operations do not write keeps its contents through them. -/
theorem after_opsE0_keep (V : Valuation τ sig (Elt F)) {r : Ref sig .tc} (h : r ∉ opsE0_W) :
    after opsE0 V (Proc.devRef .tc r) = V (Proc.devRef .tc r) :=
  after_of_writes_sub opsE0 V opsE0_writes h

set_option maxRecDepth 8192 in
set_option maxHeartbeats 4000000 in
/-- The layer's result: the first edge aggregation of the node features in `main_v0` over the graph in `main_v5`,
    `main_v10`, `main_v11`, with the weights `main_arg3` … `main_arg6`. -/
theorem after_opsE0 (V : Valuation τ sig (Elt Ideal)) :
    after opsE0 V (Proc.devRef .tc main_v65)
      = refEA0 (V (Proc.devRef .tc main_v0)) (V (Proc.devRef .tc main_v5)) (V (Proc.devRef .tc main_v10)) (V (Proc.devRef .tc main_v11))
          (V (Proc.devRef .tc main_arg3)) (V (Proc.devRef .tc main_arg4)) (V (Proc.devRef .tc main_arg5)) (V (Proc.devRef .tc main_arg6)) := by
  simp only [opsE0]
  after_results_simp
  rfl

end Cert.ReferenceIdeal.Hand

end
-- ==== Proof.Ref.ChunkT0.lean ====
/- The first graph convolution's operations, run from any contents, leave `refTAG` of the layer's inputs in the result
   buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsT0_W : List (Ref sig .tc) :=
  [main_v66, main_v67, main_v68, main_v69, main_v70, main_v71, main_v72, main_v73, main_c_13, main_v74, main_v75,
   main_c_14, main_v76, main_v77, main_v78, main_v79, main_v80, main_v81, main_v82, main_cst_15, main_v83,
   main_v84, main_v85, main_v86, main_v87, main_v88, main_v89, main_v90, main_c_16, main_v91, main_v92, main_c_17,
   main_v93, main_v94, main_v95, main_v96, main_v97, main_v98, main_v99, main_cst_18, main_v100, main_v101,
   main_v102, main_v103, main_v104, main_v105, main_v106, main_v107, main_c_19, main_v108, main_v109, main_c_20,
   main_v110, main_v111, main_v112, main_v113, main_v114, main_v115, main_v116, main_cst_21, main_v117, main_v118,
   main_v119, main_v120, main_v121, main_v122, main_v123, main_v124, main_v125, main_v126, main_call4_cst,
   main_call4_v0, main_v127]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsT0_writes : (opsT0 : List (HloOp τ sig (Elt F))).Forall fun op =>
    op.writes ⊆ (opsT0_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsT0_keep (V : Valuation τ sig (Elt F)) {r : Ref sig .tc} (h : r ∉ opsT0_W) :
    after opsT0 V (Proc.devRef .tc r) = V (Proc.devRef .tc r) :=
  after_of_writes_sub opsT0 V opsT0_writes h

set_option maxRecDepth 8192 in
set_option maxHeartbeats 4000000 in
/-- The layer's result: the graph convolution of the node features in `main_v65` over the edges in `main_v5`, `main_v10`
    with the edge weights `main_v37`, with the slices 0 of the parameters `main_arg15`, `main_arg16`. -/
theorem after_opsT0 (V : Valuation τ sig (Elt Ideal)) :
    after opsT0 V (Proc.devRef .tc main_v127)
      = refTAG (V (Proc.devRef .tc main_v65)) (V (Proc.devRef .tc main_v5)) (V (Proc.devRef .tc main_v10)) (V (Proc.devRef .tc main_v37))
          (tagWs0 (V (Proc.devRef .tc main_arg15))) (tagB0 (V (Proc.devRef .tc main_arg16))) := by
  simp only [opsT0]
  after_results_simp
  rfl

end Cert.ReferenceIdeal.Hand

end
-- ==== Proof.Ref.ChunkE1.lean ====
/- The second edge aggregation's operations, run from any contents, leave `refEAmid` of the layer's inputs in the
   result buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsE1_W : List (Ref sig .tc) :=
  [main_v128, main_v129, main_v130, main_v131, main_v132, main_v133, main_v134, main_v135, main_c_22, main_v136,
   main_v137, main_c_23, main_v138, main_v139, main_v140, main_v141, main_v142, main_c_24, main_v143, main_v144,
   main_c_25, main_v145, main_v146, main_v147, main_v148, main_v149, main_v150, main_v151, main_v152, main_v153,
   main_v154, main_call5_cst, main_call5_v0, main_v155, main_v156, main_v157, main_v158, main_v159, main_cst_26,
   main_v160, main_v161, main_v162, main_call6_cst, main_call6_v0, main_v163]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsE1_writes : (opsE1 : List (HloOp τ sig (Elt F))).Forall fun op =>
    op.writes ⊆ (opsE1_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsE1_keep (V : Valuation τ sig (Elt F)) {r : Ref sig .tc} (h : r ∉ opsE1_W) :
    after opsE1 V (Proc.devRef .tc r) = V (Proc.devRef .tc r) :=
  after_of_writes_sub opsE1 V opsE1_writes h

set_option maxRecDepth 8192 in
set_option maxHeartbeats 4000000 in
/-- The layer's result: the edge aggregation of the node features in `main_v127` over the graph in `main_v5`, `main_v10`,
    `main_v11`, with the slices 0 of the weights `main_arg7` … `main_arg10`. -/
theorem after_opsE1 (V : Valuation τ sig (Elt Ideal)) :
    after opsE1 V (Proc.devRef .tc main_v163)
      = refEAmid (V (Proc.devRef .tc main_v127)) (V (Proc.devRef .tc main_v5)) (V (Proc.devRef .tc main_v10)) (V (Proc.devRef .tc main_v11))
          (midW1_0 (V (Proc.devRef .tc main_arg7))) (midB_0 (V (Proc.devRef .tc main_arg8))) (midW2_0 (V (Proc.devRef .tc main_arg9))) (midB_0 (V (Proc.devRef .tc main_arg10))) := by
  simp only [opsE1]
  after_results_simp
  rfl

end Cert.ReferenceIdeal.Hand

end
-- ==== Proof.Ref.ChunkT1.lean ====
/- The second graph convolution's operations, run from any contents, leave `refTAG` of the layer's inputs in the result
   buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsT1_W : List (Ref sig .tc) :=
  [main_v164, main_v165, main_v166, main_v167, main_v168, main_v169, main_v170, main_v171, main_c_27, main_v172,
   main_v173, main_c_28, main_v174, main_v175, main_v176, main_v177, main_v178, main_v179, main_v180, main_cst_29,
   main_v181, main_v182, main_v183, main_v184, main_v185, main_v186, main_v187, main_v188, main_c_30, main_v189,
   main_v190, main_c_31, main_v191, main_v192, main_v193, main_v194, main_v195, main_v196, main_v197, main_cst_32,
   main_v198, main_v199, main_v200, main_v201, main_v202, main_v203, main_v204, main_v205, main_c_33, main_v206,
   main_v207, main_c_34, main_v208, main_v209, main_v210, main_v211, main_v212, main_v213, main_v214, main_cst_35,
   main_v215, main_v216, main_v217, main_v218, main_v219, main_v220, main_v221, main_v222, main_v223, main_v224,
   main_call7_cst, main_call7_v0, main_v225]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsT1_writes : (opsT1 : List (HloOp τ sig (Elt F))).Forall fun op =>
    op.writes ⊆ (opsT1_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsT1_keep (V : Valuation τ sig (Elt F)) {r : Ref sig .tc} (h : r ∉ opsT1_W) :
    after opsT1 V (Proc.devRef .tc r) = V (Proc.devRef .tc r) :=
  after_of_writes_sub opsT1 V opsT1_writes h

set_option maxRecDepth 8192 in
set_option maxHeartbeats 4000000 in
/-- The layer's result: the graph convolution of the node features in `main_v163` over the edges in `main_v5`, `main_v10`
    with the edge weights `main_v37`, with the slices 1 of the parameters `main_arg15`, `main_arg16`. -/
theorem after_opsT1 (V : Valuation τ sig (Elt Ideal)) :
    after opsT1 V (Proc.devRef .tc main_v225)
      = refTAG (V (Proc.devRef .tc main_v163)) (V (Proc.devRef .tc main_v5)) (V (Proc.devRef .tc main_v10)) (V (Proc.devRef .tc main_v37))
          (tagWs1 (V (Proc.devRef .tc main_arg15))) (tagB1 (V (Proc.devRef .tc main_arg16))) := by
  simp only [opsT1]
  after_results_simp
  rfl

end Cert.ReferenceIdeal.Hand

end
-- ==== Proof.Ref.ChunkE2.lean ====
/- The third edge aggregation's operations, run from any contents, leave `refEAmid` of the layer's inputs in the
   result buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsE2_W : List (Ref sig .tc) :=
  [main_v226, main_v227, main_v228, main_v229, main_v230, main_v231, main_v232, main_v233, main_c_36, main_v234,
   main_v235, main_c_37, main_v236, main_v237, main_v238, main_v239, main_v240, main_c_38, main_v241, main_v242,
   main_c_39, main_v243, main_v244, main_v245, main_v246, main_v247, main_v248, main_v249, main_v250, main_v251,
   main_v252, main_call8_cst, main_call8_v0, main_v253, main_v254, main_v255, main_v256, main_v257, main_cst_40,
   main_v258, main_v259, main_v260, main_call9_cst, main_call9_v0, main_v261]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsE2_writes : (opsE2 : List (HloOp τ sig (Elt F))).Forall fun op =>
    op.writes ⊆ (opsE2_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsE2_keep (V : Valuation τ sig (Elt F)) {r : Ref sig .tc} (h : r ∉ opsE2_W) :
    after opsE2 V (Proc.devRef .tc r) = V (Proc.devRef .tc r) :=
  after_of_writes_sub opsE2 V opsE2_writes h

set_option maxRecDepth 8192 in
set_option maxHeartbeats 4000000 in
/-- The layer's result: the edge aggregation of the node features in `main_v225` over the graph in `main_v5`, `main_v10`,
    `main_v11`, with the slices 1 of the weights `main_arg7` … `main_arg10`. -/
theorem after_opsE2 (V : Valuation τ sig (Elt Ideal)) :
    after opsE2 V (Proc.devRef .tc main_v261)
      = refEAmid (V (Proc.devRef .tc main_v225)) (V (Proc.devRef .tc main_v5)) (V (Proc.devRef .tc main_v10)) (V (Proc.devRef .tc main_v11))
          (midW1_1 (V (Proc.devRef .tc main_arg7))) (midB_1 (V (Proc.devRef .tc main_arg8))) (midW2_1 (V (Proc.devRef .tc main_arg9))) (midB_1 (V (Proc.devRef .tc main_arg10))) := by
  simp only [opsE2]
  after_results_simp
  rfl

end Cert.ReferenceIdeal.Hand

end
-- ==== Proof.Ref.ChunkT2.lean ====
/- The third graph convolution's operations, run from any contents, leave `refTAG` of the layer's inputs in the result
   buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsT2_W : List (Ref sig .tc) :=
  [main_v262, main_v263, main_v264, main_v265, main_v266, main_v267, main_v268, main_v269, main_c_41, main_v270,
   main_v271, main_c_42, main_v272, main_v273, main_v274, main_v275, main_v276, main_v277, main_v278, main_cst_43,
   main_v279, main_v280, main_v281, main_v282, main_v283, main_v284, main_v285, main_v286, main_c_44, main_v287,
   main_v288, main_c_45, main_v289, main_v290, main_v291, main_v292, main_v293, main_v294, main_v295, main_cst_46,
   main_v296, main_v297, main_v298, main_v299, main_v300, main_v301, main_v302, main_v303, main_c_47, main_v304,
   main_v305, main_c_48, main_v306, main_v307, main_v308, main_v309, main_v310, main_v311, main_v312, main_cst_49,
   main_v313, main_v314, main_v315, main_v316, main_v317, main_v318, main_v319, main_v320, main_v321, main_v322,
   main_call10_cst, main_call10_v0, main_v323]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsT2_writes : (opsT2 : List (HloOp τ sig (Elt F))).Forall fun op =>
    op.writes ⊆ (opsT2_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem⟩

/-- A buffer the layer's operations do not write keeps its contents through them. -/
theorem after_opsT2_keep (V : Valuation τ sig (Elt F)) {r : Ref sig .tc} (h : r ∉ opsT2_W) :
    after opsT2 V (Proc.devRef .tc r) = V (Proc.devRef .tc r) :=
  after_of_writes_sub opsT2 V opsT2_writes h

set_option maxRecDepth 8192 in
set_option maxHeartbeats 4000000 in
/-- The layer's result: the graph convolution of the node features in `main_v261` over the edges in `main_v5`, `main_v10`
    with the edge weights `main_v37`, with the slices 2 of the parameters `main_arg15`, `main_arg16`. -/
theorem after_opsT2 (V : Valuation τ sig (Elt Ideal)) :
    after opsT2 V (Proc.devRef .tc main_v323)
      = refTAG (V (Proc.devRef .tc main_v261)) (V (Proc.devRef .tc main_v5)) (V (Proc.devRef .tc main_v10)) (V (Proc.devRef .tc main_v37))
          (tagWs2 (V (Proc.devRef .tc main_arg15))) (tagB2 (V (Proc.devRef .tc main_arg16))) := by
  simp only [opsT2]
  after_results_simp
  rfl

end Cert.ReferenceIdeal.Hand

end
-- ==== Proof.Ref.ChunkE3.lean ====
/- The last edge aggregation's operations, run from any contents, leave `refEAlast` of the layer's inputs in the
   result buffer and every buffer they do not write as it was. -/
import proofs.«120992_j5111011082634_2_alg».proof.Proof.Ref.Ops
import proofs.«120992_j5111011082634_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references the layer's operations write: one each, all different. -/
abbrev opsE3_W : List (Ref sig .tc) :=
  [main_c_50, main_v324, main_v325, main_c_51, main_v326, main_v327, main_v328, main_v329, main_v330, main_c_52,
   main_v331, main_v332, main_c_53, main_v333, main_v334, main_v335, main_v336, main_v337, main_v338, main_v339,
   main_v340, main_v341, main_v342, main_call11_cst, main_call11_v0, main_v343, main_v344, main_v345, main_v346,
   main_v347, main_cst_54, main_v348, main_v349, main_v350]

/-- An operation's one written buffer is that of a reference in the list. -/
local macro "writes_mem" : tactic =>
  `(tactic| (simp only [nullary_writes, unary_writes, binary_writes, ternary_writes, quaternary_writes, reshape_writes, binaryIndexed_writes, unaryIndexed_writes, nary_writes, Finset.singleton_subset_iff, List.mem_toFinset]
             exact List.mem_map_of_mem (by decide)))

set_option maxRecDepth 8192 in
theorem opsE3_writes : (opsE3 : List (HloOp τ sig (Elt F))).Forall fun op =>
    op.writes ⊆ (opsE3_W.map (Proc.devRef (τ := τ) .tc)).toFinset := by
  simp only [List.Forall]
  exact ⟨by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem, by writes_mem,
    by writes_mem, by writes_mem, by writes_mem, by writes_mem, by writes_mem, by writes_mem⟩

/-- A buffer the layer's operations do not write keeps its contents through them. -/
theorem after_opsE3_keep (V : Valuation τ sig (Elt F)) {r : Ref sig .tc} (h : r ∉ opsE3_W) :
    after opsE3 V (Proc.devRef .tc r) = V (Proc.devRef .tc r) :=
  after_of_writes_sub opsE3 V opsE3_writes h

set_option maxRecDepth 8192 in
set_option maxHeartbeats 4000000 in
/-- The layer's result: the last edge aggregation of the node features in `main_v323` over the graph in `main_v5`,
    `main_v10`, `main_v11`, with the weights `main_arg11` … `main_arg14`. -/
theorem after_opsE3 (V : Valuation τ sig (Elt Ideal)) :
    after opsE3 V (Proc.devRef .tc main_v350)
      = refEAlast (V (Proc.devRef .tc main_v323)) (V (Proc.devRef .tc main_v5)) (V (Proc.devRef .tc main_v10)) (V (Proc.devRef .tc main_v11))
          (V (Proc.devRef .tc main_arg11)) (V (Proc.devRef .tc main_arg12)) (V (Proc.devRef .tc main_arg13)) (V (Proc.devRef .tc main_arg14)) := by
  simp only [opsE3]
  after_results_simp
  rfl

end Cert.ReferenceIdeal.Hand

end
-- ==== Proof.Ref.Run.lean ====
/- The reference program's run, read back: every weakly fair execution terminates with the result buffer at the
   network's value `refOut` of the seventeen arguments, and the arguments as they were. The fold over the whole
   operation list is the eight layers' folds one after the other; each layer's fold is its function of its input
   buffers (the layer modules), and a buffer no layer in between writes is carried along unchanged. -/
import proofs.«120992_j5111011082634_2_alg».proof.Proof.Ref.Ops
import proofs.«120992_j5111011082634_2_alg».proof.Proof.Ref.Layers
import proofs.«120992_j5111011082634_2_alg».proof.Proof.Ref.ChunkP
import proofs.«120992_j5111011082634_2_alg».proof.Proof.Ref.ChunkE0
import proofs.«120992_j5111011082634_2_alg».proof.Proof.Ref.ChunkT0
import proofs.«120992_j5111011082634_2_alg».proof.Proof.Ref.ChunkE1
import proofs.«120992_j5111011082634_2_alg».proof.Proof.Ref.ChunkT1
import proofs.«120992_j5111011082634_2_alg».proof.Proof.Ref.ChunkE2
import proofs.«120992_j5111011082634_2_alg».proof.Proof.Ref.ChunkT2
import proofs.«120992_j5111011082634_2_alg».proof.Proof.Ref.ChunkE3

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The whole list's fold, layer after layer -/

/-- The fold over the whole list is the layers' folds, nested in order. -/
theorem after_opsAll {F : FTy → Type} [FloatOps F] (V0 : Valuation τ sig (Elt F)) :
    after opsAll V0 = after opsE3 (after opsT2 (after opsE2 (after opsT1 (after opsE1 (after opsT0 (after opsE0 (after opsP V0))))))) := by
  simp only [opsAll, after_append]

section Stages

variable {F : FTy → Type} [FloatOps F] (V0 : Valuation τ sig (Elt F))

/-! ## What is carried along

`keepK`: a reference none of the first K layers writes has, after them, the contents it started with. -/

theorem keep1 {r : Ref sig .tc} (hP : r ∉ opsP_W) :
    after opsP V0 (Proc.devRef .tc r) = V0 (Proc.devRef .tc r) :=
  after_opsP_keep V0 hP

theorem keep2 {r : Ref sig .tc} (hP : r ∉ opsP_W) (hE0 : r ∉ opsE0_W) :
    after opsE0 (after opsP V0) (Proc.devRef .tc r) = V0 (Proc.devRef .tc r) :=
  (after_opsE0_keep _ hE0).trans (keep1 V0 hP)

theorem keep3 {r : Ref sig .tc} (hP : r ∉ opsP_W) (hE0 : r ∉ opsE0_W) (hT0 : r ∉ opsT0_W) :
    after opsT0 (after opsE0 (after opsP V0)) (Proc.devRef .tc r) = V0 (Proc.devRef .tc r) :=
  (after_opsT0_keep _ hT0).trans (keep2 V0 hP hE0)

theorem keep4 {r : Ref sig .tc} (hP : r ∉ opsP_W) (hE0 : r ∉ opsE0_W) (hT0 : r ∉ opsT0_W) (hE1 : r ∉ opsE1_W) :
    after opsE1 (after opsT0 (after opsE0 (after opsP V0))) (Proc.devRef .tc r) = V0 (Proc.devRef .tc r) :=
  (after_opsE1_keep _ hE1).trans (keep3 V0 hP hE0 hT0)

theorem keep5 {r : Ref sig .tc} (hP : r ∉ opsP_W) (hE0 : r ∉ opsE0_W) (hT0 : r ∉ opsT0_W) (hE1 : r ∉ opsE1_W) (hT1 : r ∉ opsT1_W) :
    after opsT1 (after opsE1 (after opsT0 (after opsE0 (after opsP V0)))) (Proc.devRef .tc r) = V0 (Proc.devRef .tc r) :=
  (after_opsT1_keep _ hT1).trans (keep4 V0 hP hE0 hT0 hE1)

theorem keep6 {r : Ref sig .tc} (hP : r ∉ opsP_W) (hE0 : r ∉ opsE0_W) (hT0 : r ∉ opsT0_W) (hE1 : r ∉ opsE1_W) (hT1 : r ∉ opsT1_W) (hE2 : r ∉ opsE2_W) :
    after opsE2 (after opsT1 (after opsE1 (after opsT0 (after opsE0 (after opsP V0))))) (Proc.devRef .tc r) = V0 (Proc.devRef .tc r) :=
  (after_opsE2_keep _ hE2).trans (keep5 V0 hP hE0 hT0 hE1 hT1)

theorem keep7 {r : Ref sig .tc} (hP : r ∉ opsP_W) (hE0 : r ∉ opsE0_W) (hT0 : r ∉ opsT0_W) (hE1 : r ∉ opsE1_W) (hT1 : r ∉ opsT1_W) (hE2 : r ∉ opsE2_W) (hT2 : r ∉ opsT2_W) :
    after opsT2 (after opsE2 (after opsT1 (after opsE1 (after opsT0 (after opsE0 (after opsP V0)))))) (Proc.devRef .tc r) = V0 (Proc.devRef .tc r) :=
  (after_opsT2_keep _ hT2).trans (keep6 V0 hP hE0 hT0 hE1 hT1 hE2)

theorem keep8 {r : Ref sig .tc} (hP : r ∉ opsP_W) (hE0 : r ∉ opsE0_W) (hT0 : r ∉ opsT0_W) (hE1 : r ∉ opsE1_W) (hT1 : r ∉ opsT1_W) (hE2 : r ∉ opsE2_W) (hT2 : r ∉ opsT2_W) (hE3 : r ∉ opsE3_W) :
    after opsE3 (after opsT2 (after opsE2 (after opsT1 (after opsE1 (after opsT0 (after opsE0 (after opsP V0))))))) (Proc.devRef .tc r) = V0 (Proc.devRef .tc r) :=
  (after_opsE3_keep _ hE3).trans (keep7 V0 hP hE0 hT0 hE1 hT1 hE2 hT2)

/-! `carryK`: a reference that layers 2 … K do not write has, after the first K layers, the contents the prologue left. -/

theorem carry2 {r : Ref sig .tc} (hE0 : r ∉ opsE0_W) :
    after opsE0 (after opsP V0) (Proc.devRef .tc r) = after opsP V0 (Proc.devRef .tc r) :=
  after_opsE0_keep _ hE0

theorem carry3 {r : Ref sig .tc} (hE0 : r ∉ opsE0_W) (hT0 : r ∉ opsT0_W) :
    after opsT0 (after opsE0 (after opsP V0)) (Proc.devRef .tc r) = after opsP V0 (Proc.devRef .tc r) :=
  (after_opsT0_keep _ hT0).trans (carry2 V0 hE0)

theorem carry4 {r : Ref sig .tc} (hE0 : r ∉ opsE0_W) (hT0 : r ∉ opsT0_W) (hE1 : r ∉ opsE1_W) :
    after opsE1 (after opsT0 (after opsE0 (after opsP V0))) (Proc.devRef .tc r) = after opsP V0 (Proc.devRef .tc r) :=
  (after_opsE1_keep _ hE1).trans (carry3 V0 hE0 hT0)

theorem carry5 {r : Ref sig .tc} (hE0 : r ∉ opsE0_W) (hT0 : r ∉ opsT0_W) (hE1 : r ∉ opsE1_W) (hT1 : r ∉ opsT1_W) :
    after opsT1 (after opsE1 (after opsT0 (after opsE0 (after opsP V0)))) (Proc.devRef .tc r) = after opsP V0 (Proc.devRef .tc r) :=
  (after_opsT1_keep _ hT1).trans (carry4 V0 hE0 hT0 hE1)

theorem carry6 {r : Ref sig .tc} (hE0 : r ∉ opsE0_W) (hT0 : r ∉ opsT0_W) (hE1 : r ∉ opsE1_W) (hT1 : r ∉ opsT1_W) (hE2 : r ∉ opsE2_W) :
    after opsE2 (after opsT1 (after opsE1 (after opsT0 (after opsE0 (after opsP V0))))) (Proc.devRef .tc r) = after opsP V0 (Proc.devRef .tc r) :=
  (after_opsE2_keep _ hE2).trans (carry5 V0 hE0 hT0 hE1 hT1)

theorem carry7 {r : Ref sig .tc} (hE0 : r ∉ opsE0_W) (hT0 : r ∉ opsT0_W) (hE1 : r ∉ opsE1_W) (hT1 : r ∉ opsT1_W) (hE2 : r ∉ opsE2_W) (hT2 : r ∉ opsT2_W) :
    after opsT2 (after opsE2 (after opsT1 (after opsE1 (after opsT0 (after opsE0 (after opsP V0)))))) (Proc.devRef .tc r) = after opsP V0 (Proc.devRef .tc r) :=
  (after_opsT2_keep _ hT2).trans (carry6 V0 hE0 hT0 hE1 hT1 hE2)

end Stages

/-! ## The value, layer after layer -/

section Value

variable (V0 : Valuation τ sig (Elt Ideal))

/-! The graph and the edge weights, where each later layer reads them: what the prologue left. -/

theorem at2_v5 : after opsE0 (after opsP V0) (Proc.devRef .tc main_v5) = srcIdx (V0 (Proc.devRef .tc main_arg1)) :=
  (carry2 V0 (r := main_v5) (by decide)).trans (after_opsP_v5 V0)

theorem at3_v5 : after opsT0 (after opsE0 (after opsP V0)) (Proc.devRef .tc main_v5) = srcIdx (V0 (Proc.devRef .tc main_arg1)) :=
  (carry3 V0 (r := main_v5) (by decide) (by decide)).trans (after_opsP_v5 V0)

theorem at4_v5 : after opsE1 (after opsT0 (after opsE0 (after opsP V0))) (Proc.devRef .tc main_v5) = srcIdx (V0 (Proc.devRef .tc main_arg1)) :=
  (carry4 V0 (r := main_v5) (by decide) (by decide) (by decide)).trans (after_opsP_v5 V0)

theorem at5_v5 : after opsT1 (after opsE1 (after opsT0 (after opsE0 (after opsP V0)))) (Proc.devRef .tc main_v5) = srcIdx (V0 (Proc.devRef .tc main_arg1)) :=
  (carry5 V0 (r := main_v5) (by decide) (by decide) (by decide) (by decide)).trans (after_opsP_v5 V0)

theorem at6_v5 : after opsE2 (after opsT1 (after opsE1 (after opsT0 (after opsE0 (after opsP V0))))) (Proc.devRef .tc main_v5) = srcIdx (V0 (Proc.devRef .tc main_arg1)) :=
  (carry6 V0 (r := main_v5) (by decide) (by decide) (by decide) (by decide) (by decide)).trans (after_opsP_v5 V0)

theorem at7_v5 : after opsT2 (after opsE2 (after opsT1 (after opsE1 (after opsT0 (after opsE0 (after opsP V0)))))) (Proc.devRef .tc main_v5) = srcIdx (V0 (Proc.devRef .tc main_arg1)) :=
  (carry7 V0 (r := main_v5) (by decide) (by decide) (by decide) (by decide) (by decide) (by decide)).trans (after_opsP_v5 V0)

theorem at2_v10 : after opsE0 (after opsP V0) (Proc.devRef .tc main_v10) = dstIdx (V0 (Proc.devRef .tc main_arg1)) :=
  (carry2 V0 (r := main_v10) (by decide)).trans (after_opsP_v10 V0)

theorem at3_v10 : after opsT0 (after opsE0 (after opsP V0)) (Proc.devRef .tc main_v10) = dstIdx (V0 (Proc.devRef .tc main_arg1)) :=
  (carry3 V0 (r := main_v10) (by decide) (by decide)).trans (after_opsP_v10 V0)

theorem at4_v10 : after opsE1 (after opsT0 (after opsE0 (after opsP V0))) (Proc.devRef .tc main_v10) = dstIdx (V0 (Proc.devRef .tc main_arg1)) :=
  (carry4 V0 (r := main_v10) (by decide) (by decide) (by decide)).trans (after_opsP_v10 V0)

theorem at5_v10 : after opsT1 (after opsE1 (after opsT0 (after opsE0 (after opsP V0)))) (Proc.devRef .tc main_v10) = dstIdx (V0 (Proc.devRef .tc main_arg1)) :=
  (carry5 V0 (r := main_v10) (by decide) (by decide) (by decide) (by decide)).trans (after_opsP_v10 V0)

theorem at6_v10 : after opsE2 (after opsT1 (after opsE1 (after opsT0 (after opsE0 (after opsP V0))))) (Proc.devRef .tc main_v10) = dstIdx (V0 (Proc.devRef .tc main_arg1)) :=
  (carry6 V0 (r := main_v10) (by decide) (by decide) (by decide) (by decide) (by decide)).trans (after_opsP_v10 V0)

theorem at7_v10 : after opsT2 (after opsE2 (after opsT1 (after opsE1 (after opsT0 (after opsE0 (after opsP V0)))))) (Proc.devRef .tc main_v10) = dstIdx (V0 (Proc.devRef .tc main_arg1)) :=
  (carry7 V0 (r := main_v10) (by decide) (by decide) (by decide) (by decide) (by decide) (by decide)).trans (after_opsP_v10 V0)

theorem at3_v11 : after opsT0 (after opsE0 (after opsP V0)) (Proc.devRef .tc main_v11) = edgeAttr (V0 (Proc.devRef .tc main_arg2)) :=
  (carry3 V0 (r := main_v11) (by decide) (by decide)).trans (after_opsP_v11 V0)

theorem at5_v11 : after opsT1 (after opsE1 (after opsT0 (after opsE0 (after opsP V0)))) (Proc.devRef .tc main_v11) = edgeAttr (V0 (Proc.devRef .tc main_arg2)) :=
  (carry5 V0 (r := main_v11) (by decide) (by decide) (by decide) (by decide)).trans (after_opsP_v11 V0)

theorem at7_v11 : after opsT2 (after opsE2 (after opsT1 (after opsE1 (after opsT0 (after opsE0 (after opsP V0)))))) (Proc.devRef .tc main_v11) = edgeAttr (V0 (Proc.devRef .tc main_arg2)) :=
  (carry7 V0 (r := main_v11) (by decide) (by decide) (by decide) (by decide) (by decide) (by decide)).trans (after_opsP_v11 V0)

theorem at2_v37 : after opsE0 (after opsP V0) (Proc.devRef .tc main_v37) = normOf (disOf (degOf (dstIdx (V0 (Proc.devRef .tc main_arg1))))) (srcIdx (V0 (Proc.devRef .tc main_arg1))) (dstIdx (V0 (Proc.devRef .tc main_arg1))) :=
  (carry2 V0 (r := main_v37) (by decide)).trans (after_opsP_v37 V0)

theorem at4_v37 : after opsE1 (after opsT0 (after opsE0 (after opsP V0))) (Proc.devRef .tc main_v37) = normOf (disOf (degOf (dstIdx (V0 (Proc.devRef .tc main_arg1))))) (srcIdx (V0 (Proc.devRef .tc main_arg1))) (dstIdx (V0 (Proc.devRef .tc main_arg1))) :=
  (carry4 V0 (r := main_v37) (by decide) (by decide) (by decide)).trans (after_opsP_v37 V0)

theorem at6_v37 : after opsE2 (after opsT1 (after opsE1 (after opsT0 (after opsE0 (after opsP V0))))) (Proc.devRef .tc main_v37) = normOf (disOf (degOf (dstIdx (V0 (Proc.devRef .tc main_arg1))))) (srcIdx (V0 (Proc.devRef .tc main_arg1))) (dstIdx (V0 (Proc.devRef .tc main_arg1))) :=
  (carry6 V0 (r := main_v37) (by decide) (by decide) (by decide) (by decide) (by decide)).trans (after_opsP_v37 V0)

/-! Each layer's result, from the one before. -/

theorem val_h0 : after opsE0 (after opsP V0) (Proc.devRef .tc main_v65) = refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6)) := by
  rw [after_opsE0, after_opsP_v0, after_opsP_v5, after_opsP_v10, after_opsP_v11,
    keep1 V0 (r := main_arg3) (by decide),
    keep1 V0 (r := main_arg4) (by decide),
    keep1 V0 (r := main_arg5) (by decide),
    keep1 V0 (r := main_arg6) (by decide)]

theorem val_t0 : after opsT0 (after opsE0 (after opsP V0)) (Proc.devRef .tc main_v127) = refTAG (refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs0 (V0 (Proc.devRef .tc main_arg15))) (tagB0 (V0 (Proc.devRef .tc main_arg16))) := by
  rw [after_opsT0, val_h0, at2_v5, at2_v10, at2_v37,
    keep2 V0 (r := main_arg15) (by decide) (by decide),
    keep2 V0 (r := main_arg16) (by decide) (by decide)]

theorem val_h1 : after opsE1 (after opsT0 (after opsE0 (after opsP V0))) (Proc.devRef .tc main_v163) = refEAmid (refTAG (refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs0 (V0 (Proc.devRef .tc main_arg15))) (tagB0 (V0 (Proc.devRef .tc main_arg16)))) (srcIdx (V0 (Proc.devRef .tc main_arg1))) (dstIdx (V0 (Proc.devRef .tc main_arg1))) (edgeAttr (V0 (Proc.devRef .tc main_arg2))) (midW1_0 (V0 (Proc.devRef .tc main_arg7))) (midB_0 (V0 (Proc.devRef .tc main_arg8))) (midW2_0 (V0 (Proc.devRef .tc main_arg9))) (midB_0 (V0 (Proc.devRef .tc main_arg10))) := by
  rw [after_opsE1, val_t0, at3_v5, at3_v10, at3_v11,
    keep3 V0 (r := main_arg7) (by decide) (by decide) (by decide),
    keep3 V0 (r := main_arg8) (by decide) (by decide) (by decide),
    keep3 V0 (r := main_arg9) (by decide) (by decide) (by decide),
    keep3 V0 (r := main_arg10) (by decide) (by decide) (by decide)]

theorem val_t1 : after opsT1 (after opsE1 (after opsT0 (after opsE0 (after opsP V0)))) (Proc.devRef .tc main_v225) = refTAG (refEAmid (refTAG (refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs0 (V0 (Proc.devRef .tc main_arg15))) (tagB0 (V0 (Proc.devRef .tc main_arg16)))) (srcIdx (V0 (Proc.devRef .tc main_arg1))) (dstIdx (V0 (Proc.devRef .tc main_arg1))) (edgeAttr (V0 (Proc.devRef .tc main_arg2))) (midW1_0 (V0 (Proc.devRef .tc main_arg7))) (midB_0 (V0 (Proc.devRef .tc main_arg8))) (midW2_0 (V0 (Proc.devRef .tc main_arg9))) (midB_0 (V0 (Proc.devRef .tc main_arg10)))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs1 (V0 (Proc.devRef .tc main_arg15))) (tagB1 (V0 (Proc.devRef .tc main_arg16))) := by
  rw [after_opsT1, val_h1, at4_v5, at4_v10, at4_v37,
    keep4 V0 (r := main_arg15) (by decide) (by decide) (by decide) (by decide),
    keep4 V0 (r := main_arg16) (by decide) (by decide) (by decide) (by decide)]

theorem val_h2 : after opsE2 (after opsT1 (after opsE1 (after opsT0 (after opsE0 (after opsP V0))))) (Proc.devRef .tc main_v261) = refEAmid (refTAG (refEAmid (refTAG (refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs0 (V0 (Proc.devRef .tc main_arg15))) (tagB0 (V0 (Proc.devRef .tc main_arg16)))) (srcIdx (V0 (Proc.devRef .tc main_arg1))) (dstIdx (V0 (Proc.devRef .tc main_arg1))) (edgeAttr (V0 (Proc.devRef .tc main_arg2))) (midW1_0 (V0 (Proc.devRef .tc main_arg7))) (midB_0 (V0 (Proc.devRef .tc main_arg8))) (midW2_0 (V0 (Proc.devRef .tc main_arg9))) (midB_0 (V0 (Proc.devRef .tc main_arg10)))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs1 (V0 (Proc.devRef .tc main_arg15))) (tagB1 (V0 (Proc.devRef .tc main_arg16)))) (srcIdx (V0 (Proc.devRef .tc main_arg1))) (dstIdx (V0 (Proc.devRef .tc main_arg1))) (edgeAttr (V0 (Proc.devRef .tc main_arg2))) (midW1_1 (V0 (Proc.devRef .tc main_arg7))) (midB_1 (V0 (Proc.devRef .tc main_arg8))) (midW2_1 (V0 (Proc.devRef .tc main_arg9))) (midB_1 (V0 (Proc.devRef .tc main_arg10))) := by
  rw [after_opsE2, val_t1, at5_v5, at5_v10, at5_v11,
    keep5 V0 (r := main_arg7) (by decide) (by decide) (by decide) (by decide) (by decide),
    keep5 V0 (r := main_arg8) (by decide) (by decide) (by decide) (by decide) (by decide),
    keep5 V0 (r := main_arg9) (by decide) (by decide) (by decide) (by decide) (by decide),
    keep5 V0 (r := main_arg10) (by decide) (by decide) (by decide) (by decide) (by decide)]

theorem val_t2 : after opsT2 (after opsE2 (after opsT1 (after opsE1 (after opsT0 (after opsE0 (after opsP V0)))))) (Proc.devRef .tc main_v323) = refTAG (refEAmid (refTAG (refEAmid (refTAG (refEA0 (nodeX (V0 (Proc.devRef .tc main_arg0))) (srcIdx (V0 (Proc.devRef .tc main_arg1))) (dstIdx (V0 (Proc.devRef .tc main_arg1))) (edgeAttr (V0 (Proc.devRef .tc main_arg2))) (V0 (Proc.devRef .tc main_arg3)) (V0 (Proc.devRef .tc main_arg4)) (V0 (Proc.devRef .tc main_arg5)) (V0 (Proc.devRef .tc main_arg6))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs0 (V0 (Proc.devRef .tc main_arg15))) (tagB0 (V0 (Proc.devRef .tc main_arg16)))) (srcIdx (V0 (Proc.devRef .tc main_arg1))) (dstIdx (V0 (Proc.devRef .tc main_arg1))) (edgeAttr (V0 (Proc.devRef .tc main_arg2))) (midW1_0 (V0 (Proc.devRef .tc main_arg7))) (midB_0 (V0 (Proc.devRef .tc main_arg8))) (midW2_0 (V0 (Proc.devRef .tc main_arg9))) (midB_0 (V0 (Proc.devRef .tc main_arg10)))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs1 (V0 (Proc.devRef .tc main_arg15))) (tagB1 (V0 (Proc.devRef .tc main_arg16)))) (srcIdx (V0 (Proc.devRef .tc main_arg1))) (dstIdx (V0 (Proc.devRef .tc main_arg1))) (edgeAttr (V0 (Proc.devRef .tc main_arg2))) (midW1_1 (V0 (Proc.devRef .tc main_arg7))) (midB_1 (V0 (Proc.devRef .tc main_arg8))) (midW2_1 (V0 (Proc.devRef .tc main_arg9))) (midB_1 (V0 (Proc.devRef .tc main_arg10)))) (srcIdx (V0 (Proc.devRef .tc main_arg1))) (dstIdx (V0 (Proc.devRef .tc main_arg1))) (normOf (disOf (degOf (dstIdx (V0 (Proc.devRef .tc main_arg1))))) (srcIdx (V0 (Proc.devRef .tc main_arg1))) (dstIdx (V0 (Proc.devRef .tc main_arg1)))) (tagWs2 (V0 (Proc.devRef .tc main_arg15))) (tagB2 (V0 (Proc.devRef .tc main_arg16))) := by
  rw [after_opsT2, val_h2, at6_v5, at6_v10, at6_v37,
    keep6 V0 (r := main_arg15) (by decide) (by decide) (by decide) (by decide) (by decide) (by decide),
    keep6 V0 (r := main_arg16) (by decide) (by decide) (by decide) (by decide) (by decide) (by decide)]

/-- The whole list's fold leaves the network's value of the arguments in the result buffer. -/
theorem out_eq : after opsAll V0 (Proc.devRef .tc main_v350)
    = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  rw [after_opsAll, after_opsE3, val_t2, at7_v5, at7_v10, at7_v11,
    keep7 V0 (r := main_arg11) (by decide) (by decide) (by decide) (by decide) (by decide) (by decide) (by decide),
    keep7 V0 (r := main_arg12) (by decide) (by decide) (by decide) (by decide) (by decide) (by decide) (by decide),
    keep7 V0 (r := main_arg13) (by decide) (by decide) (by decide) (by decide) (by decide) (by decide) (by decide),
    keep7 V0 (r := main_arg14) (by decide) (by decide) (by decide) (by decide) (by decide) (by decide) (by decide)]
  simp only [refOut]

/-- The whole list's fold leaves an argument as it was: no layer writes it. -/
theorem arg_eq {r : Ref sig .tc} (hP : r ∉ opsP_W) (hE0 : r ∉ opsE0_W) (hT0 : r ∉ opsT0_W) (hE1 : r ∉ opsE1_W) (hT1 : r ∉ opsT1_W) (hE2 : r ∉ opsE2_W) (hT2 : r ∉ opsT2_W) (hE3 : r ∉ opsE3_W) :
    after opsAll V0 (Proc.devRef .tc r) = V0 (Proc.devRef .tc r) := by
  rw [after_opsAll]; exact keep8 V0 hP hE0 hT0 hE1 hT1 hE2 hT2 hE3

end Value

/-! ## The run -/

/-- On every device, from any memory with zero counters: every weakly fair execution of the program terminates with
    the result buffer at the network's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v350)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v350).trans (out_eq (launchContents m c)),
      (h c main_arg0).trans (arg_eq (launchContents m c) (r := main_arg0) (by decide) (by decide) (by decide) (by decide) (by decide) (by decide) (by decide) (by decide)),
      (h c main_arg1).trans (arg_eq (launchContents m c) (r := main_arg1) (by decide) (by decide) (by decide) (by decide) (by decide) (by decide) (by decide) (by decide)),
      (h c main_arg2).trans (arg_eq (launchContents m c) (r := main_arg2) (by decide) (by decide) (by decide) (by decide) (by decide) (by decide) (by decide) (by decide)),
      (h c main_arg3).trans (arg_eq (launchContents m c) (r := main_arg3) (by decide) (by decide) (by decide) (by decide) (by decide) (by decide) (by decide) (by decide)),
      (h c main_arg4).trans (arg_eq (launchContents m c) (r := main_arg4) (by decide) (by decide) (by decide) (by decide) (by decide) (by decide) (by decide) (by decide)),
      (h c main_arg5).trans (arg_eq (launchContents m c) (r := main_arg5) (by decide) (by decide) (by decide) (by decide) (by decide) (by decide) (by decide) (by decide)),
      (h c main_arg6).trans (arg_eq (launchContents m c) (r := main_arg6) (by decide) (by decide) (by decide) (by decide) (by decide) (by decide) (by decide) (by decide)),
      (h c main_arg7).trans (arg_eq (launchContents m c) (r := main_arg7) (by decide) (by decide) (by decide) (by decide) (by decide) (by decide) (by decide) (by decide)),
      (h c main_arg8).trans (arg_eq (launchContents m c) (r := main_arg8) (by decide) (by decide) (by decide) (by decide) (by decide) (by decide) (by decide) (by decide)),
      (h c main_arg9).trans (arg_eq (launchContents m c) (r := main_arg9) (by decide) (by decide) (by decide) (by decide) (by decide) (by decide) (by decide) (by decide)),
      (h c main_arg10).trans (arg_eq (launchContents m c) (r := main_arg10) (by decide) (by decide) (by decide) (by decide) (by decide) (by decide) (by decide) (by decide)),
      (h c main_arg11).trans (arg_eq (launchContents m c) (r := main_arg11) (by decide) (by decide) (by decide) (by decide) (by decide) (by decide) (by decide) (by decide)),
      (h c main_arg12).trans (arg_eq (launchContents m c) (r := main_arg12) (by decide) (by decide) (by decide) (by decide) (by decide) (by decide) (by decide) (by decide)),
      (h c main_arg13).trans (arg_eq (launchContents m c) (r := main_arg13) (by decide) (by decide) (by decide) (by decide) (by decide) (by decide) (by decide) (by decide)),
      (h c main_arg14).trans (arg_eq (launchContents m c) (r := main_arg14) (by decide) (by decide) (by decide) (by decide) (by decide) (by decide) (by decide) (by decide)),
      (h c main_arg15).trans (arg_eq (launchContents m c) (r := main_arg15) (by decide) (by decide) (by decide) (by decide) (by decide) (by decide) (by decide) (by decide)),
      (h c main_arg16).trans (arg_eq (launchContents m c) (r := main_arg16) (by decide) (by decide) (by decide) (by decide) (by decide) (by decide) (by decide) (by decide))⟩)
    (run_fold m ρ)

end Cert.ReferenceIdeal.Hand

end
-- ==== Proof.AlgEdge.lean ====
/-
  The per-edge message function two ways.

  The reference lays the three inputs of an edge side by side — the features at its target end, the features at its
  source end, its attributes — and multiplies the 2·D+5 columns by one weight matrix. The kernel program never forms
  that wide row: it multiplies each of the three parts by its own block of the weight matrix's rows and adds the
  three products. A sum over 2·D+5 columns is the sum of its three stretches, so the two are one function; only
  associativity and commutativity of addition are used, so nothing is asked of the entries.
-/
import proofs.«120992_j5111011082634_2_alg».proof.Proof.Ref.Layers
import proofs.«120992_j5111011082634_2_alg».proof.Proof.Spec
import proofs.«120992_j5111011082634_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.Alg

open Cert.ReferenceIdeal Cert.ReferenceIdeal.Gen Cert.ReferenceIdeal.Hand Cert.Spec
open Idealize.ShloMosaic Idealize.ShloMosaic.ValueIdx
open scoped BigOperators

/-- A sum over n₁ + n₂ + n₃ indices is the sum of its three stretches. -/
theorem sum_fin_split3 {M : Type*} [AddCommMonoid M] (n1 n2 n3 N : ℕ) (hN : N = n1 + n2 + n3) (f : Fin N → M) :
    ∑ j, f j = ((∑ a : Fin n1, f ⟨a.val, by have := a.isLt; omega⟩) + (∑ a : Fin n2, f ⟨n1 + a.val, by have := a.isLt; omega⟩))
      + ∑ a : Fin n3, f ⟨n1 + n2 + a.val, by have := a.isLt; omega⟩ := by
  subst hN
  rw [Fin.sum_univ_add, Fin.sum_univ_add]
  rfl

/-! ## Broadcast biases and the zero array, read at an index -/

/-- A bias of 64 laid along 640000 rows reads its column. -/
theorem edgeBias64_apply (b : FVec Ideal S64 .f32) (p : Fin 640000) (k : Fin 64) : edgeBias64 b (ix2 p k) = b (ix1 k) := by
  unfold edgeBias64
  refine (broadcastInDim_apply _ _ _ (ix2 p k) (ix2 (0 : Fin 1) k) (fun ax => ?_)).trans
    (broadcastInDim_apply _ _ _ (ix2 (0 : Fin 1) k) (ix1 k) (fun ax => ?_))
  · match ax with
    | ⟨0, _⟩ => rfl
    | ⟨1, _⟩ => rfl
  · match ax with
    | ⟨0, _⟩ => rfl

/-- The rectifier's zero array reads zero. -/
theorem zeroE_apply (p : Fin 640000) (k : Fin 64) :
    broadcastInDim S640000x64 ![] bcast_S_S640000x64 (constant (F := Ideal) S_ .f32 0x00000000#32) (ix2 p k) = 0 := by
  refine (broadcastInDim_apply _ _ _ (ix2 p k) ix0 (fun ax => ax.elim0)).trans ?_
  exact Ideal.ofBits_zero_f32

/-! ## The 133-column message function -/

theorem refdot133_eq : dot_S640000x133_S133x64_S640000x64_1_0_0_1_n_n = DotDims.plain 640000 133 64 := rfl
theorem refdot64_eq : dot_S640000x64_S64x64_S640000x64_1_0_0_1_n_n = DotDims.plain 640000 64 64 := rfl

/-- Columns 0 … 63 of an edge's wide row are the features at its target end. -/
theorem edgeIn133_col0 (x : FVec Ideal S20000x64 .f32) (src dst : IVec S640000 32) (ea : FVec Ideal S640000x5 .f32)
    (p : Fin 640000) (a : Fin 64) (j : Fin 133) (hj : j.val = a.val) :
    edgeIn133 x src dst ea (ix2 p j) = rows64 x dst (ix2 p a) := by
  unfold edgeIn133
  refine concatenate_apply_piece _ _ _ _ 0 ?_ S640000x64 (rows64 x dst) ?_ ?_ 0 ?_ (ix2 p a) ?_ ?_
  · exact (by decide : 0 < 3)
  · rfl
  · rfl
  · rfl
  · intro b hb
    match b with
    | ⟨0, _⟩ => rfl
    | ⟨1, _⟩ => exact absurd rfl hb
  · show 0 + a.val = j.val; omega

/-- Columns 64 … 127 are the features at its source end. -/
theorem edgeIn133_col1 (x : FVec Ideal S20000x64 .f32) (src dst : IVec S640000 32) (ea : FVec Ideal S640000x5 .f32)
    (p : Fin 640000) (a : Fin 64) (j : Fin 133) (hj : j.val = 64 + a.val) :
    edgeIn133 x src dst ea (ix2 p j) = rows64 x src (ix2 p a) := by
  unfold edgeIn133
  refine concatenate_apply_piece _ _ _ _ 1 ?_ S640000x64 (rows64 x src) ?_ ?_ 64 ?_ (ix2 p a) ?_ ?_
  · exact (by decide : 1 < 3)
  · rfl
  · rfl
  · rfl
  · intro b hb
    match b with
    | ⟨0, _⟩ => rfl
    | ⟨1, _⟩ => exact absurd rfl hb
  · show 64 + a.val = j.val; omega

/-- Columns 128 … 132 are its attributes. -/
theorem edgeIn133_col2 (x : FVec Ideal S20000x64 .f32) (src dst : IVec S640000 32) (ea : FVec Ideal S640000x5 .f32)
    (p : Fin 640000) (a : Fin 5) (j : Fin 133) (hj : j.val = 128 + a.val) :
    edgeIn133 x src dst ea (ix2 p j) = ea (ix2 p a) := by
  unfold edgeIn133
  refine concatenate_apply_piece _ _ _ _ 2 ?_ S640000x5 (ea) ?_ ?_ 128 ?_ (ix2 p a) ?_ ?_
  · exact (by decide : 2 < 3)
  · rfl
  · rfl
  · rfl
  · intro b hb
    match b with
    | ⟨0, _⟩ => rfl
    | ⟨1, _⟩ => exact absurd rfl hb
  · show 128 + a.val = j.val; omega

/-- THE WIDE ROW AGAINST A WEIGHT COLUMN is the three parts against the three blocks of the column's rows. -/
theorem dot_edgeIn133 (x : FVec Ideal S20000x64 .f32) (src dst : IVec S640000 32) (ea : FVec Ideal S640000x5 .f32)
    (W1 : FVec Ideal S133x64 .f32) (p : Fin 640000) (k : Fin 64) :
    Host.dotGeneral (F := Ideal) dot_S640000x133_S133x64_S640000x64_1_0_0_1_n_n none (edgeIn133 x src dst ea) W1 (ix2 p k)
      = ((∑ a : Fin 64, rows64 x dst (ix2 p a) * W1 (ix2 (⟨a.val, by have := a.isLt; omega⟩ : Fin 133) k))
          + (∑ a : Fin 64, rows64 x src (ix2 p a) * W1 (ix2 (⟨64 + a.val, by have := a.isLt; omega⟩ : Fin 133) k)))
        + ∑ a : Fin 5, ea (ix2 p a) * W1 (ix2 (⟨64 + 64 + a.val, by have := a.isLt; omega⟩ : Fin 133) k) := by
  simp only [Host.dotGeneral]
  rw [refdot133_eq]
  refine (Ideal.dotGeneral_apply _ _ _ _ _ _).trans ?_
  rw [Cert.PlainDot.contr_sum, sum_fin_split3 64 64 5 133 rfl]
  refine congrArg₂ (· + ·) (congrArg₂ (· + ·) ?_ ?_) ?_ <;> refine Finset.sum_congr rfl fun a _ => ?_
  · rw [edgeIn133_col0 x src dst ea p a _ rfl]
  · rw [edgeIn133_col1 x src dst ea p a _ rfl]
  · rw [edgeIn133_col2 x src dst ea p a _ rfl]

/-- THE 133-COLUMN MESSAGE FUNCTION, the reference's way and the kernel program's way. `wd`, `ws`, `we` are the three
    blocks of the first weight matrix's rows (0 … 63, 64 … 127, 128 … 132) and `r1`, `r2` the two biases as rows. -/
theorem edge_mid_msg (x : FVec Ideal S20000x64 .f32) (src dst : IVec S640000 32) (ea : FVec Ideal S640000x5 .f32)
    (W1 : FVec Ideal S133x64 .f32) (b1 : FVec Ideal S64 .f32) (W2 : FVec Ideal S64x64 .f32) (b2 : FVec Ideal S64 .f32)
    (wd ws : FVec Ideal S64x64 .f32) (we : FVec Ideal ⟨2, ![5, 64]⟩ .f32) (r1 r2 : FVec Ideal S1x64 .f32)
    (hwd : ∀ (a : Fin 64) (k : Fin 64), wd (ix2 a k) = W1 (ix2 (⟨a.val, by have := a.isLt; omega⟩ : Fin 133) k))
    (hws : ∀ (a : Fin 64) (k : Fin 64), ws (ix2 a k) = W1 (ix2 (⟨64 + a.val, by have := a.isLt; omega⟩ : Fin 133) k))
    (hwe : ∀ (a : Fin 5) (k : Fin 64), we (ix2 a k) = W1 (ix2 (⟨64 + 64 + a.val, by have := a.isLt; omega⟩ : Fin 133) k))
    (hr1 : ∀ k : Fin 64, r1 (ix2 (0 : Fin 1) k) = b1 (ix1 k)) (hr2 : ∀ k : Fin 64, r2 (ix2 (0 : Fin 1) k) = b2 (ix1 k)) :
    edgeOut64 (addf (F := Ideal)
        (Host.dotGeneral (F := Ideal) dot_S640000x133_S133x64_S640000x64_1_0_0_1_n_n none (edgeIn133 x src dst ea) W1)
        (edgeBias64 b1)) W2 b2
      = mlpG (D := 64) (O := 64) (rows64 x dst) (rows64 x src) ea wd ws we r1 W2 r2 := by
  funext i
  obtain ⟨p, q, rfl⟩ : ∃ (p : Fin 640000) (q : Fin 64), i = ix2 p q := ⟨i 0, i 1, eq_ix2 i⟩
  show _ = mlpRow (D := 64) (O := 64) (rows64 x dst) (rows64 x src) ea wd ws we r1 W2 r2 p q
  unfold edgeOut64 mlpRow Cert.Spec.hidden
  rw [addf_apply, edgeBias64_apply, hr2 q]
  refine congrArg (fun s => s + _) ?_
  simp only [Host.dotGeneral]
  rw [refdot64_eq]
  refine (Ideal.dotGeneral_apply _ _ _ _ _ _).trans ?_
  rw [Cert.PlainDot.contr_sum]
  refine Finset.sum_congr rfl fun k _ => ?_
  refine congrArg (fun s => s * _) ?_
  unfold reluE
  rw [maximumf_apply, addf_apply, edgeBias64_apply, zeroE_apply, hr1 k]
  refine congrArg (fun s => max (s + _) 0) ?_
  refine (dot_edgeIn133 x src dst ea W1 p k).trans ?_
  simp only [hwd, hws, hwe]

end Cert.Alg

end
-- ==== Proof.AlgEdge17.lean ====
/-
  The first per-edge message function two ways.

  The first edge layer reads 6 features at each end of an edge and the edge's 5 attributes. The reference lays them
  side by side into a row of 17 and multiplies by one 17 × 64 weight matrix; the kernel program multiplies the three
  parts by rows 0 … 5, 6 … 11 and 12 … 16 of that matrix and adds the three products. A sum over 17 columns is the sum
  of its stretches of 6, 6 and 5, so the two are one function; only associativity and commutativity of addition are
  used.
-/
import proofs.«120992_j5111011082634_2_alg».proof.Proof.AlgEdge
import Idealize.ShloMosaic.PureOps.Ideal.Laws
import Idealize.ShloMosaic.Lib.ValueIdx
import Idealize.ShloMosaic.Lib.ValueLayout
import Idealize.ShloMosaic.Lib.Pipeline.Value

noncomputable section

namespace Cert.Alg

open Cert.ReferenceIdeal Cert.ReferenceIdeal.Gen Cert.ReferenceIdeal.Hand Cert.Spec
open Idealize.ShloMosaic Idealize.ShloMosaic.ValueIdx
open scoped BigOperators

theorem refdot17_eq : dot_S640000x17_S17x64_S640000x64_1_0_0_1_n_n = DotDims.plain 640000 17 64 := rfl

/-- Columns 0 … 5 of an edge's row of 17 are the features at its target end. -/
theorem edgeIn17_col0 (x : FVec Ideal S20000x6 .f32) (src dst : IVec S640000 32) (ea : FVec Ideal S640000x5 .f32)
    (p : Fin 640000) (a : Fin 6) (j : Fin 17) (hj : j.val = a.val) :
    edgeIn17 x src dst ea (ix2 p j) = rows6 x dst (ix2 p a) := by
  unfold edgeIn17
  refine concatenate_apply_piece _ _ _ _ 0 ?_ S640000x6 (rows6 x dst) ?_ ?_ 0 ?_ (ix2 p a) ?_ ?_
  · exact (by decide : 0 < 3)
  · rfl
  · rfl
  · rfl
  · intro b hb
    match b with
    | ⟨0, _⟩ => rfl
    | ⟨1, _⟩ => exact absurd rfl hb
  · show 0 + a.val = j.val; omega

/-- Columns 6 … 11 are the features at its source end. -/
theorem edgeIn17_col1 (x : FVec Ideal S20000x6 .f32) (src dst : IVec S640000 32) (ea : FVec Ideal S640000x5 .f32)
    (p : Fin 640000) (a : Fin 6) (j : Fin 17) (hj : j.val = 6 + a.val) :
    edgeIn17 x src dst ea (ix2 p j) = rows6 x src (ix2 p a) := by
  unfold edgeIn17
  refine concatenate_apply_piece _ _ _ _ 1 ?_ S640000x6 (rows6 x src) ?_ ?_ 6 ?_ (ix2 p a) ?_ ?_
  · exact (by decide : 1 < 3)
  · rfl
  · rfl
  · rfl
  · intro b hb
    match b with
    | ⟨0, _⟩ => rfl
    | ⟨1, _⟩ => exact absurd rfl hb
  · show 6 + a.val = j.val; omega

/-- Columns 12 … 16 are its attributes. -/
theorem edgeIn17_col2 (x : FVec Ideal S20000x6 .f32) (src dst : IVec S640000 32) (ea : FVec Ideal S640000x5 .f32)
    (p : Fin 640000) (a : Fin 5) (j : Fin 17) (hj : j.val = 6 + 6 + a.val) :
    edgeIn17 x src dst ea (ix2 p j) = ea (ix2 p a) := by
  unfold edgeIn17
  refine concatenate_apply_piece _ _ _ _ 2 ?_ S640000x5 (ea) ?_ ?_ 12 ?_ (ix2 p a) ?_ ?_
  · exact (by decide : 2 < 3)
  · rfl
  · rfl
  · rfl
  · intro b hb
    match b with
    | ⟨0, _⟩ => rfl
    | ⟨1, _⟩ => exact absurd rfl hb
  · show 12 + a.val = j.val; omega

/-- THE ROW OF 17 AGAINST A WEIGHT COLUMN is the three parts against the three blocks of the column's rows. -/
theorem dot_edgeIn17 (x : FVec Ideal S20000x6 .f32) (src dst : IVec S640000 32) (ea : FVec Ideal S640000x5 .f32)
    (W1 : FVec Ideal S17x64 .f32) (p : Fin 640000) (k : Fin 64) :
    Host.dotGeneral (F := Ideal) dot_S640000x17_S17x64_S640000x64_1_0_0_1_n_n none (edgeIn17 x src dst ea) W1 (ix2 p k)
      = ((∑ a : Fin 6, rows6 x dst (ix2 p a) * W1 (ix2 (⟨a.val, by have := a.isLt; omega⟩ : Fin 17) k))
          + (∑ a : Fin 6, rows6 x src (ix2 p a) * W1 (ix2 (⟨6 + a.val, by have := a.isLt; omega⟩ : Fin 17) k)))
        + ∑ a : Fin 5, ea (ix2 p a) * W1 (ix2 (⟨6 + 6 + a.val, by have := a.isLt; omega⟩ : Fin 17) k) := by
  simp only [Host.dotGeneral]
  rw [refdot17_eq]
  refine (Ideal.dotGeneral_apply _ _ _ _ _ _).trans ?_
  rw [Cert.PlainDot.contr_sum, sum_fin_split3 6 6 5 17 rfl]
  refine congrArg₂ (· + ·) (congrArg₂ (· + ·) ?_ ?_) ?_ <;> refine Finset.sum_congr rfl fun a _ => ?_
  · rw [edgeIn17_col0 x src dst ea p a _ rfl]
  · rw [edgeIn17_col1 x src dst ea p a _ rfl]
  · rw [edgeIn17_col2 x src dst ea p a _ rfl]

/-- THE 17-COLUMN MESSAGE FUNCTION, the reference's way and the kernel program's way. `wd`, `ws`, `we` are the three
    blocks of the first weight matrix's rows (0 … 5, 6 … 11, 12 … 16) and `r1`, `r2` the two biases as rows. -/
theorem edge_first_msg (x : FVec Ideal S20000x6 .f32) (src dst : IVec S640000 32) (ea : FVec Ideal S640000x5 .f32)
    (W1 : FVec Ideal S17x64 .f32) (b1 : FVec Ideal S64 .f32) (W2 : FVec Ideal S64x64 .f32) (b2 : FVec Ideal S64 .f32)
    (wd ws : FVec Ideal ⟨2, ![6, 64]⟩ .f32) (we : FVec Ideal ⟨2, ![5, 64]⟩ .f32) (r1 r2 : FVec Ideal S1x64 .f32)
    (hwd : ∀ (a : Fin 6) (k : Fin 64), wd (ix2 a k) = W1 (ix2 (⟨a.val, by have := a.isLt; omega⟩ : Fin 17) k))
    (hws : ∀ (a : Fin 6) (k : Fin 64), ws (ix2 a k) = W1 (ix2 (⟨6 + a.val, by have := a.isLt; omega⟩ : Fin 17) k))
    (hwe : ∀ (a : Fin 5) (k : Fin 64), we (ix2 a k) = W1 (ix2 (⟨6 + 6 + a.val, by have := a.isLt; omega⟩ : Fin 17) k))
    (hr1 : ∀ k : Fin 64, r1 (ix2 (0 : Fin 1) k) = b1 (ix1 k)) (hr2 : ∀ k : Fin 64, r2 (ix2 (0 : Fin 1) k) = b2 (ix1 k)) :
    edgeOut64 (addf (F := Ideal)
        (Host.dotGeneral (F := Ideal) dot_S640000x17_S17x64_S640000x64_1_0_0_1_n_n none (edgeIn17 x src dst ea) W1)
        (edgeBias64 b1)) W2 b2
      = mlpG (D := 6) (O := 64) (rows6 x dst) (rows6 x src) ea wd ws we r1 W2 r2 := by
  funext i
  obtain ⟨p, q, rfl⟩ : ∃ (p : Fin 640000) (q : Fin 64), i = ix2 p q := ⟨i 0, i 1, eq_ix2 i⟩
  show _ = mlpRow (D := 6) (O := 64) (rows6 x dst) (rows6 x src) ea wd ws we r1 W2 r2 p q
  unfold edgeOut64 mlpRow Cert.Spec.hidden
  rw [addf_apply, edgeBias64_apply, hr2 q]
  refine congrArg (fun s => s + _) ?_
  simp only [Host.dotGeneral]
  rw [refdot64_eq]
  refine (Ideal.dotGeneral_apply _ _ _ _ _ _).trans ?_
  rw [Cert.PlainDot.contr_sum]
  refine Finset.sum_congr rfl fun k _ => ?_
  refine congrArg (fun s => s * _) ?_
  unfold reluE
  rw [maximumf_apply, addf_apply, edgeBias64_apply, zeroE_apply, hr1 k]
  refine congrArg (fun s => max (s + _) 0) ?_
  refine (dot_edgeIn17 x src dst ea W1 p k).trans ?_
  simp only [hwd, hws, hwe]

end Cert.Alg

end
-- ==== Proof.AlgEdgeLast.lean ====
/-
  The last per-edge message function two ways.

  The last edge layer reads 64 features at each end of an edge and the edge's 5 attributes, as the middle layers do,
  but its second layer maps the 64 hidden values to 6 outputs. The first layer is the middle layers' (the row of 133
  against a weight column is the three parts against the three blocks of the column's rows); the second layer is a
  plain 64-term sum per output, and the bias of 6 is read by column.
-/
import proofs.«120992_j5111011082634_2_alg».proof.Proof.AlgEdge
import Idealize.ShloMosaic.PureOps.Ideal.Laws
import Idealize.ShloMosaic.Lib.ValueIdx
import Idealize.ShloMosaic.Lib.ValueLayout
import Idealize.ShloMosaic.Lib.Pipeline.Value

noncomputable section

namespace Cert.Alg

open Cert.ReferenceIdeal Cert.ReferenceIdeal.Gen Cert.ReferenceIdeal.Hand Cert.Spec
open Idealize.ShloMosaic Idealize.ShloMosaic.ValueIdx
open scoped BigOperators

/-- A bias of 6 laid along 640000 rows reads its column. -/
theorem edgeBias6_apply (b : FVec Ideal S6 .f32) (p : Fin 640000) (k : Fin 6) : edgeBias6 b (ix2 p k) = b (ix1 k) := by
  unfold edgeBias6
  refine (broadcastInDim_apply _ _ _ (ix2 p k) (ix2 (0 : Fin 1) k) (fun ax => ?_)).trans
    (broadcastInDim_apply _ _ _ (ix2 (0 : Fin 1) k) (ix1 k) (fun ax => ?_))
  · match ax with
    | ⟨0, _⟩ => rfl
    | ⟨1, _⟩ => rfl
  · match ax with
    | ⟨0, _⟩ => rfl

theorem refdot64x6_eq : dot_S640000x64_S64x6_S640000x6_1_0_0_1_n_n = DotDims.plain 640000 64 6 := rfl

/-- THE LAST MESSAGE FUNCTION, the reference's way and the kernel program's way: 133 inputs per edge, 64 hidden values,
    6 outputs. `wd`, `ws`, `we` are the three blocks of the first weight matrix's rows (0 … 63, 64 … 127, 128 … 132)
    and `r1`, `r2` the two biases as rows. -/
theorem edge_last_msg (x : FVec Ideal S20000x64 .f32) (src dst : IVec S640000 32) (ea : FVec Ideal S640000x5 .f32)
    (W1 : FVec Ideal S133x64 .f32) (b1 : FVec Ideal S64 .f32) (W2 : FVec Ideal S64x6 .f32) (b2 : FVec Ideal S6 .f32)
    (wd ws : FVec Ideal S64x64 .f32) (we : FVec Ideal ⟨2, ![5, 64]⟩ .f32) (r1 : FVec Ideal S1x64 .f32) (r2 : FVec Ideal S1x6 .f32)
    (hwd : ∀ (a : Fin 64) (k : Fin 64), wd (ix2 a k) = W1 (ix2 (⟨a.val, by have := a.isLt; omega⟩ : Fin 133) k))
    (hws : ∀ (a : Fin 64) (k : Fin 64), ws (ix2 a k) = W1 (ix2 (⟨64 + a.val, by have := a.isLt; omega⟩ : Fin 133) k))
    (hwe : ∀ (a : Fin 5) (k : Fin 64), we (ix2 a k) = W1 (ix2 (⟨64 + 64 + a.val, by have := a.isLt; omega⟩ : Fin 133) k))
    (hr1 : ∀ k : Fin 64, r1 (ix2 (0 : Fin 1) k) = b1 (ix1 k)) (hr2 : ∀ k : Fin 6, r2 (ix2 (0 : Fin 1) k) = b2 (ix1 k)) :
    addf (F := Ideal)
        (Host.dotGeneral (F := Ideal) dot_S640000x64_S64x6_S640000x6_1_0_0_1_n_n none
          (reluE (addf (F := Ideal)
            (Host.dotGeneral (F := Ideal) dot_S640000x133_S133x64_S640000x64_1_0_0_1_n_n none (edgeIn133 x src dst ea) W1)
            (edgeBias64 b1))) W2)
        (edgeBias6 b2)
      = mlpG (D := 64) (O := 6) (rows64 x dst) (rows64 x src) ea wd ws we r1 W2 r2 := by
  funext i
  obtain ⟨p, q, rfl⟩ : ∃ (p : Fin 640000) (q : Fin 6), i = ix2 p q := ⟨i 0, i 1, eq_ix2 i⟩
  show _ = mlpRow (D := 64) (O := 6) (rows64 x dst) (rows64 x src) ea wd ws we r1 W2 r2 p q
  unfold mlpRow Cert.Spec.hidden
  rw [addf_apply, edgeBias6_apply, hr2 q]
  refine congrArg (fun s => s + _) ?_
  simp only [Host.dotGeneral]
  rw [refdot64x6_eq]
  refine (Ideal.dotGeneral_apply _ _ _ _ _ _).trans ?_
  rw [Cert.PlainDot.contr_sum]
  refine Finset.sum_congr rfl fun k _ => ?_
  refine congrArg (fun s => s * _) ?_
  unfold reluE
  rw [maximumf_apply, addf_apply, edgeBias64_apply, zeroE_apply, hr1 k]
  refine congrArg (fun s => max (s + _) 0) ?_
  refine (dot_edgeIn133 x src dst ea W1 p k).trans ?_
  simp only [hwd, hws, hwe]

end Cert.Alg

end
-- ==== Proof.AlgTag.lean ====
/-
  A graph convolution's four products are one product.

  The reference multiplies the node features and their three successive propagations each by its own 64 × 64 weight
  and adds the four products, then the bias, then clamps at 0. The kernel program lays the four feature arrays side by
  side into 256 columns, stacks the four weights into one 256 × 64 matrix and multiplies once. Entry (v, q) of that one
  product is a sum over 256 columns; cut into its four stretches of 64 it is the four 64-term sums the reference adds,
  in the same order and the same nesting. Only the laws of a commutative monoid under addition are used.
-/
import proofs.«120992_j5111011082634_2_alg».proof.Proof.Ref.Layers
import proofs.«120992_j5111011082634_2_alg».proof.Proof.KI.KTerms
import proofs.«120992_j5111011082634_2_alg».proof.Proof.KI.Val1
import proofs.«120992_j5111011082634_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.Alg

open Cert.ReferenceIdeal Cert.ReferenceIdeal.Gen Cert.ReferenceIdeal.Hand
open Idealize.ShloMosaic Idealize.ShloMosaic.ValueIdx
open scoped BigOperators

/-- A sum over n₁ + n₂ + n₃ + n₄ indices is the sum of its four stretches, nested to the left. -/
theorem sum_fin_split4 {M : Type*} [AddCommMonoid M] (n1 n2 n3 n4 N : ℕ) (hN : N = n1 + n2 + n3 + n4) (f : Fin N → M) :
    ∑ j, f j = (((∑ a : Fin n1, f ⟨a.val, by have := a.isLt; omega⟩) + (∑ a : Fin n2, f ⟨n1 + a.val, by have := a.isLt; omega⟩))
        + ∑ a : Fin n3, f ⟨n1 + n2 + a.val, by have := a.isLt; omega⟩)
      + ∑ a : Fin n4, f ⟨n1 + n2 + n3 + a.val, by have := a.isLt; omega⟩ := by
  subst hN
  rw [Fin.sum_univ_add, Fin.sum_univ_add, Fin.sum_univ_add]
  rfl

/-! ## The bias and the zero array, read at an index -/

/-- A bias of 64 laid along 20000 rows reads its column. -/
theorem nodeBias64_apply (b : FVec Ideal S64 .f32) (v : Fin 20000) (k : Fin 64) : nodeBias64 b (ix2 v k) = b (ix1 k) := by
  unfold nodeBias64
  refine (broadcastInDim_apply _ _ _ (ix2 v k) (ix2 (0 : Fin 1) k) (fun ax => ?_)).trans
    (broadcastInDim_apply _ _ _ (ix2 (0 : Fin 1) k) (ix1 k) (fun ax => ?_))
  · match ax with
    | ⟨0, _⟩ => rfl
    | ⟨1, _⟩ => rfl
  · match ax with
    | ⟨0, _⟩ => rfl

/-- The per-node rectifier's zero array reads zero. -/
theorem zeroN_apply (v : Fin 20000) (k : Fin 64) :
    broadcastInDim S20000x64 ![] bcast_S_S20000x64 (constant (F := Ideal) S_ .f32 0x00000000#32) (ix2 v k) = 0 := by
  refine (broadcastInDim_apply _ _ _ (ix2 v k) ix0 (fun ax => ax.elim0)).trans ?_
  exact Ideal.ofBits_zero_f32

/-- The bias as a one-row matrix reads the bias. -/
theorem row64_apply (b : FVec Ideal S64 .f32) (q : Fin 64) : Cert.KernelIdeal.HandValue.row64 b (ix2 (0 : Fin 1) q) = b (ix1 q) := by
  unfold Cert.KernelIdeal.HandValue.row64
  exact shapeCast_a_1a_apply _ _ 0 q

/-! ## One of the four products, read at an index -/

theorem refdotN_eq : dot_S20000x64_S64x64_S20000x64_1_0_0_1_n_n = DotDims.plain 20000 64 64 := rfl

/-- Entry (v, q) of per-node rows times a 64 × 64 weight: row v against column q. -/
theorem nodeDot_apply (x : FVec Ideal S20000x64 .f32) (W : FVec Ideal S64x64 .f32) (v : Fin 20000) (q : Fin 64) :
    nodeDot x W (ix2 v q) = ∑ a : Fin 64, x (ix2 v a) * W (ix2 a q) := by
  unfold nodeDot
  simp only [Host.dotGeneral]
  rw [refdotN_eq]
  refine (Ideal.dotGeneral_apply _ _ _ _ _ _).trans ?_
  exact Cert.PlainDot.contr_sum _ _ v q

/-! ## The four weights out of their stack: weight i at (a, q) is the stack at (i, a, q) -/

theorem tagW0_apply (Ws : FVec Ideal S4x64x64 .f32) (a q : Fin 64) : tagW0 Ws (ix2 a q) = Ws (ix3 (0 : Fin 4) a q) := by
  unfold tagW0
  refine (shapeCast_1ab_ab_apply _ _ a q).trans ?_
  refine extractStridedSlice_apply _ _ _ (ix3 (0 : Fin 1) a q) (ix3 (0 : Fin 4) a q) (fun ax => ?_)
  match ax with
  | ⟨0, _⟩ => rfl
  | ⟨1, _⟩ => show a.val = 0 + a.val; omega
  | ⟨2, _⟩ => show q.val = 0 + q.val; omega

theorem tagW1_apply (Ws : FVec Ideal S4x64x64 .f32) (a q : Fin 64) : tagW1 Ws (ix2 a q) = Ws (ix3 (1 : Fin 4) a q) := by
  unfold tagW1
  refine (shapeCast_1ab_ab_apply _ _ a q).trans ?_
  refine extractStridedSlice_apply _ _ _ (ix3 (0 : Fin 1) a q) (ix3 (1 : Fin 4) a q) (fun ax => ?_)
  match ax with
  | ⟨0, _⟩ => rfl
  | ⟨1, _⟩ => show a.val = 0 + a.val; omega
  | ⟨2, _⟩ => show q.val = 0 + q.val; omega

theorem tagW2_apply (Ws : FVec Ideal S4x64x64 .f32) (a q : Fin 64) : tagW2 Ws (ix2 a q) = Ws (ix3 (2 : Fin 4) a q) := by
  unfold tagW2
  refine (shapeCast_1ab_ab_apply _ _ a q).trans ?_
  refine extractStridedSlice_apply _ _ _ (ix3 (0 : Fin 1) a q) (ix3 (2 : Fin 4) a q) (fun ax => ?_)
  match ax with
  | ⟨0, _⟩ => rfl
  | ⟨1, _⟩ => show a.val = 0 + a.val; omega
  | ⟨2, _⟩ => show q.val = 0 + q.val; omega

theorem tagW3_apply (Ws : FVec Ideal S4x64x64 .f32) (a q : Fin 64) : tagW3 Ws (ix2 a q) = Ws (ix3 (3 : Fin 4) a q) := by
  unfold tagW3
  refine (shapeCast_1ab_ab_apply _ _ a q).trans ?_
  refine extractStridedSlice_apply _ _ _ (ix3 (0 : Fin 1) a q) (ix3 (3 : Fin 4) a q) (fun ax => ?_)
  match ax with
  | ⟨0, _⟩ => rfl
  | ⟨1, _⟩ => show a.val = 0 + a.val; omega
  | ⟨2, _⟩ => show q.val = 0 + q.val; omega

/-! ## The stack as one tall matrix: row 64·i + a is row a of weight i -/

/-- Both arrays are the same 16384 numbers in row-major order: position 64·64·i + 64·a + q. -/
theorem wcat_apply (Ws : FVec Ideal S4x64x64 .f32) (i : Fin 4) (a q : Fin 64) (k : Fin 256) (hk : k.val = 64 * i.val + a.val) :
    Cert.KernelIdeal.HandValue.wcat Ws (ix2 k q) = Ws (ix3 i a q) := by
  unfold Cert.KernelIdeal.HandValue.wcat
  refine shapeCast_apply _ _ (ix2 k q) (ix3 i a q) ?_
  refine (Shape.rowMajor_val_three (d := ![4, 64, 64]) (ix3 i a q)).trans ?_
  refine Eq.trans ?_ (Shape.rowMajor_val_two (d := ![256, 64]) (ix2 k q)).symm
  show (i.val * 64 + a.val) * 64 + q.val = k.val * 64 + q.val
  omega

theorem wcat_apply0 (Ws : FVec Ideal S4x64x64 .f32) (a q : Fin 64) (k : Fin 256) (hk : k.val = a.val) :
    Cert.KernelIdeal.HandValue.wcat Ws (ix2 k q) = Ws (ix3 (0 : Fin 4) a q) :=
  wcat_apply Ws 0 a q k (by show k.val = 64 * 0 + a.val; omega)
theorem wcat_apply1 (Ws : FVec Ideal S4x64x64 .f32) (a q : Fin 64) (k : Fin 256) (hk : k.val = 64 + a.val) :
    Cert.KernelIdeal.HandValue.wcat Ws (ix2 k q) = Ws (ix3 (1 : Fin 4) a q) :=
  wcat_apply Ws 1 a q k (by show k.val = 64 * 1 + a.val; omega)
theorem wcat_apply2 (Ws : FVec Ideal S4x64x64 .f32) (a q : Fin 64) (k : Fin 256) (hk : k.val = 64 + 64 + a.val) :
    Cert.KernelIdeal.HandValue.wcat Ws (ix2 k q) = Ws (ix3 (2 : Fin 4) a q) :=
  wcat_apply Ws 2 a q k (by show k.val = 64 * 2 + a.val; omega)
theorem wcat_apply3 (Ws : FVec Ideal S4x64x64 .f32) (a q : Fin 64) (k : Fin 256) (hk : k.val = 64 + 64 + 64 + a.val) :
    Cert.KernelIdeal.HandValue.wcat Ws (ix2 k q) = Ws (ix3 (3 : Fin 4) a q) :=
  wcat_apply Ws 3 a q k (by show k.val = 64 * 3 + a.val; omega)

/-! ## The four feature arrays side by side -/

/-- Columns 0 … 63 are the features themselves. -/
theorem feat4_col0 (x h1 h2 h3 : FVec Ideal S20000x64 .f32) (v : Fin 20000) (a : Fin 64) (j : Fin 256)
    (hj : j.val = a.val) : Cert.KernelIdeal.HandValue.feat4 x h1 h2 h3 (ix2 v j) = x (ix2 v a) := by
  unfold Cert.KernelIdeal.HandValue.feat4
  refine concatenate_apply_piece _ _ _ _ 0 ?_ Cert.KernelIdeal.S20000x64 x ?_ ?_ 0 ?_ (ix2 v a) ?_ ?_
  · exact (by decide : 0 < 4)
  · rfl
  · rfl
  · rfl
  · intro b hb
    match b with
    | ⟨0, _⟩ => rfl
    | ⟨1, _⟩ => exact absurd rfl hb
  · show 0 + a.val = j.val; omega

/-- Columns 64 … 127 are the first propagation. -/
theorem feat4_col1 (x h1 h2 h3 : FVec Ideal S20000x64 .f32) (v : Fin 20000) (a : Fin 64) (j : Fin 256)
    (hj : j.val = 64 + a.val) : Cert.KernelIdeal.HandValue.feat4 x h1 h2 h3 (ix2 v j) = h1 (ix2 v a) := by
  unfold Cert.KernelIdeal.HandValue.feat4
  refine concatenate_apply_piece _ _ _ _ 1 ?_ Cert.KernelIdeal.S20000x64 h1 ?_ ?_ 64 ?_ (ix2 v a) ?_ ?_
  · exact (by decide : 1 < 4)
  · rfl
  · rfl
  · rfl
  · intro b hb
    match b with
    | ⟨0, _⟩ => rfl
    | ⟨1, _⟩ => exact absurd rfl hb
  · show 64 + a.val = j.val; omega

/-- Columns 128 … 191 are the second propagation. -/
theorem feat4_col2 (x h1 h2 h3 : FVec Ideal S20000x64 .f32) (v : Fin 20000) (a : Fin 64) (j : Fin 256)
    (hj : j.val = 64 + 64 + a.val) : Cert.KernelIdeal.HandValue.feat4 x h1 h2 h3 (ix2 v j) = h2 (ix2 v a) := by
  unfold Cert.KernelIdeal.HandValue.feat4
  refine concatenate_apply_piece _ _ _ _ 2 ?_ Cert.KernelIdeal.S20000x64 h2 ?_ ?_ 128 ?_ (ix2 v a) ?_ ?_
  · exact (by decide : 2 < 4)
  · rfl
  · rfl
  · rfl
  · intro b hb
    match b with
    | ⟨0, _⟩ => rfl
    | ⟨1, _⟩ => exact absurd rfl hb
  · show 128 + a.val = j.val; omega

/-- Columns 192 … 255 are the third propagation. -/
theorem feat4_col3 (x h1 h2 h3 : FVec Ideal S20000x64 .f32) (v : Fin 20000) (a : Fin 64) (j : Fin 256)
    (hj : j.val = 64 + 64 + 64 + a.val) : Cert.KernelIdeal.HandValue.feat4 x h1 h2 h3 (ix2 v j) = h3 (ix2 v a) := by
  unfold Cert.KernelIdeal.HandValue.feat4
  refine concatenate_apply_piece _ _ _ _ 3 ?_ Cert.KernelIdeal.S20000x64 h3 ?_ ?_ 192 ?_ (ix2 v a) ?_ ?_
  · exact (by decide : 3 < 4)
  · rfl
  · rfl
  · rfl
  · intro b hb
    match b with
    | ⟨0, _⟩ => rfl
    | ⟨1, _⟩ => exact absurd rfl hb
  · show 192 + a.val = j.val; omega

/-! ## The graph convolution, the reference's way and the kernel program's way -/

/-- FOUR PRODUCTS ADDED UP ARE ONE PRODUCT over the four feature blocks side by side against the four weights stacked;
    the bias and the clamp are the same on both sides. -/
theorem tag_matmul (x h1 h2 h3 : FVec Ideal S20000x64 .f32) (Ws : FVec Ideal S4x64x64 .f32) (b : FVec Ideal S64 .f32) :
    reluN (addf (F := Ideal) (addf (F := Ideal) (addf (F := Ideal) (addf (F := Ideal) (nodeDot x (tagW0 Ws)) (nodeDot h1 (tagW1 Ws)))
        (nodeDot h2 (tagW2 Ws))) (nodeDot h3 (tagW3 Ws))) (nodeBias64 b))
      = Cert.KernelIdeal.HandValue.tagG (Cert.KernelIdeal.HandValue.feat4 x h1 h2 h3) (Cert.KernelIdeal.HandValue.wcat Ws) (Cert.KernelIdeal.HandValue.row64 b) := by
  funext i
  obtain ⟨v, q, rfl⟩ : ∃ (v : Fin 20000) (q : Fin 64), i = ix2 v q := ⟨i 0, i 1, eq_ix2 i⟩
  show _ = Cert.KernelIdeal.HandValue.tagRow (Cert.KernelIdeal.HandValue.feat4 x h1 h2 h3) (Cert.KernelIdeal.HandValue.wcat Ws) (Cert.KernelIdeal.HandValue.row64 b) v q
  unfold reluN Cert.KernelIdeal.HandValue.tagRow
  rw [maximumf_apply, addf_apply, addf_apply, addf_apply, addf_apply, nodeBias64_apply, zeroN_apply, row64_apply,
    nodeDot_apply, nodeDot_apply, nodeDot_apply, nodeDot_apply]
  refine congrArg (fun s => max (s + _) 0) ?_
  rw [sum_fin_split4 64 64 64 64 256 rfl]
  refine congrArg₂ (· + ·) (congrArg₂ (· + ·) (congrArg₂ (· + ·) ?_ ?_) ?_) ?_ <;> refine Finset.sum_congr rfl fun a _ => ?_
  · rw [tagW0_apply, feat4_col0 x h1 h2 h3 v a _ rfl, wcat_apply0 Ws a q _ rfl]
  · rw [tagW1_apply, feat4_col1 x h1 h2 h3 v a _ rfl, wcat_apply1 Ws a q _ rfl]
  · rw [tagW2_apply, feat4_col2 x h1 h2 h3 v a _ rfl, wcat_apply2 Ws a q _ rfl]
  · rw [tagW3_apply, feat4_col3 x h1 h2 h3 v a _ rfl, wcat_apply3 Ws a q _ rfl]

end Cert.Alg

end
-- ==== Proof.AlgLayers.lean ====
/-
  The reference's three kinds of edge layer, with the per-edge function written the kernel program's way.

  Each edge layer of the reference is: per edge, a two-layer perceptron of the features at the edge's two ends and the
  edge's attributes; then the per-edge rows summed into one end of every edge (and, except after the last layer,
  clamped at 0). The per-edge function is the one the kernel program computes from the three row blocks of the first
  weight matrix and the two biases as one-row matrices: here those five arrays are the slices and casts the kernel
  program's host side forms, so each layer of the reference is the sum-into-nodes of that function of them.
-/
import proofs.«120992_j5111011082634_2_alg».proof.Proof.AlgEdge
import proofs.«120992_j5111011082634_2_alg».proof.Proof.AlgEdge17
import proofs.«120992_j5111011082634_2_alg».proof.Proof.AlgEdgeLast
import proofs.«120992_j5111011082634_2_alg».proof.Proof.AlgTag
import proofs.«120992_j5111011082634_2_alg».proof.Proof.KI.KTerms
import Idealize.ShloMosaic.PureOps.Ideal.Laws
import Idealize.ShloMosaic.Lib.ValueIdx
import Idealize.ShloMosaic.Lib.ValueLayout
import Idealize.ShloMosaic.Lib.Pipeline.Value

noncomputable section

namespace Cert.Alg

open Cert.ReferenceIdeal Cert.ReferenceIdeal.Gen Cert.ReferenceIdeal.Hand Cert.Spec
open Idealize.ShloMosaic Idealize.ShloMosaic.ValueIdx
open scoped BigOperators

/-! ## The row blocks of a first-layer weight matrix, read at an index -/

/-- Rows 0 … 5 of a 17 × 64 matrix. -/
theorem w17top_apply (W : FVec Ideal S17x64 .f32) (a : Fin 6) (k : Fin 64) :
    Cert.KernelIdeal.HandValue.w17top W (ix2 a k) = W (ix2 (⟨a.val, by have := a.isLt; omega⟩ : Fin 17) k) := by
  unfold Cert.KernelIdeal.HandValue.w17top
  exact slice2_axis0_apply 0 W _ a k ⟨a.val, by have := a.isLt; omega⟩ (by show a.val = 0 + a.val; omega)

/-- Rows 6 … 11. -/
theorem w17mid_apply (W : FVec Ideal S17x64 .f32) (a : Fin 6) (k : Fin 64) :
    Cert.KernelIdeal.HandValue.w17mid W (ix2 a k) = W (ix2 (⟨6 + a.val, by have := a.isLt; omega⟩ : Fin 17) k) := by
  unfold Cert.KernelIdeal.HandValue.w17mid
  exact slice2_axis0_apply 6 W _ a k ⟨6 + a.val, by have := a.isLt; omega⟩ (by show 6 + a.val = 6 + a.val; omega)

/-- Rows 12 … 16. -/
theorem w17bot_apply (W : FVec Ideal S17x64 .f32) (a : Fin 5) (k : Fin 64) :
    Cert.KernelIdeal.HandValue.w17bot W (ix2 a k) = W (ix2 (⟨6 + 6 + a.val, by have := a.isLt; omega⟩ : Fin 17) k) := by
  unfold Cert.KernelIdeal.HandValue.w17bot
  exact slice2_axis0_apply 12 W _ a k ⟨6 + 6 + a.val, by have := a.isLt; omega⟩ (by show 6 + 6 + a.val = 12 + a.val; omega)

/-- Rows 0 … 63 of a 133 × 64 matrix. -/
theorem w133top_apply (W : FVec Ideal S133x64 .f32) (a : Fin 64) (k : Fin 64) :
    Cert.KernelIdeal.HandValue.w133top W (ix2 a k) = W (ix2 (⟨a.val, by have := a.isLt; omega⟩ : Fin 133) k) := by
  unfold Cert.KernelIdeal.HandValue.w133top
  exact slice2_axis0_apply 0 W _ a k ⟨a.val, by have := a.isLt; omega⟩ (by show a.val = 0 + a.val; omega)

/-- Rows 64 … 127. -/
theorem w133mid_apply (W : FVec Ideal S133x64 .f32) (a : Fin 64) (k : Fin 64) :
    Cert.KernelIdeal.HandValue.w133mid W (ix2 a k) = W (ix2 (⟨64 + a.val, by have := a.isLt; omega⟩ : Fin 133) k) := by
  unfold Cert.KernelIdeal.HandValue.w133mid
  exact slice2_axis0_apply 64 W _ a k ⟨64 + a.val, by have := a.isLt; omega⟩ (by show 64 + a.val = 64 + a.val; omega)

/-- Rows 128 … 132. -/
theorem w133bot_apply (W : FVec Ideal S133x64 .f32) (a : Fin 5) (k : Fin 64) :
    Cert.KernelIdeal.HandValue.w133bot W (ix2 a k) = W (ix2 (⟨64 + 64 + a.val, by have := a.isLt; omega⟩ : Fin 133) k) := by
  unfold Cert.KernelIdeal.HandValue.w133bot
  exact slice2_axis0_apply 128 W _ a k ⟨64 + 64 + a.val, by have := a.isLt; omega⟩ (by show 64 + 64 + a.val = 128 + a.val; omega)

/-- A bias of 6 as a one-row matrix reads the bias. -/
theorem row6_apply (b : FVec Ideal S6 .f32) (q : Fin 6) : Cert.KernelIdeal.HandValue.row6 b (ix2 (0 : Fin 1) q) = b (ix1 q) := by
  unfold Cert.KernelIdeal.HandValue.row6
  exact shapeCast_a_1a_apply _ _ 0 q

/-! ## The three edge layers -/

/-- THE FIRST EDGE LAYER: 17 inputs per edge, 64 outputs, summed into the edges' target ends, clamped at 0. -/
theorem refEA0_eq (x : FVec Ideal S20000x6 .f32) (src dst : IVec S640000 32) (ea : FVec Ideal S640000x5 .f32)
    (W1 : FVec Ideal S17x64 .f32) (b1 : FVec Ideal S64 .f32) (W2 : FVec Ideal S64x64 .f32) (b2 : FVec Ideal S64 .f32) :
    refEA0 x src dst ea W1 b1 W2 b2
      = reluN (sumAt64 dst (Cert.Spec.mlpG (D := 6) (O := 64) (rows6 x dst) (rows6 x src) ea
          (Cert.KernelIdeal.HandValue.w17top W1) (Cert.KernelIdeal.HandValue.w17mid W1) (Cert.KernelIdeal.HandValue.w17bot W1) (Cert.KernelIdeal.HandValue.row64 b1) W2 (Cert.KernelIdeal.HandValue.row64 b2))) := by
  unfold refEA0
  exact congrArg (fun u => reluN (sumAt64 dst u))
    (edge_first_msg x src dst ea W1 b1 W2 b2 (Cert.KernelIdeal.HandValue.w17top W1) (Cert.KernelIdeal.HandValue.w17mid W1) (Cert.KernelIdeal.HandValue.w17bot W1) (Cert.KernelIdeal.HandValue.row64 b1) (Cert.KernelIdeal.HandValue.row64 b2)
      (w17top_apply W1) (w17mid_apply W1) (w17bot_apply W1) (row64_apply b1) (row64_apply b2))

/-- A MIDDLE EDGE LAYER: 133 inputs per edge, 64 outputs, summed into the edges' target ends, clamped at 0. -/
theorem refEAmid_eq (x : FVec Ideal S20000x64 .f32) (src dst : IVec S640000 32) (ea : FVec Ideal S640000x5 .f32)
    (W1 : FVec Ideal S133x64 .f32) (b1 : FVec Ideal S64 .f32) (W2 : FVec Ideal S64x64 .f32) (b2 : FVec Ideal S64 .f32) :
    refEAmid x src dst ea W1 b1 W2 b2
      = reluN (sumAt64 dst (Cert.Spec.mlpG (D := 64) (O := 64) (rows64 x dst) (rows64 x src) ea
          (Cert.KernelIdeal.HandValue.w133top W1) (Cert.KernelIdeal.HandValue.w133mid W1) (Cert.KernelIdeal.HandValue.w133bot W1) (Cert.KernelIdeal.HandValue.row64 b1) W2 (Cert.KernelIdeal.HandValue.row64 b2))) := by
  unfold refEAmid
  exact congrArg (fun u => reluN (sumAt64 dst u))
    (edge_mid_msg x src dst ea W1 b1 W2 b2 (Cert.KernelIdeal.HandValue.w133top W1) (Cert.KernelIdeal.HandValue.w133mid W1) (Cert.KernelIdeal.HandValue.w133bot W1) (Cert.KernelIdeal.HandValue.row64 b1) (Cert.KernelIdeal.HandValue.row64 b2)
      (w133top_apply W1) (w133mid_apply W1) (w133bot_apply W1) (row64_apply b1) (row64_apply b2))

/-- THE LAST EDGE LAYER: 133 inputs per edge, 6 outputs, summed into the edges' target ends; no clamp after the sum. -/
theorem refEAlast_eq (x : FVec Ideal S20000x64 .f32) (src dst : IVec S640000 32) (ea : FVec Ideal S640000x5 .f32)
    (W1 : FVec Ideal S133x64 .f32) (b1 : FVec Ideal S64 .f32) (W2 : FVec Ideal S64x6 .f32) (b2 : FVec Ideal S6 .f32) :
    refEAlast x src dst ea W1 b1 W2 b2
      = sumAt6 dst (Cert.Spec.mlpG (D := 64) (O := 6) (rows64 x dst) (rows64 x src) ea
          (Cert.KernelIdeal.HandValue.w133top W1) (Cert.KernelIdeal.HandValue.w133mid W1) (Cert.KernelIdeal.HandValue.w133bot W1) (Cert.KernelIdeal.HandValue.row64 b1) W2 (Cert.KernelIdeal.HandValue.row6 b2)) := by
  unfold refEAlast
  exact congrArg (fun u => sumAt6 dst u)
    (edge_last_msg x src dst ea W1 b1 W2 b2 (Cert.KernelIdeal.HandValue.w133top W1) (Cert.KernelIdeal.HandValue.w133mid W1) (Cert.KernelIdeal.HandValue.w133bot W1) (Cert.KernelIdeal.HandValue.row64 b1) (Cert.KernelIdeal.HandValue.row6 b2)
      (w133top_apply W1) (w133mid_apply W1) (w133bot_apply W1) (row64_apply b1) (row6_apply b2))

end Cert.Alg

end
-- ==== Proof.AlgTagLayer.lean ====
/-
  A graph convolution layer of the reference, written the kernel program's way, given that the two programs'
  propagation steps agree.

  The reference's layer multiplies the features and their three successive propagations each by its own weight and adds
  up; the kernel program lays the features and ITS three successive propagations side by side and multiplies once by the
  stacked weights. If one propagation step is the same function in both programs (the hypothesis here), the three
  successive propagations are the same arrays, and the rest is the identity between four products added up and one
  product over the four blocks.
-/
import proofs.«120992_j5111011082634_2_alg».proof.Proof.AlgTag

noncomputable section

namespace Cert.Alg

open Cert.ReferenceIdeal Cert.ReferenceIdeal.Gen Cert.ReferenceIdeal.Hand
open Idealize.ShloMosaic Idealize.ShloMosaic.ValueIdx

/-- THE GRAPH CONVOLUTION LAYER, given that a propagation step with the edge weights `norm` is the kernel program's
    propagation step with the node weights `d`, on every array. -/
theorem refTAG_eq_of_hop (norm : FVec Ideal S640000 .f32) (d : FVec Ideal S20000 .f32) (x : FVec Ideal S20000x64 .f32)
    (src dst : IVec S640000 32) (Ws : FVec Ideal S4x64x64 .f32) (b : FVec Ideal S64 .f32)
    (hhop : ∀ y : FVec Ideal S20000x64 .f32, hop y src dst norm = Cert.KernelIdeal.HandValue.khop d y src dst) :
    refTAG x src dst norm Ws b
      = Cert.KernelIdeal.HandValue.tagG (Cert.KernelIdeal.HandValue.tagFeat d x src dst) (Cert.KernelIdeal.HandValue.wcat Ws) (Cert.KernelIdeal.HandValue.row64 b) := by
  unfold refTAG Cert.KernelIdeal.HandValue.tagFeat
  rw [hhop x, hhop (Cert.KernelIdeal.HandValue.khop d x src dst), hhop (Cert.KernelIdeal.HandValue.khop d (Cert.KernelIdeal.HandValue.khop d x src dst) src dst)]
  exact tag_matmul x _ _ _ Ws b

end Cert.Alg

end
-- ==== Proof.LibERealSums.lean ====
/-
  General lemmas on finite sums of extended reals.

  Multiplication by a NONNEGATIVE REAL distributes over a finite sum of extended reals, although multiplication
  by an arbitrary extended real does not (the sum may hold both infinities). From it: a "normalised hop" of a graph
  convolution — at node v the sum, over the edges e that land on v, of (d (s e) · d (t e)) · h (s e) — equals the
  node-side form d v · Σ (d (s e) · h (s e)), provided every edge landing on v has its target-side factor read at v.
  Also: the reciprocal square root of a positive extended real is nonnegative and is not +∞.
-/
import Idealize.ShloMosaic.PureOps.Ideal

noncomputable section

namespace Cert.ERealSums

open Idealize.ShloMosaic
open scoped BigOperators

/-- A nonnegative extended real other than +∞ distributes over a finite sum. -/
theorem mul_sum_of_nonneg_ne_top {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The reciprocal square root of a positive extended real is nonnegative. -/
theorem rsqrt_nonneg_of_pos {y : EReal} (hy : 0 < y) : 0 ≤ Ideal.rsqrt y := by
  induction y using EReal.rec with
  | bot => exact absurd hy (by simp)
  | top => simp
  | coe r =>
    have hr : 0 < r := by exact_mod_cast hy
    rw [Ideal.rsqrt_coe, if_neg (not_lt.mpr hr.le), if_neg hr.ne']
    exact_mod_cast inv_nonneg.mpr (Real.sqrt_nonneg r)

/-- The reciprocal square root of a positive extended real is not +∞. -/
theorem rsqrt_ne_top_of_pos {y : EReal} (hy : 0 < y) : Ideal.rsqrt y ≠ ⊤ := by
  induction y using EReal.rec with
  | bot => exact absurd hy (by simp)
  | top => simp
  | coe r =>
    have hr : 0 < r := by exact_mod_cast hy
    rw [Ideal.rsqrt_coe, if_neg (not_lt.mpr hr.le), if_neg hr.ne']
    exact EReal.coe_ne_top _

/-- THE NORMALISED HOP, edge side against node side. Edges `e : ε`; `P e` says edge `e` lands on the node in hand;
    `dv` is the node's own factor, `dt e` the factor read on the edge's target side and `ds e` on its source
    side, `x e` the feature read on the source side. If every edge that lands on the node reads the node's own
    factor on its target side, the edge-side sum is the node's factor times the source-weighted sum. -/
theorem hop_edge_eq_node {ε : Type*} [Fintype ε] (P : ε → Prop) [DecidablePred P] (dv : EReal) (h0 : 0 ≤ dv) (ht : dv ≠ ⊤)
    (ds dt x : ε → EReal) (hdt : ∀ e, P e → dt e = dv) :
    (∑ e, if P e then (ds e * dt e) * x e else 0) = dv * ∑ e, if P e then ds e * x e else 0 := by
  rw [mul_sum_of_nonneg_ne_top _ _ h0 ht]
  refine Finset.sum_congr rfl fun e _ => ?_
  by_cases hP : P e
  · rw [if_pos hP, if_pos hP, hdt e hP, mul_comm (ds e) dv, mul_assoc]
  · rw [if_neg hP, if_neg hP, mul_zero]

end Cert.ERealSums

end
-- ==== Proof.LibScatterRows.lean ====
/-
  General lemmas: the host's row gather `x[idx]` and the row scatter-add (a segment sum) READ AT AN INDEX,
  at the ideal instance (floats are extended reals), for dimension-number records given as structure literals
  with an arbitrary well-formedness proof.
-/
import Idealize.ShloMosaic.PureOps.Ideal
import Idealize.ShloMosaic.Lib.ValueIdx
import Idealize.ShloMosaic.Lib.IdealHost

noncomputable section

namespace Cert.ScatterRows

open Idealize.ShloMosaic Idealize.ShloMosaic.ValueIdx
open scoped BigOperators

/-! ## The row gather `x[idx]` read at an index -/

/-- The dimension numbers of a row gather: operand `[N, D]`, start indices `[E, 1]`, result `[E, D]`; the result's
    axis 1 is the offset axis, the operand's axis 0 is collapsed and is the one the start index names, and a slice
    is one whole row. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, c)` of a row gather reads its start index is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (c : Fin D) (k : Fin (rowGatherDims N E D wf).startIndexMap.length) :
    (rowGatherDims N E D wf).siIdx (ix2 e c) k = ix2 e 0 := by
  funext b; refine Fin.ext ?_
  match b with
  | ⟨0, _⟩ => rfl
  | ⟨1, _⟩ =>
    have hk : k.val < 1 := k.isLt
    show k.val = 0
    omega

/-- On the collapsed axis the operand index of a row gather is the start index `idx[e, 0]`, read signed and clamped
    into `[0, N − 1]`. -/
theorem rowGather_operandIdx_zero {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowGatherDims N E D wf).operandIdx (ix2 e c) idx 0).val = min (idx (ix2 e 0)).toInt.toNat (N - 1) := by
  show (rowGatherDims N E D wf).start (ix2 e c) idx 0 + (rowGatherDims N E D wf).batchCoord (ix2 e c) 0
    + (rowGatherDims N E D wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl),
    rowGather_siIdx]
  rfl

/-- On the offset axis the operand index of a row gather is the result's column. -/
theorem rowGather_operandIdx_one {N E D w : Nat}
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    ((rowGatherDims N E D wf).operandIdx (ix2 e c) idx 1).val = c.val := by
  show (rowGatherDims N E D wf).start (ix2 e c) idx 1 + (rowGatherDims N E D wf).batchCoord (ix2 e c) 1
    + (rowGatherDims N E D wf).offCoord (ix2 e c) 1 = _
  rw [GatherDims.batchCoord_eq_zero _ _ _ List.not_mem_nil]
  unfold GatherDims.start
  rw [dif_neg (show ¬ ((1 : Fin 2) ∈ ([0] : List (Fin 2))) by decide)]
  simp only [Nat.add_zero, Nat.zero_add]
  rfl

/-- THE ROW GATHER READ AT `(e, c)`: column `c` of the operand's row at the start index `idx[e, 0]`, read signed and
    clamped into `[0, N − 1]`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather ({ offsetDims := [1], collapsedSliceDims := [0], operandBatchingDims := [], startIndicesBatchingDims := [], startIndexMap := [0], indexVectorDim := 1, sliceSizes := ![1, D], wf := wf } : GatherDims ⟨2, ![N, D]⟩ ⟨2, ![E, 1]⟩ ⟨2, ![E, D]⟩) x idx (ix2 e c)
      = x (ix2 ⟨min (idx (ix2 e 0)).toInt.toNat (N - 1), by omega⟩ c) := by
  show Host.gather (rowGatherDims N E D wf) x idx (ix2 e c) = _
  unfold Host.gather
  congr 1
  funext a
  refine Fin.ext ?_
  match a with
  | ⟨0, _⟩ => exact rowGather_operandIdx_zero wf idx e c
  | ⟨1, _⟩ => exact rowGather_operandIdx_one wf idx e c

/-! ## The scatter's result index -/

/-- An update index lands on operand index `i` exactly when, on every operand axis, its start (read signed) plus
    its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro hs a
      have hv : (d.start j idx a + (d.window j a : ℤ)).toNat = (i a).val :=
        congrArg Fin.val (congrFun (Option.some.inj hs) a)
      have h0 := (h a).1
      omega
    · intro hall
      congr 1
      funext a
      refine Fin.ext ?_
      show (d.start j idx a + (d.window j a : ℤ)).toNat = (i a).val
      have := hall a
      omega
  · rename_i h
    constructor
    · intro hs
      exact absurd hs (by simp)
    · intro hall
      exfalso
      apply h
      intro a
      have h1 := hall a
      have h2 := (i a).isLt
      omega

/-! ## The row scatter-add (a segment sum) read at an index -/

/-- The dimension numbers of a row scatter: operand `[N, D]`, scatter indices `[E, 1]`, updates `[E, D]`; the
    updates' axis 1 is the window axis, the operand's axis 0 is inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- The scatter-indices index at which update index `(e, c)` of a row scatter reads its start index is `(e, 0)`. -/
theorem rowScatter_siIdx (k : Fin (rowScatterDims N E D wf).scatterDimsToOperandDims.length) :
    (rowScatterDims N E D wf).siIdx (ix2 e c) k = ix2 e 0 := by
  funext b; refine Fin.ext ?_
  match b with
  | ⟨0, _⟩ => rfl
  | ⟨1, _⟩ =>
    have hk : k.val < 1 := k.isLt
    show k.val = 0
    omega

/-- On the inserted axis the start is the scatter index `idx[e, 0]` read signed. -/
theorem rowScatter_start_zero : (rowScatterDims N E D wf).start (ix2 e c) idx 0 = (idx (ix2 e 0)).toInt := by
  unfold ScatterDims.start
  rw [dif_pos (show (0 : Fin 2) ∈ (rowScatterDims N E D wf).scatterDimsToOperandDims from List.mem_singleton.mpr rfl),
    rowScatter_siIdx]

/-- On the window axis the start is zero. -/
theorem rowScatter_start_one : (rowScatterDims N E D wf).start (ix2 e c) idx 1 = 0 := by
  unfold ScatterDims.start
  rw [dif_neg (show ¬ ((1 : Fin 2) ∈ ([0] : List (Fin 2))) by decide)]

/-- On the inserted axis the window coordinate is zero. -/
theorem rowScatter_window_zero : (rowScatterDims N E D wf).window (ix2 e c) 0 = 0 := by
  have h : (0 : Fin 2) ∉ (rowScatterDims N E D wf).sKept := by
    show ¬ ((0 : Fin 2) ∈ (List.finRange 2).filter (· ∉ ([0] : List (Fin 2))))
    decide
  unfold ScatterDims.window
  rw [dif_neg h]

/-- On the window axis the window coordinate is the update's column. -/
theorem rowScatter_window_one : (rowScatterDims N E D wf).window (ix2 e c) 1 = c.val := by
  have h : (1 : Fin 2) ∈ (rowScatterDims N E D wf).sKept := by
    show (1 : Fin 2) ∈ (List.finRange 2).filter (· ∉ ([0] : List (Fin 2)))
    decide
  unfold ScatterDims.window
  rw [dif_pos h]
  rfl

/-- Update `(e, c')` of a row scatter lands on operand element `(r, c)` exactly when the scatter index `idx[e, 0]`,
    read signed, is `r`, and the columns agree. -/
theorem rowScatter_resultIdx?_iff (c' : Fin D) (r : Fin N) :
    (rowScatterDims N E D wf).resultIdx? (ix2 e c') idx = some (ix2 r c)
      ↔ (idx (ix2 e 0)).toInt = (r.val : ℤ) ∧ c' = c := by
  rw [resultIdx?_eq_some_iff, Fin.forall_fin_two, rowScatter_start_zero, rowScatter_start_one, rowScatter_window_zero,
    rowScatter_window_one]
  show (idx (ix2 e 0)).toInt + ((0 : ℕ) : ℤ) = (r.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

end Rows

/-- THE ROW SCATTER-ADD READ AT `(r, c)`: the operand's element plus the sum, over the updates' rows `e` whose scatter
    index `idx[e, 0]` (read signed) is `r`, of the update's element `(e, c)`. A row whose index is outside
    `[0, N)` matches no `r` and contributes nothing. -/
theorem scatterAdd_rows_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (r : Fin N) (c : Fin D) :
    Ideal.hostScatterAdd ({ updateWindowDims := [1], insertedWindowDims := [0], scatterDimsToOperandDims := [0], indexVectorDim := 1, wf := wf } : ScatterDims ⟨2, ![N, D]⟩ ⟨2, ![E, 1]⟩ ⟨2, ![E, D]⟩) x idx upd (ix2 r c)
      = x (ix2 r c) + ∑ e : Fin E, if (idx (ix2 e 0)).toInt = (r.val : ℤ) then upd (ix2 e c) else 0 := by
  show x (ix2 r c) + ∑ j ∈ Finset.univ.filter (fun j => (rowScatterDims N E D wf).resultIdx? j idx = some (ix2 r c)), upd j = _
  congr 1
  rw [Finset.sum_filter, sum_idx2]
  refine Finset.sum_congr rfl (fun e _ => ?_)
  by_cases hP : (idx (ix2 e 0)).toInt = (r.val : ℤ)
  · rw [if_pos hP, Finset.sum_eq_single c]
    · exact if_pos ((rowScatter_resultIdx?_iff wf idx e c c r).mpr ⟨hP, rfl⟩)
    · intro c' _ hne
      exact if_neg (fun h => hne ((rowScatter_resultIdx?_iff wf idx e c c' r).mp h).2)
    · intro h
      exact absurd (Finset.mem_univ c) h
  · rw [if_neg hP]
    refine Finset.sum_eq_zero (fun c' _ => ?_)
    exact if_neg (fun h => hP ((rowScatter_resultIdx?_iff wf idx e c c' r).mp h).1)

/-! ## The vector scatter-add (a segment sum of scalars) read at an index -/

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- The dimension numbers of a vector scatter: operand `[N]`, scatter indices `[E, 1]`, updates `[E]`; the updates
    have no window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The scatter-indices index at which update index `e` of a vector scatter reads its start index is `(e, 0)`. -/
theorem vecScatter_siIdx (k : Fin (vecScatterDims N E wf).scatterDimsToOperandDims.length) :
    (vecScatterDims N E wf).siIdx (ix1 e) k = ix2 e 0 := by
  funext b; refine Fin.ext ?_
  match b with
  | ⟨0, _⟩ => rfl
  | ⟨1, _⟩ =>
    have hk : k.val < 1 := k.isLt
    show k.val = 0
    omega

/-- On the operand's one axis the start is the scatter index `idx[e, 0]` read signed. -/
theorem vecScatter_start_zero : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl),
    vecScatter_siIdx]

/-- On the operand's one axis, an inserted one, the window coordinate is zero. -/
theorem vecScatter_window_zero : (vecScatterDims N E wf).window (ix1 e) 0 = 0 := by
  have h : (0 : Fin 1) ∉ (vecScatterDims N E wf).sKept := by
    show ¬ ((0 : Fin 1) ∈ (List.finRange 1).filter (· ∉ ([0] : List (Fin 1))))
    decide
  unfold ScatterDims.window
  rw [dif_neg h]

/-- Update `e` of a vector scatter lands on operand element `r` exactly when the scatter index `idx[e, 0]`, read
    signed, is `r`. -/
theorem vecScatter_resultIdx?_iff (r : Fin N) :
    (vecScatterDims N E wf).resultIdx? (ix1 e) idx = some (ix1 r) ↔ (idx (ix2 e 0)).toInt = (r.val : ℤ) := by
  rw [resultIdx?_eq_some_iff]
  constructor
  · intro h
    have h0 := h 0
    rw [vecScatter_start_zero, vecScatter_window_zero] at h0
    have h0' : (idx (ix2 e 0)).toInt + ((0 : ℕ) : ℤ) = (r.val : ℤ) := h0
    omega
  · intro h a
    obtain rfl : a = 0 := Subsingleton.elim _ _
    rw [vecScatter_start_zero, vecScatter_window_zero]
    show (idx (ix2 e 0)).toInt + ((0 : ℕ) : ℤ) = (r.val : ℤ)
    omega

end Vec

/-- THE VECTOR SCATTER-ADD READ AT `r`: the operand's element plus the sum, over the updates `e` whose scatter index
    `idx[e, 0]` (read signed) is `r`, of the update `e`. An update whose index is outside `[0, N)` matches no `r`
    and contributes nothing. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd ({ updateWindowDims := [], insertedWindowDims := [0], scatterDimsToOperandDims := [0], indexVectorDim := 1, wf := wf } : ScatterDims ⟨1, ![N]⟩ ⟨2, ![E, 1]⟩ ⟨1, ![E]⟩) x idx upd (ix1 r)
      = x (ix1 r) + ∑ e : Fin E, if (idx (ix2 e 0)).toInt = (r.val : ℤ) then upd (ix1 e) else 0 := by
  show x (ix1 r) + ∑ j ∈ Finset.univ.filter (fun j => (vecScatterDims N E wf).resultIdx? j idx = some (ix1 r)), upd j = _
  congr 1
  rw [Finset.sum_filter, sum_idx1]
  refine Finset.sum_congr rfl (fun e _ => ?_)
  by_cases hP : (idx (ix2 e 0)).toInt = (r.val : ℤ)
  · rw [if_pos hP]
    exact if_pos ((vecScatter_resultIdx?_iff wf idx e r).mpr hP)
  · rw [if_neg hP]
    exact if_neg (fun h => hP ((vecScatter_resultIdx?_iff wf idx e r).mp h))

/-! ## Two f32 constants at the ideal instance -/

/-- The f32 pattern `0x3F800000` is the extended real one. -/
theorem ofBits_one_f32 : Ideal.ofBits .f32 0x3F800000#32 = 1 := Ideal.ofBits_one_f32

/-- The f32 pattern of zero is the extended real zero. -/
theorem ofBits_zero_f32' : Ideal.ofBits .f32 0x00000000#32 = 0 := Ideal.ofBits_zero_f32

end Cert.ScatterRows

end
-- ==== Proof.LibScatterHost.lean ====
/-
  General lemma: the host's row scatter-add as the programs spell it (`Host.scatterAdd` at the ideal instance), READ AT
  AN INDEX, for ANY dimension-number record whose four fields are those of a row scatter — so that it applies to a
  record given by name without that name ever being compared with a structure literal at full-size extents.
-/
import proofs.«120992_j5111011082634_2_alg».proof.Proof.LibScatterRows
import Idealize.ShloMosaic.PureOps.Ideal
import Idealize.ShloMosaic.Lib.ValueIdx

noncomputable section

namespace Cert.ScatterHost

open Idealize.ShloMosaic Idealize.ShloMosaic.ValueIdx
open scoped BigOperators

/-- THE ROW SCATTER-ADD, as a program spells it, READ AT (r, c): the operand's element plus the sum, over the updates'
    rows e whose scatter index idx[e, 0] (read signed) is r, of the update's element (e, c). -/
theorem host_scatterAdd_rows_apply {N E D w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ .f32) (idx : IVec ⟨2, ![E, 1]⟩ w) (upd : FVec Ideal ⟨2, ![E, D]⟩ .f32) (r : Fin N) (c : Fin D) :
    Host.scatterAdd (F := Ideal) d x idx upd (ix2 r c)
      = x (ix2 r c) + ∑ e : Fin E, if (idx (ix2 e 0)).toInt = (r.val : ℤ) then upd (ix2 e c) else 0 := by
  obtain ⟨uw, iw, so, iv, wf⟩ := d
  dsimp only at h1 h2 h3 h4
  subst h1 h2 h3 h4
  exact Cert.ScatterRows.scatterAdd_rows_apply wf x idx upd r c

end Cert.ScatterHost

end
-- ==== Proof.LibGatherVec.lean ====
/-
  General lemma: the host's vector gather `v[idx]` READ AT AN INDEX, for a dimension-number record given as a
  structure literal with an arbitrary well-formedness proof: operand `[N]`, start indices `[E, 1]`, result `[E]`.
  Entry e of the result is the operand at the start index idx[e, 0], read signed and clamped into [0, N − 1].
-/
import Idealize.ShloMosaic.PureOps.Ideal
import Idealize.ShloMosaic.Lib.ValueIdx
import Idealize.ShloMosaic.Lib.IdealHost

noncomputable section

namespace Cert.GatherVec

open Idealize.ShloMosaic Idealize.ShloMosaic.ValueIdx

/-- The dimension numbers of a vector gather: the result has no offset axis, the operand's one axis is collapsed
    and is the one the start index names, and a slice is one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index e reads its start index is (e, 0). -/
theorem vecGather_siIdx {N E : Nat}
    (wf : GatherDims.WF ⟨1, ![N]⟩ ⟨2, ![E, 1]⟩ ⟨1, ![E]⟩ [] [0] [] [0] [] 1 ![1])
    (e : Fin E) (k : Fin (vecGatherDims N E wf).startIndexMap.length) :
    (vecGatherDims N E wf).siIdx (ix1 e) k = ix2 e 0 := by
  funext b; refine Fin.ext ?_
  match b with
  | ⟨0, _⟩ => rfl
  | ⟨1, _⟩ =>
    have hk : k.val < 1 := k.isLt
    show k.val = 0
    omega

/-- The operand index of a vector gather is the start index idx[e, 0], read signed and clamped into [0, N − 1]. -/
theorem vecGather_operandIdx_zero {N E w : Nat}
    (wf : GatherDims.WF ⟨1, ![N]⟩ ⟨2, ![E, 1]⟩ ⟨1, ![E]⟩ [] [0] [] [0] [] 1 ![1])
    (idx : IVec ⟨2, ![E, 1]⟩ w) (e : Fin E) :
    ((vecGatherDims N E wf).operandIdx (ix1 e) idx 0).val = min (idx (ix2 e 0)).toInt.toNat (N - 1) := by
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl),
    vecGather_siIdx]
  rfl

/-- THE VECTOR GATHER READ AT e: the operand at the start index idx[e, 0], read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather ({ offsetDims := [], collapsedSliceDims := [0], operandBatchingDims := [], startIndicesBatchingDims := [], startIndexMap := [0], indexVectorDim := 1, sliceSizes := ![1], wf := wf } : GatherDims ⟨1, ![N]⟩ ⟨2, ![E, 1]⟩ ⟨1, ![E]⟩) x idx (ix1 e)
      = x (ix1 ⟨min (idx (ix2 e 0)).toInt.toNat (N - 1), by omega⟩) := by
  show Host.gather (vecGatherDims N E wf) x idx (ix1 e) = _
  unfold Host.gather
  congr 1
  funext a
  refine Fin.ext ?_
  match a with
  | ⟨0, _⟩ => exact vecGather_operandIdx_zero wf idx e

end Cert.GatherVec

end
-- ==== Proof.AlgHop.lean ====
/-
  One propagation step of the graph convolution, two ways.

  The reference weights every directed edge e by the product of the normalisation d at its two ends and sums the
  weighted source rows into the target node: row v of the result is Σ over the edges e that land on v of
  (d (s e) · d (t e)) · x (s e). The kernel program scales the rows by d before they are gathered and again after they
  are summed: d v · Σ (d (s e) · x (s e)). An edge that lands on v reads the target-side factor at v itself, so the
  two differ by moving the factor d v out of the sum — which is allowed because d v is a nonnegative REAL: a
  nonnegative real distributes over a finite sum of extended reals, whatever infinities the sum holds.
  An edge whose target index is outside [0, 20000) lands on no node, on both sides; an edge's SOURCE row is read
  at the clamped (and, when negative, wrapped) index, the same on both sides.
-/
import proofs.«120992_j5111011082634_2_alg».proof.Proof.Ref.Layers
import proofs.«120992_j5111011082634_2_alg».proof.Proof.KI.KTerms
import proofs.«120992_j5111011082634_2_alg».proof.Proof.LibERealSums
import proofs.«120992_j5111011082634_2_alg».proof.Proof.LibScatterRows
import proofs.«120992_j5111011082634_2_alg».proof.Proof.LibScatterHost
import proofs.«120992_j5111011082634_2_alg».proof.Proof.LibGatherVec
import Idealize.ShloMosaic.Lib.ValueIdx
import Idealize.ShloMosaic.Lib.Pipeline.Value

noncomputable section

namespace Cert.Alg

open Cert.ReferenceIdeal Cert.ReferenceIdeal.Gen Cert.ReferenceIdeal.Hand
open Idealize.ShloMosaic Idealize.ShloMosaic.ValueIdx
open Cert.KernelIdeal.HandValue (scaleRows khop)
open scoped BigOperators

/-- A scatter index column reads the edge-end vector. -/
theorem colIdx_apply (i : IVec S640000 32) (e : Fin 640000) : colIdx i (ix2 e (0 : Fin 1)) = i (ix1 e) := by
  unfold colIdx
  exact broadcastInDim_apply _ _ _ (ix2 e (0 : Fin 1)) (ix1 e) (fun ax => by
    match ax with
    | ⟨0, _⟩ => rfl)

/-- The row a gather reads for edge e: its index, wrapped when negative, read signed and clamped into [0, 19999]. -/
def gRow (i : IVec S640000 32) (e : Fin 640000) : Fin 20000 :=
  ⟨min (wrapIdx i (ix2 e (0 : Fin 1))).toInt.toNat (20000 - 1), by omega⟩

/-- An edge end that IS node v (read signed) gathers row v: it is not negative, so it is not wrapped, and it is
    in range, so it is not clamped. -/
theorem gRow_of_toInt (i : IVec S640000 32) (e : Fin 640000) (v : Fin 20000) (h : (i (ix1 e)).toInt = (v.val : ℤ)) :
    gRow i e = v := by
  have hw : wrapIdx i (ix2 e (0 : Fin 1)) = i (ix1 e) := by
    unfold wrapIdx
    refine (broadcastInDim_apply _ _ _ (ix2 e (0 : Fin 1)) (ix1 e) (fun ax => by
      match ax with
      | ⟨0, _⟩ => rfl)).trans ?_
    show Scalar.select (BitVec.ofBool ((i (ix1 e)).slt 0#32)) (i (ix1 e) + 20000#32) (i (ix1 e)) = i (ix1 e)
    have hs : (i (ix1 e)).slt 0#32 = false := by
      rw [BitVec.slt, h]
      simp
    rw [hs]
    exact select_zero _ _
  refine Fin.ext ?_
  show min (wrapIdx i (ix2 e (0 : Fin 1))).toInt.toNat (20000 - 1) = v.val
  rw [hw, h]
  have := v.isLt
  omega

/-! ## The dimension records, spelt out (so that the general lemmas apply by rewriting) -/

theorem gather64_lit : gather_S20000x64_S640000x1_S640000x64_1_0_n_n_0_1_164
    = ({ offsetDims := [1], collapsedSliceDims := [0], operandBatchingDims := [], startIndicesBatchingDims := [], startIndexMap := [0], indexVectorDim := 1, sliceSizes := ![1, 64], wf := gather_S20000x64_S640000x1_S640000x64_1_0_n_n_0_1_164.wf } : GatherDims ⟨2, ![20000, 64]⟩ ⟨2, ![640000, 1]⟩ ⟨2, ![640000, 64]⟩) := rfl

theorem gatherVec_lit : gather_S20000_S640000x1_S640000_n_0_n_n_0_1_1
    = ({ offsetDims := [], collapsedSliceDims := [0], operandBatchingDims := [], startIndicesBatchingDims := [], startIndexMap := [0], indexVectorDim := 1, sliceSizes := ![1], wf := gather_S20000_S640000x1_S640000_n_0_n_n_0_1_1.wf } : GatherDims ⟨1, ![20000]⟩ ⟨2, ![640000, 1]⟩ ⟨1, ![640000]⟩) := rfl

/-- The row gather of a 20000 × 64 array at an edge end reads, for edge e, the array's row `gRow i e`. -/
theorem rows64_apply (x : FVec Ideal S20000x64 .f32) (i : IVec S640000 32) (e : Fin 640000) (j : Fin 64) :
    rows64 x i (ix2 e j) = x (ix2 (gRow i e) j) := by
  unfold rows64
  rw [gather64_lit]
  exact Cert.ScatterRows.gather_rows_apply (by decide) _ x (wrapIdx i) e j

/-- The gather of a 20000-vector at an edge end reads, for edge e, the vector at `gRow i e`. -/
theorem gatherVec_apply (d : FVec Ideal S20000 .f32) (i : IVec S640000 32) (e : Fin 640000) :
    Host.gather gather_S20000_S640000x1_S640000_n_0_n_n_0_1_1 d (wrapIdx i) (ix1 e) = d (ix1 (gRow i e)) := by
  rw [gatherVec_lit]
  exact Cert.GatherVec.gather_vec_apply (by decide) _ d (wrapIdx i) e

/-- The zero array the sums start from reads zero. -/
theorem zeroNode_apply (v : Fin 20000) (j : Fin 64) :
    broadcastInDim S20000x64 ![] bcast_S_S20000x64 (constant (F := Ideal) S_ .f32 0x00000000#32) (ix2 v j) = 0 := by
  refine (broadcastInDim_apply _ _ _ (ix2 v j) ix0 (fun ax => ax.elim0)).trans ?_
  exact Ideal.ofBits_zero_f32

/-- Per-edge rows summed into nodes: row v of the result is the sum of the rows of the edges whose end (read signed)
    is v; an edge whose end is outside [0, 20000) is in no node's sum. -/
theorem sumAt64_apply (i : IVec S640000 32) (u : FVec Ideal S640000x64 .f32) (v : Fin 20000) (j : Fin 64) :
    sumAt64 i u (ix2 v j) = ∑ e : Fin 640000, if (i (ix1 e)).toInt = (v.val : ℤ) then u (ix2 e j) else 0 := by
  unfold sumAt64
  rw [Cert.ScatterHost.host_scatterAdd_rows_apply scatter_S20000x64_S640000x1_S640000x64_1_0_0_1 rfl rfl rfl rfl,
    zeroNode_apply, zero_add]
  refine Finset.sum_congr rfl fun e _ => ?_
  rw [colIdx_apply]

/-- Rows scaled by a vector: entry (n, j) is the vector's entry n times the array's entry (n, j). -/
theorem scaleRows_apply (d : FVec Ideal S20000 .f32) (x : FVec Ideal S20000x64 .f32) (n : Fin 20000) (j : Fin 64) :
    scaleRows d x (ix2 n j) = d (ix1 n) * x (ix2 n j) := by
  unfold scaleRows
  rw [mulf_apply]
  refine congrArg (fun s => s * _) ?_
  refine (broadcastInDim_apply _ _ _ (ix2 n j) (ix2 n (0 : Fin 1)) (fun ax => ?_)).trans
    (broadcastInDim_apply _ _ _ (ix2 n (0 : Fin 1)) (ix1 n) (fun ax => ?_))
  · match ax with
    | ⟨0, _⟩ => rfl
    | ⟨1, _⟩ => rfl
  · match ax with
    | ⟨0, _⟩ => rfl

/-- An edge's weight, read at edge e: the normalisation at its two gathered ends. -/
theorem normOf_apply (d : FVec Ideal S20000 .f32) (src dst : IVec S640000 32) (e : Fin 640000) :
    normOf d src dst (ix1 e) = d (ix1 (gRow src e)) * d (ix1 (gRow dst e)) := by
  unfold normOf
  rw [mulf_apply, gatherVec_apply, gatherVec_apply]

/-- The edge weights laid along 64 columns read the edge's weight. -/
theorem normCols_apply (w : FVec Ideal S640000 .f32) (e : Fin 640000) (j : Fin 64) :
    broadcastInDim S640000x64 ![0, 1] bcast_S640000x1_S640000x64_0_1 (broadcastInDim S640000x1 ![0] bcast_S640000_S640000x1_0 w) (ix2 e j)
      = w (ix1 e) := by
  refine (broadcastInDim_apply _ _ _ (ix2 e j) (ix2 e (0 : Fin 1)) (fun ax => ?_)).trans
    (broadcastInDim_apply _ _ _ (ix2 e (0 : Fin 1)) (ix1 e) (fun ax => ?_))
  · match ax with
    | ⟨0, _⟩ => rfl
    | ⟨1, _⟩ => rfl
  · match ax with
    | ⟨0, _⟩ => rfl

/-- THE PROPAGATION STEP, edge-weighted against node-scaled, for a normalisation whose entries are nonnegative reals. -/
theorem hop_eq (x : FVec Ideal S20000x64 .f32) (src dst : IVec S640000 32) (d : FVec Ideal S20000 .f32)
    (hd : ∀ v : Fin 20000, 0 ≤ d (ix1 v) ∧ d (ix1 v) ≠ ⊤) :
    hop x src dst (normOf d src dst) = khop d x src dst := by
  funext i
  obtain ⟨v, j, rfl⟩ : ∃ (v : Fin 20000) (j : Fin 64), i = ix2 v j := ⟨i 0, i 1, eq_ix2 i⟩
  unfold hop khop
  rw [sumAt64_apply, scaleRows_apply, sumAt64_apply]
  have key := Cert.ERealSums.hop_edge_eq_node (fun e : Fin 640000 => (dst (ix1 e)).toInt = (v.val : ℤ)) (d (ix1 v)) (hd v).1 (hd v).2
    (fun e => d (ix1 (gRow src e))) (fun e => d (ix1 (gRow dst e))) (fun e => x (ix2 (gRow src e) j))
    (fun e he => by rw [gRow_of_toInt dst e v he])
  refine Eq.trans (Finset.sum_congr rfl fun e _ => ?_) (key.trans (congrArg _ (Finset.sum_congr rfl fun e _ => ?_)))
  · refine if_congr Iff.rfl ?_ rfl
    rw [mulf_apply, normCols_apply, normOf_apply, rows64_apply]
  · refine if_congr Iff.rfl ?_ rfl
    rw [rows64_apply, scaleRows_apply]

/-! ## The normalisation's entries are nonnegative reals -/

/-- The constant vectors the normalisation compares with and falls back to. -/
theorem cvec_apply (b : BitVec 32) (v : Fin 20000) :
    broadcastInDim S20000 ![] bcast_S_S20000 (constant (F := Ideal) S_ .f32 b) (ix1 v) = Ideal.ofBits .f32 b :=
  broadcastInDim_apply _ _ _ (ix1 v) ix0 (fun ax => ax.elim0)

/-- Whatever the degrees, every entry of the normalisation is a nonnegative extended real other than +∞: where the
    degree is positive it is the reciprocal square root of a positive number, elsewhere it is zero. -/
theorem disOf_nonneg_ne_top (deg : FVec Ideal S20000 .f32) (v : Fin 20000) :
    0 ≤ disOf deg (ix1 v) ∧ disOf deg (ix1 v) ≠ ⊤ := by
  unfold disOf
  rw [select_apply, cmpf_apply, cvec_apply, Ideal.ofBits_zero_f32]
  show 0 ≤ Scalar.select (Ideal.cmp .ogt (deg (ix1 v)) 0) _ _ ∧ Scalar.select (Ideal.cmp .ogt (deg (ix1 v)) 0) _ _ ≠ ⊤
  by_cases hpos : (0 : EReal) < deg (ix1 v)
  · have hc : Ideal.cmp .ogt (deg (ix1 v)) 0 = 1#1 := by
      show BitVec.ofBool (decide ((0 : EReal) < deg (ix1 v))) = 1#1
      rw [decide_eq_true hpos]; rfl
    rw [hc, select_one]
    show 0 ≤ Ideal.rsqrt _ ∧ Ideal.rsqrt _ ≠ ⊤
    have harg : (select (cmpf (F := Ideal) .ogt deg (broadcastInDim S20000 ![] bcast_S_S20000 (constant (F := Ideal) S_ .f32 0x00000000#32)))
        deg (broadcastInDim S20000 ![] bcast_S_S20000 (constant (F := Ideal) S_ .f32 0x3F800000#32))) (ix1 v) = deg (ix1 v) := by
      rw [select_apply, cmpf_apply, cvec_apply, Ideal.ofBits_zero_f32]
      show Scalar.select (Ideal.cmp .ogt (deg (ix1 v)) 0) _ _ = _
      rw [hc, select_one]
    show 0 ≤ Ideal.rsqrt ((select _ deg _) (ix1 v)) ∧ Ideal.rsqrt ((select _ deg _) (ix1 v)) ≠ ⊤
    rw [harg]
    exact ⟨Cert.ERealSums.rsqrt_nonneg_of_pos hpos, Cert.ERealSums.rsqrt_ne_top_of_pos hpos⟩
  · have hc : Ideal.cmp .ogt (deg (ix1 v)) 0 = 0#1 := by
      show BitVec.ofBool (decide ((0 : EReal) < deg (ix1 v))) = 0#1
      rw [decide_eq_false hpos]; rfl
    rw [hc, select_zero]
    exact ⟨le_refl _, EReal.zero_ne_top⟩

end Cert.Alg

end
-- ==== Proof.AlgFinal.lean ====
/-
  The two programs compute the same network.

  Layer by layer the kernel program's result is the reference's: each edge layer is the sum-into-nodes of the same
  per-edge function, and each graph convolution is the same rectified sum of four products, once a propagation step
  with the edge weights (the product of the two ends' inverse-square-root degrees) is seen to be the kernel program's
  propagation step with the node weights applied before and after the sum. The latter needs the node weights to be
  nonnegative reals, which inverse square roots of positive degrees (and the zeros put where the degree is not
  positive) are. Stacking the seven layers, over the one graph and the one normalisation, the two results are equal.
-/
import proofs.«120992_j5111011082634_2_alg».proof.Proof.AlgLayers
import proofs.«120992_j5111011082634_2_alg».proof.Proof.AlgTagLayer
import proofs.«120992_j5111011082634_2_alg».proof.Proof.AlgHop
import proofs.«120992_j5111011082634_2_alg».proof.Proof.KI.KOut

noncomputable section

namespace Cert.Alg

open Cert.ReferenceIdeal Cert.ReferenceIdeal.Gen Cert.ReferenceIdeal.Hand
open Idealize.ShloMosaic Idealize.ShloMosaic.ValueIdx

/-! ## The graph convolution layer -/

/-- THE GRAPH CONVOLUTION LAYER with the edge weights formed from nonnegative real node weights `d`: the reference's
    rectified sum of four products is the kernel program's one product over the four propagated feature blocks. -/
theorem refTAG_eq (x : FVec Ideal S20000x64 .f32) (src dst : IVec S640000 32) (d : FVec Ideal S20000 .f32)
    (hd : ∀ v : Fin 20000, 0 ≤ d (ix1 v) ∧ d (ix1 v) ≠ ⊤) (Ws : FVec Ideal S4x64x64 .f32) (b : FVec Ideal S64 .f32) :
    refTAG x src dst (normOf d src dst) Ws b
      = Cert.KernelIdeal.HandValue.tagG (Cert.KernelIdeal.HandValue.tagFeat d x src dst) (Cert.KernelIdeal.HandValue.wcat Ws) (Cert.KernelIdeal.HandValue.row64 b) :=
  refTAG_eq_of_hop (normOf d src dst) d x src dst Ws b (fun y => hop_eq y src dst d hd)

/-! ## The kernel program's layers are the reference's -/

theorem kEA0_eq (x : FVec Ideal S20000x6 .f32) (src dst : IVec S640000 32) (ea : FVec Ideal S640000x5 .f32)
    (W1 : FVec Ideal S17x64 .f32) (b1 : FVec Ideal S64 .f32) (W2 : FVec Ideal S64x64 .f32) (b2 : FVec Ideal S64 .f32) :
    Cert.KernelIdeal.HandValue.kEA0 x src dst ea W1 b1 W2 b2 = refEA0 x src dst ea W1 b1 W2 b2 := by
  unfold Cert.KernelIdeal.HandValue.kEA0
  exact (refEA0_eq x src dst ea W1 b1 W2 b2).symm

theorem kEAmid_eq (x : FVec Ideal S20000x64 .f32) (src dst : IVec S640000 32) (ea : FVec Ideal S640000x5 .f32)
    (W1 : FVec Ideal S133x64 .f32) (b1 : FVec Ideal S64 .f32) (W2 : FVec Ideal S64x64 .f32) (b2 : FVec Ideal S64 .f32) :
    Cert.KernelIdeal.HandValue.kEAmid x src dst ea W1 b1 W2 b2 = refEAmid x src dst ea W1 b1 W2 b2 := by
  unfold Cert.KernelIdeal.HandValue.kEAmid
  exact (refEAmid_eq x src dst ea W1 b1 W2 b2).symm

theorem kEAlast_eq (x : FVec Ideal S20000x64 .f32) (src dst : IVec S640000 32) (ea : FVec Ideal S640000x5 .f32)
    (W1 : FVec Ideal S133x64 .f32) (b1 : FVec Ideal S64 .f32) (W2 : FVec Ideal S64x6 .f32) (b2 : FVec Ideal S6 .f32) :
    Cert.KernelIdeal.HandValue.kEAlast x src dst ea W1 b1 W2 b2 = refEAlast x src dst ea W1 b1 W2 b2 := by
  unfold Cert.KernelIdeal.HandValue.kEAlast
  exact (refEAlast_eq x src dst ea W1 b1 W2 b2).symm

theorem kTAG_eq (d : FVec Ideal S20000 .f32) (hd : ∀ v : Fin 20000, 0 ≤ d (ix1 v) ∧ d (ix1 v) ≠ ⊤)
    (x : FVec Ideal S20000x64 .f32) (src dst : IVec S640000 32) (Ws : FVec Ideal S4x64x64 .f32) (b : FVec Ideal S64 .f32) :
    Cert.KernelIdeal.HandValue.kTAG d x src dst Ws b = refTAG x src dst (normOf d src dst) Ws b := by
  unfold Cert.KernelIdeal.HandValue.kTAG
  exact (refTAG_eq x src dst d hd Ws b).symm

/-! ## The whole network -/

/-- THE KERNEL PROGRAM'S NETWORK IS THE REFERENCE'S: seven layers over one graph and one normalisation, each layer the
    same function of its inputs in both programs. The layers are rewritten as whole functions, outermost first; no
    array is ever written out. -/
theorem kerOut_eq_refOut (a0 : FVec Ideal S20000x16 .f32) (a1 : IVec S2x320000 32) (a2 : FVec Ideal S320000x5 .f32)
    (a3 : FVec Ideal S17x64 .f32) (a4 : FVec Ideal S64 .f32) (a5 : FVec Ideal S64x64 .f32) (a6 : FVec Ideal S64 .f32)
    (a7 : FVec Ideal S2x133x64 .f32) (a8 : FVec Ideal S2x64 .f32) (a9 : FVec Ideal S2x64x64 .f32) (a10 : FVec Ideal S2x64 .f32)
    (a11 : FVec Ideal S133x64 .f32) (a12 : FVec Ideal S64 .f32) (a13 : FVec Ideal S64x6 .f32) (a14 : FVec Ideal S6 .f32)
    (a15 : FVec Ideal S3x4x64x64 .f32) (a16 : FVec Ideal S3x64 .f32) :
    Cert.KernelIdeal.HandValue.kerOut a0 a1 a2 a3 a4 a5 a6 a7 a8 a9 a10 a11 a12 a13 a14 a15 a16 = refOut a0 a1 a2 a3 a4 a5 a6 a7 a8 a9 a10 a11 a12 a13 a14 a15 a16 := by
  unfold Cert.KernelIdeal.HandValue.kerOut refOut
  rw [kEAlast_eq,
    kTAG_eq _ (disOf_nonneg_ne_top (degOf (dstIdx a1))), kEAmid_eq,
    kTAG_eq _ (disOf_nonneg_ne_top (degOf (dstIdx a1))), kEAmid_eq,
    kTAG_eq _ (disOf_nonneg_ne_top (degOf (dstIdx a1))), kEA0_eq]

end Cert.Alg

end
-- ==== Proof.lean ====
/-
  A seven-layer graph network — four edge aggregations alternating with three graph convolutions — computed two ways.

  The kernel program runs the dense part of every layer in a pallas_call (the per-edge two-layer perceptron on 3200 edges
  at a time; the convolution's matrix product on 2000 nodes at a time) and leaves the gathers at the edges' ends and the
  sums into the nodes to the host. It differs from the reference in three places, and at the ideal instance each is an
  identity of finite sums of extended reals:
  * the perceptron reads an edge's three inputs separately and multiplies each by its own block of the first weight
    matrix's rows, where the reference multiplies their concatenation by the whole matrix: a sum over 2·D + 5 columns is
    the sum of its three stretches;
  * a propagation step scales the node rows by the normalisation d before they are gathered and again after they are
    summed, where the reference weights every edge by the product of d at its two ends: d v is a nonnegative REAL (zero,
    or the reciprocal square root of a positive degree), and a nonnegative real distributes over a finite sum of extended
    reals whatever infinities the sum holds; an edge that lands on node v reads its target-side factor at v itself;
  * the convolution multiplies the features and their three propagations, laid side by side, by the four weights
    stacked, where the reference adds up four products.
  Nothing here needs the inputs to be finite: the precondition is not opened.
  The three programs run to the end, fault nowhere and leave their arguments unchanged: for the two kernel programs this
  is proved region by region (each pallas_call's body at a generic grid point, its blocks tiling its output array) and
  host stretch by host stretch; for the reference it is its straight-line run.
-/
import proofs.«120992_j5111011082634_2_alg».proof.Defs
import proofs.«120992_j5111011082634_2_alg».proof.Proof.Gen.Kernel
import proofs.«120992_j5111011082634_2_alg».proof.Proof.Gen.KernelIdeal
import proofs.«120992_j5111011082634_2_alg».proof.Proof.Gen.ReferenceIdeal
import proofs.«120992_j5111011082634_2_alg».proof.Proof.Gen.Pre_finite_inputs
import proofs.«120992_j5111011082634_2_alg».proof.Proof.K.Run
import proofs.«120992_j5111011082634_2_alg».proof.Proof.KI.Run
import proofs.«120992_j5111011082634_2_alg».proof.Proof.KI.Chain
import proofs.«120992_j5111011082634_2_alg».proof.Proof.Ref.Run
import proofs.«120992_j5111011082634_2_alg».proof.Proof.AlgFinal
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- So does the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- From memories that agree on the arguments both idealized programs end with the network's value of those arguments:
    the kernel program's run read back region by region, the reference's operation by operation, and the two values one
    function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandValue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.HandValue.kernel_value m ρ c), (h c).2⟩)
      (Cert.KernelIdeal.Hand.run_main m ρ)
  · refine (θ_run Cert.ReferenceIdeal.defs _ _).mono (fun r h c => ⟨(h c).1.trans ?_, (h c).2⟩)
      (Cert.ReferenceIdeal.Hand.run m' ρ')
    rw [(hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2]
    exact (Cert.Alg.kerOut_eq_refOut _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
